-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_v1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4x8192 : Shape := ⟨2, ![4, 8192]⟩
abbrev S8192x128 : Shape := ⟨2, ![8192, 128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S4x8192 : S_.BroadcastsInDim S4x8192 (![] : Fin 0 → Fin S4x8192.rank)
  reducesTo_S4x8192_S_d0_1 : S4x8192.ReducesTo [0, 1] S_

variable [Facts]

def fn {F : FTy → Type} [FloatOps F] (main_arg0 : IVec S4x8192 32) (main_arg1 : FVec F S8192x128 .f32) (main_arg2 : FVec F S8192x128 .f32) : IVec S_ 1 :=
  let main_v0 : FVec F S8192x128 .f32 := Host.absf main_arg1
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x128 .f32 := Host.absf main_arg2
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  let main_c_2 : IVec S_ 32 := constantI S_ 32 0#32
  let main_v9 : IVec S4x8192 32 := broadcastInDim S4x8192 ![] bcast_S_S4x8192 main_c_2
  let main_v10 : IVec S4x8192 1 := cmpi .sge main_arg0 main_v9
  let main_c_3 : IVec S_ 32 := constantI S_ 32 8191#32
  let main_v11 : IVec S4x8192 32 := broadcastInDim S4x8192 ![] bcast_S_S4x8192 main_c_3
  let main_v12 : IVec S4x8192 1 := cmpi .sle main_arg0 main_v11
  let main_v13 : IVec S4x8192 1 := andi main_v10 main_v12
  let main_c_4 : IVec S_ 1 := constantI S_ 1 1#1
  let main_v14 : IVec S_ 1 := (fun x v => Host.reduce IntOp.andi x v reducesTo_S4x8192_S_d0_1 h_S_) main_v13 main_c_4
  let main_v15 : IVec S_ 1 := andi main_v8 main_v14
  main_v15
-- ==== Kernel.lean ====
abbrev S4x8192 : Shape := ⟨2, ![4, 8192]⟩
abbrev S8192x128 : Shape := ⟨2, ![8192, 128]⟩
abbrev S32768x128 : Shape := ⟨2, ![32768, 128]⟩
abbrev S1024 : Shape := ⟨1, ![1024]⟩
abbrev S7x128x128 : Shape := ⟨3, ![7, 128, 128]⟩
abbrev S7 : Shape := ⟨1, ![7]⟩
abbrev S_ : Shape := ⟨0, ![]⟩
abbrev S1x1024 : Shape := ⟨2, ![1, 1024]⟩
abbrev S1x128x128 : Shape := ⟨3, ![1, 128, 128]⟩
abbrev S128x128 : Shape := ⟨2, ![128, 128]⟩
abbrev S128 : Shape := ⟨1, ![128]⟩
abbrev S1 : Shape := ⟨1, ![1]⟩
abbrev S4x8192x128 : Shape := ⟨3, ![4, 8192, 128]⟩

abbrev nBuf : Table → Nat
  | .hbm => 7
  | .local .scVector .vmem => 2
  | _ => 0

abbrev bufTy : (tb : Table) → Fin (nBuf tb) → BufTy
  | .hbm, ⟨0, _⟩ => ⟨S4x8192, .i32⟩
  | .hbm, ⟨1, _⟩ => ⟨S8192x128, .f32⟩
  | .hbm, ⟨2, _⟩ => ⟨S8192x128, .f32⟩
  | .hbm, ⟨3, _⟩ => ⟨S32768x128, .f32⟩
  | .hbm, ⟨4, _⟩ => ⟨S32768x128, .f32⟩
  | .hbm, ⟨5, _⟩ => ⟨S4x8192x128, .f32⟩
  | .hbm, ⟨6, _⟩ => ⟨S4x8192x128, .f32⟩
  | .local .scVector .vmem, ⟨0, _⟩ => ⟨S1024, .i32⟩
  | .local .scVector .vmem, ⟨1, _⟩ => ⟨S7x128x128, .f32⟩
  | _, _ => ⟨S4x8192, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 15 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | _ => false

abbrev sig : RefSig :=
  ofTables nBuf rfl bufTy 4 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev main_v2 : Ref sig .tc := ⟨.hbm, 6, rfl⟩
abbrev main_arg1_scv : Ref sig .scVector := ⟨.hbm, 1, rfl⟩
abbrev main_arg2_scv : Ref sig .scVector := ⟨.hbm, 2, rfl⟩
abbrev main_arg0_scv : Ref sig .scVector := ⟨.hbm, 0, rfl⟩
abbrev main_v0_0_scv : Ref sig .scVector := ⟨.hbm, 3, rfl⟩
abbrev main_v0_1_scv : Ref sig .scVector := ⟨.hbm, 4, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  ![v18.toNat, v29.toNat]
def k0_off2 (i : grid0.Coords) (c0_i32_60 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_59 : BitVec 32 := 8#32
  let v78 : BitVec 32 := Scalar.muli v1 c8_i32_59
  let v79 : BitVec 32 := Scalar.addi v78 c0_i32_60
  let c128_i32_61 : BitVec 32 := 128#32
  let v80 : BitVec 32 := Scalar.muli v79 c128_i32_61
  let c0_i32_66 : BitVec 32 := 0#32
  ![v80.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  squeezes_S1x1024_S1024 : S1x1024.Squeezes S1024
  inb_S7x128x128_S1x128x128_0_0_0 : ∀ a, (![0, 0, 0] : Fin 3 → Nat) a + S1x128x128.size a ≤ S7x128x128.size a
  squeezes_S1x128x128_S128x128 : S1x128x128.Squeezes S128x128
  inb_S1024_S128_0 : ∀ a, (![0] : Fin 1 → Nat) a + S128.size a ≤ S1024.size a
  inb_S8192x128_S8192x128_0_0 : ∀ a, (![0, 0] : Fin 2 → Nat) a + S8192x128.size a ≤ S8192x128.size a
  inb_S7_S1_0 : ∀ a, (![0] : Fin 1 → Nat) a + S1.size a ≤ S7.size a
  squeezes_S1_S_ : S1.Squeezes S_
  gathers_S8192x128_S128x128 : S8192x128.Gathers 0 S128x128
  inb_S7x128x128_S1x128x128_1_0_0 : ∀ a, (![1, 0, 0] : Fin 3 → Nat) a + S1x128x128.size a ≤ S7x128x128.size a
  inb_S7_S1_1 : ∀ a, (![1] : Fin 1 → Nat) a + S1.size a ≤ S7.size a
  inb_S7x128x128_S1x128x128_2_0_0 : ∀ a, (![2, 0, 0] : Fin 3 → Nat) a + S1x128x128.size a ≤ S7x128x128.size a
  inb_S1024_S128_128 : ∀ a, (![128] : Fin 1 → Nat) a + S128.size a ≤ S1024.size a
  inb_S7_S1_2 : ∀ a, (![2] : Fin 1 → Nat) a + S1.size a ≤ S7.size a
  inb_S7x128x128_S1x128x128_3_0_0 : ∀ a, (![3, 0, 0] : Fin 3 → Nat) a + S1x128x128.size a ≤ S7x128x128.size a
  inb_S7_S1_3 : ∀ a, (![3] : Fin 1 → Nat) a + S1.size a ≤ S7.size a
  inb_S7x128x128_S1x128x128_4_0_0 : ∀ a, (![4, 0, 0] : Fin 3 → Nat) a + S1x128x128.size a ≤ S7x128x128.size a
  inb_S1024_S128_256 : ∀ a, (![256] : Fin 1 → Nat) a + S128.size a ≤ S1024.size a
  inb_S7_S1_4 : ∀ a, (![4] : Fin 1 → Nat) a + S1.size a ≤ S7.size a
  inb_S7x128x128_S1x128x128_5_0_0 : ∀ a, (![5, 0, 0] : Fin 3 → Nat) a + S1x128x128.size a ≤ S7x128x128.size a
  inb_S7_S1_5 : ∀ a, (![5] : Fin 1 → Nat) a + S1.size a ≤ S7.size a
  inb_S7x128x128_S1x128x128_6_0_0 : ∀ a, (![6, 0, 0] : Fin 3 → Nat) a + S1x128x128.size a ≤ S7x128x128.size a
  inb_S1024_S128_384 : ∀ a, (![384] : Fin 1 → Nat) a + S128.size a ≤ S1024.size a
  inb_S7_S1_6 : ∀ a, (![6] : Fin 1 → Nat) a + S1.size a ≤ S7.size a
  inb_S1024_S128_512 : ∀ a, (![512] : Fin 1 → Nat) a + S128.size a ≤ S1024.size a
  inb_S1024_S128_640 : ∀ a, (![640] : Fin 1 → Nat) a + S128.size a ≤ S1024.size a
  inb_S1024_S128_768 : ∀ a, (![768] : Fin 1 → Nat) a + S128.size a ≤ S1024.size a
  inb_S1024_S128_896 : ∀ a, (![896] : Fin 1 → Nat) a + S128.size a ≤ S1024.size a
  shapeCasts_S32768x128_S4x8192x128 : S32768x128.ShapeCasts S4x8192x128
  hcc0_scratch2 : 0 + S7.numel ≤ 15
  hcc0_scratch3 : 7 + S7.numel ≤ 15
  hcc0_scoped0 : 14 + S_.numel ≤ 15
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S1x1024.size a ≤ S4x8192.size a
  k0_off2_inb : ∀ i : grid0.Coords, ∀ (r : Fin 8), ∀ a, (k0_off2 i (BitVec.ofNat 32 r.val)) a + S128x128.size a ≤ S32768x128.size a

variable [Facts₀]

abbrev cc0_scratch2 : DmaSems sig S7 := SemArray.consecutive 0 S7 hcc0_scratch2
abbrev cc0_scratch3 : DmaSems sig S7 := SemArray.consecutive 7 S7 hcc0_scratch3
abbrev cc0_scoped0 : DmaSems sig S_ := SemArray.consecutive 14 S_ hcc0_scoped0

class Facts : Prop extends Facts₀ where

variable [Facts]
-- ==== ReferenceIdeal.lean ====
abbrev S4x8192 : Shape := ⟨2, ![4, 8192]⟩
abbrev S8192x128 : Shape := ⟨2, ![8192, 128]⟩
abbrev S_ : Shape := ⟨0, ![]⟩
abbrev S4x8192x1 : Shape := ⟨3, ![4, 8192, 1]⟩
abbrev S1 : Shape := ⟨1, ![1]⟩
abbrev S1x1x1 : Shape := ⟨3, ![1, 1, 1]⟩
abbrev S4x8192x128 : Shape := ⟨3, ![4, 8192, 128]⟩

abbrev nBuf : Space → Nat
  | .hbm => 49
  | .vmem => 0
  | .smem => 0
  | _ => 0

abbrev bufTy : (tb : Table) → Fin (tcTables nBuf tb) → BufTy
  | .hbm, ⟨0, _⟩ => ⟨S4x8192, .i32⟩
  | .hbm, ⟨1, _⟩ => ⟨S8192x128, .f32⟩
  | .hbm, ⟨2, _⟩ => ⟨S8192x128, .f32⟩
  | .hbm, ⟨3, _⟩ => ⟨S_, .i32⟩
  | .hbm, ⟨4, _⟩ => ⟨S4x8192, .i32⟩
  | .hbm, ⟨5, _⟩ => ⟨S4x8192, .i1⟩
  | .hbm, ⟨6, _⟩ => ⟨S_, .i32⟩
  | .hbm, ⟨7, _⟩ => ⟨S4x8192, .i32⟩
  | .hbm, ⟨8, _⟩ => ⟨S4x8192, .i32⟩
  | .hbm, ⟨9, _⟩ => ⟨S4x8192, .i32⟩
  | .hbm, ⟨10, _⟩ => ⟨S4x8192x1, .i32⟩
  | .hbm, ⟨11, _⟩ => ⟨S1, .i32⟩
  | .hbm, ⟨12, _⟩ => ⟨S_, .i32⟩
  | .hbm, ⟨13, _⟩ => ⟨S4x8192x1, .i32⟩
  | .hbm, ⟨14, _⟩ => ⟨S4x8192x1, .i1⟩
  | .hbm, ⟨15, _⟩ => ⟨S1x1x1, .i32⟩
  | .hbm, ⟨16, _⟩ => ⟨S4x8192x1, .i32⟩
  | .hbm, ⟨17, _⟩ => ⟨S4x8192x1, .i1⟩
  | .hbm, ⟨18, _⟩ => ⟨S4x8192x1, .i1⟩
  | .hbm, ⟨19, _⟩ => ⟨S_, .i1⟩
  | .hbm, ⟨20, _⟩ => ⟨S4x8192, .i1⟩
  | .hbm, ⟨21, _⟩ => ⟨S4x8192x128, .f32⟩
  | .hbm, ⟨22, _⟩ => ⟨S4x8192x128, .i1⟩
  | .hbm, ⟨23, _⟩ => ⟨S_, .f32⟩
  | .hbm, ⟨24, _⟩ => ⟨S4x8192x128, .f32⟩
  | .hbm, ⟨25, _⟩ => ⟨S4x8192x128, .f32⟩
  | .hbm, ⟨26, _⟩ => ⟨S_, .i32⟩
  | .hbm, ⟨27, _⟩ => ⟨S4x8192, .i32⟩
  | .hbm, ⟨28, _⟩ => ⟨S4x8192, .i1⟩
  | .hbm, ⟨29, _⟩ => ⟨S_, .i32⟩
  | .hbm, ⟨30, _⟩ => ⟨S4x8192, .i32⟩
  | .hbm, ⟨31, _⟩ => ⟨S4x8192, .i32⟩
  | .hbm, ⟨32, _⟩ => ⟨S4x8192, .i32⟩
  | .hbm, ⟨33, _⟩ => ⟨S4x8192x1, .i32⟩
  | .hbm, ⟨34, _⟩ => ⟨S1, .i32⟩
  | .hbm, ⟨35, _⟩ => ⟨S_, .i32⟩
  | .hbm, ⟨36, _⟩ => ⟨S4x8192x1, .i32⟩
  | .hbm, ⟨37, _⟩ => ⟨S4x8192x1, .i1⟩
  | .hbm, ⟨38, _⟩ => ⟨S1x1x1, .i32⟩
  | .hbm, ⟨39, _⟩ => ⟨S4x8192x1, .i32⟩
  | .hbm, ⟨40, _⟩ => ⟨S4x8192x1, .i1⟩
  | .hbm, ⟨41, _⟩ => ⟨S4x8192x1, .i1⟩
  | .hbm, ⟨42, _⟩ => ⟨S_, .i1⟩
  | .hbm, ⟨43, _⟩ => ⟨S4x8192, .i1⟩
  | .hbm, ⟨44, _⟩ => ⟨S4x8192x128, .f32⟩
  | .hbm, ⟨45, _⟩ => ⟨S4x8192x128, .i1⟩
  | .hbm, ⟨46, _⟩ => ⟨S_, .f32⟩
  | .hbm, ⟨47, _⟩ => ⟨S4x8192x128, .f32⟩
  | .hbm, ⟨48, _⟩ => ⟨S4x8192x128, .f32⟩
  | _, _ => ⟨S4x8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v0 : Ref sig .tc := ⟨.hbm, 25, rfl⟩
abbrev main_call1_c : Ref sig .tc := ⟨.hbm, 26, rfl⟩
abbrev main_call1_v0 : Ref sig .tc := ⟨.hbm, 27, rfl⟩
abbrev main_call1_v1 : Ref sig .tc := ⟨.hbm, 28, rfl⟩
abbrev main_call1_c_0 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_c_1 : Ref sig .tc := ⟨.hbm, 34, rfl⟩
abbrev main_call1_c_2 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_3 : Ref sig .tc := ⟨.hbm, 42, rfl⟩
abbrev main_call1_v12 : Ref sig .tc := ⟨.hbm, 43, rfl⟩
abbrev main_call1_v13 : Ref sig .tc := ⟨.hbm, 44, rfl⟩
abbrev main_call1_v14 : Ref sig .tc := ⟨.hbm, 45, rfl⟩
abbrev main_call1_cst : Ref sig .tc := ⟨.hbm, 46, rfl⟩
abbrev main_call1_v15 : Ref sig .tc := ⟨.hbm, 47, rfl⟩
abbrev main_v1 : Ref sig .tc := ⟨.hbm, 48, rfl⟩

abbrev nD : Nat := 1
abbrev τ : Topo := Topo.v7x

variable {F : FTy → Type} [FloatOps F]

class Facts₀ : Prop where
  bcast_S_S4x8192 : S_.BroadcastsInDim S4x8192 (![] : Fin 0 → Fin S4x8192.rank)
  bcast_S4x8192_S4x8192x1_0_1 : S4x8192.BroadcastsInDim S4x8192x1 (![0, 1] : Fin 2 → Fin S4x8192x1.rank)
  bcast_S_S4x8192x1 : S_.BroadcastsInDim S4x8192x1 (![] : Fin 0 → Fin S4x8192x1.rank)
  bcast_S1_S1x1x1_2 : S1.BroadcastsInDim S1x1x1 (![2] : Fin 1 → Fin S1x1x1.rank)
  bcast_S1x1x1_S4x8192x1_0_1_2 : S1x1x1.BroadcastsInDim S4x8192x1 (![0, 1, 2] : Fin 3 → Fin S4x8192x1.rank)
  reducesTo_S4x8192x1_S4x8192_d2 : S4x8192x1.ReducesTo [2] S4x8192
  h_S_ : 0 < S_.numel
  bcast_S4x8192_S4x8192x128_0_1 : S4x8192.BroadcastsInDim S4x8192x128 (![0, 1] : Fin 2 → Fin S4x8192x128.rank)
  bcast_S_S4x8192x128 : S_.BroadcastsInDim S4x8192x128 (![] : Fin 0 → Fin S4x8192x128.rank)
  gather_S8192x128_S4x8192x1_S4x8192x128_2_0_n_n_0_2_1128_wf : GatherDims.WF S8192x128 S4x8192x1 S4x8192x128 [2] [0] [] [0] [] 2 ![1, 128]

variable [Facts₀]

def gather_S8192x128_S4x8192x1_S4x8192x128_2_0_n_n_0_2_1128 : GatherDims S8192x128 S4x8192x1 S4x8192x128 where
  offsetDims := [2]
  collapsedSliceDims := [0]
  operandBatchingDims := []
  startIndicesBatchingDims := []
  startIndexMap := [0]
  indexVectorDim := 2
  sliceSizes := ![1, 128]
  wf := gather_S8192x128_S4x8192x1_S4x8192x128_2_0_n_n_0_2_1128_wf

class Facts : Prop extends Facts₀ where

variable [Facts]
-- ==== Proof.PreRange.lean ====
/-
  What the precondition says of the positions.

  The precondition is a conjunction of three tests, each reduced by `and` over a whole array: every entry of the cosine
  table finite, every entry of the sine table finite, and every position `p` with `0 ≤ p` and `p ≤ 8191` as signed
  32-bit numbers.  When it holds the third test is 1 at every position, and a word that is between 0 and 8191 as a
  signed number is below 8192 as a natural number.
-/
import proofs.«202526_g11321533792333_week1_w4_118_29_alg».proof.Pre_input_domain
import Idealize.ShloMosaic.Lib.ReduceAll
import Idealize.ShloMosaic.Lib.ValueIdx

namespace Cert.PreRange

open Idealize.ShloMosaic Idealize.ShloMosaic.ValueIdx

/-- A rank-0 array has one index. -/
instance : Subsingleton Cert.Pre_input_domain.S_.Idx := ⟨fun a b => funext fun d => d.elim0⟩

/-- A 32-bit word `v` with `0 ≤ v` and `v ≤ 8191`, both comparisons signed, is below 8192 as a natural number: a
    non-negative signed word is its own unsigned value. -/
theorem word_lt_of_cmp (v : BitVec 32)
    (e : IntOp.andi (IntOp.cmpi .sge v 0#32) (IntOp.cmpi .sle v 8191#32) = 1#1) : v.toNat < 8192 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

/-- Under the precondition every position word is below 8192.  The precondition's value is the `and` of three
    reductions; the last one reduces, over all positions, the test `0 ≤ p ∧ p ≤ 8191`; a reduction by `and` that is 1
    met a 1 at every position; and the test at a position is the word fact above.  The tables play no part, so the
    statement holds for any reading of the floats. -/
theorem pos_lt_of_pre {F : FTy → Type} [FloatOps F] [Cert.Pre_input_domain.Facts]
    (a0 : IVec Cert.Pre_input_domain.S4x8192 32) (a1 a2 : FVec F Cert.Pre_input_domain.S8192x128 .f32)
    (h : Cert.Pre_input_domain.fn (F := F) a0 a1 a2 = fun _ => 1#1) : ∀ x, (a0 x).toNat < 8192 := by
  intro x
  have e := congrFun h ix0
  dsimp only [Cert.Pre_input_domain.fn] at e
  have e3 := (IntOp.andi_eq_one.1 e).2
  have e4 := Host.reduce_andi_all _ _ _ _ _ e3 x
  exact word_lt_of_cmp _ e4

end Cert.PreRange
-- ==== Proof.Spec.lean ====
/-
  The function both programs compute.  A position word names a row of a table of 8192 rows;
  the result holds, at batch `b`, position `s` and column `c`, the table's entry at the row named by
  `pos[b, s]` and column `c`.  The same lookup is applied to the cosine table and to the sine table.
-/
import Idealize.ShloMosaic.Lib.ValueIdx

namespace Cert.Spec

open Idealize.ShloMosaic Idealize.ShloMosaic.ValueIdx

/-- The row of an 8192-row table that a 32-bit position word names (a word below 8192 names itself). -/
def row (w : BitVec 32) : Fin 8192 := ⟨w.toNat % 8192, Nat.mod_lt _ (by decide)⟩

theorem row_val_of_lt {w : BitVec 32} (h : w.toNat < 8192) : (row w).val = w.toNat := Nat.mod_eq_of_lt h

/-- The lookup: entry `(b, s, c)` of the result is entry `(pos[b, s], c)` of the table. -/
def take {α : Type} (tbl : (⟨2, ![8192, 128]⟩ : Shape).Idx → α) (pos : (⟨2, ![4, 8192]⟩ : Shape).Idx → BitVec 32) :
    (⟨3, ![4, 8192, 128]⟩ : Shape).Idx → α :=
  fun j => tbl (ix2 (n0 := 8192) (n1 := 128) (row (pos (ix2 (n0 := 4) (n1 := 8192) (j 0) (j 1)))) (j 2))

theorem take_apply {α : Type} (tbl : (⟨2, ![8192, 128]⟩ : Shape).Idx → α) (pos : (⟨2, ![4, 8192]⟩ : Shape).Idx → BitVec 32)
    (b : Fin 4) (s : Fin 8192) (c : Fin 128) :
    take tbl pos (ix3 b s c) = tbl (ix2 (row (pos (ix2 b s))) c) := rfl

/-- The same lookup over the result laid out flat, 32768 rows of 128 columns: row `p` is the table's row named by
    the position word at batch `p / 8192`, position `p % 8192`. -/
def takeFlat {α : Type} (tbl : (⟨2, ![8192, 128]⟩ : Shape).Idx → α) (pos : (⟨2, ![4, 8192]⟩ : Shape).Idx → BitVec 32) :
    (⟨2, ![32768, 128]⟩ : Shape).Idx → α :=
  fun x => tbl (ix2 (n0 := 8192) (n1 := 128)
    (row (pos (ix2 (n0 := 4) (n1 := 8192)
      ⟨(x 0).val / 8192, Nat.div_lt_of_lt_mul (x 0).isLt⟩ ⟨(x 0).val % 8192, Nat.mod_lt _ (by decide)⟩))) (x 1))

end Cert.Spec
-- ==== Proof.LibPairGather.lean ====
/-
  Picking rows of a table through a two-level array of row numbers.

  A table `x : [N, C]` gathered at start indices `idx : [E, P, 1]` gives `[E, P, C]`: entry `(e, p, c)` is the
  table's row named by `idx (e, p, 0)` — read as a signed integer and clamped into `[0, N − 1]` — at column `c`.
  This is what `x[idx]` lowers to for an integer array `idx : [E, P]`.
-/
import Idealize.ShloMosaic.PureOps.Ideal
import Idealize.ShloMosaic.Lib.ValueIdx

noncomputable section

namespace Cert.LibPairGather

open Idealize.ShloMosaic Idealize.ShloMosaic.ValueIdx

/-- The dimension numbers of that gather: operand `[N, C]`, start indices `[E, P, 1]`, result `[E, P, C]`. -/
abbrev pairGatherDims (N C E P : Nat)
    (wf : GatherDims.WF ⟨2, ![N, C]⟩ ⟨3, ![E, P, 1]⟩ ⟨3, ![E, P, C]⟩ [2] [0] [] [0] [] 2 ![1, C]) :
    GatherDims ⟨2, ![N, C]⟩ ⟨3, ![E, P, 1]⟩ ⟨3, ![E, P, C]⟩ where
  offsetDims := [2]
  collapsedSliceDims := [0]
  operandBatchingDims := []
  startIndicesBatchingDims := []
  startIndexMap := [0]
  indexVectorDim := 2
  sliceSizes := ![1, C]
  wf := wf

/-- The row a start index names: read signed, clamped into `[0, N − 1]`. -/
def rowAt {E P w : Nat} (N : Nat) (hN : 0 < N) (idx : IVec ⟨3, ![E, P, 1]⟩ w) (e : Fin E) (p : Fin P) : Fin N :=
  ⟨min (idx (ix3 e p (0 : Fin 1))).toInt.toNat (N - 1), by omega⟩

/-- The gather read at `(e, p, c)`: the table at `(rowAt e p, c)`. -/
theorem pairGather_apply {α : Type} {N C E P w : Nat} (hN : 0 < N)
    (wf : GatherDims.WF ⟨2, ![N, C]⟩ ⟨3, ![E, P, 1]⟩ ⟨3, ![E, P, C]⟩ [2] [0] [] [0] [] 2 ![1, C])
    (x : (⟨2, ![N, C]⟩ : Shape).Idx → α) (idx : IVec ⟨3, ![E, P, 1]⟩ w) (e : Fin E) (p : Fin P) (c : Fin C) :
    Host.gather (pairGatherDims N C E P wf) x idx (ix3 e p c) = x (ix2 (rowAt N hN idx e p) c) := by
  unfold Host.gather
  congr 1
  funext a
  refine Fin.ext ?_
  match a with
  | ⟨0, _⟩ =>
    show (pairGatherDims N C E P wf).start (ix3 e p c) idx 0 + (pairGatherDims N C E P wf).batchCoord (ix3 e p c) 0
      + (pairGatherDims N C E P wf).offCoord (ix3 e p c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (pairGatherDims N C E P wf).startIndexMap from List.mem_singleton.mpr rfl)]
    have hsi : (pairGatherDims N C E P wf).siIdx (ix3 e p c) ⟨List.idxOf (0 : Fin 2) (pairGatherDims N C E P wf).startIndexMap,
        List.idxOf_lt_length_iff.2 (List.mem_singleton.mpr rfl)⟩ = ix3 e p (0 : Fin 1) := by
      funext b; refine Fin.ext ?_
      match b with
      | ⟨0, _⟩ => rfl
      | ⟨1, _⟩ => rfl
      | ⟨2, _⟩ => rfl
    rw [hsi]
    rfl
  | ⟨1, _⟩ =>
    show (pairGatherDims N C E P wf).start (ix3 e p c) idx 1 + (pairGatherDims N C E P wf).batchCoord (ix3 e p c) 1
      + (pairGatherDims N C E P wf).offCoord (ix3 e p c) 1 = c.val
    rw [GatherDims.batchCoord_eq_zero _ _ _ List.not_mem_nil]
    have hs : (pairGatherDims N C E P wf).start (ix3 e p c) idx 1 = 0 := by
      unfold GatherDims.start
      rw [dif_neg (show (1 : Fin 2) ∉ (pairGatherDims N C E P wf).startIndexMap from by
        show (1 : Fin 2) ∉ ([0] : List (Fin 2)); decide)]
    have ho : (pairGatherDims N C E P wf).offCoord (ix3 e p c) 1 = c.val := by
      unfold GatherDims.offCoord
      rw [dif_pos (show (1 : Fin 2) ∈ (pairGatherDims N C E P wf).sKept from
        (GatherDims.mem_sKept _ _).mpr ⟨by show (1 : Fin 2) ∉ ([0] : List (Fin 2)); decide, List.not_mem_nil⟩)]
      rfl
    rw [hs, ho]; omega

end Cert.LibPairGather

end
-- ==== Proof.LibMask.lean ====
/-
  One-bit masks that are everywhere 1.  A reduction by `and` from the constant 1 over an array of ones is 1 at every
  result index (the converse of reading `jnp.all` back), a select under a mask that is everywhere 1 is its first branch,
  and a signed 32-bit row number that already lies in `[0, n)` passes jnp's fill-mode bounds test unchanged: its
  negative-index wrap `select (w < 0) (w + n) w` is `w` itself, which is `≥ 0` and `≤ n - 1`.
-/
import Idealize.ShloMosaic.Lib.ReduceAll
import Idealize.ShloMosaic.Lib.ValueIdx

namespace Cert.Lib.Mask

open Idealize.ShloMosaic

/-- A left fold by `and` over one-bit words that starts at 1 and meets only 1s ends at 1. -/
theorem foldl_andi_one {ι : Type} (f : ι → BitVec 1) :
    ∀ (l : List ι) (init : BitVec 1), init = 1#1 → (∀ n ∈ l, f n = 1#1) → l.foldl (fun r n => IntOp.andi r (f n)) init = 1#1
  | [], _, h, _ => h
  | a :: l, _, h, hl =>
    foldl_andi_one f l _ (IntOp.andi_eq_one.2 ⟨h, hl a List.mem_cons_self⟩) (fun n hn => hl n (List.mem_cons_of_mem _ hn))

/-- A `stablehlo.reduce` by `and`, from an initial value that is 1, of an array of ones is 1 at every result index. -/
theorem reduce_andi_one {s t u : Shape} {axes : List (Fin s.rank)} (x : s.Idx → BitVec 1) (init : u.Idx → BitVec 1)
    (h : s.ReducesTo axes t) (hu : 0 < u.numel) (hi : ∀ k, init k = 1#1) (hx : ∀ i, x i = 1#1) (j : t.Idx) :
    Host.reduce IntOp.andi x init h hu j = 1#1 := by
  rw [Host.reduce_eq_foldl]
  exact foldl_andi_one x _ _ (hi _) (fun n _ => hx n)

/-- A select whose mask is 1 at every index is its first branch. -/
theorem select_of_all_one {s : Shape} {α : Type} (c : IVec s 1) (a b : s.Idx → α) (hc : ∀ i, c i = 1#1) : select c a b = a :=
  funext fun i => by rw [ValueIdx.select_apply, hc i]; exact ValueIdx.select_one _ _

/-- A row number `w` with `0 ≤ w < n` (signed, `n` below 2³¹) is its own negative-index wrap, and the wrap passes the
    bounds test `0 ≤ · ≤ n - 1`. -/
theorem wrap_in_range (w : BitVec 32) (n : Nat) (hn : n < 2 ^ 31) (h0 : 0 ≤ w.toInt) (h1 : w.toInt < n) :
    IntOp.andi
      (IntOp.cmpi .sge (Scalar.select (IntOp.cmpi .slt w 0#32) (IntOp.addi w (BitVec.ofNat 32 n)) w) 0#32)
      (IntOp.cmpi .sle (Scalar.select (IntOp.cmpi .slt w 0#32) (IntOp.addi w (BitVec.ofNat 32 n)) w) (BitVec.ofNat 32 (n - 1))) = 1#1 := by
  have hlt : IntOp.cmpi .slt w 0#32 = 0#1 :=
    ValueIdx.eq_zero_of_ne_one fun h => by
      have := IntOp.cmpi_slt.1 h
      simp only [BitVec.toInt_zero] at this
      omega
  rw [hlt, ValueIdx.select_zero, IntOp.andi_eq_one]
  refine ⟨IntOp.cmpi_sge.2 (by simp only [BitVec.toInt_zero]; exact h0), IntOp.cmpi_sle.2 ?_⟩
  have hlit : (BitVec.ofNat 32 (n - 1)).toInt = ((n - 1 : Nat) : Int) := by
    rw [BitVec.toInt_eq_toNat_of_lt (by simp only [BitVec.toNat_ofNat]; omega)]
    simp only [BitVec.toNat_ofNat]
    congr 1
    exact Nat.mod_eq_of_lt (by omega)
  rw [hlit]
  omega

end Cert.Lib.Mask
-- ==== Proof.RefRun.lean ====
/-
  The reference program, run and read back.

  The reference looks up two tables, the cosine table and the sine table, each of 8192 rows and 128 columns, at one
  array of positions `pos : [4, 8192]` of 32-bit words.  One lookup is this sequence: wrap a negative position by
  adding 8192 (`where(pos < 0, pos + 8192, pos)`); view the positions as `[4, 8192, 1]`; test each for
  `0 ≤ p ≤ 8191` (signed) and reduce the test by `and` over the last axis; gather the table's rows at the positions
  (a gather clamps the row number into `[0, 8191]`); keep the gathered row where the test holds and a NaN fill elsewhere.

  When every position word is below 8192 as a natural number it is non-negative as a signed one: the wrap leaves it
  alone, the test holds everywhere, the clamp is the identity, and entry `(b, s, c)` of the result is the table's entry
  `(pos[b, s], c)` — the lookup `Cert.Spec.take`.

  The program is a straight line of 46 operations, 23 per lookup (the inner `where` written out in place).  Every
  weakly fair execution of it terminates with each result buffer holding the lookup of its table, and the three
  argument buffers unchanged.
-/
import proofs.«202526_g11321533792333_week1_w4_118_29_alg».proof.ReferenceIdeal
import proofs.«202526_g11321533792333_week1_w4_118_29_alg».proof.Proof.Spec
import proofs.«202526_g11321533792333_week1_w4_118_29_alg».proof.Proof.LibPairGather
import proofs.«202526_g11321533792333_week1_w4_118_29_alg».proof.Proof.LibMask
import Idealize.ShloMosaic.Lib.StableHlo.Run
import Idealize.ShloMosaic.Lib.Pipeline.Value

noncomputable section

namespace Cert.ReferenceIdeal.RefValue

open Cert.ReferenceIdeal Idealize.ShloMosaic Idealize.ShloMosaic.ValueIdx Idealize.ShloMosaic.TcCoe Idealize.SL.Sem
  Idealize.ShloMosaic.StableHlo

variable {F : FTy → Type} [FloatOps F] [Facts]
open Facts₀ Facts

/-! ## The lookup's term -/

/-- The positions after the negative wrap, `where(pos < 0, pos + 8192, pos)`, viewed as an array `[4, 8192, 1]`. -/
def wrapped (pos : IVec S4x8192 32) : IVec S4x8192x1 32 :=
  broadcastInDim S4x8192x1 ![0, 1] bcast_S4x8192_S4x8192x1_0_1
    (select (cmpi .slt pos (broadcastInDim S4x8192 ![] bcast_S_S4x8192 (constantI S_ 32 0#32)))
      (addi pos (broadcastInDim S4x8192 ![] bcast_S_S4x8192 (constantI S_ 32 8192#32))) pos)

/-- The bounds test of a lookup: at `(b, s)`, the `and` over the last (unit) axis of `0 ≤ p ∧ p ≤ 8191` at the wrapped
    position `p`, started from 1. -/
def inBounds (pos : IVec S4x8192 32) : IVec S4x8192 1 :=
  Host.reduce IntOp.andi
    (andi (cmpi .sge (wrapped pos) (broadcastInDim S4x8192x1 ![] bcast_S_S4x8192x1 (constantI S_ 32 0#32)))
      (cmpi .sle (wrapped pos) (broadcastInDim S4x8192x1 ![0, 1, 2] bcast_S1x1x1_S4x8192x1_0_1_2
        (broadcastInDim S1x1x1 ![2] bcast_S1_S1x1x1_2 (constantI S1 32 8191#32)))))
    (constantI S_ 1 1#1) reducesTo_S4x8192x1_S4x8192_d2 h_S_

/-- One lookup as the composition of its operations: where the bounds test holds the table's rows gathered at the
    wrapped positions, elsewhere the fill value (the quiet NaN word `0x7FC00000`). -/
def takeTerm (tbl : FVec F S8192x128 .f32) (pos : IVec S4x8192 32) : FVec F S4x8192x128 .f32 :=
  select (broadcastInDim S4x8192x128 ![0, 1] bcast_S4x8192_S4x8192x128_0_1 (inBounds pos))
    (Host.gather gather_S8192x128_S4x8192x1_S4x8192x128_2_0_n_n_0_2_1128 tbl (wrapped pos))
    (broadcastInDim S4x8192x128 ![] bcast_S_S4x8192x128 (constant S_ .f32 0x7FC00000#32))

/-! ## Its value under the range hypothesis -/

/-- A word below 8192 has the same value signed and unsigned. -/
theorem toInt_of_lt (w : BitVec 32) (h : w.toNat < 8192) : w.toInt = (w.toNat : Int) :=
  BitVec.toInt_eq_toNat_of_lt (by omega)

/-- The negative wrap leaves a word below 8192 alone: it is not negative. -/
theorem wrap_word (w : BitVec 32) (h : w.toNat < 8192) :
    Scalar.select (IntOp.cmpi .slt w 0#32) (IntOp.addi w 8192#32) w = w := by
  have hlt : IntOp.cmpi .slt w 0#32 = 0#1 :=
    eq_zero_of_ne_one fun h' => by
      have := IntOp.cmpi_slt.1 h'
      rw [toInt_of_lt w h] at this
      simp only [BitVec.toInt_zero] at this
      omega
  rw [hlt, select_zero]

/-- A word below 8192 passes the bounds test `0 ≤ w ∧ w ≤ 8191` (signed). -/
theorem inRange_word (w : BitVec 32) (h : w.toNat < 8192) :
    IntOp.andi (IntOp.cmpi .sge w 0#32) (IntOp.cmpi .sle w 8191#32) = 1#1 := by
  rw [IntOp.andi_eq_one]
  refine ⟨IntOp.cmpi_sge.2 ?_, IntOp.cmpi_sle.2 ?_⟩
  · rw [toInt_of_lt w h]; simp only [BitVec.toInt_zero]; omega
  · rw [toInt_of_lt w h, toInt_of_lt 8191#32 (by decide)]
    simp only [BitVec.toNat_ofNat, Nat.reducePow, Nat.reduceMod]; omega

/-- With every position below 8192, the wrapped positions read at `(b, s, z)` are the positions at `(b, s)`: the view
    as `[4, 8192, 1]` drops the unit coordinate, and the wrap is the identity. -/
theorem wrapped_apply (pos : IVec S4x8192 32) (hpos : ∀ x, (pos x).toNat < 8192) (b : Fin 4) (s : Fin 8192) (z : Fin 1) :
    wrapped pos (ix3 b s z) = pos (ix2 b s) := by
  unfold wrapped
  rw [broadcastInDim_apply (s := S4x8192) (t := S4x8192x1) ![0, 1] bcast_S4x8192_S4x8192x1_0_1 _ (ix3 b s z) (ix2 b s)
    (fun a => match a with
      | ⟨0, _⟩ => by show b.val = if (4 : ℕ) = 1 then 0 else b.val; rw [if_neg (by decide)]
      | ⟨1, _⟩ => by show s.val = if (8192 : ℕ) = 1 then 0 else s.val; rw [if_neg (by decide)])]
  exact wrap_word _ (hpos _)

/-- With every position below 8192 the bounds test is 1 everywhere: an `and` from 1 over ones. -/
theorem inBounds_apply (pos : IVec S4x8192 32) (hpos : ∀ x, (pos x).toNat < 8192) (i : S4x8192.Idx) :
    inBounds pos i = 1#1 := by
  unfold inBounds
  refine Cert.Lib.Mask.reduce_andi_one _ _ _ _ (fun _ => rfl) (fun j => ?_) i
  obtain ⟨b, s, z, rfl⟩ : ∃ (b : Fin 4) (s : Fin 8192) (z : Fin 1), j = ix3 b s z := ⟨j 0, j 1, j 2, eq_ix3 j⟩
  show IntOp.andi (IntOp.cmpi .sge (wrapped pos (ix3 b s z)) 0#32) (IntOp.cmpi .sle (wrapped pos (ix3 b s z)) 8191#32) = 1#1
  rw [wrapped_apply pos hpos]
  exact inRange_word _ (hpos _)

/-- The lookup's gather is the gather of rows through an index array `[4, 8192, 1]`: the row axis collapsed, whole rows
    of 128 taken, the index vector on the last axis. -/
theorem gather_dims_eq :
    (gather_S8192x128_S4x8192x1_S4x8192x128_2_0_n_n_0_2_1128 : GatherDims S8192x128 S4x8192x1 S4x8192x128)
      = Cert.LibPairGather.pairGatherDims 8192 128 4 8192 gather_S8192x128_S4x8192x1_S4x8192x128_2_0_n_n_0_2_1128_wf := rfl

/-- With every position below 8192, the row the gather reads at `(b, s)` — the wrapped position read signed and clamped
    into `[0, 8191]` — is the row the position word names. -/
theorem row_eq (pos : IVec S4x8192 32) (hpos : ∀ x, (pos x).toNat < 8192) (b : Fin 4) (s : Fin 8192) :
    Cert.LibPairGather.rowAt 8192 (by decide) (wrapped pos) b s = Cert.Spec.row (pos (ix2 b s)) := by
  refine Fin.ext ?_
  show min ((wrapped pos (ix3 b s (0 : Fin 1))).toInt.toNat) (8192 - 1) = (pos (ix2 b s)).toNat % 8192
  rw [wrapped_apply pos hpos, toInt_of_lt _ (hpos _), Int.toNat_natCast, Nat.mod_eq_of_lt (hpos _)]
  have := hpos (ix2 b s)
  omega

/-- With every position below 8192 one lookup is `Cert.Spec.take`: entry `(b, s, c)` is the table's entry
    `(pos[b, s], c)`.  The mask is 1 everywhere, so the select is the gathered branch; the gather reads the named row. -/
theorem takeTerm_eq (tbl : FVec F S8192x128 .f32) (pos : IVec S4x8192 32) (hpos : ∀ x, (pos x).toNat < 8192) :
    takeTerm tbl pos = Cert.Spec.take tbl pos := by
  funext j
  obtain ⟨b, s, c, rfl⟩ : ∃ (b : Fin 4) (s : Fin 8192) (c : Fin 128), j = ix3 b s c := ⟨j 0, j 1, j 2, eq_ix3 j⟩
  unfold takeTerm
  rw [Cert.Lib.Mask.select_of_all_one (broadcastInDim S4x8192x128 ![0, 1] bcast_S4x8192_S4x8192x128_0_1 (inBounds pos)) _ _
      (fun i => inBounds_apply pos hpos _), gather_dims_eq,
    Cert.LibPairGather.pairGather_apply (by decide), row_eq pos hpos, Cert.Spec.take_apply]

/-! ## The program as a list of operations, and its run -/

/-- The program's 46 operations in order: the lookup of the cosine table (its inner `where` in place as one select),
    then the same 23 for the sine table, each writing a buffer of its own. -/
abbrev ops : List (HloOp τ sig (Elt F)) :=
  [ TRef.nullary main_call0.c (constantI S_ 32 0#32),
    TRef.unary main_call0.c main_call0.v0 (broadcastInDim S4x8192 ![] bcast_S_S4x8192),
    TRef.binary (.of main_arg0 : TRef sig ⟨S4x8192, .i32⟩) main_call0.v0 main_call0.v1 (cmpi .slt),
    TRef.nullary main_call0.c_0 (constantI S_ 32 8192#32),
    TRef.unary main_call0.c_0 main_call0.v2 (broadcastInDim S4x8192 ![] bcast_S_S4x8192),
    TRef.binary (.of main_arg0 : TRef sig ⟨S4x8192, .i32⟩) main_call0.v2 main_call0.v3 addi,
    TRef.ternary main_call0.v1 main_call0.v3 (.of main_arg0 : TRef sig ⟨S4x8192, .i32⟩) main_call0.call0.v0 select,
    TRef.unary main_call0.call0.v0 main_call0.v5 (broadcastInDim S4x8192x1 ![0, 1] bcast_S4x8192_S4x8192x1_0_1),
    TRef.nullary main_call0.c_1 (constantI S1 32 8191#32),
    TRef.nullary main_call0.c_2 (constantI S_ 32 0#32),
    TRef.unary main_call0.c_2 main_call0.v6 (broadcastInDim S4x8192x1 ![] bcast_S_S4x8192x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S4x8192x1 ![0, 1, 2] bcast_S1x1x1_S4x8192x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4x8192x1_S4x8192_d2 h_S_),
    TRef.binary (.of main_arg1 : TRef sig ⟨S8192x128, .f32⟩) main_call0.v5 main_call0.v13 (fun x i => Host.gather gather_S8192x128_S4x8192x1_S4x8192x128_2_0_n_n_0_2_1128 x i),
    TRef.unary main_call0.v12 main_call0.v14 (broadcastInDim S4x8192x128 ![0, 1] bcast_S4x8192_S4x8192x128_0_1),
    TRef.nullary main_call0.cst (constant S_ .f32 0x7FC00000#32),
    TRef.unary main_call0.cst main_call0.v15 (broadcastInDim S4x8192x128 ![] bcast_S_S4x8192x128),
    TRef.ternary main_call0.v14 main_call0.v13 main_call0.v15 main_call0.v16 select,
    TRef.nullary main_call1.c (constantI S_ 32 0#32),
    TRef.unary main_call1.c main_call1.v0 (broadcastInDim S4x8192 ![] bcast_S_S4x8192),
    TRef.binary (.of main_arg0 : TRef sig ⟨S4x8192, .i32⟩) main_call1.v0 main_call1.v1 (cmpi .slt),
    TRef.nullary main_call1.c_0 (constantI S_ 32 8192#32),
    TRef.unary main_call1.c_0 main_call1.v2 (broadcastInDim S4x8192 ![] bcast_S_S4x8192),
    TRef.binary (.of main_arg0 : TRef sig ⟨S4x8192, .i32⟩) main_call1.v2 main_call1.v3 addi,
    TRef.ternary main_call1.v1 main_call1.v3 (.of main_arg0 : TRef sig ⟨S4x8192, .i32⟩) main_call1.call0.v0 select,
    TRef.unary main_call1.call0.v0 main_call1.v5 (broadcastInDim S4x8192x1 ![0, 1] bcast_S4x8192_S4x8192x1_0_1),
    TRef.nullary main_call1.c_1 (constantI S1 32 8191#32),
    TRef.nullary main_call1.c_2 (constantI S_ 32 0#32),
    TRef.unary main_call1.c_2 main_call1.v6 (broadcastInDim S4x8192x1 ![] bcast_S_S4x8192x1),
    TRef.binary main_call1.v5 main_call1.v6 main_call1.v7 (cmpi .sge),
    TRef.unary main_call1.c_1 main_call1.v8 (broadcastInDim S1x1x1 ![2] bcast_S1_S1x1x1_2),
    TRef.unary main_call1.v8 main_call1.v9 (broadcastInDim S4x8192x1 ![0, 1, 2] bcast_S1x1x1_S4x8192x1_0_1_2),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S4x8192x1_S4x8192_d2 h_S_),
    TRef.binary (.of main_arg2 : TRef sig ⟨S8192x128, .f32⟩) main_call1.v5 main_call1.v13 (fun x i => Host.gather gather_S8192x128_S4x8192x1_S4x8192x128_2_0_n_n_0_2_1128 x i),
    TRef.unary main_call1.v12 main_call1.v14 (broadcastInDim S4x8192x128 ![0, 1] bcast_S4x8192_S4x8192x128_0_1),
    TRef.nullary main_call1.cst (constant S_ .f32 0x7FC00000#32),
    TRef.unary main_call1.cst main_call1.v15 (broadcastInDim S4x8192x128 ![] bcast_S_S4x8192x128),
    TRef.ternary main_call1.v14 main_call1.v13 main_call1.v15 main_call1.v16 select ]

set_option maxRecDepth 2048 in
/-- The program is that straight line: both calls unfolded and the sequencing reassociated, the two sides are one chain
    of steps. -/
theorem main_eq (c : Dev nD) : main (F := F) c = seq ops := by
  simp only [main, fn_take.body, fn_where.body, seq, bind_assoc, pure_bind]

/-- No buffer and no semaphore of the program is scoped: every buffer is a tensor value's. -/
theorem scopedRefs_eq : (Finset.univ.filter fun b : Ref sig .tc => b.isScoped) = ∅ := by decide
theorem scopedSems_eq : (Finset.univ.filter fun sm : SemLoc sig => sm.isScoped .tc) = ∅ := by decide

/-- Every operation touches tensor-value buffers only. -/
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub .., nullary_bufs_sub ..,
    unary_bufs_sub .., binary_bufs_sub .., nullary_bufs_sub .., unary_bufs_sub .., binary_bufs_sub .., ternary_bufs_sub ..,
    unary_bufs_sub .., nullary_bufs_sub .., nullary_bufs_sub .., unary_bufs_sub .., binary_bufs_sub .., unary_bufs_sub ..,
    unary_bufs_sub .., binary_bufs_sub .., binary_bufs_sub .., nullary_bufs_sub .., binary_bufs_sub .., binary_bufs_sub ..,
    unary_bufs_sub .., nullary_bufs_sub .., unary_bufs_sub .., ternary_bufs_sub ..⟩

attribute [local irreducible] Host.reduce Host.gather in
set_option maxRecDepth 8192 in
/-- After the 46 operations, from any contents, the first result buffer holds the lookup's term of the cosine table and
    the positions: each operation's result read at its own buffer, every other buffer left as it was. -/
theorem out0_eq (V : Valuation τ sig (Elt F)) :
    after ops V (main_v0 : DevRef τ sig)
      = takeTerm (F := F) (V (main_arg1 : DevRef τ sig)) (V (main_arg0 : DevRef τ sig)) := by
  after_results_simp
  rfl

attribute [local irreducible] Host.reduce Host.gather in
set_option maxRecDepth 8192 in
/-- The same for the second result buffer and the sine table. -/
theorem out1_eq (V : Valuation τ sig (Elt F)) :
    after ops V (main_v1 : DevRef τ sig)
      = takeTerm (F := F) (V (main_arg2 : DevRef τ sig)) (V (main_arg0 : DevRef τ sig)) := by
  after_results_simp
  rfl

set_option maxRecDepth 8192 in
/-- No operation writes an argument buffer: the positions and the two tables are as they were. -/
theorem arg0_eq (V : Valuation τ sig (Elt F)) :
    after ops V (main_arg0 : DevRef τ sig) = V (main_arg0 : DevRef τ sig) := by
  simp only [after_cons, after_nil]
  rfl

set_option maxRecDepth 8192 in
theorem arg1_eq (V : Valuation τ sig (Elt F)) :
    after ops V (main_arg1 : DevRef τ sig) = V (main_arg1 : DevRef τ sig) := by
  simp only [after_cons, after_nil]
  rfl

set_option maxRecDepth 8192 in
theorem arg2_eq (V : Valuation τ sig (Elt F)) :
    after ops V (main_arg2 : DevRef τ sig) = V (main_arg2 : DevRef τ sig) := by
  simp only [after_cons, after_nil]
  rfl

/-- From any memory with zero counters, every weakly fair execution of the program terminates with every buffer at
    the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- At the exact reals, from a memory whose position words are all below 8192 and zero counters: every weakly fair
    execution of the reference terminates with the first result the lookup of the cosine table at the positions, the
    second the lookup of the sine table, and the three arguments unchanged. -/
theorem run (m : (ℓ : Loc nD τ sig) → Buf (Elt Ideal) ℓ) (ρ : Dev nD → PrngReg)
    (hpos : ∀ (c : Dev nD) x, (m ((c.tc : Thread nD τ).loc main_arg0) x).toNat < 8192) :
    θ_run (defs (F := Ideal)) (onTc (τ := τ) (main (F := Ideal))) ⟨m, fun _ => 0, ρ⟩ (fun r => ∀ c : Dev nD,
        r.2.mem ((c.tc : Thread nD τ).loc main_v0) = Cert.Spec.take (m ((c.tc : Thread nD τ).loc main_arg1)) (m ((c.tc : Thread nD τ).loc main_arg0))
      ∧ r.2.mem ((c.tc : Thread nD τ).loc main_v1) = Cert.Spec.take (m ((c.tc : Thread nD τ).loc main_arg2)) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
      ⟨(h c main_v0).trans ((out0_eq _).trans (takeTerm_eq _ _ (hpos c))),
       (h c main_v1).trans ((out1_eq _).trans (takeTerm_eq _ _ (hpos c))),
       (h c main_arg0).trans (arg0_eq _),
       (h c main_arg1).trans (arg1_eq _),
       (h c main_arg2).trans (arg2_eq _)⟩)
    (run_main m ρ)

end Cert.ReferenceIdeal.RefValue

end
-- ==== Proof.Kernel.Setup.lean ====
/-
  The vocabulary of the kernel's frame proof: the program as the launch theorem sees it, the ghost state (the handshakes'
  rounds beside the transfers' counters), the arrays as a vector subcore names them, and the pieces a subcore works on —
  the eight windows of 128 positions of its index scratch, the seven row buffers of 128 rows, and its eight blocks of
  128 rows of each result array.  Tile `(c, s)` is worker `w = 2 s + c`; it owns positions `[1024 w, 1024 w + 1024)`
  of the flattened position array and the same rows of both flat results.
-/
import proofs.«202526_g11321533792333_week1_w4_118_29_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«202526_g11321533792333_week1_w4_118_29_alg».proof.Proof.Gen.Kernel
import proofs.«202526_g11321533792333_week1_w4_118_29_alg».proof.Proof.Gen.Kernel.Skeleton
import proofs.«202526_g11321533792333_week1_w4_118_29_alg».proof.Proof.Spec

noncomputable section

namespace Cert.Proof.Kernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library, the transfers' counters -/

abbrev UH : Type := URounds (GSem nD τ sig) ℕ
abbrev UU : Type := UH × Counters

abbrev EH : Emb UH (MT nD τ sig (HIx 1) (Elt F) ℕ UU ℕ) := embL

/-! ## The arrays -/

abbrev iLoc (d : Dev nD) : Loc nD τ sig := (SparseCore.T d).loc main_arg0
abbrev cLoc (d : Dev nD) : Loc nD τ sig := (SparseCore.T d).loc main_arg1
abbrev nLoc (d : Dev nD) : Loc nD τ sig := (SparseCore.T d).loc main_arg2
abbrev aLoc (d : Dev nD) : Loc nD τ sig := (SparseCore.T d).loc main_v0_0
abbrev bLoc (d : Dev nD) : Loc nD τ sig := (SparseCore.T d).loc main_v0_1

abbrev cosV : Memref sig .scVector .hbm S8192x128 .f32 := Memref.whole main_arg1_scv
abbrev sinV : Memref sig .scVector .hbm S8192x128 .f32 := Memref.whole main_arg2_scv
abbrev iV : Memref sig .scVector .hbm S4x8192 .i32 := Memref.whole main_arg0_scv
abbrev o0V : Memref sig .scVector .hbm S32768x128 .f32 := Memref.whole main_v0_0_scv
abbrev o1V : Memref sig .scVector .hbm S32768x128 .f32 := Memref.whole main_v0_1_scv
abbrev sV : Memref sig .scVector .vmem S1024 .i32 := Memref.whole cc0_scratch0
abbrev rV : Memref sig .scVector .vmem S7x128x128 .f32 := Memref.whole cc0_scratch1

abbrev cV (L : grid0.Coords) : Fin τ.nSC := (L 0).castLE hcore0
abbrev jV (L : grid0.Coords) : Fin τ.nSub := (L 1).castLE hsub0

/-- The grid point of SparseCore `c`, vector subcore `s`. -/
def coordsV (c : Fin (grid0.bound 0)) (s : Fin (grid0.bound 1)) : grid0.Coords :=
  fun | 0 => c | 1 => s | ⟨_ + 2, h⟩ => absurd h (Nat.not_lt.2 (Nat.le_add_left _ _))

/-- The tile's slice of the position array: one row of 1024 positions, as the tile addresses it. -/
abbrev iRowK (L : grid0.Coords) : Memref sig .scVector .hbm S1024 .i32 :=
  ((iV).slice (Rect.unit (s := S4x8192) (k0_off1 L) S1x1024.size (k0_off1_inb L)) (fun _ => rfl)).squeeze S1024 squeezes_S1x1024_S1024

/-- Block `r` (128 rows) of the tile's part of a flat result array, as the tile addresses it. -/
abbrev oWin (o : Memref sig .scVector .hbm S32768x128 .f32) (L : grid0.Coords) (r : Fin 8) : Memref sig .scVector .hbm S128x128 .f32 :=
  o.slice (Rect.unit (s := S32768x128) (k0_off2 L (BitVec.ofNat 32 r.val)) S128x128.size (k0_off2_inb L r)) (fun _ => rfl)

/-- Window `j` (128 positions) of the index scratch. -/
abbrev idxWin (j : Fin 8) : Memref sig .scVector .vmem S128 .i32 :=
  (sV).slice (Rect.unit (s := S1024) ![128 * j.val] S128.size (fun a => by
    have : a = 0 := Subsingleton.elim _ _
    subst this; have := j.isLt; show 128 * j.val + 128 ≤ 1024; omega)) (fun _ => rfl)

/-- Row buffer `b` (128 rows of 128 columns) of the rows scratch. -/
abbrev slot (b : Fin 7) : Memref sig .scVector .vmem S128x128 .f32 :=
  ((rV).slice (Rect.unit (s := S7x128x128) ![b.val, 0, 0] S1x128x128.size (fun a => by
    have := b.isLt
    match a with
    | ⟨0, _⟩ => show b.val + 1 ≤ 7; omega
    | ⟨1, _⟩ => show 0 + 128 ≤ 128; omega
    | ⟨2, _⟩ => show 0 + 128 ≤ 128; omega)) (fun _ => rfl)).squeeze S128x128 squeezes_S1x128x128_S128x128

/-- A whole table, as the gather names its source. -/
abbrev tblAll (t : Memref sig .scVector .hbm S8192x128 .f32) : Memref sig .scVector .hbm S8192x128 .f32 :=
  t.slice (Rect.unit (s := S8192x128) ![0, 0] S8192x128.size inb_S8192x128_S8192x128_0_0) (fun _ => rfl)

end Cert.Proof.Kernel

end
-- ==== Proof.Kernel.Geometry.lean ====
/-
  How the buffers a vector subcore holds whole are cut into the pieces it works on, and put back together.

  The index scratch (1024 positions) is its eight windows of 128 consecutive positions; the rows scratch (seven
  buffers of 128 rows of 128 columns) is its seven row buffers; each flat result array (32768 rows of 128 columns) is
  the 2 · 16 · 8 = 256 blocks of 128 consecutive rows the tiles write, block r of tile (c, s) starting at row
  2048 s + 1024 c + 128 r.  In each case the pieces are unit-stride rectangles that differ on the leading axis only:
  two different pieces occupy disjoint ranges of leading coordinates, and every leading coordinate falls in exactly
  one range (the one its quotient by the piece length names), so a points-to of the whole array is the separating
  conjunction of the points-to's of the pieces, and the pieces held at different contents join to the whole at some
  contents.
-/
import proofs.«202526_g11321533792333_week1_w4_118_29_alg».proof.Proof.Kernel.Setup

noncomputable section

namespace Cert.Proof.Kernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## Unrolling a separating conjunction over seven or eight indices -/

/-- A separating conjunction over the seven indices below 7, written out. -/
theorem bigSep_fin7 (Φ : Fin 7 → sProp 𝕄) :
    bigSep Finset.univ Φ = iprop(Φ 0 ∗ Φ 1 ∗ Φ 2 ∗ Φ 3 ∗ Φ 4 ∗ Φ 5 ∗ Φ 6) := by
  rw [show (Finset.univ : Finset (Fin 7)) = {0, 1, 2, 3, 4, 5, 6} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    bigSep_singleton]

/-- A separating conjunction over the eight indices below 8, written out. -/
theorem bigSep_fin8 (Φ : Fin 8 → sProp 𝕄) :
    bigSep Finset.univ Φ = iprop(Φ 0 ∗ Φ 1 ∗ Φ 2 ∗ Φ 3 ∗ Φ 4 ∗ Φ 5 ∗ Φ 6 ∗ Φ 7) := by
  rw [show (Finset.univ : Finset (Fin 8)) = {0, 1, 2, 3, 4, 5, 6, 7} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-! ## The index scratch: eight windows of 128 positions -/

/-- Window j ends inside the scratch: 128 j + 128 ≤ 1024 for j below 8. -/
theorem idxWin_inb (j : Fin 8) : ∀ a, (![128 * j.val] : Fin 1 → Nat) a + S128.size a ≤ S1024.size a := fun a => by
  have : a = 0 := Subsingleton.elim _ _
  subst this; have := j.isLt; show 128 * j.val + 128 ≤ 1024; omega

/-- The positions of the scratch that window j holds. -/
abbrev idxSet (j : Fin 8) : Finset S1024.Idx := (idxWin j).view.set

/-- They are the unit-stride range [128 j, 128 j + 128). -/
theorem idxSet_eq (j : Fin 8) : idxSet j = (Rect.unit (s := S1024) ![128 * j.val] S128.size (idxWin_inb j)).set :=
  View.set_slice_whole _ _

/-- Different windows hold disjoint positions: if j ≠ j' the ranges [128 j, 128 j + 128) and [128 j', 128 j' + 128)
    lie one wholly below the other. -/
theorem idxSet_disjoint : ∀ j ∈ (Finset.univ : Finset (Fin 8)), ∀ j' ∈ (Finset.univ : Finset (Fin 8)), j ≠ j' →
    Disjoint (idxSet j) (idxSet j') := fun j _ j' _ h => by
  rw [idxSet_eq, idxSet_eq]
  refine Rect.unit_disjoint 0 ?_
  have hne : j.val ≠ j'.val := fun e => h (Fin.ext e)
  show 128 * j.val + 128 ≤ 128 * j'.val ∨ 128 * j'.val + 128 ≤ 128 * j.val
  omega

/-- The windows cover the scratch: position x lies in window x / 128. -/
theorem idxSet_cover : (Finset.univ : Finset (Fin 8)).biUnion idxSet = Finset.univ := by
  refine Finset.eq_univ_iff_forall.mpr fun x => Finset.mem_biUnion.mpr ?_
  have hx : (x 0).val < 1024 := (x 0).isLt
  refine ⟨⟨(x 0).val / 128, by omega⟩, Finset.mem_univ _, ?_⟩
  rw [idxSet_eq, Rect.mem_set_unit]
  intro a
  have : a = 0 := Subsingleton.elim _ _
  subst this
  show 128 * ((x 0).val / 128) ≤ (x 0).val ∧ (x 0).val < 128 * ((x 0).val / 128) + 128
  omega

/-- The index scratch held whole is its eight windows held each: the windows are pairwise disjoint and cover it. -/
theorem idx_windows (d : Dev nD) (c : Fin τ.nSC) (i : Fin τ.nSub) (q : PosShare TreeShare)
    (f : Buf (Elt F) ((sV).view.loc (V d c i))) :
    ((sV).view.loc (V d c i) ↦{q} f : sProp 𝕄)
      = bigSep Finset.univ fun j : Fin 8 => (idxWin j).view.loc (V d c i) ↦[(idxWin j).view.set]{q} f := by
  rw [← pointsTo_biUnion Finset.univ (ℓ := (sV).view.loc (V d c i)) idxSet idxSet_disjoint, idxSet_cover]; try rfl

/-! ## The rows scratch: seven buffers of 128 rows -/

/-- Buffer b lies inside the scratch: b + 1 ≤ 7, and it is whole on the two trailing axes. -/
theorem slot_inb (b : Fin 7) : ∀ a, (![b.val, 0, 0] : Fin 3 → Nat) a + S1x128x128.size a ≤ S7x128x128.size a := fun a => by
  have := b.isLt
  match a with
  | ⟨0, _⟩ => show b.val + 1 ≤ 7; omega
  | ⟨1, _⟩ => show 0 + 128 ≤ 128; omega
  | ⟨2, _⟩ => show 0 + 128 ≤ 128; omega

/-- The elements of the scratch that row buffer b holds. -/
abbrev slotSet (b : Fin 7) : Finset S7x128x128.Idx := (slot b).view.set

/-- They are the elements with leading coordinate b: dropping the leading axis of length one keeps the elements. -/
theorem slotSet_eq (b : Fin 7) :
    slotSet b = (Rect.unit (s := S7x128x128) ![b.val, 0, 0] S1x128x128.size (slot_inb b)).set := by
  show (((View.whole (cc0_scratch1 : Ref sig .scVector)).slice
    (Rect.unit (s := S7x128x128) ![b.val, 0, 0] S1x128x128.size (slot_inb b))).reshape S128x128 squeezes_S1x128x128_S128x128.numel_eq).set = _
  rw [View.set_reshape, View.set_slice_whole]

/-- Different row buffers hold disjoint elements: their leading coordinates differ. -/
theorem slotSet_disjoint : ∀ b ∈ (Finset.univ : Finset (Fin 7)), ∀ b' ∈ (Finset.univ : Finset (Fin 7)), b ≠ b' →
    Disjoint (slotSet b) (slotSet b') := fun b _ b' _ h => by
  rw [slotSet_eq, slotSet_eq]
  refine Rect.unit_disjoint 0 ?_
  have hne : b.val ≠ b'.val := fun e => h (Fin.ext e)
  show b.val + 1 ≤ b'.val ∨ b'.val + 1 ≤ b.val
  omega

/-- The row buffers cover the scratch: an element lies in the buffer its leading coordinate names. -/
theorem slotSet_cover : (Finset.univ : Finset (Fin 7)).biUnion slotSet = Finset.univ := by
  refine Finset.eq_univ_iff_forall.mpr fun x => Finset.mem_biUnion.mpr ?_
  have h0 : (x 0).val < 7 := (x 0).isLt
  have h1 : (x 1).val < 128 := (x 1).isLt
  have h2 : (x 2).val < 128 := (x 2).isLt
  refine ⟨⟨(x 0).val, h0⟩, Finset.mem_univ _, ?_⟩
  rw [slotSet_eq, Rect.mem_set_unit]
  intro a
  match a with
  | ⟨0, _⟩ => show (x 0).val ≤ (x 0).val ∧ (x 0).val < (x 0).val + 1; omega
  | ⟨1, _⟩ => show 0 ≤ (x 1).val ∧ (x 1).val < 0 + 128; omega
  | ⟨2, _⟩ => show 0 ≤ (x 2).val ∧ (x 2).val < 0 + 128; omega

/-- The rows scratch held whole is its seven row buffers held each. -/
theorem slots_split (d : Dev nD) (c : Fin τ.nSC) (i : Fin τ.nSub) (q : PosShare TreeShare)
    (f : Buf (Elt F) ((rV).view.loc (V d c i))) :
    ((rV).view.loc (V d c i) ↦{q} f : sProp 𝕄)
      = bigSep Finset.univ fun b : Fin 7 => (slot b).view.loc (V d c i) ↦[(slot b).view.set]{q} f := by
  rw [← pointsTo_biUnion Finset.univ (ℓ := (rV).view.loc (V d c i)) slotSet slotSet_disjoint, slotSet_cover]; try rfl

set_option maxRecDepth 4096 in
/-- The seven row buffers, each held at its own contents, are the rows scratch held whole at some contents: the
    contents that agree with buffer b's on buffer b's elements. -/
theorem slots_join (d : Dev nD) (c : Fin τ.nSC) (i : Fin τ.nSub) (fs : Fin 7 → Buf (Elt F) ((rV).view.loc (V d c i))) :
    (bigSep Finset.univ fun b : Fin 7 => (slot b).view.loc (V d c i) ↦[(slot b).view.set]{fullShare} fs b)
      ⊢ (iprop(∃ g, (rV).view.loc (V d c i) ↦{fullShare} g) : sProp 𝕄) := by
  iintro H
  ihave H' := (pointsTo_biUnion_join (ℓ := (rV).view.loc (V d c i)) (q := fullShare) (Val := Elt F) Finset.univ slotSet fs (fs 0)
    slotSet_disjoint) $$ H
  icases H' with ⟨%g, -, Hg⟩
  rw [slotSet_cover]
  iexists g; iexact Hg

/-! ## The flat results: 2 · 16 · 8 blocks of 128 rows -/

/-- The grid point of SparseCore c, subcore s has first coordinate c -/
theorem coordsV_zero (c : Fin (grid0.bound 0)) (s : Fin (grid0.bound 1)) : coordsV c s 0 = c := rfl
/-- and second coordinate s. -/
theorem coordsV_one (c : Fin (grid0.bound 0)) (s : Fin (grid0.bound 1)) : coordsV c s 1 = s := rfl

/-- The rows of a flat result that block r of tile (c, s) holds: the unit-stride rectangle of 128 rows from row
    2048 s + 1024 c + 128 r, all 128 columns. -/
abbrev outSet (t : Fin 2 × Fin 16 × Fin 8) : Finset S32768x128.Idx :=
  (Rect.unit (s := S32768x128) (k0_off2 (coordsV t.1 t.2.1) (BitVec.ofNat 32 t.2.2.val)) S128x128.size
    (k0_off2_inb (coordsV t.1 t.2.1) t.2.2)).set

/-- Different blocks hold disjoint rows.  The first row 2048 s + 1024 c + 128 r of a block determines (s, c, r)
    (c below 2, r below 8: the digits of the row number over 128 in the mixed base 16 · 2 · 8), so two different blocks
    start at different multiples of 128 and their ranges of 128 rows lie one wholly below the other. -/
theorem outSet_disjoint : ∀ t ∈ (Finset.univ : Finset (Fin 2 × Fin 16 × Fin 8)), ∀ t' ∈ (Finset.univ : Finset (Fin 2 × Fin 16 × Fin 8)),
    t ≠ t' → Disjoint (outSet t) (outSet t') := fun t _ t' _ h => by
  obtain ⟨c, s, r⟩ := t
  obtain ⟨c', s', r'⟩ := t'
  refine Rect.unit_disjoint 0 ?_
  rw [k0_off2_eq, k0_off2_eq]
  have hne : c.val ≠ c'.val ∨ s.val ≠ s'.val ∨ r.val ≠ r'.val := by
    by_contra hc
    simp only [not_or, not_not] at hc
    exact h (Prod.ext (Fin.ext hc.1) (Prod.ext (Fin.ext hc.2.1) (Fin.ext hc.2.2)))
  have := c.isLt; have := c'.isLt; have := r.isLt; have := r'.isLt
  show 2048 * s.val + 1024 * c.val + 128 * r.val + 128 ≤ 2048 * s'.val + 1024 * c'.val + 128 * r'.val
    ∨ 2048 * s'.val + 1024 * c'.val + 128 * r'.val + 128 ≤ 2048 * s.val + 1024 * c.val + 128 * r.val
  omega

/-- The blocks cover a flat result: row x lies in block r = x / 128 mod 8 of tile c = x / 1024 mod 2, s = x / 2048. -/
theorem outSet_cover : (Finset.univ : Finset (Fin 2 × Fin 16 × Fin 8)).biUnion outSet = Finset.univ := by
  refine Finset.eq_univ_iff_forall.mpr fun x => Finset.mem_biUnion.mpr ?_
  have h0 : (x 0).val < 32768 := (x 0).isLt
  have h1 : (x 1).val < 128 := (x 1).isLt
  refine ⟨(⟨(x 0).val / 1024 % 2, by omega⟩, ⟨(x 0).val / 2048, by omega⟩, ⟨(x 0).val / 128 % 8, by omega⟩), Finset.mem_univ _, ?_⟩
  rw [Rect.mem_set_unit, k0_off2_eq]
  intro a
  match a with
  | ⟨0, _⟩ =>
    show 2048 * ((x 0).val / 2048) + 1024 * ((x 0).val / 1024 % 2) + 128 * ((x 0).val / 128 % 8) ≤ (x 0).val
      ∧ (x 0).val < 2048 * ((x 0).val / 2048) + 1024 * ((x 0).val / 1024 % 2) + 128 * ((x 0).val / 128 % 8) + 128
    omega
  | ⟨1, _⟩ => show 0 ≤ (x 1).val ∧ (x 1).val < 0 + 128; omega

/-- Block r of tile (c', s) of the first flat result holds exactly those rows of it, -/
theorem oWin0_set (c' : Fin 2) (s : Fin 16) (r : Fin 8) : ((oWin o0V (coordsV c' s) r).view.set : Finset S32768x128.Idx) = outSet (c', s, r) :=
  View.set_slice_whole _ _
/-- and block r of tile (c', s) of the second flat result the same rows of that one: a slice of a whole array holds
    its rectangle's elements. -/
theorem oWin1_set (c' : Fin 2) (s : Fin 16) (r : Fin 8) : ((oWin o1V (coordsV c' s) r).view.set : Finset S32768x128.Idx) = outSet (c', s, r) :=
  View.set_slice_whole _ _

/-- The first flat result held whole is its 256 blocks held each, grouped by SparseCore, then subcore, then block. -/
theorem out0_windows (d : Dev nD) (c : Fin τ.nSC) (i : Fin τ.nSub) (f : Buf (Elt F) ((o0V).view.loc (V d c i))) :
    ((o0V).view.loc (V d c i) ↦{fullShare} f : sProp 𝕄)
      = bigSep Finset.univ fun c' : Fin 2 => bigSep Finset.univ fun s : Fin 16 => bigSep Finset.univ fun r : Fin 8 =>
          (oWin o0V (coordsV c' s) r).view.loc (V d c i) ↦[(oWin o0V (coordsV c' s) r).view.set]{fullShare} f := by
  rw [show ((o0V).view.loc (V d c i) ↦{fullShare} f : sProp 𝕄)
      = bigSep Finset.univ fun t : Fin 2 × Fin 16 × Fin 8 => (o0V).view.loc (V d c i) ↦[outSet t]{fullShare} f by
    rw [← pointsTo_biUnion Finset.univ (ℓ := (o0V).view.loc (V d c i)) outSet outSet_disjoint, outSet_cover]; try rfl,
    bigSep_univ_prod]
  refine bigSep_congr fun c' _ => ?_
  rw [bigSep_univ_prod]
  refine bigSep_congr fun s _ => bigSep_congr fun r _ => ?_
  rw [oWin0_set]

/-- The second flat result held whole is its 256 blocks held each, grouped the same way. -/
theorem out1_windows (d : Dev nD) (c : Fin τ.nSC) (i : Fin τ.nSub) (f : Buf (Elt F) ((o1V).view.loc (V d c i))) :
    ((o1V).view.loc (V d c i) ↦{fullShare} f : sProp 𝕄)
      = bigSep Finset.univ fun c' : Fin 2 => bigSep Finset.univ fun s : Fin 16 => bigSep Finset.univ fun r : Fin 8 =>
          (oWin o1V (coordsV c' s) r).view.loc (V d c i) ↦[(oWin o1V (coordsV c' s) r).view.set]{fullShare} f := by
  rw [show ((o1V).view.loc (V d c i) ↦{fullShare} f : sProp 𝕄)
      = bigSep Finset.univ fun t : Fin 2 × Fin 16 × Fin 8 => (o1V).view.loc (V d c i) ↦[outSet t]{fullShare} f by
    rw [← pointsTo_biUnion Finset.univ (ℓ := (o1V).view.loc (V d c i)) outSet outSet_disjoint, outSet_cover]; try rfl,
    bigSep_univ_prod]
  refine bigSep_congr fun c' _ => ?_
  rw [bigSep_univ_prod]
  refine bigSep_congr fun s _ => bigSep_congr fun r _ => ?_
  rw [oWin1_set]

end Cert.Proof.Kernel

end
-- ==== Proof.Kernel.WinValue.lean ====
/-
  The value of one written block of a result array.

  Tile `(c, s)` is worker `w = 2 s + c`.  Its index scratch holds positions `[1024 w, 1024 w + 1024)` of the
  flattened position array: row `w / 8` of the `[4, 8192]` array, columns from `(w % 8) * 1024`.  Window `r` of the
  scratch lists 128 row numbers; the gather fills a row buffer with those rows of the table; the write-back copies the
  row buffer into block `r` of the tile's part of the flat result, rows `1024 w + 128 r + [0, 128)`.

  So entry `(p, c)` of the block is the table at row `pos[w / 8, (w % 8) * 1024 + 128 r + p]`, column `c`; and with
  `x₀ = 1024 w + 128 r + p` the flat row of that entry, `x₀ / 8192 = w / 8` and `x₀ % 8192 = (w % 8) * 1024 + 128 r + p`:
  the block holds the flat lookup `Cert.Spec.takeFlat` of the table at the positions.
-/
import proofs.«202526_g11321533792333_week1_w4_118_29_alg».proof.Proof.Kernel.Setup
import Idealize.ShloMosaic.Lib.ValueIdx

noncomputable section

namespace Cert.Proof.Kernel

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## Views, generally -/

section Generic

variable {sig : RefSig} {κ : Kind} {sp : Space} {s : Shape} {e : EltTy} {Val : EltTy → Type}

/-- Reading through a rectangle of a view is reading through the view at the rectangle's placement. -/
theorem read_slice_apply (v : View sig κ sp s e) (R : Rect s) (f : v.ty.Contents Val) (y : R.shape.Idx) :
    (v.slice R).read Val f y = v.read Val f (R.emb y) := rfl

/-- Reading through a reshaped view is reading through the view at the index with the same row-major position. -/
theorem read_reshape_apply (v : View sig κ sp s e) {s' : Shape} (h : s'.numel = s.numel) (f : v.ty.Contents Val) (y : s'.Idx) :
    (v.reshape s' h).read Val f y = v.read Val f (Shape.reshapeEquiv h y) := rfl

/-- Reading a whole buffer is reading its contents. -/
theorem read_whole_apply (b : Ref sig κ) (f : b.ty.Contents Val) (x : b.ty.shape.Idx) :
    (View.whole b).read Val f x = f x := rfl

/-- After a list of writes whose newest covers the whole shape, the view reads that write's payload. -/
theorem read_writes_whole_head (v : View sig κ sp s e) (f : v.ty.Contents Val) (w : s.Idx → Val e)
    (rest : List (View.Piece Val s e)) :
    v.read Val (v.writes Val f (⟨Rect.whole s, w⟩ :: rest)) = w := by
  funext y
  have h := View.read_writes_cons_emb v f (Rect.whole s) w rest y
  rwa [Rect.emb_whole_apply] at h

/-- A rectangle `R` of a whole buffer, written whole with the payload `g`: the buffer's element under the rectangle's
    index `y` holds `g y`. -/
theorem writes_whole_block_apply (b : Ref sig κ) (R : Rect b.ty.shape) (f : b.ty.Contents Val)
    (g : R.shape.Idx → Val b.ty.elt) (y : R.shape.Idx) :
    ((View.whole b).slice R).writes Val f [⟨Rect.whole R.shape, g⟩] (R.emb y) = g y := by
  rw [View.writes_singleton]
  have h := View.write_emb_of_mem (v := ((View.whole b).slice R).slice (Rect.whole R.shape)) (Val := Val) f g
    (M := Finset.univ) (x := y) (Finset.mem_univ _)
  have e : (((View.whole b).slice R).slice (Rect.whole R.shape)).emb y = R.emb y := by
    show R.emb ((Rect.whole R.shape).emb y) = R.emb y
    rw [Rect.emb_whole_apply]
  rw [e] at h
  exact h

end Generic

/-! ## Unit-stride rectangles and row-major positions at literal ranks -/

/-- A unit-stride rectangle at rank one places its index `p` at `off + p`. -/
theorem unit1_emb {n m : Nat} (off : Fin 1 → Nat)
    (inb : ∀ a, off a + (⟨1, ![m]⟩ : Shape).size a ≤ (⟨1, ![n]⟩ : Shape).size a) (p : Fin m) (h : off 0 + p.val < n) :
    (Rect.unit (s := ⟨1, ![n]⟩) off (⟨1, ![m]⟩ : Shape).size inb).emb (ix1 p) = ix1 (⟨off 0 + p.val, h⟩ : Fin n) := by
  funext a; apply Fin.ext
  match a with
  | ⟨0, _⟩ => show off 0 + 1 * p.val = off 0 + p.val; omega

/-- A unit-stride rectangle at rank two places its index `(p, c)` at `(off₀ + p, off₁ + c)`. -/
theorem unit2_emb {n0 n1 m0 m1 : Nat} (off : Fin 2 → Nat)
    (inb : ∀ a, off a + (⟨2, ![m0, m1]⟩ : Shape).size a ≤ (⟨2, ![n0, n1]⟩ : Shape).size a) (p : Fin m0) (c : Fin m1)
    (h0 : off 0 + p.val < n0) (h1 : off 1 + c.val < n1) :
    (Rect.unit (s := ⟨2, ![n0, n1]⟩) off (⟨2, ![m0, m1]⟩ : Shape).size inb).emb (ix2 p c)
      = ix2 (⟨off 0 + p.val, h0⟩ : Fin n0) (⟨off 1 + c.val, h1⟩ : Fin n1) := by
  funext a; apply Fin.ext
  match a with
  | ⟨0, _⟩ => show off 0 + 1 * p.val = off 0 + p.val; omega
  | ⟨1, _⟩ => show off 1 + 1 * c.val = off 1 + c.val; omega

/-- A vector of length `n` viewed as one row `[1, n]`: entry `q` is entry `(0, q)`. -/
theorem reshape_row_ix1 {n : Nat} (h : (⟨1, ![n]⟩ : Shape).numel = (⟨2, ![1, n]⟩ : Shape).numel) (q : Fin n) :
    Shape.reshapeEquiv h (ix1 q) = ix2 (0 : Fin 1) q :=
  Shape.reshapeEquiv_eq_of_rowMajor h (by
    rw [Shape.rowMajor_val_two, Shape.rowMajor_val_one]
    show 0 * n + q.val = q.val
    omega)

/-- At rank one the index at row-major position `q` is `q` itself. -/
theorem rowMajor_symm_ix1 {n : Nat} (q : Fin (⟨1, ![n]⟩ : Shape).numel) (p : Fin n) (hq : q.val = p.val) :
    (⟨1, ![n]⟩ : Shape).rowMajor.symm q = ix1 p := by
  rw [Equiv.symm_apply_eq]
  apply Fin.ext
  rw [Shape.rowMajor_val_one]
  exact hq

/-! ## The tile's offsets -/

/-- The offsets of the tile's slice of the position array, in closed form: row `w / 8`, column `(w % 8) * 1024` for
    worker `w = 2 s + c` (the kernel's signed floor-division and remainder of a non-negative `w`), checked at each of the
    32 grid points. -/
theorem k0_off1_eq : ∀ L : grid0.Coords,
    k0_off1 L = ![(2 * (L 1).val + (L 0).val) / 8, ((2 * (L 1).val + (L 0).val) % 8) * 1024] := by decide +kernel

/-- The grid has 2 SparseCores of 16 vector subcores. -/
theorem L0_lt (L : grid0.Coords) : (L 0).val < 2 := (L 0).isLt
theorem L1_lt (L : grid0.Coords) : (L 1).val < 16 := (L 1).isLt

/-! ## The gather's pieces -/

/-- The gather of rows: result entry `(p, c)` reads the source at the row the list names for `p`, column `c`. -/
theorem gather_idx (rws : Fin (S128x128.size gathers_S8192x128_S128x128.axis') → Fin (S8192x128.size gathers_S8192x128_S128x128.axis)) (p c : Fin 128) :
    gathers_S8192x128_S128x128.idx rws (ix2 p c) = ix2 (rws p) c := by
  funext a; apply Fin.ext
  match a with
  | ⟨0, _⟩ => exact congrArg Fin.val (Shape.Gathers.idx_axis gathers_S8192x128_S128x128 rws (ix2 p c))
  | ⟨1, _⟩ => exact Shape.Gathers.idx_of_ne gathers_S8192x128_S128x128 rws (ix2 p c) ⟨1, by decide⟩ (by decide)

/-- The row the offset list names for result row `p` is the list's word at `p`. -/
theorem rows_val (lw : S128.Idx → Elt F .i32) (hn : S128.numel = S128x128.size gathers_S8192x128_S128x128.axis')
    (h : ∀ x, (lw x).toNat < S8192x128.size gathers_S8192x128_S128x128.axis) (p : Fin 128) :
    (SparseCore.rows lw hn h p).val = (lw (ix1 p)).toNat :=
  congrArg (fun i => BitVec.toNat (lw i)) (rowMajor_symm_ix1 (n := 128) (Fin.cast hn.symm p) p rfl)

/-! ## The index scratch -/

/-- After the tile's slice of the position array is copied whole into the index scratch, window `r` of the scratch at
    entry `p` holds the position word at row `w / 8`, column `(w % 8) * 1024 + 128 r + p`. -/
theorem scratch_window (d : Dev nD) (L : grid0.Coords) (r : Fin 8)
    (fi : Buf (Elt F) ((iV).view.loc (V d (cV L) (jV L)))) (fs : Buf (Elt F) ((sV).view.loc (V d (cV L) (jV L))))
    (p : Fin 128) (A : Fin 4) (B : Fin 8192) (hA : A.val = (2 * (L 1).val + (L 0).val) / 8)
    (hB : B.val = ((2 * (L 1).val + (L 0).val) % 8) * 1024 + (128 * r.val + p.val)) :
    (idxWin r).view.read (Elt F) (View.write (Elt F) (sV).view fs (ReadAs.same.apply ((iRowK L).view.read (Elt F) fi)) Finset.univ) (ix1 p)
      = fi (ix2 A B) := by
  have hq : 128 * r.val + p.val < 1024 := by have := r.isLt; have := p.isLt; omega
  have o0 : k0_off1 L 0 = (2 * (L 1).val + (L 0).val) / 8 := by rw [k0_off1_eq L]; rfl
  have o1 : k0_off1 L 1 = ((2 * (L 1).val + (L 0).val) % 8) * 1024 := by rw [k0_off1_eq L]; rfl
  show (sV).view.read (Elt F) (View.write (Elt F) (sV).view fs _ Finset.univ)
    ((Rect.unit (s := S1024) ![128 * r.val] S128.size _).emb (ix1 p)) = _
  rw [View.read_write_univ, ReadAs.apply_same, unit1_emb (n := 1024) (m := 128) ![128 * r.val] _ p hq]
  show fi ((Rect.unit (s := S4x8192) (k0_off1 L) S1x1024.size (k0_off1_inb L)).emb
    (Shape.reshapeEquiv squeezes_S1x1024_S1024.numel_eq (ix1 (⟨128 * r.val + p.val, hq⟩ : Fin 1024)))) = _
  rw [reshape_row_ix1]
  refine congrArg fi (funext fun a => Fin.ext ?_)
  match a with
  | ⟨0, _⟩ =>
    show k0_off1 L 0 + 1 * 0 = A.val
    omega
  | ⟨1, _⟩ =>
    show k0_off1 L 1 + 1 * (128 * r.val + p.val) = B.val
    omega

/-! ## The flat lookup at an entry whose row number is known -/

/-- The flat lookup at `x`, when the position word at batch `x₀ / 8192`, position `x₀ % 8192` is below 8192: the
    table at the row that word names, column `x₁`. -/
theorem takeFlat_at {α : Type} (ft : (⟨2, ![8192, 128]⟩ : Shape).Idx → α) (fi : (⟨2, ![4, 8192]⟩ : Shape).Idx → BitVec 32)
    (x : (⟨2, ![32768, 128]⟩ : Shape).Idx) (A : Fin 4) (B : Fin 8192) (c : Fin 128)
    (hA : A.val = (x 0).val / 8192) (hB : B.val = (x 0).val % 8192) (hc : c.val = (x 1).val)
    (hlt : (fi (ix2 A B)).toNat < 8192) :
    Cert.Spec.takeFlat ft fi x = ft (ix2 (⟨(fi (ix2 A B)).toNat, hlt⟩ : Fin 8192) c) := by
  have e : (ix2 (⟨(x 0).val / 8192, Nat.div_lt_of_lt_mul (x 0).isLt⟩ : Fin 4)
      (⟨(x 0).val % 8192, Nat.mod_lt _ (by decide)⟩ : Fin 8192) : (⟨2, ![4, 8192]⟩ : Shape).Idx) = ix2 A B := by
    funext a; apply Fin.ext
    match a with
    | ⟨0, _⟩ => exact hA.symm
    | ⟨1, _⟩ => exact hB.symm
  show ft (ix2 (Cert.Spec.row (fi (ix2 (⟨(x 0).val / 8192, Nat.div_lt_of_lt_mul (x 0).isLt⟩ : Fin 4)
      (⟨(x 0).val % 8192, Nat.mod_lt _ (by decide)⟩ : Fin 8192)))) (x 1)) = _
  rw [e]
  refine congrArg ft (funext fun a => Fin.ext ?_)
  match a with
  | ⟨0, _⟩ => exact Cert.Spec.row_val_of_lt hlt
  | ⟨1, _⟩ => exact hc.symm

/-- Block `r` of the tile's part of the first result, written whole with the row buffer read back after the gather:
    the element under the block's index `(p, c)` is the flat lookup of the cosine table there. -/
theorem win_value_emb_a [FloatOps F] (d : Dev nD) (L : grid0.Coords) (r : Fin 8) (b : Fin 7)
    (fi : Buf (Elt F) ((iV).view.loc (V d (cV L) (jV L)))) (ft : Buf (Elt F) ((cosV).view.loc (V d (cV L) (jV L))))
    (fo : Buf (Elt F) ((o0V).view.loc (V d (cV L) (jV L)))) (fs : Buf (Elt F) ((sV).view.loc (V d (cV L) (jV L))))
    (fr : Buf (Elt F) ((rV).view.loc (V d (cV L) (jV L))))
    (rest : List (View.Piece (Elt F) S128x128 .f32)) (hn : S128.numel = S128x128.size gathers_S8192x128_S128x128.axis')
    (hin : ∀ x, ((idxWin r).view.read (Elt F) (View.write (Elt F) (sV).view fs (ReadAs.same.apply ((iRowK L).view.read (Elt F) fi)) Finset.univ) x).toNat < S8192x128.size gathers_S8192x128_S128x128.axis)
    (p c : Fin 128) :
    ((oWin o0V L r).view.writes (Elt F) fo [⟨Rect.whole _, ReadAs.same.apply ((slot b).view.read (Elt F) ((slot b).view.writes (Elt F) fr
        (⟨Rect.whole S128x128, SparseCore.gatherPayload gathers_S8192x128_S128x128 ((tblAll cosV).view.read (Elt F) ft)
          (SparseCore.rows ((idxWin r).view.read (Elt F) (View.write (Elt F) (sV).view fs (ReadAs.same.apply ((iRowK L).view.read (Elt F) fi)) Finset.univ)) hn hin)⟩ :: rest)))⟩])
        ((Rect.unit (s := S32768x128) (k0_off2 L (BitVec.ofNat 32 r.val)) S128x128.size (k0_off2_inb L r)).emb (ix2 p c))
      = Cert.Spec.takeFlat ft fi
        ((Rect.unit (s := S32768x128) (k0_off2 L (BitVec.ofNat 32 r.val)) S128x128.size (k0_off2_inb L r)).emb (ix2 p c)) := by
  have hL0 := L0_lt L
  have hL1 := L1_lt L
  have hr := r.isLt
  have hp := p.isLt
  have q0 : k0_off2 L (BitVec.ofNat 32 r.val) 0 = 2048 * (L 1).val + 1024 * (L 0).val + 128 * r.val := by
    rw [k0_off2_eq L r]; rfl
  have q1 : k0_off2 L (BitVec.ofNat 32 r.val) 1 = 0 := by rw [k0_off2_eq L r]; rfl
  have hA : (2048 * (L 1).val + 1024 * (L 0).val + 128 * r.val + p.val) / 8192 < 4 := by omega
  have hB : (2048 * (L 1).val + 1024 * (L 0).val + 128 * r.val + p.val) % 8192 < 8192 := Nat.mod_lt _ (by decide)
  have hw := scratch_window d L r fi fs p ⟨_, hA⟩ ⟨_, hB⟩ (by show _ / 8192 = _ / 8; omega) (by show _ % 8192 = _; omega)
  have hlt := hin (ix1 p)
  rw [hw] at hlt
  refine (writes_whole_block_apply (Val := Elt F) main_v0_0_scv
    (Rect.unit (s := S32768x128) (k0_off2 L (BitVec.ofNat 32 r.val)) S128x128.size (k0_off2_inb L r)) fo _ (ix2 p c)).trans ?_
  rw [ReadAs.apply_same, read_writes_whole_head,
    takeFlat_at ft fi _ ⟨_, hA⟩ ⟨_, hB⟩ c
      (by show (2048 * (L 1).val + 1024 * (L 0).val + 128 * r.val + p.val) / 8192 = (k0_off2 L (BitVec.ofNat 32 r.val) 0 + 1 * p.val) / 8192; rw [q0, Nat.one_mul])
      (by show (2048 * (L 1).val + 1024 * (L 0).val + 128 * r.val + p.val) % 8192 = (k0_off2 L (BitVec.ofNat 32 r.val) 0 + 1 * p.val) % 8192; rw [q0, Nat.one_mul])
      (by show c.val = k0_off2 L (BitVec.ofNat 32 r.val) 1 + 1 * c.val; omega) hlt]
  show (tblAll cosV).view.read (Elt F) ft (gathers_S8192x128_S128x128.idx _ (ix2 p c)) = _
  rw [gather_idx]
  show ft ((Rect.unit (s := S8192x128) ![0, 0] S8192x128.size inb_S8192x128_S8192x128_0_0).emb (ix2 _ c)) = _
  refine congrArg ft (funext fun a => Fin.ext ?_)
  match a with
  | ⟨0, _⟩ =>
    show 0 + 1 * (SparseCore.rows _ hn hin p).val = (fi (ix2 _ _)).toNat
    rw [rows_val, hw]
    omega
  | ⟨1, _⟩ =>
    show 0 + 1 * c.val = c.val
    omega

/-- The same at every element of the block: an element of the block is under the index `(x₀ - off₀, x₁ - off₁)`. -/
theorem win_value_a [FloatOps F] (d : Dev nD) (L : grid0.Coords) (r : Fin 8) (b : Fin 7)
    (fi : Buf (Elt F) ((iV).view.loc (V d (cV L) (jV L)))) (ft : Buf (Elt F) ((cosV).view.loc (V d (cV L) (jV L))))
    (fo : Buf (Elt F) ((o0V).view.loc (V d (cV L) (jV L)))) (fs : Buf (Elt F) ((sV).view.loc (V d (cV L) (jV L))))
    (fr : Buf (Elt F) ((rV).view.loc (V d (cV L) (jV L))))
    (rest : List (View.Piece (Elt F) S128x128 .f32)) (hn : S128.numel = S128x128.size gathers_S8192x128_S128x128.axis')
    (hin : ∀ x, ((idxWin r).view.read (Elt F) (View.write (Elt F) (sV).view fs (ReadAs.same.apply ((iRowK L).view.read (Elt F) fi)) Finset.univ) x).toNat < S8192x128.size gathers_S8192x128_S128x128.axis) :
    ∀ x ∈ (oWin o0V L r).view.set,
      ((oWin o0V L r).view.writes (Elt F) fo [⟨Rect.whole _, ReadAs.same.apply ((slot b).view.read (Elt F) ((slot b).view.writes (Elt F) fr
        (⟨Rect.whole S128x128, SparseCore.gatherPayload gathers_S8192x128_S128x128 ((tblAll cosV).view.read (Elt F) ft)
          (SparseCore.rows ((idxWin r).view.read (Elt F) (View.write (Elt F) (sV).view fs (ReadAs.same.apply ((iRowK L).view.read (Elt F) fi)) Finset.univ)) hn hin)⟩ :: rest)))⟩]) x
      = (Cert.Spec.takeFlat ft fi : Buf (Elt F) ((o0V).view.loc (V d (cV L) (jV L)))) x := by
  intro x hx
  have hx' : x ∈ (Rect.unit (s := S32768x128) (k0_off2 L (BitVec.ofNat 32 r.val)) S128x128.size (k0_off2_inb L r)).set :=
    (View.set_slice_whole main_v0_0_scv _) ▸ hx
  have hb := Rect.mem_set_unit.mp hx'
  have h0 := hb 0
  have h1 := hb 1
  have e : x = (Rect.unit (s := S32768x128) (k0_off2 L (BitVec.ofNat 32 r.val)) S128x128.size (k0_off2_inb L r)).emb
      (ix2 (⟨(x 0).val - k0_off2 L (BitVec.ofNat 32 r.val) 0, by
          have : (x 0).val < k0_off2 L (BitVec.ofNat 32 r.val) 0 + 128 := h0.2
          omega⟩ : Fin 128)
        (⟨(x 1).val - k0_off2 L (BitVec.ofNat 32 r.val) 1, by
          have : (x 1).val < k0_off2 L (BitVec.ofNat 32 r.val) 1 + 128 := h1.2
          omega⟩ : Fin 128)) := by
    funext a; apply Fin.ext
    match a with
    | ⟨0, _⟩ =>
      show (x 0).val = k0_off2 L (BitVec.ofNat 32 r.val) 0 + 1 * ((x 0).val - k0_off2 L (BitVec.ofNat 32 r.val) 0)
      have : k0_off2 L (BitVec.ofNat 32 r.val) 0 ≤ (x 0).val := h0.1
      omega
    | ⟨1, _⟩ =>
      show (x 1).val = k0_off2 L (BitVec.ofNat 32 r.val) 1 + 1 * ((x 1).val - k0_off2 L (BitVec.ofNat 32 r.val) 1)
      have : k0_off2 L (BitVec.ofNat 32 r.val) 1 ≤ (x 1).val := h1.1
      omega
  rw [e]
  exact win_value_emb_a d L r b fi ft fo fs fr rest hn hin _ _

/-- Block `r` of the tile's part of the second result: the flat lookup of the sine table. -/
theorem win_value_emb_b [FloatOps F] (d : Dev nD) (L : grid0.Coords) (r : Fin 8) (b : Fin 7)
    (fi : Buf (Elt F) ((iV).view.loc (V d (cV L) (jV L)))) (ft : Buf (Elt F) ((sinV).view.loc (V d (cV L) (jV L))))
    (fo : Buf (Elt F) ((o1V).view.loc (V d (cV L) (jV L)))) (fs : Buf (Elt F) ((sV).view.loc (V d (cV L) (jV L))))
    (fr : Buf (Elt F) ((rV).view.loc (V d (cV L) (jV L))))
    (rest : List (View.Piece (Elt F) S128x128 .f32)) (hn : S128.numel = S128x128.size gathers_S8192x128_S128x128.axis')
    (hin : ∀ x, ((idxWin r).view.read (Elt F) (View.write (Elt F) (sV).view fs (ReadAs.same.apply ((iRowK L).view.read (Elt F) fi)) Finset.univ) x).toNat < S8192x128.size gathers_S8192x128_S128x128.axis)
    (p c : Fin 128) :
    ((oWin o1V L r).view.writes (Elt F) fo [⟨Rect.whole _, ReadAs.same.apply ((slot b).view.read (Elt F) ((slot b).view.writes (Elt F) fr
        (⟨Rect.whole S128x128, SparseCore.gatherPayload gathers_S8192x128_S128x128 ((tblAll sinV).view.read (Elt F) ft)
          (SparseCore.rows ((idxWin r).view.read (Elt F) (View.write (Elt F) (sV).view fs (ReadAs.same.apply ((iRowK L).view.read (Elt F) fi)) Finset.univ)) hn hin)⟩ :: rest)))⟩])
        ((Rect.unit (s := S32768x128) (k0_off2 L (BitVec.ofNat 32 r.val)) S128x128.size (k0_off2_inb L r)).emb (ix2 p c))
      = Cert.Spec.takeFlat ft fi
        ((Rect.unit (s := S32768x128) (k0_off2 L (BitVec.ofNat 32 r.val)) S128x128.size (k0_off2_inb L r)).emb (ix2 p c)) := by
  have hL0 := L0_lt L
  have hL1 := L1_lt L
  have hr := r.isLt
  have hp := p.isLt
  have q0 : k0_off2 L (BitVec.ofNat 32 r.val) 0 = 2048 * (L 1).val + 1024 * (L 0).val + 128 * r.val := by
    rw [k0_off2_eq L r]; rfl
  have q1 : k0_off2 L (BitVec.ofNat 32 r.val) 1 = 0 := by rw [k0_off2_eq L r]; rfl
  have hA : (2048 * (L 1).val + 1024 * (L 0).val + 128 * r.val + p.val) / 8192 < 4 := by omega
  have hB : (2048 * (L 1).val + 1024 * (L 0).val + 128 * r.val + p.val) % 8192 < 8192 := Nat.mod_lt _ (by decide)
  have hw := scratch_window d L r fi fs p ⟨_, hA⟩ ⟨_, hB⟩ (by show _ / 8192 = _ / 8; omega) (by show _ % 8192 = _; omega)
  have hlt := hin (ix1 p)
  rw [hw] at hlt
  refine (writes_whole_block_apply (Val := Elt F) main_v0_1_scv
    (Rect.unit (s := S32768x128) (k0_off2 L (BitVec.ofNat 32 r.val)) S128x128.size (k0_off2_inb L r)) fo _ (ix2 p c)).trans ?_
  rw [ReadAs.apply_same, read_writes_whole_head,
    takeFlat_at ft fi _ ⟨_, hA⟩ ⟨_, hB⟩ c
      (by show (2048 * (L 1).val + 1024 * (L 0).val + 128 * r.val + p.val) / 8192 = (k0_off2 L (BitVec.ofNat 32 r.val) 0 + 1 * p.val) / 8192; rw [q0, Nat.one_mul])
      (by show (2048 * (L 1).val + 1024 * (L 0).val + 128 * r.val + p.val) % 8192 = (k0_off2 L (BitVec.ofNat 32 r.val) 0 + 1 * p.val) % 8192; rw [q0, Nat.one_mul])
      (by show c.val = k0_off2 L (BitVec.ofNat 32 r.val) 1 + 1 * c.val; omega) hlt]
  show (tblAll sinV).view.read (Elt F) ft (gathers_S8192x128_S128x128.idx _ (ix2 p c)) = _
  rw [gather_idx]
  show ft ((Rect.unit (s := S8192x128) ![0, 0] S8192x128.size inb_S8192x128_S8192x128_0_0).emb (ix2 _ c)) = _
  refine congrArg ft (funext fun a => Fin.ext ?_)
  match a with
  | ⟨0, _⟩ =>
    show 0 + 1 * (SparseCore.rows _ hn hin p).val = (fi (ix2 _ _)).toNat
    rw [rows_val, hw]
    omega
  | ⟨1, _⟩ =>
    show 0 + 1 * c.val = c.val
    omega

/-- The same at every element of the block. -/
theorem win_value_b [FloatOps F] (d : Dev nD) (L : grid0.Coords) (r : Fin 8) (b : Fin 7)
    (fi : Buf (Elt F) ((iV).view.loc (V d (cV L) (jV L)))) (ft : Buf (Elt F) ((sinV).view.loc (V d (cV L) (jV L))))
    (fo : Buf (Elt F) ((o1V).view.loc (V d (cV L) (jV L)))) (fs : Buf (Elt F) ((sV).view.loc (V d (cV L) (jV L))))
    (fr : Buf (Elt F) ((rV).view.loc (V d (cV L) (jV L))))
    (rest : List (View.Piece (Elt F) S128x128 .f32)) (hn : S128.numel = S128x128.size gathers_S8192x128_S128x128.axis')
    (hin : ∀ x, ((idxWin r).view.read (Elt F) (View.write (Elt F) (sV).view fs (ReadAs.same.apply ((iRowK L).view.read (Elt F) fi)) Finset.univ) x).toNat < S8192x128.size gathers_S8192x128_S128x128.axis) :
    ∀ x ∈ (oWin o1V L r).view.set,
      ((oWin o1V L r).view.writes (Elt F) fo [⟨Rect.whole _, ReadAs.same.apply ((slot b).view.read (Elt F) ((slot b).view.writes (Elt F) fr
        (⟨Rect.whole S128x128, SparseCore.gatherPayload gathers_S8192x128_S128x128 ((tblAll sinV).view.read (Elt F) ft)
          (SparseCore.rows ((idxWin r).view.read (Elt F) (View.write (Elt F) (sV).view fs (ReadAs.same.apply ((iRowK L).view.read (Elt F) fi)) Finset.univ)) hn hin)⟩ :: rest)))⟩]) x
      = (Cert.Spec.takeFlat ft fi : Buf (Elt F) ((o1V).view.loc (V d (cV L) (jV L)))) x := by
  intro x hx
  have hx' : x ∈ (Rect.unit (s := S32768x128) (k0_off2 L (BitVec.ofNat 32 r.val)) S128x128.size (k0_off2_inb L r)).set :=
    (View.set_slice_whole main_v0_1_scv _) ▸ hx
  have hb := Rect.mem_set_unit.mp hx'
  have h0 := hb 0
  have h1 := hb 1
  have e : x = (Rect.unit (s := S32768x128) (k0_off2 L (BitVec.ofNat 32 r.val)) S128x128.size (k0_off2_inb L r)).emb
      (ix2 (⟨(x 0).val - k0_off2 L (BitVec.ofNat 32 r.val) 0, by
          have : (x 0).val < k0_off2 L (BitVec.ofNat 32 r.val) 0 + 128 := h0.2
          omega⟩ : Fin 128)
        (⟨(x 1).val - k0_off2 L (BitVec.ofNat 32 r.val) 1, by
          have : (x 1).val < k0_off2 L (BitVec.ofNat 32 r.val) 1 + 128 := h1.2
          omega⟩ : Fin 128)) := by
    funext a; apply Fin.ext
    match a with
    | ⟨0, _⟩ =>
      show (x 0).val = k0_off2 L (BitVec.ofNat 32 r.val) 0 + 1 * ((x 0).val - k0_off2 L (BitVec.ofNat 32 r.val) 0)
      have : k0_off2 L (BitVec.ofNat 32 r.val) 0 ≤ (x 0).val := h0.1
      omega
    | ⟨1, _⟩ =>
      show (x 1).val = k0_off2 L (BitVec.ofNat 32 r.val) 1 + 1 * ((x 1).val - k0_off2 L (BitVec.ofNat 32 r.val) 1)
      have : k0_off2 L (BitVec.ofNat 32 r.val) 1 ≤ (x 1).val := h1.1
      omega
  rw [e]
  exact win_value_emb_b d L r b fi ft fo fs fr rest hn hin _ _

end Cert.Proof.Kernel

end
-- ==== Proof.Kernel.Tile.lean ====
/-
  One vector subcore's task, run once at a symbolic grid point.
-/
import proofs.«202526_g11321533792333_week1_w4_118_29_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«202526_g11321533792333_week1_w4_118_29_alg».proof.Proof.Gen.Kernel
import proofs.«202526_g11321533792333_week1_w4_118_29_alg».proof.Proof.Gen.Kernel.Skeleton
import proofs.«202526_g11321533792333_week1_w4_118_29_alg».proof.Proof.Kernel.Setup
import proofs.«202526_g11321533792333_week1_w4_118_29_alg».proof.Proof.Kernel.Geometry
import proofs.«202526_g11321533792333_week1_w4_118_29_alg».proof.Proof.Kernel.WinValue

noncomputable section

namespace Cert.Proof.Kernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]
variable (d : Dev nD) (L : grid0.Coords)

/-! ## The tile's pieces, spelt as the program names them -/

/-- A window of the index scratch at the full share is its two halves. -/
theorem idx_halves (j : Fin 8) (f : Buf (Elt F) ((sV).view.loc (V d (cV L) (jV L)))) :
    ((idxWin j).view.loc (V d (cV L) (jV L)) ↦[(idxWin j).view.set]{fullShare} f : sProp 𝕄)
      ⊣⊢ iprop(((idxWin j).view.loc (V d (cV L) (jV L)) ↦[(idxWin j).view.set]{fullShare.left} f)
          ∗ ((idxWin j).view.loc (V d (cV L) (jV L)) ↦[(idxWin j).view.set]{fullShare.right} f)) :=
  pointsTo_share (PosShare.mem_left_op_right fullShare)

theorem idx_pieces' (f : Buf (Elt F) ((sV).view.loc (V d (cV L) (jV L)))) :
    ((sV).view.loc (V d (cV L) (jV L)) ↦{fullShare} f : sProp 𝕄) ⊣⊢ iprop(((idxWin (0 : Fin 8)).view.loc (V d (cV L) (jV L)) ↦[(idxWin (0 : Fin 8)).view.set]{fullShare.left} f)
      ∗ ((idxWin (0 : Fin 8)).view.loc (V d (cV L) (jV L)) ↦[(idxWin (0 : Fin 8)).view.set]{fullShare.right} f)
      ∗ ((idxWin (1 : Fin 8)).view.loc (V d (cV L) (jV L)) ↦[(idxWin (1 : Fin 8)).view.set]{fullShare.left} f)
      ∗ ((idxWin (1 : Fin 8)).view.loc (V d (cV L) (jV L)) ↦[(idxWin (1 : Fin 8)).view.set]{fullShare.right} f)
      ∗ ((idxWin (2 : Fin 8)).view.loc (V d (cV L) (jV L)) ↦[(idxWin (2 : Fin 8)).view.set]{fullShare.left} f)
      ∗ ((idxWin (2 : Fin 8)).view.loc (V d (cV L) (jV L)) ↦[(idxWin (2 : Fin 8)).view.set]{fullShare.right} f)
      ∗ ((idxWin (3 : Fin 8)).view.loc (V d (cV L) (jV L)) ↦[(idxWin (3 : Fin 8)).view.set]{fullShare.left} f)
      ∗ ((idxWin (3 : Fin 8)).view.loc (V d (cV L) (jV L)) ↦[(idxWin (3 : Fin 8)).view.set]{fullShare.right} f)
      ∗ ((idxWin (4 : Fin 8)).view.loc (V d (cV L) (jV L)) ↦[(idxWin (4 : Fin 8)).view.set]{fullShare.left} f)
      ∗ ((idxWin (4 : Fin 8)).view.loc (V d (cV L) (jV L)) ↦[(idxWin (4 : Fin 8)).view.set]{fullShare.right} f)
      ∗ ((idxWin (5 : Fin 8)).view.loc (V d (cV L) (jV L)) ↦[(idxWin (5 : Fin 8)).view.set]{fullShare.left} f)
      ∗ ((idxWin (5 : Fin 8)).view.loc (V d (cV L) (jV L)) ↦[(idxWin (5 : Fin 8)).view.set]{fullShare.right} f)
      ∗ ((idxWin (6 : Fin 8)).view.loc (V d (cV L) (jV L)) ↦[(idxWin (6 : Fin 8)).view.set]{fullShare.left} f)
      ∗ ((idxWin (6 : Fin 8)).view.loc (V d (cV L) (jV L)) ↦[(idxWin (6 : Fin 8)).view.set]{fullShare.right} f)
      ∗ ((idxWin (7 : Fin 8)).view.loc (V d (cV L) (jV L)) ↦[(idxWin (7 : Fin 8)).view.set]{fullShare.left} f)
      ∗ ((idxWin (7 : Fin 8)).view.loc (V d (cV L) (jV L)) ↦[(idxWin (7 : Fin 8)).view.set]{fullShare.right} f)) := by
  rw [idx_windows d (cV L) (jV L) fullShare f, bigSep_fin8]
  constructor
  · iintro ⟨H0, H1, H2, H3, H4, H5, H6, H7⟩
    ihave K0 := (idx_halves d L 0 f).1 $$ H0
    icases K0 with ⟨A0, B0⟩
    ihave K1 := (idx_halves d L 1 f).1 $$ H1
    icases K1 with ⟨A1, B1⟩
    ihave K2 := (idx_halves d L 2 f).1 $$ H2
    icases K2 with ⟨A2, B2⟩
    ihave K3 := (idx_halves d L 3 f).1 $$ H3
    icases K3 with ⟨A3, B3⟩
    ihave K4 := (idx_halves d L 4 f).1 $$ H4
    icases K4 with ⟨A4, B4⟩
    ihave K5 := (idx_halves d L 5 f).1 $$ H5
    icases K5 with ⟨A5, B5⟩
    ihave K6 := (idx_halves d L 6 f).1 $$ H6
    icases K6 with ⟨A6, B6⟩
    ihave K7 := (idx_halves d L 7 f).1 $$ H7
    icases K7 with ⟨A7, B7⟩
    isplitl [A0]; · iexact A0
    isplitl [B0]; · iexact B0
    isplitl [A1]; · iexact A1
    isplitl [B1]; · iexact B1
    isplitl [A2]; · iexact A2
    isplitl [B2]; · iexact B2
    isplitl [A3]; · iexact A3
    isplitl [B3]; · iexact B3
    isplitl [A4]; · iexact A4
    isplitl [B4]; · iexact B4
    isplitl [A5]; · iexact A5
    isplitl [B5]; · iexact B5
    isplitl [A6]; · iexact A6
    isplitl [B6]; · iexact B6
    isplitl [A7]; · iexact A7
    iexact B7
  · iintro ⟨A0, B0, A1, B1, A2, B2, A3, B3, A4, B4, A5, B5, A6, B6, A7, B7⟩
    ihave H0 := (idx_halves d L 0 f).2 $$ [A0 B0]
    · isplitl [A0] <;> iassumption
    ihave H1 := (idx_halves d L 1 f).2 $$ [A1 B1]
    · isplitl [A1] <;> iassumption
    ihave H2 := (idx_halves d L 2 f).2 $$ [A2 B2]
    · isplitl [A2] <;> iassumption
    ihave H3 := (idx_halves d L 3 f).2 $$ [A3 B3]
    · isplitl [A3] <;> iassumption
    ihave H4 := (idx_halves d L 4 f).2 $$ [A4 B4]
    · isplitl [A4] <;> iassumption
    ihave H5 := (idx_halves d L 5 f).2 $$ [A5 B5]
    · isplitl [A5] <;> iassumption
    ihave H6 := (idx_halves d L 6 f).2 $$ [A6 B6]
    · isplitl [A6] <;> iassumption
    ihave H7 := (idx_halves d L 7 f).2 $$ [A7 B7]
    · isplitl [A7] <;> iassumption
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The index scratch held whole is its eight windows, each held as two halves of the share (two gathers, one per table,
    read each window at the same time). -/
theorem idx_pieces (f : Buf (Elt F) ((sV).view.loc (V d (cV L) (jV L)))) :
    ((sV).view.loc (V d (cV L) (jV L)) ↦{fullShare} f : sProp 𝕄) ⊣⊢ iprop(((sV.slice (Rect.unit (s := S1024) ![0] S128.size inb_S1024_S128_0) (fun _ => rfl)).view.loc (V d (cV L) (jV L)) ↦[(sV.slice (Rect.unit (s := S1024) ![0] S128.size inb_S1024_S128_0) (fun _ => rfl)).view.set]{fullShare.left} f)
      ∗ ((sV.slice (Rect.unit (s := S1024) ![0] S128.size inb_S1024_S128_0) (fun _ => rfl)).view.loc (V d (cV L) (jV L)) ↦[(sV.slice (Rect.unit (s := S1024) ![0] S128.size inb_S1024_S128_0) (fun _ => rfl)).view.set]{fullShare.right} f)
      ∗ ((sV.slice (Rect.unit (s := S1024) ![128] S128.size inb_S1024_S128_128) (fun _ => rfl)).view.loc (V d (cV L) (jV L)) ↦[(sV.slice (Rect.unit (s := S1024) ![128] S128.size inb_S1024_S128_128) (fun _ => rfl)).view.set]{fullShare.left} f)
      ∗ ((sV.slice (Rect.unit (s := S1024) ![128] S128.size inb_S1024_S128_128) (fun _ => rfl)).view.loc (V d (cV L) (jV L)) ↦[(sV.slice (Rect.unit (s := S1024) ![128] S128.size inb_S1024_S128_128) (fun _ => rfl)).view.set]{fullShare.right} f)
      ∗ ((sV.slice (Rect.unit (s := S1024) ![256] S128.size inb_S1024_S128_256) (fun _ => rfl)).view.loc (V d (cV L) (jV L)) ↦[(sV.slice (Rect.unit (s := S1024) ![256] S128.size inb_S1024_S128_256) (fun _ => rfl)).view.set]{fullShare.left} f)
      ∗ ((sV.slice (Rect.unit (s := S1024) ![256] S128.size inb_S1024_S128_256) (fun _ => rfl)).view.loc (V d (cV L) (jV L)) ↦[(sV.slice (Rect.unit (s := S1024) ![256] S128.size inb_S1024_S128_256) (fun _ => rfl)).view.set]{fullShare.right} f)
      ∗ ((sV.slice (Rect.unit (s := S1024) ![384] S128.size inb_S1024_S128_384) (fun _ => rfl)).view.loc (V d (cV L) (jV L)) ↦[(sV.slice (Rect.unit (s := S1024) ![384] S128.size inb_S1024_S128_384) (fun _ => rfl)).view.set]{fullShare.left} f)
      ∗ ((sV.slice (Rect.unit (s := S1024) ![384] S128.size inb_S1024_S128_384) (fun _ => rfl)).view.loc (V d (cV L) (jV L)) ↦[(sV.slice (Rect.unit (s := S1024) ![384] S128.size inb_S1024_S128_384) (fun _ => rfl)).view.set]{fullShare.right} f)
      ∗ ((sV.slice (Rect.unit (s := S1024) ![512] S128.size inb_S1024_S128_512) (fun _ => rfl)).view.loc (V d (cV L) (jV L)) ↦[(sV.slice (Rect.unit (s := S1024) ![512] S128.size inb_S1024_S128_512) (fun _ => rfl)).view.set]{fullShare.left} f)
      ∗ ((sV.slice (Rect.unit (s := S1024) ![512] S128.size inb_S1024_S128_512) (fun _ => rfl)).view.loc (V d (cV L) (jV L)) ↦[(sV.slice (Rect.unit (s := S1024) ![512] S128.size inb_S1024_S128_512) (fun _ => rfl)).view.set]{fullShare.right} f)
      ∗ ((sV.slice (Rect.unit (s := S1024) ![640] S128.size inb_S1024_S128_640) (fun _ => rfl)).view.loc (V d (cV L) (jV L)) ↦[(sV.slice (Rect.unit (s := S1024) ![640] S128.size inb_S1024_S128_640) (fun _ => rfl)).view.set]{fullShare.left} f)
      ∗ ((sV.slice (Rect.unit (s := S1024) ![640] S128.size inb_S1024_S128_640) (fun _ => rfl)).view.loc (V d (cV L) (jV L)) ↦[(sV.slice (Rect.unit (s := S1024) ![640] S128.size inb_S1024_S128_640) (fun _ => rfl)).view.set]{fullShare.right} f)
      ∗ ((sV.slice (Rect.unit (s := S1024) ![768] S128.size inb_S1024_S128_768) (fun _ => rfl)).view.loc (V d (cV L) (jV L)) ↦[(sV.slice (Rect.unit (s := S1024) ![768] S128.size inb_S1024_S128_768) (fun _ => rfl)).view.set]{fullShare.left} f)
      ∗ ((sV.slice (Rect.unit (s := S1024) ![768] S128.size inb_S1024_S128_768) (fun _ => rfl)).view.loc (V d (cV L) (jV L)) ↦[(sV.slice (Rect.unit (s := S1024) ![768] S128.size inb_S1024_S128_768) (fun _ => rfl)).view.set]{fullShare.right} f)
      ∗ ((sV.slice (Rect.unit (s := S1024) ![896] S128.size inb_S1024_S128_896) (fun _ => rfl)).view.loc (V d (cV L) (jV L)) ↦[(sV.slice (Rect.unit (s := S1024) ![896] S128.size inb_S1024_S128_896) (fun _ => rfl)).view.set]{fullShare.left} f)
      ∗ ((sV.slice (Rect.unit (s := S1024) ![896] S128.size inb_S1024_S128_896) (fun _ => rfl)).view.loc (V d (cV L) (jV L)) ↦[(sV.slice (Rect.unit (s := S1024) ![896] S128.size inb_S1024_S128_896) (fun _ => rfl)).view.set]{fullShare.right} f)) :=
  idx_pieces' d L f

/-- The rows scratch held whole is its seven row buffers. -/
theorem rows_pieces (f : Buf (Elt F) ((rV).view.loc (V d (cV L) (jV L)))) :
    ((rV).view.loc (V d (cV L) (jV L)) ↦{fullShare} f : sProp 𝕄) ⊢ iprop((((rV.slice (Rect.unit (s := S7x128x128) ![0, 0, 0] S1x128x128.size inb_S7x128x128_S1x128x128_0_0_0) (fun _ => rfl)).squeeze S128x128 squeezes_S1x128x128_S128x128).view.loc (V d (cV L) (jV L)) ↦[((rV.slice (Rect.unit (s := S7x128x128) ![0, 0, 0] S1x128x128.size inb_S7x128x128_S1x128x128_0_0_0) (fun _ => rfl)).squeeze S128x128 squeezes_S1x128x128_S128x128).view.set]{fullShare} f)
      ∗ (((rV.slice (Rect.unit (s := S7x128x128) ![1, 0, 0] S1x128x128.size inb_S7x128x128_S1x128x128_1_0_0) (fun _ => rfl)).squeeze S128x128 squeezes_S1x128x128_S128x128).view.loc (V d (cV L) (jV L)) ↦[((rV.slice (Rect.unit (s := S7x128x128) ![1, 0, 0] S1x128x128.size inb_S7x128x128_S1x128x128_1_0_0) (fun _ => rfl)).squeeze S128x128 squeezes_S1x128x128_S128x128).view.set]{fullShare} f)
      ∗ (((rV.slice (Rect.unit (s := S7x128x128) ![2, 0, 0] S1x128x128.size inb_S7x128x128_S1x128x128_2_0_0) (fun _ => rfl)).squeeze S128x128 squeezes_S1x128x128_S128x128).view.loc (V d (cV L) (jV L)) ↦[((rV.slice (Rect.unit (s := S7x128x128) ![2, 0, 0] S1x128x128.size inb_S7x128x128_S1x128x128_2_0_0) (fun _ => rfl)).squeeze S128x128 squeezes_S1x128x128_S128x128).view.set]{fullShare} f)
      ∗ (((rV.slice (Rect.unit (s := S7x128x128) ![3, 0, 0] S1x128x128.size inb_S7x128x128_S1x128x128_3_0_0) (fun _ => rfl)).squeeze S128x128 squeezes_S1x128x128_S128x128).view.loc (V d (cV L) (jV L)) ↦[((rV.slice (Rect.unit (s := S7x128x128) ![3, 0, 0] S1x128x128.size inb_S7x128x128_S1x128x128_3_0_0) (fun _ => rfl)).squeeze S128x128 squeezes_S1x128x128_S128x128).view.set]{fullShare} f)
      ∗ (((rV.slice (Rect.unit (s := S7x128x128) ![4, 0, 0] S1x128x128.size inb_S7x128x128_S1x128x128_4_0_0) (fun _ => rfl)).squeeze S128x128 squeezes_S1x128x128_S128x128).view.loc (V d (cV L) (jV L)) ↦[((rV.slice (Rect.unit (s := S7x128x128) ![4, 0, 0] S1x128x128.size inb_S7x128x128_S1x128x128_4_0_0) (fun _ => rfl)).squeeze S128x128 squeezes_S1x128x128_S128x128).view.set]{fullShare} f)
      ∗ (((rV.slice (Rect.unit (s := S7x128x128) ![5, 0, 0] S1x128x128.size inb_S7x128x128_S1x128x128_5_0_0) (fun _ => rfl)).squeeze S128x128 squeezes_S1x128x128_S128x128).view.loc (V d (cV L) (jV L)) ↦[((rV.slice (Rect.unit (s := S7x128x128) ![5, 0, 0] S1x128x128.size inb_S7x128x128_S1x128x128_5_0_0) (fun _ => rfl)).squeeze S128x128 squeezes_S1x128x128_S128x128).view.set]{fullShare} f)
      ∗ (((rV.slice (Rect.unit (s := S7x128x128) ![6, 0, 0] S1x128x128.size inb_S7x128x128_S1x128x128_6_0_0) (fun _ => rfl)).squeeze S128x128 squeezes_S1x128x128_S128x128).view.loc (V d (cV L) (jV L)) ↦[((rV.slice (Rect.unit (s := S7x128x128) ![6, 0, 0] S1x128x128.size inb_S7x128x128_S1x128x128_6_0_0) (fun _ => rfl)).squeeze S128x128 squeezes_S1x128x128_S128x128).view.set]{fullShare} f)) := by
  rw [slots_split d (cV L) (jV L) fullShare f, bigSep_fin7]; exact BI.Entails.refl _

/-- The seven row buffers, whatever each holds, are the rows scratch held whole at some contents. -/
theorem rows_join7 (g0 g1 g2 g3 g4 g5 g6 : Buf (Elt F) ((rV).view.loc (V d (cV L) (jV L)))) :
    iprop((((rV.slice (Rect.unit (s := S7x128x128) ![0, 0, 0] S1x128x128.size inb_S7x128x128_S1x128x128_0_0_0) (fun _ => rfl)).squeeze S128x128 squeezes_S1x128x128_S128x128).view.loc (V d (cV L) (jV L)) ↦[((rV.slice (Rect.unit (s := S7x128x128) ![0, 0, 0] S1x128x128.size inb_S7x128x128_S1x128x128_0_0_0) (fun _ => rfl)).squeeze S128x128 squeezes_S1x128x128_S128x128).view.set]{fullShare} g0)
      ∗ (((rV.slice (Rect.unit (s := S7x128x128) ![1, 0, 0] S1x128x128.size inb_S7x128x128_S1x128x128_1_0_0) (fun _ => rfl)).squeeze S128x128 squeezes_S1x128x128_S128x128).view.loc (V d (cV L) (jV L)) ↦[((rV.slice (Rect.unit (s := S7x128x128) ![1, 0, 0] S1x128x128.size inb_S7x128x128_S1x128x128_1_0_0) (fun _ => rfl)).squeeze S128x128 squeezes_S1x128x128_S128x128).view.set]{fullShare} g1)
      ∗ (((rV.slice (Rect.unit (s := S7x128x128) ![2, 0, 0] S1x128x128.size inb_S7x128x128_S1x128x128_2_0_0) (fun _ => rfl)).squeeze S128x128 squeezes_S1x128x128_S128x128).view.loc (V d (cV L) (jV L)) ↦[((rV.slice (Rect.unit (s := S7x128x128) ![2, 0, 0] S1x128x128.size inb_S7x128x128_S1x128x128_2_0_0) (fun _ => rfl)).squeeze S128x128 squeezes_S1x128x128_S128x128).view.set]{fullShare} g2)
      ∗ (((rV.slice (Rect.unit (s := S7x128x128) ![3, 0, 0] S1x128x128.size inb_S7x128x128_S1x128x128_3_0_0) (fun _ => rfl)).squeeze S128x128 squeezes_S1x128x128_S128x128).view.loc (V d (cV L) (jV L)) ↦[((rV.slice (Rect.unit (s := S7x128x128) ![3, 0, 0] S1x128x128.size inb_S7x128x128_S1x128x128_3_0_0) (fun _ => rfl)).squeeze S128x128 squeezes_S1x128x128_S128x128).view.set]{fullShare} g3)
      ∗ (((rV.slice (Rect.unit (s := S7x128x128) ![4, 0, 0] S1x128x128.size inb_S7x128x128_S1x128x128_4_0_0) (fun _ => rfl)).squeeze S128x128 squeezes_S1x128x128_S128x128).view.loc (V d (cV L) (jV L)) ↦[((rV.slice (Rect.unit (s := S7x128x128) ![4, 0, 0] S1x128x128.size inb_S7x128x128_S1x128x128_4_0_0) (fun _ => rfl)).squeeze S128x128 squeezes_S1x128x128_S128x128).view.set]{fullShare} g4)
      ∗ (((rV.slice (Rect.unit (s := S7x128x128) ![5, 0, 0] S1x128x128.size inb_S7x128x128_S1x128x128_5_0_0) (fun _ => rfl)).squeeze S128x128 squeezes_S1x128x128_S128x128).view.loc (V d (cV L) (jV L)) ↦[((rV.slice (Rect.unit (s := S7x128x128) ![5, 0, 0] S1x128x128.size inb_S7x128x128_S1x128x128_5_0_0) (fun _ => rfl)).squeeze S128x128 squeezes_S1x128x128_S128x128).view.set]{fullShare} g5)
      ∗ (((rV.slice (Rect.unit (s := S7x128x128) ![6, 0, 0] S1x128x128.size inb_S7x128x128_S1x128x128_6_0_0) (fun _ => rfl)).squeeze S128x128 squeezes_S1x128x128_S128x128).view.loc (V d (cV L) (jV L)) ↦[((rV.slice (Rect.unit (s := S7x128x128) ![6, 0, 0] S1x128x128.size inb_S7x128x128_S1x128x128_6_0_0) (fun _ => rfl)).squeeze S128x128 squeezes_S1x128x128_S128x128).view.set]{fullShare} g6)) ⊢ (iprop(∃ g, (rV).view.loc (V d (cV L) (jV L)) ↦{fullShare} g) : sProp 𝕄) := by
  refine BI.Entails.trans ?_ (slots_join d (cV L) (jV L) (fun b : Fin 7 => match b with | 0 => g0 | 1 => g1 | 2 => g2 | 3 => g3 | 4 => g4 | 5 => g5 | 6 => g6))
  rw [bigSep_fin7]; exact BI.Entails.refl _

/-- Every word the index scratch holds after the tile's copy is a row of the tables: the copy's payload is a row of the
    position array, whose words are below 8192. -/
theorem hin_gen (fi : Buf (Elt F) ((iV).view.loc (V d (cV L) (jV L)))) (hpos : ∀ j, (fi j).toNat < 8192)
    (fs : Buf (Elt F) ((sV).view.loc (V d (cV L) (jV L))))
    (off : Fin 1 → Nat) (h : ∀ a, off a + S128.size a ≤ S1024.size a) (h' : ∀ a, (Rect.unit (s := S1024) off S128.size h).stride a = 1)
    (x : (Rect.unit (s := S1024) off S128.size h).shape.Idx) :
    ((sV.slice (Rect.unit (s := S1024) off S128.size h) h').view.read (Elt F)
      (View.write (Elt F) sV.view fs (ReadAs.same.apply ((iRowK L).view.read (Elt F) fi)) Finset.univ) x).toNat < 8192 := by
  rw [View.write_whole_univ]
  have key : ∀ (g : S1024.Idx → Elt F .i32), (∀ y, (g y).toNat < 8192) →
      ((sV.slice (Rect.unit (s := S1024) off S128.size h) h').view.read (Elt F) g x).toNat < 8192 := fun g hg => by
    rw [show (sV.slice (Rect.unit (s := S1024) off S128.size h) h').view.read (Elt F) g x
        = g ((sV.slice (Rect.unit (s := S1024) off S128.size h) h').view.emb x) from (View.read_apply _ _).trans (cast_eq _ _)]
    exact hg _
  refine key _ fun y => ?_
  show ((iRowK L).view.read (Elt F) fi y).toNat < 8192
  rw [show (iRowK L).view.read (Elt F) fi y = fi ((iRowK L).view.emb y) from (View.read_apply _ _).trans (cast_eq _ _)]
  exact hpos _

/-! ## The tile's task -/

/-- What the task starts from: a share of the position array and of each table (the tables' as one read token per gather
    semaphore), its eight blocks of each result array, its two scratch buffers, its semaphores at zero. -/
def tilePre (O : CellTallies nD τ sig (HIx 1)) (W : Waits sig (HIx 1))
    (qi qc qs : PosShare TreeShare)
    (fi : Buf (Elt F) ((iV).view.loc (V d (cV L) (jV L)))) (fc : Buf (Elt F) ((cosV).view.loc (V d (cV L) (jV L))))
    (fsn : Buf (Elt F) ((sinV).view.loc (V d (cV L) (jV L))))
    (fo0 : Buf (Elt F) ((o0V).view.loc (V d (cV L) (jV L)))) (fo1 : Buf (Elt F) ((o1V).view.loc (V d (cV L) (jV L)))) (fs : Buf (Elt F) ((sV).view.loc (V d (cV L) (jV L)))) (fr : Buf (Elt F) ((rV).view.loc (V d (cV L) (jV L)))) : sProp 𝕄 :=
    iprop(levAts (K (F := F)).L (K (F := F)).lev
        ∗ ((iV).view.loc (V d (cV L) (jV L)) ↦{qi} fi)
        ∗ ((cosV).view.loc (V d (cV L) (jV L)) ↦{Transfers.shareTok qc 7 ⟨0, by decide⟩} fc)
        ∗ ((cosV).view.loc (V d (cV L) (jV L)) ↦{Transfers.shareTok qc 7 ⟨1, by decide⟩} fc)
        ∗ ((cosV).view.loc (V d (cV L) (jV L)) ↦{Transfers.shareTok qc 7 ⟨2, by decide⟩} fc)
        ∗ ((cosV).view.loc (V d (cV L) (jV L)) ↦{Transfers.shareTok qc 7 ⟨3, by decide⟩} fc)
        ∗ ((cosV).view.loc (V d (cV L) (jV L)) ↦{Transfers.shareTok qc 7 ⟨4, by decide⟩} fc)
        ∗ ((cosV).view.loc (V d (cV L) (jV L)) ↦{Transfers.shareTok qc 7 ⟨5, by decide⟩} fc)
        ∗ ((cosV).view.loc (V d (cV L) (jV L)) ↦{Transfers.shareTok qc 7 ⟨6, by decide⟩} fc)
        ∗ ((sinV).view.loc (V d (cV L) (jV L)) ↦{Transfers.shareTok qs 7 ⟨0, by decide⟩} fsn)
        ∗ ((sinV).view.loc (V d (cV L) (jV L)) ↦{Transfers.shareTok qs 7 ⟨1, by decide⟩} fsn)
        ∗ ((sinV).view.loc (V d (cV L) (jV L)) ↦{Transfers.shareTok qs 7 ⟨2, by decide⟩} fsn)
        ∗ ((sinV).view.loc (V d (cV L) (jV L)) ↦{Transfers.shareTok qs 7 ⟨3, by decide⟩} fsn)
        ∗ ((sinV).view.loc (V d (cV L) (jV L)) ↦{Transfers.shareTok qs 7 ⟨4, by decide⟩} fsn)
        ∗ ((sinV).view.loc (V d (cV L) (jV L)) ↦{Transfers.shareTok qs 7 ⟨5, by decide⟩} fsn)
        ∗ ((sinV).view.loc (V d (cV L) (jV L)) ↦{Transfers.shareTok qs 7 ⟨6, by decide⟩} fsn)
        ∗ ((o0V.slice (Rect.unit (s := S32768x128) (k0_off2 L 0#32) S128x128.size (k0_off2_inb L 0)) (fun _ => rfl)).view.loc (V d (cV L) (jV L)) ↦[(o0V.slice (Rect.unit (s := S32768x128) (k0_off2 L 0#32) S128x128.size (k0_off2_inb L 0)) (fun _ => rfl)).view.set]{fullShare} fo0)
        ∗ ((o0V.slice (Rect.unit (s := S32768x128) (k0_off2 L 1#32) S128x128.size (k0_off2_inb L 1)) (fun _ => rfl)).view.loc (V d (cV L) (jV L)) ↦[(o0V.slice (Rect.unit (s := S32768x128) (k0_off2 L 1#32) S128x128.size (k0_off2_inb L 1)) (fun _ => rfl)).view.set]{fullShare} fo0)
        ∗ ((o0V.slice (Rect.unit (s := S32768x128) (k0_off2 L 2#32) S128x128.size (k0_off2_inb L 2)) (fun _ => rfl)).view.loc (V d (cV L) (jV L)) ↦[(o0V.slice (Rect.unit (s := S32768x128) (k0_off2 L 2#32) S128x128.size (k0_off2_inb L 2)) (fun _ => rfl)).view.set]{fullShare} fo0)
        ∗ ((o0V.slice (Rect.unit (s := S32768x128) (k0_off2 L 3#32) S128x128.size (k0_off2_inb L 3)) (fun _ => rfl)).view.loc (V d (cV L) (jV L)) ↦[(o0V.slice (Rect.unit (s := S32768x128) (k0_off2 L 3#32) S128x128.size (k0_off2_inb L 3)) (fun _ => rfl)).view.set]{fullShare} fo0)
        ∗ ((o0V.slice (Rect.unit (s := S32768x128) (k0_off2 L 4#32) S128x128.size (k0_off2_inb L 4)) (fun _ => rfl)).view.loc (V d (cV L) (jV L)) ↦[(o0V.slice (Rect.unit (s := S32768x128) (k0_off2 L 4#32) S128x128.size (k0_off2_inb L 4)) (fun _ => rfl)).view.set]{fullShare} fo0)
        ∗ ((o0V.slice (Rect.unit (s := S32768x128) (k0_off2 L 5#32) S128x128.size (k0_off2_inb L 5)) (fun _ => rfl)).view.loc (V d (cV L) (jV L)) ↦[(o0V.slice (Rect.unit (s := S32768x128) (k0_off2 L 5#32) S128x128.size (k0_off2_inb L 5)) (fun _ => rfl)).view.set]{fullShare} fo0)
        ∗ ((o0V.slice (Rect.unit (s := S32768x128) (k0_off2 L 6#32) S128x128.size (k0_off2_inb L 6)) (fun _ => rfl)).view.loc (V d (cV L) (jV L)) ↦[(o0V.slice (Rect.unit (s := S32768x128) (k0_off2 L 6#32) S128x128.size (k0_off2_inb L 6)) (fun _ => rfl)).view.set]{fullShare} fo0)
        ∗ ((o0V.slice (Rect.unit (s := S32768x128) (k0_off2 L 7#32) S128x128.size (k0_off2_inb L 7)) (fun _ => rfl)).view.loc (V d (cV L) (jV L)) ↦[(o0V.slice (Rect.unit (s := S32768x128) (k0_off2 L 7#32) S128x128.size (k0_off2_inb L 7)) (fun _ => rfl)).view.set]{fullShare} fo0)
        ∗ ((o1V.slice (Rect.unit (s := S32768x128) (k0_off2 L 0#32) S128x128.size (k0_off2_inb L 0)) (fun _ => rfl)).view.loc (V d (cV L) (jV L)) ↦[(o1V.slice (Rect.unit (s := S32768x128) (k0_off2 L 0#32) S128x128.size (k0_off2_inb L 0)) (fun _ => rfl)).view.set]{fullShare} fo1)
        ∗ ((o1V.slice (Rect.unit (s := S32768x128) (k0_off2 L 1#32) S128x128.size (k0_off2_inb L 1)) (fun _ => rfl)).view.loc (V d (cV L) (jV L)) ↦[(o1V.slice (Rect.unit (s := S32768x128) (k0_off2 L 1#32) S128x128.size (k0_off2_inb L 1)) (fun _ => rfl)).view.set]{fullShare} fo1)
        ∗ ((o1V.slice (Rect.unit (s := S32768x128) (k0_off2 L 2#32) S128x128.size (k0_off2_inb L 2)) (fun _ => rfl)).view.loc (V d (cV L) (jV L)) ↦[(o1V.slice (Rect.unit (s := S32768x128) (k0_off2 L 2#32) S128x128.size (k0_off2_inb L 2)) (fun _ => rfl)).view.set]{fullShare} fo1)
        ∗ ((o1V.slice (Rect.unit (s := S32768x128) (k0_off2 L 3#32) S128x128.size (k0_off2_inb L 3)) (fun _ => rfl)).view.loc (V d (cV L) (jV L)) ↦[(o1V.slice (Rect.unit (s := S32768x128) (k0_off2 L 3#32) S128x128.size (k0_off2_inb L 3)) (fun _ => rfl)).view.set]{fullShare} fo1)
        ∗ ((o1V.slice (Rect.unit (s := S32768x128) (k0_off2 L 4#32) S128x128.size (k0_off2_inb L 4)) (fun _ => rfl)).view.loc (V d (cV L) (jV L)) ↦[(o1V.slice (Rect.unit (s := S32768x128) (k0_off2 L 4#32) S128x128.size (k0_off2_inb L 4)) (fun _ => rfl)).view.set]{fullShare} fo1)
        ∗ ((o1V.slice (Rect.unit (s := S32768x128) (k0_off2 L 5#32) S128x128.size (k0_off2_inb L 5)) (fun _ => rfl)).view.loc (V d (cV L) (jV L)) ↦[(o1V.slice (Rect.unit (s := S32768x128) (k0_off2 L 5#32) S128x128.size (k0_off2_inb L 5)) (fun _ => rfl)).view.set]{fullShare} fo1)
        ∗ ((o1V.slice (Rect.unit (s := S32768x128) (k0_off2 L 6#32) S128x128.size (k0_off2_inb L 6)) (fun _ => rfl)).view.loc (V d (cV L) (jV L)) ↦[(o1V.slice (Rect.unit (s := S32768x128) (k0_off2 L 6#32) S128x128.size (k0_off2_inb L 6)) (fun _ => rfl)).view.set]{fullShare} fo1)
        ∗ ((o1V.slice (Rect.unit (s := S32768x128) (k0_off2 L 7#32) S128x128.size (k0_off2_inb L 7)) (fun _ => rfl)).view.loc (V d (cV L) (jV L)) ↦[(o1V.slice (Rect.unit (s := S32768x128) (k0_off2 L 7#32) S128x128.size (k0_off2_inb L 7)) (fun _ => rfl)).view.set]{fullShare} fo1)
        ∗ ((sV).view.loc (V d (cV L) (jV L)) ↦{fullShare} fs)
        ∗ ((rV).view.loc (V d (cV L) (jV L)) ↦{fullShare} fr)
        ∗ semVal ((V d (cV L) (jV L)), SemLoc.dma (⟨0, by decide⟩ : DmaSem sig)) 0
        ∗ semVal ((V d (cV L) (jV L)), SemLoc.dma (⟨1, by decide⟩ : DmaSem sig)) 0
        ∗ semVal ((V d (cV L) (jV L)), SemLoc.dma (⟨2, by decide⟩ : DmaSem sig)) 0
        ∗ semVal ((V d (cV L) (jV L)), SemLoc.dma (⟨3, by decide⟩ : DmaSem sig)) 0
        ∗ semVal ((V d (cV L) (jV L)), SemLoc.dma (⟨4, by decide⟩ : DmaSem sig)) 0
        ∗ semVal ((V d (cV L) (jV L)), SemLoc.dma (⟨5, by decide⟩ : DmaSem sig)) 0
        ∗ semVal ((V d (cV L) (jV L)), SemLoc.dma (⟨6, by decide⟩ : DmaSem sig)) 0
        ∗ semVal ((V d (cV L) (jV L)), SemLoc.dma (⟨7, by decide⟩ : DmaSem sig)) 0
        ∗ semVal ((V d (cV L) (jV L)), SemLoc.dma (⟨8, by decide⟩ : DmaSem sig)) 0
        ∗ semVal ((V d (cV L) (jV L)), SemLoc.dma (⟨9, by decide⟩ : DmaSem sig)) 0
        ∗ semVal ((V d (cV L) (jV L)), SemLoc.dma (⟨10, by decide⟩ : DmaSem sig)) 0
        ∗ semVal ((V d (cV L) (jV L)), SemLoc.dma (⟨11, by decide⟩ : DmaSem sig)) 0
        ∗ semVal ((V d (cV L) (jV L)), SemLoc.dma (⟨12, by decide⟩ : DmaSem sig)) 0
        ∗ semVal ((V d (cV L) (jV L)), SemLoc.dma (⟨13, by decide⟩ : DmaSem sig)) 0
        ∗ semVal ((V d (cV L) (jV L)), SemLoc.dma (⟨14, by decide⟩ : DmaSem sig)) 0
        ∗ owes (V d (cV L) (jV L)) O W)

/-- What it leaves: the same shares, each block of the results at the looked-up rows, the scratch at some contents. -/
def tilePost (O : CellTallies nD τ sig (HIx 1)) (W : Waits sig (HIx 1))
    (qi qc qs : PosShare TreeShare)
    (fi : Buf (Elt F) ((iV).view.loc (V d (cV L) (jV L)))) (fc : Buf (Elt F) ((cosV).view.loc (V d (cV L) (jV L))))
    (fsn : Buf (Elt F) ((sinV).view.loc (V d (cV L) (jV L))))
    (fo0 : Buf (Elt F) ((o0V).view.loc (V d (cV L) (jV L)))) (fo1 : Buf (Elt F) ((o1V).view.loc (V d (cV L) (jV L)))) : sProp 𝕄 :=
    iprop(((iV).view.loc (V d (cV L) (jV L)) ↦{qi} fi)
        ∗ ((cosV).view.loc (V d (cV L) (jV L)) ↦{Transfers.shareTok qc 7 ⟨0, by decide⟩} fc)
        ∗ ((cosV).view.loc (V d (cV L) (jV L)) ↦{Transfers.shareTok qc 7 ⟨1, by decide⟩} fc)
        ∗ ((cosV).view.loc (V d (cV L) (jV L)) ↦{Transfers.shareTok qc 7 ⟨2, by decide⟩} fc)
        ∗ ((cosV).view.loc (V d (cV L) (jV L)) ↦{Transfers.shareTok qc 7 ⟨3, by decide⟩} fc)
        ∗ ((cosV).view.loc (V d (cV L) (jV L)) ↦{Transfers.shareTok qc 7 ⟨4, by decide⟩} fc)
        ∗ ((cosV).view.loc (V d (cV L) (jV L)) ↦{Transfers.shareTok qc 7 ⟨5, by decide⟩} fc)
        ∗ ((cosV).view.loc (V d (cV L) (jV L)) ↦{Transfers.shareTok qc 7 ⟨6, by decide⟩} fc)
        ∗ ((sinV).view.loc (V d (cV L) (jV L)) ↦{Transfers.shareTok qs 7 ⟨0, by decide⟩} fsn)
        ∗ ((sinV).view.loc (V d (cV L) (jV L)) ↦{Transfers.shareTok qs 7 ⟨1, by decide⟩} fsn)
        ∗ ((sinV).view.loc (V d (cV L) (jV L)) ↦{Transfers.shareTok qs 7 ⟨2, by decide⟩} fsn)
        ∗ ((sinV).view.loc (V d (cV L) (jV L)) ↦{Transfers.shareTok qs 7 ⟨3, by decide⟩} fsn)
        ∗ ((sinV).view.loc (V d (cV L) (jV L)) ↦{Transfers.shareTok qs 7 ⟨4, by decide⟩} fsn)
        ∗ ((sinV).view.loc (V d (cV L) (jV L)) ↦{Transfers.shareTok qs 7 ⟨5, by decide⟩} fsn)
        ∗ ((sinV).view.loc (V d (cV L) (jV L)) ↦{Transfers.shareTok qs 7 ⟨6, by decide⟩} fsn)
        ∗ ((o0V.slice (Rect.unit (s := S32768x128) (k0_off2 L 0#32) S128x128.size (k0_off2_inb L 0)) (fun _ => rfl)).view.loc (V d (cV L) (jV L)) ↦[(o0V.slice (Rect.unit (s := S32768x128) (k0_off2 L 0#32) S128x128.size (k0_off2_inb L 0)) (fun _ => rfl)).view.set]{fullShare} (Cert.Spec.takeFlat fc fi : Buf (Elt F) ((o0V).view.loc (V d (cV L) (jV L)))))
        ∗ ((o0V.slice (Rect.unit (s := S32768x128) (k0_off2 L 1#32) S128x128.size (k0_off2_inb L 1)) (fun _ => rfl)).view.loc (V d (cV L) (jV L)) ↦[(o0V.slice (Rect.unit (s := S32768x128) (k0_off2 L 1#32) S128x128.size (k0_off2_inb L 1)) (fun _ => rfl)).view.set]{fullShare} (Cert.Spec.takeFlat fc fi : Buf (Elt F) ((o0V).view.loc (V d (cV L) (jV L)))))
        ∗ ((o0V.slice (Rect.unit (s := S32768x128) (k0_off2 L 2#32) S128x128.size (k0_off2_inb L 2)) (fun _ => rfl)).view.loc (V d (cV L) (jV L)) ↦[(o0V.slice (Rect.unit (s := S32768x128) (k0_off2 L 2#32) S128x128.size (k0_off2_inb L 2)) (fun _ => rfl)).view.set]{fullShare} (Cert.Spec.takeFlat fc fi : Buf (Elt F) ((o0V).view.loc (V d (cV L) (jV L)))))
        ∗ ((o0V.slice (Rect.unit (s := S32768x128) (k0_off2 L 3#32) S128x128.size (k0_off2_inb L 3)) (fun _ => rfl)).view.loc (V d (cV L) (jV L)) ↦[(o0V.slice (Rect.unit (s := S32768x128) (k0_off2 L 3#32) S128x128.size (k0_off2_inb L 3)) (fun _ => rfl)).view.set]{fullShare} (Cert.Spec.takeFlat fc fi : Buf (Elt F) ((o0V).view.loc (V d (cV L) (jV L)))))
        ∗ ((o0V.slice (Rect.unit (s := S32768x128) (k0_off2 L 4#32) S128x128.size (k0_off2_inb L 4)) (fun _ => rfl)).view.loc (V d (cV L) (jV L)) ↦[(o0V.slice (Rect.unit (s := S32768x128) (k0_off2 L 4#32) S128x128.size (k0_off2_inb L 4)) (fun _ => rfl)).view.set]{fullShare} (Cert.Spec.takeFlat fc fi : Buf (Elt F) ((o0V).view.loc (V d (cV L) (jV L)))))
        ∗ ((o0V.slice (Rect.unit (s := S32768x128) (k0_off2 L 5#32) S128x128.size (k0_off2_inb L 5)) (fun _ => rfl)).view.loc (V d (cV L) (jV L)) ↦[(o0V.slice (Rect.unit (s := S32768x128) (k0_off2 L 5#32) S128x128.size (k0_off2_inb L 5)) (fun _ => rfl)).view.set]{fullShare} (Cert.Spec.takeFlat fc fi : Buf (Elt F) ((o0V).view.loc (V d (cV L) (jV L)))))
        ∗ ((o0V.slice (Rect.unit (s := S32768x128) (k0_off2 L 6#32) S128x128.size (k0_off2_inb L 6)) (fun _ => rfl)).view.loc (V d (cV L) (jV L)) ↦[(o0V.slice (Rect.unit (s := S32768x128) (k0_off2 L 6#32) S128x128.size (k0_off2_inb L 6)) (fun _ => rfl)).view.set]{fullShare} (Cert.Spec.takeFlat fc fi : Buf (Elt F) ((o0V).view.loc (V d (cV L) (jV L)))))
        ∗ ((o0V.slice (Rect.unit (s := S32768x128) (k0_off2 L 7#32) S128x128.size (k0_off2_inb L 7)) (fun _ => rfl)).view.loc (V d (cV L) (jV L)) ↦[(o0V.slice (Rect.unit (s := S32768x128) (k0_off2 L 7#32) S128x128.size (k0_off2_inb L 7)) (fun _ => rfl)).view.set]{fullShare} (Cert.Spec.takeFlat fc fi : Buf (Elt F) ((o0V).view.loc (V d (cV L) (jV L)))))
        ∗ ((o1V.slice (Rect.unit (s := S32768x128) (k0_off2 L 0#32) S128x128.size (k0_off2_inb L 0)) (fun _ => rfl)).view.loc (V d (cV L) (jV L)) ↦[(o1V.slice (Rect.unit (s := S32768x128) (k0_off2 L 0#32) S128x128.size (k0_off2_inb L 0)) (fun _ => rfl)).view.set]{fullShare} (Cert.Spec.takeFlat fsn fi : Buf (Elt F) ((o1V).view.loc (V d (cV L) (jV L)))))
        ∗ ((o1V.slice (Rect.unit (s := S32768x128) (k0_off2 L 1#32) S128x128.size (k0_off2_inb L 1)) (fun _ => rfl)).view.loc (V d (cV L) (jV L)) ↦[(o1V.slice (Rect.unit (s := S32768x128) (k0_off2 L 1#32) S128x128.size (k0_off2_inb L 1)) (fun _ => rfl)).view.set]{fullShare} (Cert.Spec.takeFlat fsn fi : Buf (Elt F) ((o1V).view.loc (V d (cV L) (jV L)))))
        ∗ ((o1V.slice (Rect.unit (s := S32768x128) (k0_off2 L 2#32) S128x128.size (k0_off2_inb L 2)) (fun _ => rfl)).view.loc (V d (cV L) (jV L)) ↦[(o1V.slice (Rect.unit (s := S32768x128) (k0_off2 L 2#32) S128x128.size (k0_off2_inb L 2)) (fun _ => rfl)).view.set]{fullShare} (Cert.Spec.takeFlat fsn fi : Buf (Elt F) ((o1V).view.loc (V d (cV L) (jV L)))))
        ∗ ((o1V.slice (Rect.unit (s := S32768x128) (k0_off2 L 3#32) S128x128.size (k0_off2_inb L 3)) (fun _ => rfl)).view.loc (V d (cV L) (jV L)) ↦[(o1V.slice (Rect.unit (s := S32768x128) (k0_off2 L 3#32) S128x128.size (k0_off2_inb L 3)) (fun _ => rfl)).view.set]{fullShare} (Cert.Spec.takeFlat fsn fi : Buf (Elt F) ((o1V).view.loc (V d (cV L) (jV L)))))
        ∗ ((o1V.slice (Rect.unit (s := S32768x128) (k0_off2 L 4#32) S128x128.size (k0_off2_inb L 4)) (fun _ => rfl)).view.loc (V d (cV L) (jV L)) ↦[(o1V.slice (Rect.unit (s := S32768x128) (k0_off2 L 4#32) S128x128.size (k0_off2_inb L 4)) (fun _ => rfl)).view.set]{fullShare} (Cert.Spec.takeFlat fsn fi : Buf (Elt F) ((o1V).view.loc (V d (cV L) (jV L)))))
        ∗ ((o1V.slice (Rect.unit (s := S32768x128) (k0_off2 L 5#32) S128x128.size (k0_off2_inb L 5)) (fun _ => rfl)).view.loc (V d (cV L) (jV L)) ↦[(o1V.slice (Rect.unit (s := S32768x128) (k0_off2 L 5#32) S128x128.size (k0_off2_inb L 5)) (fun _ => rfl)).view.set]{fullShare} (Cert.Spec.takeFlat fsn fi : Buf (Elt F) ((o1V).view.loc (V d (cV L) (jV L)))))
        ∗ ((o1V.slice (Rect.unit (s := S32768x128) (k0_off2 L 6#32) S128x128.size (k0_off2_inb L 6)) (fun _ => rfl)).view.loc (V d (cV L) (jV L)) ↦[(o1V.slice (Rect.unit (s := S32768x128) (k0_off2 L 6#32) S128x128.size (k0_off2_inb L 6)) (fun _ => rfl)).view.set]{fullShare} (Cert.Spec.takeFlat fsn fi : Buf (Elt F) ((o1V).view.loc (V d (cV L) (jV L)))))
        ∗ ((o1V.slice (Rect.unit (s := S32768x128) (k0_off2 L 7#32) S128x128.size (k0_off2_inb L 7)) (fun _ => rfl)).view.loc (V d (cV L) (jV L)) ↦[(o1V.slice (Rect.unit (s := S32768x128) (k0_off2 L 7#32) S128x128.size (k0_off2_inb L 7)) (fun _ => rfl)).view.set]{fullShare} (Cert.Spec.takeFlat fsn fi : Buf (Elt F) ((o1V).view.loc (V d (cV L) (jV L)))))
        ∗ (∃ f, (sV).view.loc (V d (cV L) (jV L)) ↦{fullShare} f)
        ∗ (∃ f, (rV).view.loc (V d (cV L) (jV L)) ↦{fullShare} f)
        ∗ semVal ((V d (cV L) (jV L)), SemLoc.dma (⟨0, by decide⟩ : DmaSem sig)) 0
        ∗ semVal ((V d (cV L) (jV L)), SemLoc.dma (⟨1, by decide⟩ : DmaSem sig)) 0
        ∗ semVal ((V d (cV L) (jV L)), SemLoc.dma (⟨2, by decide⟩ : DmaSem sig)) 0
        ∗ semVal ((V d (cV L) (jV L)), SemLoc.dma (⟨3, by decide⟩ : DmaSem sig)) 0
        ∗ semVal ((V d (cV L) (jV L)), SemLoc.dma (⟨4, by decide⟩ : DmaSem sig)) 0
        ∗ semVal ((V d (cV L) (jV L)), SemLoc.dma (⟨5, by decide⟩ : DmaSem sig)) 0
        ∗ semVal ((V d (cV L) (jV L)), SemLoc.dma (⟨6, by decide⟩ : DmaSem sig)) 0
        ∗ semVal ((V d (cV L) (jV L)), SemLoc.dma (⟨7, by decide⟩ : DmaSem sig)) 0
        ∗ semVal ((V d (cV L) (jV L)), SemLoc.dma (⟨8, by decide⟩ : DmaSem sig)) 0
        ∗ semVal ((V d (cV L) (jV L)), SemLoc.dma (⟨9, by decide⟩ : DmaSem sig)) 0
        ∗ semVal ((V d (cV L) (jV L)), SemLoc.dma (⟨10, by decide⟩ : DmaSem sig)) 0
        ∗ semVal ((V d (cV L) (jV L)), SemLoc.dma (⟨11, by decide⟩ : DmaSem sig)) 0
        ∗ semVal ((V d (cV L) (jV L)), SemLoc.dma (⟨12, by decide⟩ : DmaSem sig)) 0
        ∗ semVal ((V d (cV L) (jV L)), SemLoc.dma (⟨13, by decide⟩ : DmaSem sig)) 0
        ∗ semVal ((V d (cV L) (jV L)), SemLoc.dma (⟨14, by decide⟩ : DmaSem sig)) 0
        ∗ (∃ W', ⌜∀ p ∈ W', p ∈ W ∨ p.2 = none⌝ ∗ owes (V d (cV L) (jV L)) O W'))

set_option maxHeartbeats 16000000 in
set_option maxRecDepth 65536 in
/-- The task on vector subcore `L`: the copy of its 1024 positions into the index scratch, then sixteen streams
    (eight windows of positions × two tables), each an indirect gather of 128 table rows into a row buffer and a copy of
    that buffer out to its block of the result; at most seven gathers are outstanding, and a row buffer is gathered into
    again only after its copy out has been waited for. -/
theorem tile_run (hF : (K (F := F)).Facts) (O : CellTallies nD τ sig (HIx 1)) (W : Waits sig (HIx 1))
    (qi qc qs : PosShare TreeShare)
    (fi : Buf (Elt F) ((iV).view.loc (V d (cV L) (jV L)))) (fc : Buf (Elt F) ((cosV).view.loc (V d (cV L) (jV L))))
    (fsn : Buf (Elt F) ((sinV).view.loc (V d (cV L) (jV L))))
    (fo0 : Buf (Elt F) ((o0V).view.loc (V d (cV L) (jV L)))) (fo1 : Buf (Elt F) ((o1V).view.loc (V d (cV L) (jV L)))) (fs : Buf (Elt F) ((sV).view.loc (V d (cV L) (jV L)))) (fr : Buf (Elt F) ((rV).view.loc (V d (cV L) (jV L))))
    (hO : ∀ g, O g none = 0) (hpos : ∀ j, (fi j).toNat < 8192) :
    tilePre d L O W qi qc qs fi fc fsn fo0 fo1 fs fr
      ⊢ wp frame (wpE (defs₀ (F := F)) 𝒱₀ (V d (cV L) (jV L)) none) Set.univ
          (cc0_gather_kernel L cosV (Memref.isWhole_whole _) sinV (Memref.isWhole_whole _) iV (Memref.isWhole_whole _)
            o0V (Memref.isWhole_whole _) o1V (Memref.isWhole_whole _) sV (Memref.isWhole_whole _) rV (Memref.isWhole_whole _)
            cc0_scratch2 cc0_scratch3 cc0_scoped0)
          fun _ => tilePost d L O W qi qc qs fi fc fsn fo0 fo1 := by
  simp only [cc0_gather_kernel_eq_skeleton]; unfold cc0_gather_kernel_skel
  delta tilePre tilePost
  iintro ⟨#Hlv, Hi, Hc0, Hc1, Hc2, Hc3, Hc4, Hc5, Hc6, Hn0, Hn1, Hn2, Hn3, Hn4, Hn5, Hn6, Hoa0, Hoa1, Hoa2, Hoa3, Hoa4, Hoa5, Hoa6, Hoa7, Hob0, Hob1, Hob2, Hob3, Hob4, Hob5, Hob6, Hob7, Hs, Hr, Hd0, Hd1, Hd2, Hd3, Hd4, Hd5, Hd6, Hd7, Hd8, Hd9, Hd10, Hd11, Hd12, Hd13, Hd14, HO⟩
  ihave Hmw := (show levAts (K (F := F)).L (K (F := F)).lev ⊢ Transfers.MayWaits (V d (cV L) (jV L)) (default : HIx 1) O from
    (K (F := F)).mayWaits_none (thr := (V d (cV L) (jV L))) hO) $$ Hlv
  -- the copy of the positions and its wait
  sl_exec
  -- the scratch buffers as the streams use them: windows of the list in halves, the row buffers one by one
  ihave Hss := (idx_pieces d L (View.write (Elt F) sV.view fs (tile_run.sl.dma0 d L fi) Finset.univ)).1 $$ Hs
  icases Hss with ⟨Hsa0, Hsb0, Hsa1, Hsb1, Hsa2, Hsb2, Hsa3, Hsb3, Hsa4, Hsb4, Hsa5, Hsb5, Hsa6, Hsb6, Hsa7, Hsb7⟩
  ihave Hrr := (rows_pieces d L fr) $$ Hr
  icases Hrr with ⟨Hr0, Hr1, Hr2, Hr3, Hr4, Hr5, Hr6⟩
  have hin := hin_gen d L fi hpos fs
  -- the sixteen streams
  sl_exec
  -- each block of the results holds the looked-up rows
  ihave Hoa0' := (Entails.of_eq (pointsTo_congr (q := fullShare) (win_value_a d L ⟨0, by decide⟩ ⟨0, by decide⟩ fi fc fo0 fs fr _ _ _))) $$ Hoa0
  ihave Hob0' := (Entails.of_eq (pointsTo_congr (q := fullShare) (win_value_b d L ⟨0, by decide⟩ ⟨1, by decide⟩ fi fsn fo1 fs fr _ _ _))) $$ Hob0
  ihave Hoa1' := (Entails.of_eq (pointsTo_congr (q := fullShare) (win_value_a d L ⟨1, by decide⟩ ⟨2, by decide⟩ fi fc fo0 fs fr _ _ _))) $$ Hoa1
  ihave Hob1' := (Entails.of_eq (pointsTo_congr (q := fullShare) (win_value_b d L ⟨1, by decide⟩ ⟨3, by decide⟩ fi fsn fo1 fs fr _ _ _))) $$ Hob1
  ihave Hoa2' := (Entails.of_eq (pointsTo_congr (q := fullShare) (win_value_a d L ⟨2, by decide⟩ ⟨4, by decide⟩ fi fc fo0 fs fr _ _ _))) $$ Hoa2
  ihave Hob2' := (Entails.of_eq (pointsTo_congr (q := fullShare) (win_value_b d L ⟨2, by decide⟩ ⟨5, by decide⟩ fi fsn fo1 fs fr _ _ _))) $$ Hob2
  ihave Hoa3' := (Entails.of_eq (pointsTo_congr (q := fullShare) (win_value_a d L ⟨3, by decide⟩ ⟨6, by decide⟩ fi fc fo0 fs fr _ _ _))) $$ Hoa3
  ihave Hob3' := (Entails.of_eq (pointsTo_congr (q := fullShare) (win_value_b d L ⟨3, by decide⟩ ⟨0, by decide⟩ fi fsn fo1 fs fr _ _ _))) $$ Hob3
  ihave Hoa4' := (Entails.of_eq (pointsTo_congr (q := fullShare) (win_value_a d L ⟨4, by decide⟩ ⟨1, by decide⟩ fi fc fo0 fs fr _ _ _))) $$ Hoa4
  ihave Hob4' := (Entails.of_eq (pointsTo_congr (q := fullShare) (win_value_b d L ⟨4, by decide⟩ ⟨2, by decide⟩ fi fsn fo1 fs fr _ _ _))) $$ Hob4
  ihave Hoa5' := (Entails.of_eq (pointsTo_congr (q := fullShare) (win_value_a d L ⟨5, by decide⟩ ⟨3, by decide⟩ fi fc fo0 fs fr _ _ _))) $$ Hoa5
  ihave Hob5' := (Entails.of_eq (pointsTo_congr (q := fullShare) (win_value_b d L ⟨5, by decide⟩ ⟨4, by decide⟩ fi fsn fo1 fs fr _ _ _))) $$ Hob5
  ihave Hoa6' := (Entails.of_eq (pointsTo_congr (q := fullShare) (win_value_a d L ⟨6, by decide⟩ ⟨5, by decide⟩ fi fc fo0 fs fr _ _ _))) $$ Hoa6
  ihave Hob6' := (Entails.of_eq (pointsTo_congr (q := fullShare) (win_value_b d L ⟨6, by decide⟩ ⟨6, by decide⟩ fi fsn fo1 fs fr _ _ _))) $$ Hob6
  ihave Hoa7' := (Entails.of_eq (pointsTo_congr (q := fullShare) (win_value_a d L ⟨7, by decide⟩ ⟨0, by decide⟩ fi fc fo0 fs fr _ _ _))) $$ Hoa7
  ihave Hob7' := (Entails.of_eq (pointsTo_congr (q := fullShare) (win_value_b d L ⟨7, by decide⟩ ⟨1, by decide⟩ fi fsn fo1 fs fr _ _ _))) $$ Hob7
  -- the scratch buffers whole again
  ihave Hs' := (idx_pieces d L (View.write (Elt F) sV.view fs (tile_run.sl.dma0 d L fi) Finset.univ)).2 $$ [Hsa0 Hsb0 Hsa1 Hsb1 Hsa2 Hsb2 Hsa3 Hsb3 Hsa4 Hsb4 Hsa5 Hsb5 Hsa6 Hsb6 Hsa7 Hsb7]
  · isplitl [Hsa0]; · iexact Hsa0
    isplitl [Hsb0]; · iexact Hsb0
    isplitl [Hsa1]; · iexact Hsa1
    isplitl [Hsb1]; · iexact Hsb1
    isplitl [Hsa2]; · iexact Hsa2
    isplitl [Hsb2]; · iexact Hsb2
    isplitl [Hsa3]; · iexact Hsa3
    isplitl [Hsb3]; · iexact Hsb3
    isplitl [Hsa4]; · iexact Hsa4
    isplitl [Hsb4]; · iexact Hsb4
    isplitl [Hsa5]; · iexact Hsa5
    isplitl [Hsb5]; · iexact Hsb5
    isplitl [Hsa6]; · iexact Hsa6
    isplitl [Hsb6]; · iexact Hsb6
    isplitl [Hsa7]; · iexact Hsa7
    iexact Hsb7
  ihave Hr' := (rows_join7 d L _ _ _ _ _ _ _) $$ [Hr0 Hr1 Hr2 Hr3 Hr4 Hr5 Hr6]
  · isplitl [Hr0]; · iexact Hr0
    isplitl [Hr1]; · iexact Hr1
    isplitl [Hr2]; · iexact Hr2
    isplitl [Hr3]; · iexact Hr3
    isplitl [Hr4]; · iexact Hr4
    isplitl [Hr5]; · iexact Hr5
    iexact Hr6
  sl_step
  isplitl [Hi]; · iexact Hi
  isplitl [Hc0]; · iexact Hc0
  isplitl [Hc1]; · iexact Hc1
  isplitl [Hc2]; · iexact Hc2
  isplitl [Hc3]; · iexact Hc3
  isplitl [Hc4]; · iexact Hc4
  isplitl [Hc5]; · iexact Hc5
  isplitl [Hc6]; · iexact Hc6
  isplitl [Hn0]; · iexact Hn0
  isplitl [Hn1]; · iexact Hn1
  isplitl [Hn2]; · iexact Hn2
  isplitl [Hn3]; · iexact Hn3
  isplitl [Hn4]; · iexact Hn4
  isplitl [Hn5]; · iexact Hn5
  isplitl [Hn6]; · iexact Hn6
  isplitl [Hoa0']; · iexact Hoa0'
  isplitl [Hoa1']; · iexact Hoa1'
  isplitl [Hoa2']; · iexact Hoa2'
  isplitl [Hoa3']; · iexact Hoa3'
  isplitl [Hoa4']; · iexact Hoa4'
  isplitl [Hoa5']; · iexact Hoa5'
  isplitl [Hoa6']; · iexact Hoa6'
  isplitl [Hoa7']; · iexact Hoa7'
  isplitl [Hob0']; · iexact Hob0'
  isplitl [Hob1']; · iexact Hob1'
  isplitl [Hob2']; · iexact Hob2'
  isplitl [Hob3']; · iexact Hob3'
  isplitl [Hob4']; · iexact Hob4'
  isplitl [Hob5']; · iexact Hob5'
  isplitl [Hob6']; · iexact Hob6'
  isplitl [Hob7']; · iexact Hob7'
  isplitl [Hs']; · iexists _; iexact Hs'
  isplitl [Hr']; · iexact Hr'
  isplitl [Hd0]; · iexact Hd0
  isplitl [Hd1]; · iexact Hd1
  isplitl [Hd2]; · iexact Hd2
  isplitl [Hd3]; · iexact Hd3
  isplitl [Hd4]; · iexact Hd4
  isplitl [Hd5]; · iexact Hd5
  isplitl [Hd6]; · iexact Hd6
  isplitl [Hd7]; · iexact Hd7
  isplitl [Hd8]; · iexact Hd8
  isplitl [Hd9]; · iexact Hd9
  isplitl [Hd10]; · iexact Hd10
  isplitl [Hd11]; · iexact Hd11
  isplitl [Hd12]; · iexact Hd12
  isplitl [Hd13]; · iexact Hd13
  isplitl [Hd14]; · iexact Hd14
  iexists _; isplitr
  swap; · iexact HO
  ipureintro; intro p hp
  repeat (rcases Finset.mem_insert.mp hp with hp | hp; · exact .inr (hp ▸ rfl))
  exact .inl hp

end Cert.Proof.Kernel

end
-- ==== Proof.Kernel.Pay.lean ====
/-
  What the one SparseCore call carries between the TensorCore, the two sequencers and the thirty-two vector subcores.
  Every tile reads the position array and both tables, so each is handed a read share of them (one of 32 tokens of the
  full share; the TensorCore keeps the remainder); the two flat result arrays are handed out by blocks of 128 rows,
  eight blocks per tile, and come back holding the looked-up rows.
-/
import proofs.«202526_g11321533792333_week1_w4_118_29_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«202526_g11321533792333_week1_w4_118_29_alg».proof.Proof.Gen.Kernel
import proofs.«202526_g11321533792333_week1_w4_118_29_alg».proof.Proof.Gen.Kernel.Skeleton
import proofs.«202526_g11321533792333_week1_w4_118_29_alg».proof.Proof.Kernel.Setup

noncomputable section

namespace Cert.Proof.Kernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

/-- Tile `(c, s)`'s number among the 32. -/
def tix (c : Fin 2) (s : Fin 16) : Fin 32 := ⟨16 * c.val + s.val, by have := c.isLt; have := s.isLt; omega⟩

/-- Tile `(c, s)`'s read share of the arrays every tile reads. -/
abbrev tq (c : Fin 2) (s : Fin 16) : PosShare TreeShare := Transfers.shareTok fullShare 32 (tix c s)

/-- What tile `(c, s)` of device `d` works on: its read share of the positions and of each table, and its eight blocks of
    each flat result, the arrays at the given contents. -/
def tileRes (d : Dev nD) (c : Fin 2) (s : Fin 16)
    (fi : Buf (Elt F) (iLoc d)) (fc : Buf (Elt F) (cLoc d)) (fn : Buf (Elt F) (nLoc d))
    (fa : Buf (Elt F) (aLoc d)) (fb : Buf (Elt F) (bLoc d)) : sProp 𝕄 :=
  iprop((iLoc d ↦{tq c s} fi) ∗ (cLoc d ↦{tq c s} fc) ∗ (nLoc d ↦{tq c s} fn)
    ∗ (bigSep Finset.univ fun r : Fin 8 =>
        (oWin o0V (coordsV c s) r).view.loc (V d (cV (coordsV c s)) (jV (coordsV c s))) ↦[(oWin o0V (coordsV c s) r).view.set]{fullShare} fa)
    ∗ (bigSep Finset.univ fun r : Fin 8 =>
        (oWin o1V (coordsV c s) r).view.loc (V d (cV (coordsV c s)) (jV (coordsV c s))) ↦[(oWin o1V (coordsV c s) r).view.set]{fullShare} fb))

/-- Every tile's part, of both SparseCores. -/
def allTiles (d : Dev nD) (fi : Buf (Elt F) (iLoc d)) (fc : Buf (Elt F) (cLoc d)) (fn : Buf (Elt F) (nLoc d))
    (fa : Buf (Elt F) (aLoc d)) (fb : Buf (Elt F) (bLoc d)) : sProp 𝕄 :=
  bigSep Finset.univ fun c : Fin 2 => bigSep Finset.univ fun s : Fin 16 => tileRes d c s fi fc fn fa fb

/-- What the TensorCore keeps of the arrays every tile reads while the call runs. -/
def keep (d : Dev nD) (fi : Buf (Elt F) (iLoc d)) (fc : Buf (Elt F) (cLoc d)) (fn : Buf (Elt F) (nLoc d)) : sProp 𝕄 :=
  iprop((iLoc d ↦{Transfers.shareDrop fullShare 32} fi) ∗ (cLoc d ↦{Transfers.shareDrop fullShare 32} fc)
    ∗ (nLoc d ↦{Transfers.shareDrop fullShare 32} fn))

/-- The flat results the call leaves: each table looked up at the flattened positions. -/
abbrev GA (d : Dev nD) : Buf (Elt F) (aLoc d) := Cert.Spec.takeFlat (m (cLoc d)) (m (iLoc d))
abbrev GB (d : Dev nD) : Buf (Elt F) (bLoc d) := Cert.Spec.takeFlat (m (nLoc d)) (m (iLoc d))

/-- The one call: a SparseCore is handed its sixteen tiles' parts and hands them back with the results written; a tile
    is handed its part and hands it back so. -/
def P : (K (F := F)).Pay (nD := nD) (Val := Elt F) (Name := ℕ) (U := UU) where
  st := fun q d c => match q with
    | 0 => bigSep Finset.univ fun s : Fin 16 => tileRes d (Fin.cast nCore_zero c) s (m (iLoc d)) (m (cLoc d)) (m (nLoc d)) (m (aLoc d)) (m (bLoc d))
  dn := fun q d c => match q with
    | 0 => bigSep Finset.univ fun s : Fin 16 => tileRes d (Fin.cast nCore_zero c) s (m (iLoc d)) (m (cLoc d)) (m (nLoc d)) (GA m d) (GB m d)
  go := fun q d c i => match q with
    | 0 => tileRes d (Fin.cast nCore_zero c) (Fin.cast nSub_zero i) (m (iLoc d)) (m (cLoc d)) (m (nLoc d)) (m (aLoc d)) (m (bLoc d))
  td := fun q d c i => match q with
    | 0 => tileRes d (Fin.cast nCore_zero c) (Fin.cast nSub_zero i) (m (iLoc d)) (m (cLoc d)) (m (nLoc d)) (GA m d) (GB m d)
  x := fun _ _ => iprop(emp)

instance tileRes_storable (d : Dev nD) (c : Fin 2) (s : Fin 16) (fi fc fn fa fb) :
    BI.Storable (upEmb : UEmb _ 𝕄) (tileRes (F := F) d c s fi fc fn fa fb) := by
  unfold tileRes; infer_instance

instance P_storable : (P (F := F) m).IsStorable where
  st q d c := match q with | 0 => by unfold P; infer_instance
  dn q d c := match q with | 0 => by unfold P; infer_instance
  go q d c i := match q with | 0 => by unfold P; infer_instance
  td q d c i := match q with | 0 => by unfold P; infer_instance

end Cert.Proof.Kernel

end
-- ==== Proof.Kernel.TileBody.lean ====
/-
  The vector subcore's task as the launch theorem asks for it.
-/
import proofs.«202526_g11321533792333_week1_w4_118_29_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«202526_g11321533792333_week1_w4_118_29_alg».proof.Proof.Gen.Kernel
import proofs.«202526_g11321533792333_week1_w4_118_29_alg».proof.Proof.Gen.Kernel.Skeleton
import proofs.«202526_g11321533792333_week1_w4_118_29_alg».proof.Proof.Kernel.Setup
import proofs.«202526_g11321533792333_week1_w4_118_29_alg».proof.Proof.Kernel.Tile
import proofs.«202526_g11321533792333_week1_w4_118_29_alg».proof.Proof.Kernel.Pay

noncomputable section

namespace Cert.Proof.Kernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]
variable (m : (ℓ : Loc nD τ sig) → Buf (Elt F) ℓ)

/-- What the proof asks of the launch memory: every position word names a row of the tables. -/
def PreOK : Prop := ∀ (d : Dev nD) (j : S4x8192.Idx), (m (iLoc d) j).toNat < 8192

omit [FloatOps F] in
theorem bigSep_fin15 (Φ : Fin 15 → sProp 𝕄) :
    bigSep Finset.univ Φ = iprop(Φ ⟨0, by decide⟩ ∗ Φ ⟨1, by decide⟩ ∗ Φ ⟨2, by decide⟩ ∗ Φ ⟨3, by decide⟩ ∗ Φ ⟨4, by decide⟩ ∗ Φ ⟨5, by decide⟩ ∗ Φ ⟨6, by decide⟩ ∗ Φ ⟨7, by decide⟩ ∗ Φ ⟨8, by decide⟩ ∗ Φ ⟨9, by decide⟩ ∗ Φ ⟨10, by decide⟩ ∗ Φ ⟨11, by decide⟩ ∗ Φ ⟨12, by decide⟩ ∗ Φ ⟨13, by decide⟩ ∗ Φ ⟨14, by decide⟩) := by
  rw [show (Finset.univ : Finset (Fin 15)) = ({⟨0, by decide⟩, ⟨1, by decide⟩, ⟨2, by decide⟩, ⟨3, by decide⟩, ⟨4, by decide⟩, ⟨5, by decide⟩, ⟨6, by decide⟩, ⟨7, by decide⟩, ⟨8, by decide⟩, ⟨9, by decide⟩, ⟨10, by decide⟩, ⟨11, by decide⟩, ⟨12, by decide⟩, ⟨13, by decide⟩, ⟨14, by decide⟩} : Finset (Fin 15)) by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

omit [FloatOps F] in
/-- A vector subcore's own semaphores at zero: its fifteen transfer semaphores, and the rest. -/
theorem ownSems0_V (d : Dev nD) (c : Fin τ.nSC) (i : Fin τ.nSub) :
    (ownSems0 (V d c i) : sProp 𝕄)
      = iprop((semVal ((V d c i), SemLoc.dma (⟨0, by decide⟩ : DmaSem sig)) 0
          ∗ semVal ((V d c i), SemLoc.dma (⟨1, by decide⟩ : DmaSem sig)) 0
          ∗ semVal ((V d c i), SemLoc.dma (⟨2, by decide⟩ : DmaSem sig)) 0
          ∗ semVal ((V d c i), SemLoc.dma (⟨3, by decide⟩ : DmaSem sig)) 0
          ∗ semVal ((V d c i), SemLoc.dma (⟨4, by decide⟩ : DmaSem sig)) 0
          ∗ semVal ((V d c i), SemLoc.dma (⟨5, by decide⟩ : DmaSem sig)) 0
          ∗ semVal ((V d c i), SemLoc.dma (⟨6, by decide⟩ : DmaSem sig)) 0
          ∗ semVal ((V d c i), SemLoc.dma (⟨7, by decide⟩ : DmaSem sig)) 0
          ∗ semVal ((V d c i), SemLoc.dma (⟨8, by decide⟩ : DmaSem sig)) 0
          ∗ semVal ((V d c i), SemLoc.dma (⟨9, by decide⟩ : DmaSem sig)) 0
          ∗ semVal ((V d c i), SemLoc.dma (⟨10, by decide⟩ : DmaSem sig)) 0
          ∗ semVal ((V d c i), SemLoc.dma (⟨11, by decide⟩ : DmaSem sig)) 0
          ∗ semVal ((V d c i), SemLoc.dma (⟨12, by decide⟩ : DmaSem sig)) 0
          ∗ semVal ((V d c i), SemLoc.dma (⟨13, by decide⟩ : DmaSem sig)) 0
          ∗ semVal ((V d c i), SemLoc.dma (⟨14, by decide⟩ : DmaSem sig)) 0)
          ∗ bigSep (ownCells (V d c i) \ Finset.univ.image fun n : Fin 15 => ((V d c i, SemLoc.dma (n : DmaSem sig)) : GSem nD τ sig)) fun g => semVal g 0) := by
  unfold SparseCore.Cfg.ownSems0
  rw [SparseCore.bigSep_sdiff_split' (t := Finset.univ.image fun n : Fin 15 => ((V d c i, SemLoc.dma (n : DmaSem sig)) : GSem nD τ sig)) (by
      intro g hg
      obtain ⟨n, -, rfl⟩ := Finset.mem_image.mp hg
      exact mem_ownCells.mpr ⟨rfl, (show ∀ n : Fin 15, (SemLoc.dma (n : DmaSem sig) : SemLoc sig).isScoped .scVector = true by decide) n⟩),
    SparseCore.bigSep_image_of_injOn (fun a _ b _ h => by
      have := congrArg Prod.snd h
      exact SemLoc.dma.inj this), bigSep_fin15]

omit [FloatOps F] in
/-- A vector subcore's own buffers: its index scratch and its rows scratch, at some contents, and the rest. -/
theorem ownBufs_V (d : Dev nD) (c : Fin τ.nSC) (i : Fin τ.nSub) :
    (ownBufs (V d c i) : sProp 𝕄)
      = iprop((∃ f, (V d c i).loc cc0_scratch0 ↦{fullShare} f) ∗ (∃ f, (V d c i).loc cc0_scratch1 ↦{fullShare} f)
          ∗ bigSep (((ownRefs (τ := τ) (.scVector c i)).erase ((Proc.scVector c i).devRef cc0_scratch0)).erase
              ((Proc.scVector c i).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector c i)
    (b := (Proc.scVector c i).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector c i) (b := (Proc.scVector c i).devRef cc0_scratch1) rfl⟩)]

/-- A read share of a table is seven read tokens, one per gather semaphore, and a remainder. -/
theorem cos_toks (d : Dev nD) (c : Fin 2) (s : Fin 16) (q : PosShare TreeShare) (f : Buf (Elt F) (cLoc d)) :
    (cLoc d ↦{q} f : sProp 𝕄)
      ⊣⊢ iprop((cLoc d ↦{Transfers.shareDrop q 7} f)
        ∗ ((cosV).view.loc (V d (cV (coordsV c s)) (jV (coordsV c s))) ↦{Transfers.shareTok q 7 ⟨0, by decide⟩} f)
        ∗ ((cosV).view.loc (V d (cV (coordsV c s)) (jV (coordsV c s))) ↦{Transfers.shareTok q 7 ⟨1, by decide⟩} f)
        ∗ ((cosV).view.loc (V d (cV (coordsV c s)) (jV (coordsV c s))) ↦{Transfers.shareTok q 7 ⟨2, by decide⟩} f)
        ∗ ((cosV).view.loc (V d (cV (coordsV c s)) (jV (coordsV c s))) ↦{Transfers.shareTok q 7 ⟨3, by decide⟩} f)
        ∗ ((cosV).view.loc (V d (cV (coordsV c s)) (jV (coordsV c s))) ↦{Transfers.shareTok q 7 ⟨4, by decide⟩} f)
        ∗ ((cosV).view.loc (V d (cV (coordsV c s)) (jV (coordsV c s))) ↦{Transfers.shareTok q 7 ⟨5, by decide⟩} f)
        ∗ ((cosV).view.loc (V d (cV (coordsV c s)) (jV (coordsV c s))) ↦{Transfers.shareTok q 7 ⟨6, by decide⟩} f)) := by
  have h := Transfers.pointsTo_toks (ℓ := cLoc d) (S := Finset.univ) (f := f) (Val := Elt F) (Name := ℕ) (U := UU) (Lvl := ℕ) (Ix := HIx 1) q 7
  rw [bigSep_fin7] at h
  exact h

/-- A read share of a table is seven read tokens, one per gather semaphore, and a remainder. -/
theorem sin_toks (d : Dev nD) (c : Fin 2) (s : Fin 16) (q : PosShare TreeShare) (f : Buf (Elt F) (nLoc d)) :
    (nLoc d ↦{q} f : sProp 𝕄)
      ⊣⊢ iprop((nLoc d ↦{Transfers.shareDrop q 7} f)
        ∗ ((sinV).view.loc (V d (cV (coordsV c s)) (jV (coordsV c s))) ↦{Transfers.shareTok q 7 ⟨0, by decide⟩} f)
        ∗ ((sinV).view.loc (V d (cV (coordsV c s)) (jV (coordsV c s))) ↦{Transfers.shareTok q 7 ⟨1, by decide⟩} f)
        ∗ ((sinV).view.loc (V d (cV (coordsV c s)) (jV (coordsV c s))) ↦{Transfers.shareTok q 7 ⟨2, by decide⟩} f)
        ∗ ((sinV).view.loc (V d (cV (coordsV c s)) (jV (coordsV c s))) ↦{Transfers.shareTok q 7 ⟨3, by decide⟩} f)
        ∗ ((sinV).view.loc (V d (cV (coordsV c s)) (jV (coordsV c s))) ↦{Transfers.shareTok q 7 ⟨4, by decide⟩} f)
        ∗ ((sinV).view.loc (V d (cV (coordsV c s)) (jV (coordsV c s))) ↦{Transfers.shareTok q 7 ⟨5, by decide⟩} f)
        ∗ ((sinV).view.loc (V d (cV (coordsV c s)) (jV (coordsV c s))) ↦{Transfers.shareTok q 7 ⟨6, by decide⟩} f)) := by
  have h := Transfers.pointsTo_toks (ℓ := nLoc d) (S := Finset.univ) (f := f) (Val := Elt F) (Name := ℕ) (U := UU) (Lvl := ℕ) (Ix := HIx 1) q 7
  rw [bigSep_fin7] at h
  exact h

set_option maxHeartbeats 8000000 in
/-- The task of tile `(c, s)` in the launch theorem's terms: from the tile's part of the arrays, its scoped buffers and
    its semaphores at zero, to the same with both results' blocks holding the looked-up rows. -/
theorem tile_body (hF : (K (F := F)).Facts) (hpre : PreOK m) (d : Dev nD) (c : Fin 2) (s : Fin 16)
    (O : CellTallies nD τ sig (HIx 1)) (W : Waits sig (HIx 1)) (hO : ∀ g, O g none = 0) :
    iprop(levAts (K (F := F)).L (K (F := F)).lev ∗ emp
        ∗ tileRes d c s (m (iLoc d)) (m (cLoc d)) (m (nLoc d)) (m (aLoc d)) (m (bLoc d))
        ∗ scopedBufs (V d (cV (coordsV c s)) (jV (coordsV c s))) ∗ scopedSems0 (V d (cV (coordsV c s)) (jV (coordsV c s))) ∗ owes (V d (cV (coordsV c s)) (jV (coordsV c s))) O W)
      ⊢ wp frame (wpE (defs₀ (F := F)) 𝒱₀ (V d (cV (coordsV c s)) (jV (coordsV c s))) none) Set.univ
          (cc0_gather_kernel (coordsV c s) cosV (Memref.isWhole_whole _) sinV (Memref.isWhole_whole _) iV (Memref.isWhole_whole _)
            o0V (Memref.isWhole_whole _) o1V (Memref.isWhole_whole _) sV (Memref.isWhole_whole _) rV (Memref.isWhole_whole _)
            cc0_scratch2 cc0_scratch3 cc0_scoped0)
          fun _ => iprop(tileRes d c s (m (iLoc d)) (m (cLoc d)) (m (nLoc d)) (GA m d) (GB m d)
            ∗ scopedBufs (V d (cV (coordsV c s)) (jV (coordsV c s))) ∗ scopedSems0 (V d (cV (coordsV c s)) (jV (coordsV c s)))
            ∗ ∃ W', ⌜∀ p ∈ W', p ∈ W ∨ p.2 = none⌝ ∗ owes (V d (cV (coordsV c s)) (jV (coordsV c s))) O W') := by
  rw [(K (F := F)).scopedBufs_V hF d _ _, SparseCore.Cfg.scopedSems0_V (Val := Elt F) d _ _, ownSems0_V, ownBufs_V]
  unfold tileRes
  iintro ⟨#Hlv, -, ⟨Hi, Hc, Hn, Ha, Hb⟩, ⟨⟨%fs, Hs⟩, ⟨%fr, Hr⟩, Hbufs⟩, ⟨⟨Hd0, Hd1, Hd2, Hd3, Hd4, Hd5, Hd6, Hd7, Hd8, Hd9, Hd10, Hd11, Hd12, Hd13, Hd14⟩, Hsems⟩, HO⟩
  ihave Hc' := (cos_toks d c s (tq c s) (m (cLoc d))).1 $$ Hc
  icases Hc' with ⟨Hcd, Hc0, Hc1, Hc2, Hc3, Hc4, Hc5, Hc6⟩
  ihave Hn' := (sin_toks d c s (tq c s) (m (nLoc d))).1 $$ Hn
  icases Hn' with ⟨Hnd, Hn0, Hn1, Hn2, Hn3, Hn4, Hn5, Hn6⟩
  ihave Ha' := (Entails.of_eq (bigSep_fin8 _)) $$ Ha
  icases Ha' with ⟨Hoa0, Hoa1, Hoa2, Hoa3, Hoa4, Hoa5, Hoa6, Hoa7⟩
  ihave Hb' := (Entails.of_eq (bigSep_fin8 _)) $$ Hb
  icases Hb' with ⟨Hob0, Hob1, Hob2, Hob3, Hob4, Hob5, Hob6, Hob7⟩
  ihave Hwp := (tile_run d (coordsV c s) hF O W (tq c s) (tq c s) (tq c s) (m (iLoc d)) (m (cLoc d)) (m (nLoc d)) (m (aLoc d)) (m (bLoc d)) fs fr hO (hpre d))
    $$ [Hi Hc0 Hc1 Hc2 Hc3 Hc4 Hc5 Hc6 Hn0 Hn1 Hn2 Hn3 Hn4 Hn5 Hn6 Hoa0 Hoa1 Hoa2 Hoa3 Hoa4 Hoa5 Hoa6 Hoa7 Hob0 Hob1 Hob2 Hob3 Hob4 Hob5 Hob6 Hob7 Hs Hr Hd0 Hd1 Hd2 Hd3 Hd4 Hd5 Hd6 Hd7 Hd8 Hd9 Hd10 Hd11 Hd12 Hd13 Hd14 HO]
  · delta tilePre
    isplitr; · iexact Hlv
    isplitl [Hi]; · iexact Hi
    isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    isplitl [Hc6]; · iexact Hc6
    isplitl [Hn0]; · iexact Hn0
    isplitl [Hn1]; · iexact Hn1
    isplitl [Hn2]; · iexact Hn2
    isplitl [Hn3]; · iexact Hn3
    isplitl [Hn4]; · iexact Hn4
    isplitl [Hn5]; · iexact Hn5
    isplitl [Hn6]; · iexact Hn6
    isplitl [Hoa0]; · iexact Hoa0
    isplitl [Hoa1]; · iexact Hoa1
    isplitl [Hoa2]; · iexact Hoa2
    isplitl [Hoa3]; · iexact Hoa3
    isplitl [Hoa4]; · iexact Hoa4
    isplitl [Hoa5]; · iexact Hoa5
    isplitl [Hoa6]; · iexact Hoa6
    isplitl [Hoa7]; · iexact Hoa7
    isplitl [Hob0]; · iexact Hob0
    isplitl [Hob1]; · iexact Hob1
    isplitl [Hob2]; · iexact Hob2
    isplitl [Hob3]; · iexact Hob3
    isplitl [Hob4]; · iexact Hob4
    isplitl [Hob5]; · iexact Hob5
    isplitl [Hob6]; · iexact Hob6
    isplitl [Hob7]; · iexact Hob7
    isplitl [Hs]; · iexact Hs
    isplitl [Hr]; · iexact Hr
    isplitl [Hd0]; · iexact Hd0
    isplitl [Hd1]; · iexact Hd1
    isplitl [Hd2]; · iexact Hd2
    isplitl [Hd3]; · iexact Hd3
    isplitl [Hd4]; · iexact Hd4
    isplitl [Hd5]; · iexact Hd5
    isplitl [Hd6]; · iexact Hd6
    isplitl [Hd7]; · iexact Hd7
    isplitl [Hd8]; · iexact Hd8
    isplitl [Hd9]; · iexact Hd9
    isplitl [Hd10]; · iexact Hd10
    isplitl [Hd11]; · iexact Hd11
    isplitl [Hd12]; · iexact Hd12
    isplitl [Hd13]; · iexact Hd13
    isplitl [Hd14]; · iexact Hd14
    iexact HO
  iapply (wp_wand_r frame _ _) $$ [Hwp Hcd Hnd Hbufs Hsems]
  isplitl [Hwp]; · iexact Hwp
  iintro %a Hpost
  delta tilePost
  icases Hpost with ⟨Hi, Hc0, Hc1, Hc2, Hc3, Hc4, Hc5, Hc6, Hn0, Hn1, Hn2, Hn3, Hn4, Hn5, Hn6, Hoa0, Hoa1, Hoa2, Hoa3, Hoa4, Hoa5, Hoa6, Hoa7, Hob0, Hob1, Hob2, Hob3, Hob4, Hob5, Hob6, Hob7, ⟨%fs', Hs⟩, ⟨%fr', Hr⟩, Hd0, Hd1, Hd2, Hd3, Hd4, Hd5, Hd6, Hd7, Hd8, Hd9, Hd10, Hd11, Hd12, Hd13, Hd14, ⟨%W', %hW', HO⟩⟩
  isplitl [Hi Hcd Hc0 Hc1 Hc2 Hc3 Hc4 Hc5 Hc6 Hnd Hn0 Hn1 Hn2 Hn3 Hn4 Hn5 Hn6 Hoa0 Hoa1 Hoa2 Hoa3 Hoa4 Hoa5 Hoa6 Hoa7 Hob0 Hob1 Hob2 Hob3 Hob4 Hob5 Hob6 Hob7]
  · isplitl [Hi]; · iexact Hi
    isplitl [Hcd Hc0 Hc1 Hc2 Hc3 Hc4 Hc5 Hc6]
    · iapply (cos_toks d c s (tq c s) (m (cLoc d))).2
      isplitl [Hcd]; · iexact Hcd
      isplitl [Hc0]; · iexact Hc0
      isplitl [Hc1]; · iexact Hc1
      isplitl [Hc2]; · iexact Hc2
      isplitl [Hc3]; · iexact Hc3
      isplitl [Hc4]; · iexact Hc4
      isplitl [Hc5]; · iexact Hc5
      iexact Hc6
    isplitl [Hnd Hn0 Hn1 Hn2 Hn3 Hn4 Hn5 Hn6]
    · iapply (sin_toks d c s (tq c s) (m (nLoc d))).2
      isplitl [Hnd]; · iexact Hnd
      isplitl [Hn0]; · iexact Hn0
      isplitl [Hn1]; · iexact Hn1
      isplitl [Hn2]; · iexact Hn2
      isplitl [Hn3]; · iexact Hn3
      isplitl [Hn4]; · iexact Hn4
      isplitl [Hn5]; · iexact Hn5
      iexact Hn6
    isplitl [Hoa0 Hoa1 Hoa2 Hoa3 Hoa4 Hoa5 Hoa6 Hoa7]
    · iapply (Entails.of_eq (bigSep_fin8 _).symm)
      isplitl [Hoa0]; · iexact Hoa0
      isplitl [Hoa1]; · iexact Hoa1
      isplitl [Hoa2]; · iexact Hoa2
      isplitl [Hoa3]; · iexact Hoa3
      isplitl [Hoa4]; · iexact Hoa4
      isplitl [Hoa5]; · iexact Hoa5
      isplitl [Hoa6]; · iexact Hoa6
      iexact Hoa7
    iapply (Entails.of_eq (bigSep_fin8 _).symm)
    isplitl [Hob0]; · iexact Hob0
    isplitl [Hob1]; · iexact Hob1
    isplitl [Hob2]; · iexact Hob2
    isplitl [Hob3]; · iexact Hob3
    isplitl [Hob4]; · iexact Hob4
    isplitl [Hob5]; · iexact Hob5
    isplitl [Hob6]; · iexact Hob6
    iexact Hob7
  isplitl [Hs Hr Hbufs]
  · isplitl [Hs]; · iexists _; iexact Hs
    isplitl [Hr]; · iexists _; iexact Hr
    iexact Hbufs
  isplitl [Hd0 Hd1 Hd2 Hd3 Hd4 Hd5 Hd6 Hd7 Hd8 Hd9 Hd10 Hd11 Hd12 Hd13 Hd14 Hsems]
  · isplitl [Hd0 Hd1 Hd2 Hd3 Hd4 Hd5 Hd6 Hd7 Hd8 Hd9 Hd10 Hd11 Hd12 Hd13 Hd14]
    · isplitl [Hd0]; · iexact Hd0
      isplitl [Hd1]; · iexact Hd1
      isplitl [Hd2]; · iexact Hd2
      isplitl [Hd3]; · iexact Hd3
      isplitl [Hd4]; · iexact Hd4
      isplitl [Hd5]; · iexact Hd5
      isplitl [Hd6]; · iexact Hd6
      isplitl [Hd7]; · iexact Hd7
      isplitl [Hd8]; · iexact Hd8
      isplitl [Hd9]; · iexact Hd9
      isplitl [Hd10]; · iexact Hd10
      isplitl [Hd11]; · iexact Hd11
      isplitl [Hd12]; · iexact Hd12
      isplitl [Hd13]; · iexact Hd13
      iexact Hd14
    iexact Hsems
  iexists W'; isplitr
  · ipureintro; exact hW'
  · iexact HO

/-! ## The obligation -/

omit [FloatOps F] in
theorem defs₀_vector [FloatOps F] (c : Fin τ.nSC) (s : Fin τ.nSub) :
    defs₀ (F := F) (.scVector c s) 0 ()
      = SparseCore.onTile hcore0 hsub0 (fun c s => cc0_gather_kernel (coordsV c s)
          cosV (Memref.isWhole_whole _) sinV (Memref.isWhole_whole _) iV (Memref.isWhole_whole _)
          o0V (Memref.isWhole_whole _) o1V (Memref.isWhole_whole _) sV (Memref.isWhole_whole _) rV (Memref.isWhole_whole _)
          cc0_scratch2 cc0_scratch3 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m hF hpre d ⟨_, hci.1⟩ ⟨_, hci.2⟩ O W hO).trans (wp_mono frame _ _ fun _ => obl_post)

end Cert.Proof.Kernel

end
-- ==== Proof.Kernel.Split.lean ====
/-
  The TensorCore's side of the one call: how the five arrays it holds whole are dealt to the thirty-two tiles, and how
  the tiles' parts make the arrays again.

  Each of the three arrays every tile reads (the positions and the two tables) is held at the full share; the full share
  is 32 read tokens and a remainder, so the array held whole is the remainder (kept) beside one token per tile, tile
  (c, s) taking token 16 c + s: as c runs over 2 and s over 16 this number runs once over the 32 tokens.  Each flat result
  is its 256 blocks of 128 rows, eight per tile.  Regrouping the separating conjunction tile by tile gives every
  tile's part; a SparseCore's part is its sixteen tiles'.
-/
import proofs.«202526_g11321533792333_week1_w4_118_29_alg».proof.Proof.Kernel.Geometry
import proofs.«202526_g11321533792333_week1_w4_118_29_alg».proof.Proof.Kernel.Pay

noncomputable section

namespace Cert.Proof.Kernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## Tiles and tokens: (c, s) ↦ 16 c + s is a bijection from 2 × 16 onto 32 -/

/-- Tile (c, s) has number 16 c + s; the number k is tile (k / 16, k mod 16). -/
def tixEquiv : Fin 2 × Fin 16 ≃ Fin 32 where
  toFun t := tix t.1 t.2
  invFun k := (⟨k.val / 16, by have := k.isLt; omega⟩, ⟨k.val % 16, by omega⟩)
  left_inv t := by
    obtain ⟨c, s⟩ := t
    have := c.isLt; have := s.isLt
    refine Prod.ext (Fin.ext ?_) (Fin.ext ?_)
    · show (16 * c.val + s.val) / 16 = c.val; omega
    · show (16 * c.val + s.val) % 16 = s.val; omega
  right_inv k := by
    refine Fin.ext ?_
    show 16 * (k.val / 16) + k.val % 16 = k.val; omega

/-- One read token per tile is one read token per number below 32. -/
theorem toks_tiles {ℓ : Loc nD τ sig} (f : Buf (Elt F) ℓ) :
    (bigSep Finset.univ fun k : Fin 32 => (ℓ ↦{Transfers.shareTok fullShare 32 k} f : sProp 𝕄))
      = bigSep Finset.univ fun t : Fin 2 × Fin 16 => ℓ ↦{tq t.1 t.2} f :=
  bigSep_univ_equiv tixEquiv _

/-! ## The flat results, tile by tile -/

/-- The first flat result held whole is, tile by tile, the tile's eight blocks of it. -/
theorem out0_tiles (d : Dev nD) (fa : Buf (Elt F) (aLoc d)) :
    (aLoc d ↦{fullShare} fa : sProp 𝕄)
      = bigSep Finset.univ fun t : Fin 2 × Fin 16 => bigSep Finset.univ fun r : Fin 8 =>
          (oWin o0V (coordsV t.1 t.2) r).view.loc (V d (cV (coordsV t.1 t.2)) (jV (coordsV t.1 t.2)))
            ↦[(oWin o0V (coordsV t.1 t.2) r).view.set]{fullShare} fa :=
  (out0_windows d (cV (coordsV (0 : Fin 2) (0 : Fin 16))) (jV (coordsV (0 : Fin 2) (0 : Fin 16))) fa).trans
    (bigSep_univ_prod (fun t : Fin 2 × Fin 16 => bigSep Finset.univ fun r : Fin 8 =>
      ((oWin o0V (coordsV t.1 t.2) r).view.loc (V d (cV (coordsV t.1 t.2)) (jV (coordsV t.1 t.2)))
        ↦[(oWin o0V (coordsV t.1 t.2) r).view.set]{fullShare} fa : sProp 𝕄))).symm

/-- The second flat result likewise. -/
theorem out1_tiles (d : Dev nD) (fb : Buf (Elt F) (bLoc d)) :
    (bLoc d ↦{fullShare} fb : sProp 𝕄)
      = bigSep Finset.univ fun t : Fin 2 × Fin 16 => bigSep Finset.univ fun r : Fin 8 =>
          (oWin o1V (coordsV t.1 t.2) r).view.loc (V d (cV (coordsV t.1 t.2)) (jV (coordsV t.1 t.2)))
            ↦[(oWin o1V (coordsV t.1 t.2) r).view.set]{fullShare} fb :=
  (out1_windows d (cV (coordsV (0 : Fin 2) (0 : Fin 16))) (jV (coordsV (0 : Fin 2) (0 : Fin 16))) fb).trans
    (bigSep_univ_prod (fun t : Fin 2 × Fin 16 => bigSep Finset.univ fun r : Fin 8 =>
      ((oWin o1V (coordsV t.1 t.2) r).view.loc (V d (cV (coordsV t.1 t.2)) (jV (coordsV t.1 t.2)))
        ↦[(oWin o1V (coordsV t.1 t.2) r).view.set]{fullShare} fb : sProp 𝕄))).symm

/-! ## Every tile's part -/

/-- All the tiles' parts together: the 32 read tokens of each array read by all, and the two flat results whole. -/
theorem allTiles_eq (d : Dev nD) (fi : Buf (Elt F) (iLoc d)) (fc : Buf (Elt F) (cLoc d)) (fn : Buf (Elt F) (nLoc d))
    (fa : Buf (Elt F) (aLoc d)) (fb : Buf (Elt F) (bLoc d)) :
    (allTiles d fi fc fn fa fb : sProp 𝕄) = iprop(
      (bigSep Finset.univ fun k : Fin 32 => iLoc d ↦{Transfers.shareTok fullShare 32 k} fi)
      ∗ (bigSep Finset.univ fun k : Fin 32 => cLoc d ↦{Transfers.shareTok fullShare 32 k} fc)
      ∗ (bigSep Finset.univ fun k : Fin 32 => nLoc d ↦{Transfers.shareTok fullShare 32 k} fn)
      ∗ (aLoc d ↦{fullShare} fa) ∗ (bLoc d ↦{fullShare} fb)) := by
  unfold allTiles
  refine (bigSep_univ_prod (fun t : Fin 2 × Fin 16 => (tileRes d t.1 t.2 fi fc fn fa fb : sProp 𝕄))).symm.trans ?_
  unfold tileRes
  rw [bigSep_sep', bigSep_sep', bigSep_sep', bigSep_sep', toks_tiles, toks_tiles, toks_tiles, out0_tiles, out1_tiles]

/-- The five arrays held whole are what the TensorCore keeps and every tile's part. -/
theorem tc_split_join (d : Dev nD) (fi : Buf (Elt F) (iLoc d)) (fc : Buf (Elt F) (cLoc d)) (fn : Buf (Elt F) (nLoc d))
    (fa : Buf (Elt F) (aLoc d)) (fb : Buf (Elt F) (bLoc d)) :
    (iprop((iLoc d ↦{fullShare} fi) ∗ (cLoc d ↦{fullShare} fc) ∗ (nLoc d ↦{fullShare} fn) ∗ (aLoc d ↦{fullShare} fa) ∗ (bLoc d ↦{fullShare} fb)) : sProp 𝕄)
      ⊣⊢ iprop(keep d fi fc fn ∗ allTiles d fi fc fn fa fb) := by
  rw [allTiles_eq]
  unfold keep
  constructor
  · iintro ⟨Hi, Hc, Hn, Ha, Hb⟩
    ihave Hi' := (Transfers.pointsTo_toks_split fullShare 32) $$ Hi
    ihave Hc' := (Transfers.pointsTo_toks_split fullShare 32) $$ Hc
    ihave Hn' := (Transfers.pointsTo_toks_split fullShare 32) $$ Hn
    icases Hi' with ⟨Hid, Hit⟩
    icases Hc' with ⟨Hcd, Hct⟩
    icases Hn' with ⟨Hnd, Hnt⟩
    isplitl [Hid Hcd Hnd]
    · isplitl [Hid]; · iexact Hid
      isplitl [Hcd]; · iexact Hcd
      iexact Hnd
    isplitl [Hit]; · iexact Hit
    isplitl [Hct]; · iexact Hct
    isplitl [Hnt]; · iexact Hnt
    isplitl [Ha]; · iexact Ha
    iexact Hb
  · iintro ⟨⟨Hid, Hcd, Hnd⟩, Hit, Hct, Hnt, Ha, Hb⟩
    isplitl [Hid Hit]
    · iapply (Transfers.pointsTo_toks_join fullShare 32)
      isplitl [Hid]; · iexact Hid
      iexact Hit
    isplitl [Hcd Hct]
    · iapply (Transfers.pointsTo_toks_join fullShare 32)
      isplitl [Hcd]; · iexact Hcd
      iexact Hct
    isplitl [Hnd Hnt]
    · iapply (Transfers.pointsTo_toks_join fullShare 32)
      isplitl [Hnd]; · iexact Hnd
      iexact Hnt
    isplitl [Ha]; · iexact Ha
    iexact Hb

/-! ## The call's payloads, as the launch theorem spells them -/

variable (m : (ℓ : Loc nD τ sig) → Buf (Elt F) ℓ)

omit m in
/-- A separating conjunction over the call's SparseCores is one over the two of them. -/
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

omit m in
/-- A separating conjunction over a SparseCore's tasks is one over its sixteen subcores. -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- What the call takes, over both SparseCores: every tile's part, the results at the launch contents. -/
theorem st0_eq (d : Dev nD) :
    (bigSep Finset.univ fun c : Fin ((K (F := F)).nCore 0) => (P m).st 0 d c)
      = allTiles d (m (iLoc d)) (m (cLoc d)) (m (nLoc d)) (m (aLoc d)) (m (bLoc d)) := by
  unfold allTiles
  exact bigSep_cores (F := F) (fun c => bigSep Finset.univ fun s : Fin 16 =>
    tileRes d c s (m (iLoc d)) (m (cLoc d)) (m (nLoc d)) (m (aLoc d)) (m (bLoc d)))

/-- What the call hands back, over both SparseCores: every tile's part, the results at the looked-up rows. -/
theorem dn0_eq (d : Dev nD) :
    (bigSep Finset.univ fun c : Fin ((K (F := F)).nCore 0) => (P m).dn 0 d c)
      = allTiles d (m (iLoc d)) (m (cLoc d)) (m (nLoc d)) (GA m d) (GB m d) := by
  unfold allTiles
  exact bigSep_cores (F := F) (fun c => bigSep Finset.univ fun s : Fin 16 =>
    tileRes d c s (m (iLoc d)) (m (cLoc d)) (m (nLoc d)) (GA m d) (GB m d))

omit m in
/-- Sixteen parts held together are the sixteen parts dealt to the tasks, and whatever the tasks bring back is the
    sixteen brought back together: nothing changes hands but the indexing of the tasks. -/
theorem deal_tasks (A B : Fin 16 → sProp 𝕄) :
    bigSep Finset.univ A ⊢ |={Set.univ}=> iprop(
      (bigSep Finset.univ fun i : Fin ((K (F := F)).nSub 0) => A (Fin.cast nSub_zero i))
      ∗ ((bigSep Finset.univ fun i : Fin ((K (F := F)).nSub 0) => B (Fin.cast nSub_zero i)) -∗ bigSep Finset.univ B)) := by
  rw [bigSep_tasks (F := F) A, bigSep_tasks (F := F) B]
  iintro H; imodintro
  isplitl [H]; · iexact H
  iintro H; iexact H

/-- The call's payloads at its one kernel, read off the record: a SparseCore is handed its sixteen tiles' parts -/
theorem P_st0 (d : Dev nD) (c : Fin ((K (F := F)).nCore 0)) : (P m).st 0 d c = bigSep Finset.univ fun s : Fin 16 =>
    tileRes d (Fin.cast nCore_zero c) s (m (iLoc d)) (m (cLoc d)) (m (nLoc d)) (m (aLoc d)) (m (bLoc d)) := rfl
/-- and hands them back with the results at the looked-up rows; -/
theorem P_dn0 (d : Dev nD) (c : Fin ((K (F := F)).nCore 0)) : (P m).dn 0 d c = bigSep Finset.univ fun s : Fin 16 =>
    tileRes d (Fin.cast nCore_zero c) s (m (iLoc d)) (m (cLoc d)) (m (nLoc d)) (GA m d) (GB m d) := rfl
/-- a task is handed its tile's part -/
theorem P_go0 (d : Dev nD) (c : Fin ((K (F := F)).nCore 0)) (i : Fin ((K (F := F)).nSub 0)) : (P m).go 0 d c i =
    tileRes d (Fin.cast nCore_zero c) (Fin.cast nSub_zero i) (m (iLoc d)) (m (cLoc d)) (m (nLoc d)) (m (aLoc d)) (m (bLoc d)) := rfl
/-- and hands it back so. -/
theorem P_td0 (d : Dev nD) (c : Fin ((K (F := F)).nCore 0)) (i : Fin ((K (F := F)).nSub 0)) : (P m).td 0 d c i =
    tileRes d (Fin.cast nCore_zero c) (Fin.cast nSub_zero i) (m (iLoc d)) (m (cLoc d)) (m (nLoc d)) (GA m d) (GB m d) := rfl

/-- A SparseCore's part is its sixteen tasks' parts, going out and coming back. -/
theorem vecSplit : (K (F := F)).VecSplit' (P m) 0 := by
  intro d c
  rw [P_st0, P_dn0]
  simp only [P_go0, P_td0]
  exact deal_tasks (F := F)
    (fun s => tileRes d (Fin.cast nCore_zero c) s (m (iLoc d)) (m (cLoc d)) (m (nLoc d)) (m (aLoc d)) (m (bLoc d)))
    (fun s => tileRes d (Fin.cast nCore_zero c) s (m (iLoc d)) (m (cLoc d)) (m (nLoc d)) (GA m d) (GB m d))

end Cert.Proof.Kernel

end
-- ==== Proof.SpecReshape.lean ====
/-
  The flat lookup, reshaped.

  The flat result has 32768 rows of 128 columns; reshaping it to `[4, 8192, 128]` keeps the row-major order, so entry
  `(b, s, c)` of the reshaped array is entry `(8192 b + s, c)` of the flat one.  Row `8192 b + s` of the flat lookup is
  the table's row named by the position word at batch `(8192 b + s) / 8192 = b`, position `(8192 b + s) % 8192 = s`:
  the reshaped flat lookup is the lookup.
-/
import proofs.«202526_g11321533792333_week1_w4_118_29_alg».proof.Proof.Spec
import Idealize.ShloMosaic.Lib.Pipeline.Value

namespace Cert.Spec

open Idealize.ShloMosaic Idealize.ShloMosaic.ValueIdx

/-- The flat lookup at row `p = 8192 b + s`, column `c`: the table's entry at the row named by `pos[b, s]`, column `c`. -/
theorem takeFlat_apply {α : Type} (tbl : (⟨2, ![8192, 128]⟩ : Shape).Idx → α) (pos : (⟨2, ![4, 8192]⟩ : Shape).Idx → BitVec 32)
    (b : Fin 4) (s : Fin 8192) (c : Fin 128) (p : Fin 32768) (hp : p.val = 8192 * b.val + s.val) :
    takeFlat tbl pos (ix2 p c) = tbl (ix2 (row (pos (ix2 b s))) c) := by
  have h1 : (⟨p.val / 8192, Nat.div_lt_of_lt_mul p.isLt⟩ : Fin 4) = b := Fin.ext (by
    show p.val / 8192 = b.val
    have := s.isLt
    omega)
  have h2 : (⟨p.val % 8192, Nat.mod_lt _ (by decide)⟩ : Fin 8192) = s := Fin.ext (by
    show p.val % 8192 = s.val
    have := s.isLt
    omega)
  show tbl (ix2 (row (pos (ix2 (⟨p.val / 8192, Nat.div_lt_of_lt_mul p.isLt⟩ : Fin 4)
    (⟨p.val % 8192, Nat.mod_lt _ (by decide)⟩ : Fin 8192)))) c) = _
  rw [h1, h2]

/-- The flat lookup reshaped to `[4, 8192, 128]` is the lookup. -/
theorem shapeCast_takeFlat {α : Type} (tbl : (⟨2, ![8192, 128]⟩ : Shape).Idx → α) (pos : (⟨2, ![4, 8192]⟩ : Shape).Idx → BitVec 32)
    (h : (⟨2, ![32768, 128]⟩ : Shape).ShapeCasts ⟨3, ![4, 8192, 128]⟩) :
    shapeCast (⟨3, ![4, 8192, 128]⟩ : Shape) (takeFlat tbl pos) h = take tbl pos := by
  funext j
  obtain ⟨b, s, c, rfl⟩ : ∃ (b : Fin 4) (s : Fin 8192) (c : Fin 128), j = ix3 b s c := ⟨j 0, j 1, j 2, eq_ix3 j⟩
  have hk : 8192 * b.val + s.val < 32768 := by
    have := b.isLt
    have := s.isLt
    omega
  rw [shapeCast_apply (takeFlat tbl pos) h (ix3 b s c) (ix2 (⟨8192 * b.val + s.val, hk⟩ : Fin 32768) c) (by
    rw [Shape.rowMajor_val_two, Shape.rowMajor_val_three]
    show (8192 * b.val + s.val) * 128 + c.val = (b.val * 8192 + s.val) * 128 + c.val
    omega), take_apply]
  exact takeFlat_apply tbl pos b s c _ rfl

end Cert.Spec
-- ==== Proof.Kernel.Launch.lean ====
/-
  The whole program's run, from the tile's task.

  On the TensorCore the program is the one call and two reshapes.  The call takes the five arrays it touches — the
  positions, the two tables, the two flat results — dealt to the thirty-two tiles, and hands them back with each flat
  result holding the flat lookup of its table at the positions; each reshape then lays a flat result out as
  `[4, 8192, 128]`, and the flat lookup reshaped is the lookup.  So every weakly fair execution of all the device's
  threads terminates with the two results the lookups of the cosine and of the sine table, and the three arguments as
  they were.
-/
import proofs.«202526_g11321533792333_week1_w4_118_29_alg».proof.Proof.Kernel.TileBody
import proofs.«202526_g11321533792333_week1_w4_118_29_alg».proof.Proof.Kernel.Split
import proofs.«202526_g11321533792333_week1_w4_118_29_alg».proof.Proof.SpecReshape

noncomputable section

namespace Cert.Proof.Kernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo Idealize.ShloMosaic.TcCoe

variable {F : FTy → Type} [FloatOps F]

local notation "𝕄" => MT nD τ sig (HIx 1) (Elt F) ℕ UU ℕ

variable (m : (ℓ : Loc nD τ sig) → Buf (Elt F) ℓ) (ρ : Dev nD → PrngReg)

/-! ## The launch element -/

/-- The launch element of the ghost state: the handshakes' rounds at their start, the transfers' counters empty. -/
def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

/-- The launch element yields the handshakes' part; the kernel asks nothing more of it. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

abbrev i' : DevRef τ sig := Proc.devRef .tc (main_arg0 : Ref sig .tc)
abbrev c' : DevRef τ sig := Proc.devRef .tc (main_arg1 : Ref sig .tc)
abbrev n' : DevRef τ sig := Proc.devRef .tc (main_arg2 : Ref sig .tc)
abbrev a' : DevRef τ sig := Proc.devRef .tc (main_v0_0 : Ref sig .tc)
abbrev b' : DevRef τ sig := Proc.devRef .tc (main_v0_1 : Ref sig .tc)
abbrev r1' : DevRef τ sig := Proc.devRef .tc (main_v1 : Ref sig .tc)
abbrev r2' : DevRef τ sig := Proc.devRef .tc (main_v2 : Ref sig .tc)
abbrev r1Loc (d : Dev nD) : Loc nD τ sig := (SparseCore.T d).loc main_v1
abbrev r2Loc (d : Dev nD) : Loc nD τ sig := (SparseCore.T d).loc main_v2

/-- The two reshapes: each flat result `[32768, 128]` laid out as `[4, 8192, 128]`. -/
abbrev op1 : HloOp τ sig (Elt F) := StableHlo.reshape main_v0_0 main_v1 rfl shapeCasts_S32768x128_S4x8192x128
abbrev op2 : HloOp τ sig (Elt F) := StableHlo.reshape main_v0_1 main_v2 rfl shapeCasts_S32768x128_S4x8192x128

abbrev S1 : Finset (DevRef τ sig) := {a', r1'}
abbrev S2 : Finset (DevRef τ sig) := {b', r2'}

omit [FloatOps F] in
/-- A reshape's two buffers held whole: the flat result and its reshaped copy. -/
theorem held_S1 (d : Dev nD) (W : Valuation τ sig (Elt F)) :
    (held (T d) S1 W : sProp 𝕄) = iprop((aLoc d ↦{fullShare} W a') ∗ r1Loc d ↦{fullShare} W r1') := by
  unfold held S1
  rw [SparseCore.bigSep_insert' (by decide), bigSep_singleton]

omit [FloatOps F] in
theorem held_S2 (d : Dev nD) (W : Valuation τ sig (Elt F)) :
    (held (T d) S2 W : sProp 𝕄) = iprop((bLoc d ↦{fullShare} W b') ∗ r2Loc d ↦{fullShare} W r2') := by
  unfold held S2
  rw [SparseCore.bigSep_insert' (by decide), bigSep_singleton]

omit [FloatOps F] in
/-- The TensorCore's seven arrays, each whole: the three arguments, the two flat results, the two reshaped results. -/
theorem unscopedBufs_eq (d : Dev nD) (W : (b : Ref sig .tc) → Buf (Elt F) ((d.tc : Thread nD τ).loc b)) :
    (unscopedBufs d W : sProp 𝕄) = iprop((iLoc d ↦{fullShare} W main_arg0) ∗ (cLoc d ↦{fullShare} W main_arg1) ∗ (nLoc d ↦{fullShare} W main_arg2)
      ∗ (aLoc d ↦{fullShare} W main_v0_0) ∗ (bLoc d ↦{fullShare} W main_v0_1) ∗ (r1Loc d ↦{fullShare} W main_v1) ∗ r2Loc d ↦{fullShare} W main_v2) := by
  unfold unscopedBufs
  rw [show (Finset.univ.filter fun b : Ref sig .tc => ¬ b.isScoped) = {main_arg0, main_arg1, main_arg2, main_v0_0, main_v0_1, main_v1, main_v2} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The contents at the launch, and after the call: the flat results at the flat lookups. -/
def V0 (d : Dev nD) : Valuation τ sig (Elt F) := fun b => m (d, b)
def V1 (d : Dev nD) : Valuation τ sig (Elt F) := Function.update (Function.update (V0 m d) a' (GA m d)) b' (GB m d)

theorem V1_a (d : Dev nD) : V1 m d a' = GA m d :=
  (Function.update_of_ne (show a' ≠ b' by decide) _ _).trans (Function.update_self _ _ _)
theorem V1_b (d : Dev nD) : V1 m d b' = GB m d := Function.update_self _ _ _
theorem V1_r1 (d : Dev nD) : V1 m d r1' = m (r1Loc d) :=
  (Function.update_of_ne (show r1' ≠ b' by decide) _ _).trans (Function.update_of_ne (show r1' ≠ a' by decide) _ _)
theorem V1_r2 (d : Dev nD) : V1 m d r2' = m (r2Loc d) :=
  (Function.update_of_ne (show r2' ≠ b' by decide) _ _).trans (Function.update_of_ne (show r2' ≠ a' by decide) _ _)

theorem h1 : (op1 (F := F)).bufs ⊆ S1 := show ({a', r1'} : Finset (DevRef τ sig)) ⊆ S1 by decide
theorem h2 : (op2 (F := F)).bufs ⊆ S2 := show ({b', r2'} : Finset (DevRef τ sig)) ⊆ S2 by decide

/-- After the first reshape its result holds the lookup of the cosine table: the flat lookup reshaped is the lookup. -/
theorem res1 (d : Dev nD) :
    (op1 (F := F)).result (V1 m d) r1' = (Cert.Spec.take (m (cLoc d)) (m (iLoc d)) : Buf (Elt F) (r1Loc d)) := by
  refine (reshape_result (τ := τ) (Val := Elt F) main_v0_0 main_v1 rfl shapeCasts_S32768x128_S4x8192x128 _ _ (V1 m d)).trans ?_
  rw [show V1 m d ((main_v0_0 : Ref sig .tc) : DevRef τ sig) = GA m d from V1_a m d]
  exact Cert.Spec.shapeCast_takeFlat (m (cLoc d)) (m (iLoc d)) shapeCasts_S32768x128_S4x8192x128

/-- After the second reshape its result holds the lookup of the sine table. -/
theorem res2 (d : Dev nD) :
    (op2 (F := F)).result (V1 m d) r2' = (Cert.Spec.take (m (nLoc d)) (m (iLoc d)) : Buf (Elt F) (r2Loc d)) := by
  refine (reshape_result (τ := τ) (Val := Elt F) main_v0_1 main_v2 rfl shapeCasts_S32768x128_S4x8192x128 _ _ (V1 m d)).trans ?_
  rw [show V1 m d ((main_v0_1 : Ref sig .tc) : DevRef τ sig) = GB m d from V1_b m d]
  exact Cert.Spec.shapeCast_takeFlat (m (nLoc d)) (m (iLoc d)) shapeCasts_S32768x128_S4x8192x128

theorem held_S1_after (d : Dev nD) :
    (held (T d) S1 ((op1 (F := F)).result (V1 m d)) : sProp 𝕄)
      = iprop((aLoc d ↦{fullShare} (op1 (F := F)).result (V1 m d) a')
          ∗ r1Loc d ↦{fullShare} (Cert.Spec.take (m (cLoc d)) (m (iLoc d)) : Buf (Elt F) (r1Loc d))) := by
  rw [held_S1, res1]

theorem held_S2_after (d : Dev nD) :
    (held (T d) S2 ((op2 (F := F)).result (V1 m d)) : sProp 𝕄)
      = iprop((bLoc d ↦{fullShare} (op2 (F := F)).result (V1 m d) b')
          ∗ r2Loc d ↦{fullShare} (Cert.Spec.take (m (nLoc d)) (m (iLoc d)) : Buf (Elt F) (r2Loc d))) := by
  rw [held_S2, res2]

/-- What the program leaves: the three arguments at their launch contents, the two results at the lookups. -/
abbrev FIN (d : Dev nD) : sProp 𝕄 :=
  iprop((iLoc d ↦{fullShare} m (iLoc d)) ∗ (cLoc d ↦{fullShare} m (cLoc d)) ∗ (nLoc d ↦{fullShare} m (nLoc d))
    ∗ (r1Loc d ↦{fullShare} (Cert.Spec.take (m (cLoc d)) (m (iLoc d)) : Buf (Elt F) (r1Loc d)))
    ∗ (r2Loc d ↦{fullShare} (Cert.Spec.take (m (nLoc d)) (m (iLoc d)) : Buf (Elt F) (r2Loc d))))

/-- The program on one device's TensorCore: the five arrays are dealt to the tiles for the call and come back with the
    flat results written; the two reshapes then write the results. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hi, Hc, Hn, Ha, Hbb, Hr1, Hr2⟩, -, -⟩, -⟩
  ihave Hsp := (tc_split_join (F := F) d (m (iLoc d)) (m (cLoc d)) (m (nLoc d)) (m (aLoc d)) (m (bLoc d))).1 $$ [Hi Hc Hn Ha Hbb]
  · isplitl [Hi]; · iexact Hi
    isplitl [Hc]; · iexact Hc
    isplitl [Hn]; · iexact Hn
    isplitl [Ha]; · iexact Ha
    iexact Hbb
  icases Hsp with ⟨Hkeep, Htiles⟩
  iapply ((K (F := F)).wp_run (D (F := F)) 𝒱 (EH := EH) (P := P m) κ d 0) $$ [Hst Htiles Hkeep Hb Hr1 Hr2]
  isplitr; · iexact Hctx
  isplitl [Hst]; · iexact Hst
  isplitl [Htiles]
  · rw [st0_eq]; iexact Htiles
  iintro ⟨Hst, Hdn⟩
  ihave Hdn' := (Entails.of_eq (dn0_eq m d)) $$ Hdn
  ihave Hj := (tc_split_join (F := F) d (m (iLoc d)) (m (cLoc d)) (m (nLoc d)) (GA m d) (GB m d)).2 $$ [Hkeep Hdn']
  · isplitl [Hkeep]; · iexact Hkeep
    iexact Hdn'
  icases Hj with ⟨Hi, Hc, Hn, Ha, Hbb⟩
  iapply (wp_hlo_within 𝒱 (SparseCore.T d) none Set.univ (op := op1) (S := S1) h1 (V := V1 m d)) $$ [Hb Ha Hr1]
  · isplitl [Hb]; · iexact Hb
    rw [held_S1, V1_a, V1_r1]
    isplitl [Ha]; · iexact Ha
    iexact Hr1
  iintro ⟨Hb, Hheld⟩
  ihave Hh := (Entails.of_eq (held_S1_after (F := F) m d)) $$ Hheld
  icases Hh with ⟨-, Hr1⟩
  rw [wp_ret]; imodintro
  iapply (wp_hlo_within 𝒱 (SparseCore.T d) none Set.univ (op := op2) (S := S2) h2 (V := V1 m d)) $$ [Hb Hbb Hr2]
  · isplitl [Hb]; · iexact Hb
    rw [held_S2, V1_b, V1_r2]
    isplitl [Hbb]; · iexact Hbb
    iexact Hr2
  iintro ⟨Hb, Hheld⟩
  ihave Hh := (Entails.of_eq (held_S2_after (F := F) m d)) $$ Hheld
  icases Hh with ⟨-, Hr2⟩
  rw [wp_ret]; imodintro; imodintro
  isplitl [Hst]; · iexact Hst
  isplitl [Hi]; · iexact Hi
  isplitl [Hc]; · iexact Hc
  isplitl [Hn]; · iexact Hn
  isplitl [Hr1]; · iexact Hr1
  iexact Hr2

/-! ## What the final memory reads -/

/-- What the final memory holds on device `d`: the two results and the three arguments. -/
def fq (d : Dev nD) (s' : Phys nD τ sig (Elt F)) : Prop :=
  s'.mem.mem (r1Loc d) = (Cert.Spec.take (m (cLoc d)) (m (iLoc d)) : Buf (Elt F) (r1Loc d))
  ∧ s'.mem.mem (r2Loc d) = (Cert.Spec.take (m (nLoc d)) (m (iLoc d)) : Buf (Elt F) (r2Loc d))
  ∧ s'.mem.mem (iLoc d) = m (iLoc d) ∧ s'.mem.mem (cLoc d) = m (cLoc d) ∧ s'.mem.mem (nLoc d) = m (nLoc d)

set_option maxRecDepth 16384 in
/-- The final memory agrees with every array the program still holds whole. -/
theorem hfin (d : Dev nD) (s' : Phys nD τ sig (Elt F)) : iprop(FIN m d ∗ SI s') ⊢ (⌜fq m d s'⌝ : sProp 𝕄) := by
  iintro ⟨⟨Hi, Hc, Hn, Hr1, Hr2⟩, HSI⟩
  ihave H := (persistent_entails_right (SI_pointsTo_agree (st := s') (ℓ := iLoc d) (I := Finset.univ) (q := fullShare) (f := m (iLoc d)))) $$ [HSI Hi]
  · isplitl [HSI] <;> iassumption
  icases H with ⟨%hi, HSI, -⟩
  ihave H := (persistent_entails_right (SI_pointsTo_agree (st := s') (ℓ := cLoc d) (I := Finset.univ) (q := fullShare) (f := m (cLoc d)))) $$ [HSI Hc]
  · isplitl [HSI] <;> iassumption
  icases H with ⟨%hc, HSI, -⟩
  ihave H := (persistent_entails_right (SI_pointsTo_agree (st := s') (ℓ := nLoc d) (I := Finset.univ) (q := fullShare) (f := m (nLoc d)))) $$ [HSI Hn]
  · isplitl [HSI] <;> iassumption
  icases H with ⟨%hn, HSI, -⟩
  ihave H := (persistent_entails_right (SI_pointsTo_agree (st := s') (ℓ := r1Loc d) (I := Finset.univ) (q := fullShare)
      (f := (Cert.Spec.take (m (cLoc d)) (m (iLoc d)) : Buf (Elt F) (r1Loc d))))) $$ [HSI Hr1]
  · isplitl [HSI] <;> iassumption
  icases H with ⟨%hr1, HSI, -⟩
  ihave H := (SI_pointsTo_agree (st := s') (ℓ := r2Loc d) (I := Finset.univ) (q := fullShare)
      (f := (Cert.Spec.take (m (nLoc d)) (m (iLoc d)) : Buf (Elt F) (r2Loc d)))) $$ [HSI Hr2]
  · isplitl [HSI] <;> iassumption
  icases H with %hr2
  ipureintro
  exact ⟨funext fun i => hr1 i (Finset.mem_univ i), funext fun i => hr2 i (Finset.mem_univ i),
    funext fun i => hi i (Finset.mem_univ i), funext fun i => hc i (Finset.mem_univ i), funext fun i => hn i (Finset.mem_univ i)⟩

/-! ## The program's run -/

/-- The run's post: on every device the two results are the lookups and the arguments are unchanged. -/
def QC : PUnit × MemSt nD τ sig (Elt F) → Prop := fun r => ∀ c : Dev nD,
  r.2.mem (r1Loc c) = (Cert.Spec.take (m (cLoc c)) (m (iLoc c)) : Buf (Elt F) (r1Loc c))
  ∧ r.2.mem (r2Loc c) = (Cert.Spec.take (m (nLoc c)) (m (iLoc c)) : Buf (Elt F) (r2Loc c))
  ∧ r.2.mem (iLoc c) = m (iLoc c) ∧ r.2.mem (cLoc c) = m (cLoc c) ∧ r.2.mem (nLoc c) = m (nLoc c)

/-- With every position word below 8192: every weakly fair execution of the device's threads — the TensorCore, the two
    sequencers and the thirty-two tiles — terminates in a memory with the two results the lookups and the arguments unchanged. -/
theorem run_main [∀ e, Nonempty (Elt F e)] (hpre : PreOK m) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.Kernel

end
-- ==== Proof.KernelIdeal.Setup.lean ====
/-
  The vocabulary of the kernel's frame proof: the program as the launch theorem sees it, the ghost state (the handshakes'
  rounds beside the transfers' counters), the arrays as a vector subcore names them, and the pieces a subcore works on —
  the eight windows of 128 positions of its index scratch, the seven row buffers of 128 rows, and its eight blocks of
  128 rows of each result array.  Tile `(c, s)` is worker `w = 2 s + c`; it owns positions `[1024 w, 1024 w + 1024)`
  of the flattened position array and the same rows of both flat results.
-/
import proofs.«202526_g11321533792333_week1_w4_118_29_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«202526_g11321533792333_week1_w4_118_29_alg».proof.Proof.Gen.KernelIdeal
import proofs.«202526_g11321533792333_week1_w4_118_29_alg».proof.Proof.Gen.KernelIdeal.Skeleton
import proofs.«202526_g11321533792333_week1_w4_118_29_alg».proof.Proof.Spec

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library, the transfers' counters -/

abbrev UH : Type := URounds (GSem nD τ sig) ℕ
abbrev UU : Type := UH × Counters

abbrev EH : Emb UH (MT nD τ sig (HIx 1) (Elt F) ℕ UU ℕ) := embL

/-! ## The arrays -/

abbrev iLoc (d : Dev nD) : Loc nD τ sig := (SparseCore.T d).loc main_arg0
abbrev cLoc (d : Dev nD) : Loc nD τ sig := (SparseCore.T d).loc main_arg1
abbrev nLoc (d : Dev nD) : Loc nD τ sig := (SparseCore.T d).loc main_arg2
abbrev aLoc (d : Dev nD) : Loc nD τ sig := (SparseCore.T d).loc main_v0_0
abbrev bLoc (d : Dev nD) : Loc nD τ sig := (SparseCore.T d).loc main_v0_1

abbrev cosV : Memref sig .scVector .hbm S8192x128 .f32 := Memref.whole main_arg1_scv
abbrev sinV : Memref sig .scVector .hbm S8192x128 .f32 := Memref.whole main_arg2_scv
abbrev iV : Memref sig .scVector .hbm S4x8192 .i32 := Memref.whole main_arg0_scv
abbrev o0V : Memref sig .scVector .hbm S32768x128 .f32 := Memref.whole main_v0_0_scv
abbrev o1V : Memref sig .scVector .hbm S32768x128 .f32 := Memref.whole main_v0_1_scv
abbrev sV : Memref sig .scVector .vmem S1024 .i32 := Memref.whole cc0_scratch0
abbrev rV : Memref sig .scVector .vmem S7x128x128 .f32 := Memref.whole cc0_scratch1

abbrev cV (L : grid0.Coords) : Fin τ.nSC := (L 0).castLE hcore0
abbrev jV (L : grid0.Coords) : Fin τ.nSub := (L 1).castLE hsub0

/-- The grid point of SparseCore `c`, vector subcore `s`. -/
def coordsV (c : Fin (grid0.bound 0)) (s : Fin (grid0.bound 1)) : grid0.Coords :=
  fun | 0 => c | 1 => s | ⟨_ + 2, h⟩ => absurd h (Nat.not_lt.2 (Nat.le_add_left _ _))

/-- The tile's slice of the position array: one row of 1024 positions, as the tile addresses it. -/
abbrev iRowK (L : grid0.Coords) : Memref sig .scVector .hbm S1024 .i32 :=
  ((iV).slice (Rect.unit (s := S4x8192) (k0_off1 L) S1x1024.size (k0_off1_inb L)) (fun _ => rfl)).squeeze S1024 squeezes_S1x1024_S1024

/-- Block `r` (128 rows) of the tile's part of a flat result array, as the tile addresses it. -/
abbrev oWin (o : Memref sig .scVector .hbm S32768x128 .f32) (L : grid0.Coords) (r : Fin 8) : Memref sig .scVector .hbm S128x128 .f32 :=
  o.slice (Rect.unit (s := S32768x128) (k0_off2 L (BitVec.ofNat 32 r.val)) S128x128.size (k0_off2_inb L r)) (fun _ => rfl)

/-- Window `j` (128 positions) of the index scratch. -/
abbrev idxWin (j : Fin 8) : Memref sig .scVector .vmem S128 .i32 :=
  (sV).slice (Rect.unit (s := S1024) ![128 * j.val] S128.size (fun a => by
    have : a = 0 := Subsingleton.elim _ _
    subst this; have := j.isLt; show 128 * j.val + 128 ≤ 1024; omega)) (fun _ => rfl)

/-- Row buffer `b` (128 rows of 128 columns) of the rows scratch. -/
abbrev slot (b : Fin 7) : Memref sig .scVector .vmem S128x128 .f32 :=
  ((rV).slice (Rect.unit (s := S7x128x128) ![b.val, 0, 0] S1x128x128.size (fun a => by
    have := b.isLt
    match a with
    | ⟨0, _⟩ => show b.val + 1 ≤ 7; omega
    | ⟨1, _⟩ => show 0 + 128 ≤ 128; omega
    | ⟨2, _⟩ => show 0 + 128 ≤ 128; omega)) (fun _ => rfl)).squeeze S128x128 squeezes_S1x128x128_S128x128

/-- A whole table, as the gather names its source. -/
abbrev tblAll (t : Memref sig .scVector .hbm S8192x128 .f32) : Memref sig .scVector .hbm S8192x128 .f32 :=
  t.slice (Rect.unit (s := S8192x128) ![0, 0] S8192x128.size inb_S8192x128_S8192x128_0_0) (fun _ => rfl)

end Cert.Proof.KernelIdeal

end
-- ==== Proof.KernelIdeal.Geometry.lean ====
/-
  How the buffers a vector subcore holds whole are cut into the pieces it works on, and put back together.

  The index scratch (1024 positions) is its eight windows of 128 consecutive positions; the rows scratch (seven
  buffers of 128 rows of 128 columns) is its seven row buffers; each flat result array (32768 rows of 128 columns) is
  the 2 · 16 · 8 = 256 blocks of 128 consecutive rows the tiles write, block r of tile (c, s) starting at row
  2048 s + 1024 c + 128 r.  In each case the pieces are unit-stride rectangles that differ on the leading axis only:
  two different pieces occupy disjoint ranges of leading coordinates, and every leading coordinate falls in exactly
  one range (the one its quotient by the piece length names), so a points-to of the whole array is the separating
  conjunction of the points-to's of the pieces, and the pieces held at different contents join to the whole at some
  contents.
-/
import proofs.«202526_g11321533792333_week1_w4_118_29_alg».proof.Proof.KernelIdeal.Setup

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## Unrolling a separating conjunction over seven or eight indices -/

/-- A separating conjunction over the seven indices below 7, written out. -/
theorem bigSep_fin7 (Φ : Fin 7 → sProp 𝕄) :
    bigSep Finset.univ Φ = iprop(Φ 0 ∗ Φ 1 ∗ Φ 2 ∗ Φ 3 ∗ Φ 4 ∗ Φ 5 ∗ Φ 6) := by
  rw [show (Finset.univ : Finset (Fin 7)) = {0, 1, 2, 3, 4, 5, 6} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    bigSep_singleton]

/-- A separating conjunction over the eight indices below 8, written out. -/
theorem bigSep_fin8 (Φ : Fin 8 → sProp 𝕄) :
    bigSep Finset.univ Φ = iprop(Φ 0 ∗ Φ 1 ∗ Φ 2 ∗ Φ 3 ∗ Φ 4 ∗ Φ 5 ∗ Φ 6 ∗ Φ 7) := by
  rw [show (Finset.univ : Finset (Fin 8)) = {0, 1, 2, 3, 4, 5, 6, 7} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-! ## The index scratch: eight windows of 128 positions -/

/-- Window j ends inside the scratch: 128 j + 128 ≤ 1024 for j below 8. -/
theorem idxWin_inb (j : Fin 8) : ∀ a, (![128 * j.val] : Fin 1 → Nat) a + S128.size a ≤ S1024.size a := fun a => by
  have : a = 0 := Subsingleton.elim _ _
  subst this; have := j.isLt; show 128 * j.val + 128 ≤ 1024; omega

/-- The positions of the scratch that window j holds. -/
abbrev idxSet (j : Fin 8) : Finset S1024.Idx := (idxWin j).view.set

/-- They are the unit-stride range [128 j, 128 j + 128). -/
theorem idxSet_eq (j : Fin 8) : idxSet j = (Rect.unit (s := S1024) ![128 * j.val] S128.size (idxWin_inb j)).set :=
  View.set_slice_whole _ _

/-- Different windows hold disjoint positions: if j ≠ j' the ranges [128 j, 128 j + 128) and [128 j', 128 j' + 128)
    lie one wholly below the other. -/
theorem idxSet_disjoint : ∀ j ∈ (Finset.univ : Finset (Fin 8)), ∀ j' ∈ (Finset.univ : Finset (Fin 8)), j ≠ j' →
    Disjoint (idxSet j) (idxSet j') := fun j _ j' _ h => by
  rw [idxSet_eq, idxSet_eq]
  refine Rect.unit_disjoint 0 ?_
  have hne : j.val ≠ j'.val := fun e => h (Fin.ext e)
  show 128 * j.val + 128 ≤ 128 * j'.val ∨ 128 * j'.val + 128 ≤ 128 * j.val
  omega

/-- The windows cover the scratch: position x lies in window x / 128. -/
theorem idxSet_cover : (Finset.univ : Finset (Fin 8)).biUnion idxSet = Finset.univ := by
  refine Finset.eq_univ_iff_forall.mpr fun x => Finset.mem_biUnion.mpr ?_
  have hx : (x 0).val < 1024 := (x 0).isLt
  refine ⟨⟨(x 0).val / 128, by omega⟩, Finset.mem_univ _, ?_⟩
  rw [idxSet_eq, Rect.mem_set_unit]
  intro a
  have : a = 0 := Subsingleton.elim _ _
  subst this
  show 128 * ((x 0).val / 128) ≤ (x 0).val ∧ (x 0).val < 128 * ((x 0).val / 128) + 128
  omega

/-- The index scratch held whole is its eight windows held each: the windows are pairwise disjoint and cover it. -/
theorem idx_windows (d : Dev nD) (c : Fin τ.nSC) (i : Fin τ.nSub) (q : PosShare TreeShare)
    (f : Buf (Elt F) ((sV).view.loc (V d c i))) :
    ((sV).view.loc (V d c i) ↦{q} f : sProp 𝕄)
      = bigSep Finset.univ fun j : Fin 8 => (idxWin j).view.loc (V d c i) ↦[(idxWin j).view.set]{q} f := by
  rw [← pointsTo_biUnion Finset.univ (ℓ := (sV).view.loc (V d c i)) idxSet idxSet_disjoint, idxSet_cover]; try rfl

/-! ## The rows scratch: seven buffers of 128 rows -/

/-- Buffer b lies inside the scratch: b + 1 ≤ 7, and it is whole on the two trailing axes. -/
theorem slot_inb (b : Fin 7) : ∀ a, (![b.val, 0, 0] : Fin 3 → Nat) a + S1x128x128.size a ≤ S7x128x128.size a := fun a => by
  have := b.isLt
  match a with
  | ⟨0, _⟩ => show b.val + 1 ≤ 7; omega
  | ⟨1, _⟩ => show 0 + 128 ≤ 128; omega
  | ⟨2, _⟩ => show 0 + 128 ≤ 128; omega

/-- The elements of the scratch that row buffer b holds. -/
abbrev slotSet (b : Fin 7) : Finset S7x128x128.Idx := (slot b).view.set

/-- They are the elements with leading coordinate b: dropping the leading axis of length one keeps the elements. -/
theorem slotSet_eq (b : Fin 7) :
    slotSet b = (Rect.unit (s := S7x128x128) ![b.val, 0, 0] S1x128x128.size (slot_inb b)).set := by
  show (((View.whole (cc0_scratch1 : Ref sig .scVector)).slice
    (Rect.unit (s := S7x128x128) ![b.val, 0, 0] S1x128x128.size (slot_inb b))).reshape S128x128 squeezes_S1x128x128_S128x128.numel_eq).set = _
  rw [View.set_reshape, View.set_slice_whole]

/-- Different row buffers hold disjoint elements: their leading coordinates differ. -/
theorem slotSet_disjoint : ∀ b ∈ (Finset.univ : Finset (Fin 7)), ∀ b' ∈ (Finset.univ : Finset (Fin 7)), b ≠ b' →
    Disjoint (slotSet b) (slotSet b') := fun b _ b' _ h => by
  rw [slotSet_eq, slotSet_eq]
  refine Rect.unit_disjoint 0 ?_
  have hne : b.val ≠ b'.val := fun e => h (Fin.ext e)
  show b.val + 1 ≤ b'.val ∨ b'.val + 1 ≤ b.val
  omega

/-- The row buffers cover the scratch: an element lies in the buffer its leading coordinate names. -/
theorem slotSet_cover : (Finset.univ : Finset (Fin 7)).biUnion slotSet = Finset.univ := by
  refine Finset.eq_univ_iff_forall.mpr fun x => Finset.mem_biUnion.mpr ?_
  have h0 : (x 0).val < 7 := (x 0).isLt
  have h1 : (x 1).val < 128 := (x 1).isLt
  have h2 : (x 2).val < 128 := (x 2).isLt
  refine ⟨⟨(x 0).val, h0⟩, Finset.mem_univ _, ?_⟩
  rw [slotSet_eq, Rect.mem_set_unit]
  intro a
  match a with
  | ⟨0, _⟩ => show (x 0).val ≤ (x 0).val ∧ (x 0).val < (x 0).val + 1; omega
  | ⟨1, _⟩ => show 0 ≤ (x 1).val ∧ (x 1).val < 0 + 128; omega
  | ⟨2, _⟩ => show 0 ≤ (x 2).val ∧ (x 2).val < 0 + 128; omega

/-- The rows scratch held whole is its seven row buffers held each. -/
theorem slots_split (d : Dev nD) (c : Fin τ.nSC) (i : Fin τ.nSub) (q : PosShare TreeShare)
    (f : Buf (Elt F) ((rV).view.loc (V d c i))) :
    ((rV).view.loc (V d c i) ↦{q} f : sProp 𝕄)
      = bigSep Finset.univ fun b : Fin 7 => (slot b).view.loc (V d c i) ↦[(slot b).view.set]{q} f := by
  rw [← pointsTo_biUnion Finset.univ (ℓ := (rV).view.loc (V d c i)) slotSet slotSet_disjoint, slotSet_cover]; try rfl

set_option maxRecDepth 4096 in
/-- The seven row buffers, each held at its own contents, are the rows scratch held whole at some contents: the
    contents that agree with buffer b's on buffer b's elements. -/
theorem slots_join (d : Dev nD) (c : Fin τ.nSC) (i : Fin τ.nSub) (fs : Fin 7 → Buf (Elt F) ((rV).view.loc (V d c i))) :
    (bigSep Finset.univ fun b : Fin 7 => (slot b).view.loc (V d c i) ↦[(slot b).view.set]{fullShare} fs b)
      ⊢ (iprop(∃ g, (rV).view.loc (V d c i) ↦{fullShare} g) : sProp 𝕄) := by
  iintro H
  ihave H' := (pointsTo_biUnion_join (ℓ := (rV).view.loc (V d c i)) (q := fullShare) (Val := Elt F) Finset.univ slotSet fs (fs 0)
    slotSet_disjoint) $$ H
  icases H' with ⟨%g, -, Hg⟩
  rw [slotSet_cover]
  iexists g; iexact Hg

/-! ## The flat results: 2 · 16 · 8 blocks of 128 rows -/

/-- The grid point of SparseCore c, subcore s has first coordinate c -/
theorem coordsV_zero (c : Fin (grid0.bound 0)) (s : Fin (grid0.bound 1)) : coordsV c s 0 = c := rfl
/-- and second coordinate s. -/
theorem coordsV_one (c : Fin (grid0.bound 0)) (s : Fin (grid0.bound 1)) : coordsV c s 1 = s := rfl

/-- The rows of a flat result that block r of tile (c, s) holds: the unit-stride rectangle of 128 rows from row
    2048 s + 1024 c + 128 r, all 128 columns. -/
abbrev outSet (t : Fin 2 × Fin 16 × Fin 8) : Finset S32768x128.Idx :=
  (Rect.unit (s := S32768x128) (k0_off2 (coordsV t.1 t.2.1) (BitVec.ofNat 32 t.2.2.val)) S128x128.size
    (k0_off2_inb (coordsV t.1 t.2.1) t.2.2)).set

/-- Different blocks hold disjoint rows.  The first row 2048 s + 1024 c + 128 r of a block determines (s, c, r)
    (c below 2, r below 8: the digits of the row number over 128 in the mixed base 16 · 2 · 8), so two different blocks
    start at different multiples of 128 and their ranges of 128 rows lie one wholly below the other. -/
theorem outSet_disjoint : ∀ t ∈ (Finset.univ : Finset (Fin 2 × Fin 16 × Fin 8)), ∀ t' ∈ (Finset.univ : Finset (Fin 2 × Fin 16 × Fin 8)),
    t ≠ t' → Disjoint (outSet t) (outSet t') := fun t _ t' _ h => by
  obtain ⟨c, s, r⟩ := t
  obtain ⟨c', s', r'⟩ := t'
  refine Rect.unit_disjoint 0 ?_
  rw [k0_off2_eq, k0_off2_eq]
  have hne : c.val ≠ c'.val ∨ s.val ≠ s'.val ∨ r.val ≠ r'.val := by
    by_contra hc
    simp only [not_or, not_not] at hc
    exact h (Prod.ext (Fin.ext hc.1) (Prod.ext (Fin.ext hc.2.1) (Fin.ext hc.2.2)))
  have := c.isLt; have := c'.isLt; have := r.isLt; have := r'.isLt
  show 2048 * s.val + 1024 * c.val + 128 * r.val + 128 ≤ 2048 * s'.val + 1024 * c'.val + 128 * r'.val
    ∨ 2048 * s'.val + 1024 * c'.val + 128 * r'.val + 128 ≤ 2048 * s.val + 1024 * c.val + 128 * r.val
  omega

/-- The blocks cover a flat result: row x lies in block r = x / 128 mod 8 of tile c = x / 1024 mod 2, s = x / 2048. -/
theorem outSet_cover : (Finset.univ : Finset (Fin 2 × Fin 16 × Fin 8)).biUnion outSet = Finset.univ := by
  refine Finset.eq_univ_iff_forall.mpr fun x => Finset.mem_biUnion.mpr ?_
  have h0 : (x 0).val < 32768 := (x 0).isLt
  have h1 : (x 1).val < 128 := (x 1).isLt
  refine ⟨(⟨(x 0).val / 1024 % 2, by omega⟩, ⟨(x 0).val / 2048, by omega⟩, ⟨(x 0).val / 128 % 8, by omega⟩), Finset.mem_univ _, ?_⟩
  rw [Rect.mem_set_unit, k0_off2_eq]
  intro a
  match a with
  | ⟨0, _⟩ =>
    show 2048 * ((x 0).val / 2048) + 1024 * ((x 0).val / 1024 % 2) + 128 * ((x 0).val / 128 % 8) ≤ (x 0).val
      ∧ (x 0).val < 2048 * ((x 0).val / 2048) + 1024 * ((x 0).val / 1024 % 2) + 128 * ((x 0).val / 128 % 8) + 128
    omega
  | ⟨1, _⟩ => show 0 ≤ (x 1).val ∧ (x 1).val < 0 + 128; omega

/-- Block r of tile (c', s) of the first flat result holds exactly those rows of it, -/
theorem oWin0_set (c' : Fin 2) (s : Fin 16) (r : Fin 8) : ((oWin o0V (coordsV c' s) r).view.set : Finset S32768x128.Idx) = outSet (c', s, r) :=
  View.set_slice_whole _ _
/-- and block r of tile (c', s) of the second flat result the same rows of that one: a slice of a whole array holds
    its rectangle's elements. -/
theorem oWin1_set (c' : Fin 2) (s : Fin 16) (r : Fin 8) : ((oWin o1V (coordsV c' s) r).view.set : Finset S32768x128.Idx) = outSet (c', s, r) :=
  View.set_slice_whole _ _

/-- The first flat result held whole is its 256 blocks held each, grouped by SparseCore, then subcore, then block. -/
theorem out0_windows (d : Dev nD) (c : Fin τ.nSC) (i : Fin τ.nSub) (f : Buf (Elt F) ((o0V).view.loc (V d c i))) :
    ((o0V).view.loc (V d c i) ↦{fullShare} f : sProp 𝕄)
      = bigSep Finset.univ fun c' : Fin 2 => bigSep Finset.univ fun s : Fin 16 => bigSep Finset.univ fun r : Fin 8 =>
          (oWin o0V (coordsV c' s) r).view.loc (V d c i) ↦[(oWin o0V (coordsV c' s) r).view.set]{fullShare} f := by
  rw [show ((o0V).view.loc (V d c i) ↦{fullShare} f : sProp 𝕄)
      = bigSep Finset.univ fun t : Fin 2 × Fin 16 × Fin 8 => (o0V).view.loc (V d c i) ↦[outSet t]{fullShare} f by
    rw [← pointsTo_biUnion Finset.univ (ℓ := (o0V).view.loc (V d c i)) outSet outSet_disjoint, outSet_cover]; try rfl,
    bigSep_univ_prod]
  refine bigSep_congr fun c' _ => ?_
  rw [bigSep_univ_prod]
  refine bigSep_congr fun s _ => bigSep_congr fun r _ => ?_
  rw [oWin0_set]

/-- The second flat result held whole is its 256 blocks held each, grouped the same way. -/
theorem out1_windows (d : Dev nD) (c : Fin τ.nSC) (i : Fin τ.nSub) (f : Buf (Elt F) ((o1V).view.loc (V d c i))) :
    ((o1V).view.loc (V d c i) ↦{fullShare} f : sProp 𝕄)
      = bigSep Finset.univ fun c' : Fin 2 => bigSep Finset.univ fun s : Fin 16 => bigSep Finset.univ fun r : Fin 8 =>
          (oWin o1V (coordsV c' s) r).view.loc (V d c i) ↦[(oWin o1V (coordsV c' s) r).view.set]{fullShare} f := by
  rw [show ((o1V).view.loc (V d c i) ↦{fullShare} f : sProp 𝕄)
      = bigSep Finset.univ fun t : Fin 2 × Fin 16 × Fin 8 => (o1V).view.loc (V d c i) ↦[outSet t]{fullShare} f by
    rw [← pointsTo_biUnion Finset.univ (ℓ := (o1V).view.loc (V d c i)) outSet outSet_disjoint, outSet_cover]; try rfl,
    bigSep_univ_prod]
  refine bigSep_congr fun c' _ => ?_
  rw [bigSep_univ_prod]
  refine bigSep_congr fun s _ => bigSep_congr fun r _ => ?_
  rw [oWin1_set]

end Cert.Proof.KernelIdeal

end
-- ==== Proof.KernelIdeal.WinValue.lean ====
/-
  The value of one written block of a result array.

  Tile `(c, s)` is worker `w = 2 s + c`.  Its index scratch holds positions `[1024 w, 1024 w + 1024)` of the
  flattened position array: row `w / 8` of the `[4, 8192]` array, columns from `(w % 8) * 1024`.  Window `r` of the
  scratch lists 128 row numbers; the gather fills a row buffer with those rows of the table; the write-back copies the
  row buffer into block `r` of the tile's part of the flat result, rows `1024 w + 128 r + [0, 128)`.

  So entry `(p, c)` of the block is the table at row `pos[w / 8, (w % 8) * 1024 + 128 r + p]`, column `c`; and with
  `x₀ = 1024 w + 128 r + p` the flat row of that entry, `x₀ / 8192 = w / 8` and `x₀ % 8192 = (w % 8) * 1024 + 128 r + p`:
  the block holds the flat lookup `Cert.Spec.takeFlat` of the table at the positions.
-/
import proofs.«202526_g11321533792333_week1_w4_118_29_alg».proof.Proof.KernelIdeal.Setup
import Idealize.ShloMosaic.Lib.ValueIdx

noncomputable section

namespace Cert.Proof.KernelIdeal

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## Views, generally -/

section Generic

variable {sig : RefSig} {κ : Kind} {sp : Space} {s : Shape} {e : EltTy} {Val : EltTy → Type}

/-- Reading through a rectangle of a view is reading through the view at the rectangle's placement. -/
theorem read_slice_apply (v : View sig κ sp s e) (R : Rect s) (f : v.ty.Contents Val) (y : R.shape.Idx) :
    (v.slice R).read Val f y = v.read Val f (R.emb y) := rfl

/-- Reading through a reshaped view is reading through the view at the index with the same row-major position. -/
theorem read_reshape_apply (v : View sig κ sp s e) {s' : Shape} (h : s'.numel = s.numel) (f : v.ty.Contents Val) (y : s'.Idx) :
    (v.reshape s' h).read Val f y = v.read Val f (Shape.reshapeEquiv h y) := rfl

/-- Reading a whole buffer is reading its contents. -/
theorem read_whole_apply (b : Ref sig κ) (f : b.ty.Contents Val) (x : b.ty.shape.Idx) :
    (View.whole b).read Val f x = f x := rfl

/-- After a list of writes whose newest covers the whole shape, the view reads that write's payload. -/
theorem read_writes_whole_head (v : View sig κ sp s e) (f : v.ty.Contents Val) (w : s.Idx → Val e)
    (rest : List (View.Piece Val s e)) :
    v.read Val (v.writes Val f (⟨Rect.whole s, w⟩ :: rest)) = w := by
  funext y
  have h := View.read_writes_cons_emb v f (Rect.whole s) w rest y
  rwa [Rect.emb_whole_apply] at h

/-- A rectangle `R` of a whole buffer, written whole with the payload `g`: the buffer's element under the rectangle's
    index `y` holds `g y`. -/
theorem writes_whole_block_apply (b : Ref sig κ) (R : Rect b.ty.shape) (f : b.ty.Contents Val)
    (g : R.shape.Idx → Val b.ty.elt) (y : R.shape.Idx) :
    ((View.whole b).slice R).writes Val f [⟨Rect.whole R.shape, g⟩] (R.emb y) = g y := by
  rw [View.writes_singleton]
  have h := View.write_emb_of_mem (v := ((View.whole b).slice R).slice (Rect.whole R.shape)) (Val := Val) f g
    (M := Finset.univ) (x := y) (Finset.mem_univ _)
  have e : (((View.whole b).slice R).slice (Rect.whole R.shape)).emb y = R.emb y := by
    show R.emb ((Rect.whole R.shape).emb y) = R.emb y
    rw [Rect.emb_whole_apply]
  rw [e] at h
  exact h

end Generic

/-! ## Unit-stride rectangles and row-major positions at literal ranks -/

/-- A unit-stride rectangle at rank one places its index `p` at `off + p`. -/
theorem unit1_emb {n m : Nat} (off : Fin 1 → Nat)
    (inb : ∀ a, off a + (⟨1, ![m]⟩ : Shape).size a ≤ (⟨1, ![n]⟩ : Shape).size a) (p : Fin m) (h : off 0 + p.val < n) :
    (Rect.unit (s := ⟨1, ![n]⟩) off (⟨1, ![m]⟩ : Shape).size inb).emb (ix1 p) = ix1 (⟨off 0 + p.val, h⟩ : Fin n) := by
  funext a; apply Fin.ext
  match a with
  | ⟨0, _⟩ => show off 0 + 1 * p.val = off 0 + p.val; omega

/-- A unit-stride rectangle at rank two places its index `(p, c)` at `(off₀ + p, off₁ + c)`. -/
theorem unit2_emb {n0 n1 m0 m1 : Nat} (off : Fin 2 → Nat)
    (inb : ∀ a, off a + (⟨2, ![m0, m1]⟩ : Shape).size a ≤ (⟨2, ![n0, n1]⟩ : Shape).size a) (p : Fin m0) (c : Fin m1)
    (h0 : off 0 + p.val < n0) (h1 : off 1 + c.val < n1) :
    (Rect.unit (s := ⟨2, ![n0, n1]⟩) off (⟨2, ![m0, m1]⟩ : Shape).size inb).emb (ix2 p c)
      = ix2 (⟨off 0 + p.val, h0⟩ : Fin n0) (⟨off 1 + c.val, h1⟩ : Fin n1) := by
  funext a; apply Fin.ext
  match a with
  | ⟨0, _⟩ => show off 0 + 1 * p.val = off 0 + p.val; omega
  | ⟨1, _⟩ => show off 1 + 1 * c.val = off 1 + c.val; omega

/-- A vector of length `n` viewed as one row `[1, n]`: entry `q` is entry `(0, q)`. -/
theorem reshape_row_ix1 {n : Nat} (h : (⟨1, ![n]⟩ : Shape).numel = (⟨2, ![1, n]⟩ : Shape).numel) (q : Fin n) :
    Shape.reshapeEquiv h (ix1 q) = ix2 (0 : Fin 1) q :=
  Shape.reshapeEquiv_eq_of_rowMajor h (by
    rw [Shape.rowMajor_val_two, Shape.rowMajor_val_one]
    show 0 * n + q.val = q.val
    omega)

/-- At rank one the index at row-major position `q` is `q` itself. -/
theorem rowMajor_symm_ix1 {n : Nat} (q : Fin (⟨1, ![n]⟩ : Shape).numel) (p : Fin n) (hq : q.val = p.val) :
    (⟨1, ![n]⟩ : Shape).rowMajor.symm q = ix1 p := by
  rw [Equiv.symm_apply_eq]
  apply Fin.ext
  rw [Shape.rowMajor_val_one]
  exact hq

/-! ## The tile's offsets -/

/-- The offsets of the tile's slice of the position array, in closed form: row `w / 8`, column `(w % 8) * 1024` for
    worker `w = 2 s + c` (the kernel's signed floor-division and remainder of a non-negative `w`), checked at each of the
    32 grid points. -/
theorem k0_off1_eq : ∀ L : grid0.Coords,
    k0_off1 L = ![(2 * (L 1).val + (L 0).val) / 8, ((2 * (L 1).val + (L 0).val) % 8) * 1024] := by decide +kernel

/-- The grid has 2 SparseCores of 16 vector subcores. -/
theorem L0_lt (L : grid0.Coords) : (L 0).val < 2 := (L 0).isLt
theorem L1_lt (L : grid0.Coords) : (L 1).val < 16 := (L 1).isLt

/-! ## The gather's pieces -/

/-- The gather of rows: result entry `(p, c)` reads the source at the row the list names for `p`, column `c`. -/
theorem gather_idx (rws : Fin (S128x128.size gathers_S8192x128_S128x128.axis') → Fin (S8192x128.size gathers_S8192x128_S128x128.axis)) (p c : Fin 128) :
    gathers_S8192x128_S128x128.idx rws (ix2 p c) = ix2 (rws p) c := by
  funext a; apply Fin.ext
  match a with
  | ⟨0, _⟩ => exact congrArg Fin.val (Shape.Gathers.idx_axis gathers_S8192x128_S128x128 rws (ix2 p c))
  | ⟨1, _⟩ => exact Shape.Gathers.idx_of_ne gathers_S8192x128_S128x128 rws (ix2 p c) ⟨1, by decide⟩ (by decide)

/-- The row the offset list names for result row `p` is the list's word at `p`. -/
theorem rows_val (lw : S128.Idx → Elt F .i32) (hn : S128.numel = S128x128.size gathers_S8192x128_S128x128.axis')
    (h : ∀ x, (lw x).toNat < S8192x128.size gathers_S8192x128_S128x128.axis) (p : Fin 128) :
    (SparseCore.rows lw hn h p).val = (lw (ix1 p)).toNat :=
  congrArg (fun i => BitVec.toNat (lw i)) (rowMajor_symm_ix1 (n := 128) (Fin.cast hn.symm p) p rfl)

/-! ## The index scratch -/

/-- After the tile's slice of the position array is copied whole into the index scratch, window `r` of the scratch at
    entry `p` holds the position word at row `w / 8`, column `(w % 8) * 1024 + 128 r + p`. -/
theorem scratch_window (d : Dev nD) (L : grid0.Coords) (r : Fin 8)
    (fi : Buf (Elt F) ((iV).view.loc (V d (cV L) (jV L)))) (fs : Buf (Elt F) ((sV).view.loc (V d (cV L) (jV L))))
    (p : Fin 128) (A : Fin 4) (B : Fin 8192) (hA : A.val = (2 * (L 1).val + (L 0).val) / 8)
    (hB : B.val = ((2 * (L 1).val + (L 0).val) % 8) * 1024 + (128 * r.val + p.val)) :
    (idxWin r).view.read (Elt F) (View.write (Elt F) (sV).view fs (ReadAs.same.apply ((iRowK L).view.read (Elt F) fi)) Finset.univ) (ix1 p)
      = fi (ix2 A B) := by
  have hq : 128 * r.val + p.val < 1024 := by have := r.isLt; have := p.isLt; omega
  have o0 : k0_off1 L 0 = (2 * (L 1).val + (L 0).val) / 8 := by rw [k0_off1_eq L]; rfl
  have o1 : k0_off1 L 1 = ((2 * (L 1).val + (L 0).val) % 8) * 1024 := by rw [k0_off1_eq L]; rfl
  show (sV).view.read (Elt F) (View.write (Elt F) (sV).view fs _ Finset.univ)
    ((Rect.unit (s := S1024) ![128 * r.val] S128.size _).emb (ix1 p)) = _
  rw [View.read_write_univ, ReadAs.apply_same, unit1_emb (n := 1024) (m := 128) ![128 * r.val] _ p hq]
  show fi ((Rect.unit (s := S4x8192) (k0_off1 L) S1x1024.size (k0_off1_inb L)).emb
    (Shape.reshapeEquiv squeezes_S1x1024_S1024.numel_eq (ix1 (⟨128 * r.val + p.val, hq⟩ : Fin 1024)))) = _
  rw [reshape_row_ix1]
  refine congrArg fi (funext fun a => Fin.ext ?_)
  match a with
  | ⟨0, _⟩ =>
    show k0_off1 L 0 + 1 * 0 = A.val
    omega
  | ⟨1, _⟩ =>
    show k0_off1 L 1 + 1 * (128 * r.val + p.val) = B.val
    omega

/-! ## The flat lookup at an entry whose row number is known -/

/-- The flat lookup at `x`, when the position word at batch `x₀ / 8192`, position `x₀ % 8192` is below 8192: the
    table at the row that word names, column `x₁`. -/
theorem takeFlat_at {α : Type} (ft : (⟨2, ![8192, 128]⟩ : Shape).Idx → α) (fi : (⟨2, ![4, 8192]⟩ : Shape).Idx → BitVec 32)
    (x : (⟨2, ![32768, 128]⟩ : Shape).Idx) (A : Fin 4) (B : Fin 8192) (c : Fin 128)
    (hA : A.val = (x 0).val / 8192) (hB : B.val = (x 0).val % 8192) (hc : c.val = (x 1).val)
    (hlt : (fi (ix2 A B)).toNat < 8192) :
    Cert.Spec.takeFlat ft fi x = ft (ix2 (⟨(fi (ix2 A B)).toNat, hlt⟩ : Fin 8192) c) := by
  have e : (ix2 (⟨(x 0).val / 8192, Nat.div_lt_of_lt_mul (x 0).isLt⟩ : Fin 4)
      (⟨(x 0).val % 8192, Nat.mod_lt _ (by decide)⟩ : Fin 8192) : (⟨2, ![4, 8192]⟩ : Shape).Idx) = ix2 A B := by
    funext a; apply Fin.ext
    match a with
    | ⟨0, _⟩ => exact hA.symm
    | ⟨1, _⟩ => exact hB.symm
  show ft (ix2 (Cert.Spec.row (fi (ix2 (⟨(x 0).val / 8192, Nat.div_lt_of_lt_mul (x 0).isLt⟩ : Fin 4)
      (⟨(x 0).val % 8192, Nat.mod_lt _ (by decide)⟩ : Fin 8192)))) (x 1)) = _
  rw [e]
  refine congrArg ft (funext fun a => Fin.ext ?_)
  match a with
  | ⟨0, _⟩ => exact Cert.Spec.row_val_of_lt hlt
  | ⟨1, _⟩ => exact hc.symm

/-- Block `r` of the tile's part of the first result, written whole with the row buffer read back after the gather:
    the element under the block's index `(p, c)` is the flat lookup of the cosine table there. -/
theorem win_value_emb_a [FloatOps F] (d : Dev nD) (L : grid0.Coords) (r : Fin 8) (b : Fin 7)
    (fi : Buf (Elt F) ((iV).view.loc (V d (cV L) (jV L)))) (ft : Buf (Elt F) ((cosV).view.loc (V d (cV L) (jV L))))
    (fo : Buf (Elt F) ((o0V).view.loc (V d (cV L) (jV L)))) (fs : Buf (Elt F) ((sV).view.loc (V d (cV L) (jV L))))
    (fr : Buf (Elt F) ((rV).view.loc (V d (cV L) (jV L))))
    (rest : List (View.Piece (Elt F) S128x128 .f32)) (hn : S128.numel = S128x128.size gathers_S8192x128_S128x128.axis')
    (hin : ∀ x, ((idxWin r).view.read (Elt F) (View.write (Elt F) (sV).view fs (ReadAs.same.apply ((iRowK L).view.read (Elt F) fi)) Finset.univ) x).toNat < S8192x128.size gathers_S8192x128_S128x128.axis)
    (p c : Fin 128) :
    ((oWin o0V L r).view.writes (Elt F) fo [⟨Rect.whole _, ReadAs.same.apply ((slot b).view.read (Elt F) ((slot b).view.writes (Elt F) fr
        (⟨Rect.whole S128x128, SparseCore.gatherPayload gathers_S8192x128_S128x128 ((tblAll cosV).view.read (Elt F) ft)
          (SparseCore.rows ((idxWin r).view.read (Elt F) (View.write (Elt F) (sV).view fs (ReadAs.same.apply ((iRowK L).view.read (Elt F) fi)) Finset.univ)) hn hin)⟩ :: rest)))⟩])
        ((Rect.unit (s := S32768x128) (k0_off2 L (BitVec.ofNat 32 r.val)) S128x128.size (k0_off2_inb L r)).emb (ix2 p c))
      = Cert.Spec.takeFlat ft fi
        ((Rect.unit (s := S32768x128) (k0_off2 L (BitVec.ofNat 32 r.val)) S128x128.size (k0_off2_inb L r)).emb (ix2 p c)) := by
  have hL0 := L0_lt L
  have hL1 := L1_lt L
  have hr := r.isLt
  have hp := p.isLt
  have q0 : k0_off2 L (BitVec.ofNat 32 r.val) 0 = 2048 * (L 1).val + 1024 * (L 0).val + 128 * r.val := by
    rw [k0_off2_eq L r]; rfl
  have q1 : k0_off2 L (BitVec.ofNat 32 r.val) 1 = 0 := by rw [k0_off2_eq L r]; rfl
  have hA : (2048 * (L 1).val + 1024 * (L 0).val + 128 * r.val + p.val) / 8192 < 4 := by omega
  have hB : (2048 * (L 1).val + 1024 * (L 0).val + 128 * r.val + p.val) % 8192 < 8192 := Nat.mod_lt _ (by decide)
  have hw := scratch_window d L r fi fs p ⟨_, hA⟩ ⟨_, hB⟩ (by show _ / 8192 = _ / 8; omega) (by show _ % 8192 = _; omega)
  have hlt := hin (ix1 p)
  rw [hw] at hlt
  refine (writes_whole_block_apply (Val := Elt F) main_v0_0_scv
    (Rect.unit (s := S32768x128) (k0_off2 L (BitVec.ofNat 32 r.val)) S128x128.size (k0_off2_inb L r)) fo _ (ix2 p c)).trans ?_
  rw [ReadAs.apply_same, read_writes_whole_head,
    takeFlat_at ft fi _ ⟨_, hA⟩ ⟨_, hB⟩ c
      (by show (2048 * (L 1).val + 1024 * (L 0).val + 128 * r.val + p.val) / 8192 = (k0_off2 L (BitVec.ofNat 32 r.val) 0 + 1 * p.val) / 8192; rw [q0, Nat.one_mul])
      (by show (2048 * (L 1).val + 1024 * (L 0).val + 128 * r.val + p.val) % 8192 = (k0_off2 L (BitVec.ofNat 32 r.val) 0 + 1 * p.val) % 8192; rw [q0, Nat.one_mul])
      (by show c.val = k0_off2 L (BitVec.ofNat 32 r.val) 1 + 1 * c.val; omega) hlt]
  show (tblAll cosV).view.read (Elt F) ft (gathers_S8192x128_S128x128.idx _ (ix2 p c)) = _
  rw [gather_idx]
  show ft ((Rect.unit (s := S8192x128) ![0, 0] S8192x128.size inb_S8192x128_S8192x128_0_0).emb (ix2 _ c)) = _
  refine congrArg ft (funext fun a => Fin.ext ?_)
  match a with
  | ⟨0, _⟩ =>
    show 0 + 1 * (SparseCore.rows _ hn hin p).val = (fi (ix2 _ _)).toNat
    rw [rows_val, hw]
    omega
  | ⟨1, _⟩ =>
    show 0 + 1 * c.val = c.val
    omega

/-- The same at every element of the block: an element of the block is under the index `(x₀ - off₀, x₁ - off₁)`. -/
theorem win_value_a [FloatOps F] (d : Dev nD) (L : grid0.Coords) (r : Fin 8) (b : Fin 7)
    (fi : Buf (Elt F) ((iV).view.loc (V d (cV L) (jV L)))) (ft : Buf (Elt F) ((cosV).view.loc (V d (cV L) (jV L))))
    (fo : Buf (Elt F) ((o0V).view.loc (V d (cV L) (jV L)))) (fs : Buf (Elt F) ((sV).view.loc (V d (cV L) (jV L))))
    (fr : Buf (Elt F) ((rV).view.loc (V d (cV L) (jV L))))
    (rest : List (View.Piece (Elt F) S128x128 .f32)) (hn : S128.numel = S128x128.size gathers_S8192x128_S128x128.axis')
    (hin : ∀ x, ((idxWin r).view.read (Elt F) (View.write (Elt F) (sV).view fs (ReadAs.same.apply ((iRowK L).view.read (Elt F) fi)) Finset.univ) x).toNat < S8192x128.size gathers_S8192x128_S128x128.axis) :
    ∀ x ∈ (oWin o0V L r).view.set,
      ((oWin o0V L r).view.writes (Elt F) fo [⟨Rect.whole _, ReadAs.same.apply ((slot b).view.read (Elt F) ((slot b).view.writes (Elt F) fr
        (⟨Rect.whole S128x128, SparseCore.gatherPayload gathers_S8192x128_S128x128 ((tblAll cosV).view.read (Elt F) ft)
          (SparseCore.rows ((idxWin r).view.read (Elt F) (View.write (Elt F) (sV).view fs (ReadAs.same.apply ((iRowK L).view.read (Elt F) fi)) Finset.univ)) hn hin)⟩ :: rest)))⟩]) x
      = (Cert.Spec.takeFlat ft fi : Buf (Elt F) ((o0V).view.loc (V d (cV L) (jV L)))) x := by
  intro x hx
  have hx' : x ∈ (Rect.unit (s := S32768x128) (k0_off2 L (BitVec.ofNat 32 r.val)) S128x128.size (k0_off2_inb L r)).set :=
    (View.set_slice_whole main_v0_0_scv _) ▸ hx
  have hb := Rect.mem_set_unit.mp hx'
  have h0 := hb 0
  have h1 := hb 1
  have e : x = (Rect.unit (s := S32768x128) (k0_off2 L (BitVec.ofNat 32 r.val)) S128x128.size (k0_off2_inb L r)).emb
      (ix2 (⟨(x 0).val - k0_off2 L (BitVec.ofNat 32 r.val) 0, by
          have : (x 0).val < k0_off2 L (BitVec.ofNat 32 r.val) 0 + 128 := h0.2
          omega⟩ : Fin 128)
        (⟨(x 1).val - k0_off2 L (BitVec.ofNat 32 r.val) 1, by
          have : (x 1).val < k0_off2 L (BitVec.ofNat 32 r.val) 1 + 128 := h1.2
          omega⟩ : Fin 128)) := by
    funext a; apply Fin.ext
    match a with
    | ⟨0, _⟩ =>
      show (x 0).val = k0_off2 L (BitVec.ofNat 32 r.val) 0 + 1 * ((x 0).val - k0_off2 L (BitVec.ofNat 32 r.val) 0)
      have : k0_off2 L (BitVec.ofNat 32 r.val) 0 ≤ (x 0).val := h0.1
      omega
    | ⟨1, _⟩ =>
      show (x 1).val = k0_off2 L (BitVec.ofNat 32 r.val) 1 + 1 * ((x 1).val - k0_off2 L (BitVec.ofNat 32 r.val) 1)
      have : k0_off2 L (BitVec.ofNat 32 r.val) 1 ≤ (x 1).val := h1.1
      omega
  rw [e]
  exact win_value_emb_a d L r b fi ft fo fs fr rest hn hin _ _

/-- Block `r` of the tile's part of the second result: the flat lookup of the sine table. -/
theorem win_value_emb_b [FloatOps F] (d : Dev nD) (L : grid0.Coords) (r : Fin 8) (b : Fin 7)
    (fi : Buf (Elt F) ((iV).view.loc (V d (cV L) (jV L)))) (ft : Buf (Elt F) ((sinV).view.loc (V d (cV L) (jV L))))
    (fo : Buf (Elt F) ((o1V).view.loc (V d (cV L) (jV L)))) (fs : Buf (Elt F) ((sV).view.loc (V d (cV L) (jV L))))
    (fr : Buf (Elt F) ((rV).view.loc (V d (cV L) (jV L))))
    (rest : List (View.Piece (Elt F) S128x128 .f32)) (hn : S128.numel = S128x128.size gathers_S8192x128_S128x128.axis')
    (hin : ∀ x, ((idxWin r).view.read (Elt F) (View.write (Elt F) (sV).view fs (ReadAs.same.apply ((iRowK L).view.read (Elt F) fi)) Finset.univ) x).toNat < S8192x128.size gathers_S8192x128_S128x128.axis)
    (p c : Fin 128) :
    ((oWin o1V L r).view.writes (Elt F) fo [⟨Rect.whole _, ReadAs.same.apply ((slot b).view.read (Elt F) ((slot b).view.writes (Elt F) fr
        (⟨Rect.whole S128x128, SparseCore.gatherPayload gathers_S8192x128_S128x128 ((tblAll sinV).view.read (Elt F) ft)
          (SparseCore.rows ((idxWin r).view.read (Elt F) (View.write (Elt F) (sV).view fs (ReadAs.same.apply ((iRowK L).view.read (Elt F) fi)) Finset.univ)) hn hin)⟩ :: rest)))⟩])
        ((Rect.unit (s := S32768x128) (k0_off2 L (BitVec.ofNat 32 r.val)) S128x128.size (k0_off2_inb L r)).emb (ix2 p c))
      = Cert.Spec.takeFlat ft fi
        ((Rect.unit (s := S32768x128) (k0_off2 L (BitVec.ofNat 32 r.val)) S128x128.size (k0_off2_inb L r)).emb (ix2 p c)) := by
  have hL0 := L0_lt L
  have hL1 := L1_lt L
  have hr := r.isLt
  have hp := p.isLt
  have q0 : k0_off2 L (BitVec.ofNat 32 r.val) 0 = 2048 * (L 1).val + 1024 * (L 0).val + 128 * r.val := by
    rw [k0_off2_eq L r]; rfl
  have q1 : k0_off2 L (BitVec.ofNat 32 r.val) 1 = 0 := by rw [k0_off2_eq L r]; rfl
  have hA : (2048 * (L 1).val + 1024 * (L 0).val + 128 * r.val + p.val) / 8192 < 4 := by omega
  have hB : (2048 * (L 1).val + 1024 * (L 0).val + 128 * r.val + p.val) % 8192 < 8192 := Nat.mod_lt _ (by decide)
  have hw := scratch_window d L r fi fs p ⟨_, hA⟩ ⟨_, hB⟩ (by show _ / 8192 = _ / 8; omega) (by show _ % 8192 = _; omega)
  have hlt := hin (ix1 p)
  rw [hw] at hlt
  refine (writes_whole_block_apply (Val := Elt F) main_v0_1_scv
    (Rect.unit (s := S32768x128) (k0_off2 L (BitVec.ofNat 32 r.val)) S128x128.size (k0_off2_inb L r)) fo _ (ix2 p c)).trans ?_
  rw [ReadAs.apply_same, read_writes_whole_head,
    takeFlat_at ft fi _ ⟨_, hA⟩ ⟨_, hB⟩ c
      (by show (2048 * (L 1).val + 1024 * (L 0).val + 128 * r.val + p.val) / 8192 = (k0_off2 L (BitVec.ofNat 32 r.val) 0 + 1 * p.val) / 8192; rw [q0, Nat.one_mul])
      (by show (2048 * (L 1).val + 1024 * (L 0).val + 128 * r.val + p.val) % 8192 = (k0_off2 L (BitVec.ofNat 32 r.val) 0 + 1 * p.val) % 8192; rw [q0, Nat.one_mul])
      (by show c.val = k0_off2 L (BitVec.ofNat 32 r.val) 1 + 1 * c.val; omega) hlt]
  show (tblAll sinV).view.read (Elt F) ft (gathers_S8192x128_S128x128.idx _ (ix2 p c)) = _
  rw [gather_idx]
  show ft ((Rect.unit (s := S8192x128) ![0, 0] S8192x128.size inb_S8192x128_S8192x128_0_0).emb (ix2 _ c)) = _
  refine congrArg ft (funext fun a => Fin.ext ?_)
  match a with
  | ⟨0, _⟩ =>
    show 0 + 1 * (SparseCore.rows _ hn hin p).val = (fi (ix2 _ _)).toNat
    rw [rows_val, hw]
    omega
  | ⟨1, _⟩ =>
    show 0 + 1 * c.val = c.val
    omega

/-- The same at every element of the block. -/
theorem win_value_b [FloatOps F] (d : Dev nD) (L : grid0.Coords) (r : Fin 8) (b : Fin 7)
    (fi : Buf (Elt F) ((iV).view.loc (V d (cV L) (jV L)))) (ft : Buf (Elt F) ((sinV).view.loc (V d (cV L) (jV L))))
    (fo : Buf (Elt F) ((o1V).view.loc (V d (cV L) (jV L)))) (fs : Buf (Elt F) ((sV).view.loc (V d (cV L) (jV L))))
    (fr : Buf (Elt F) ((rV).view.loc (V d (cV L) (jV L))))
    (rest : List (View.Piece (Elt F) S128x128 .f32)) (hn : S128.numel = S128x128.size gathers_S8192x128_S128x128.axis')
    (hin : ∀ x, ((idxWin r).view.read (Elt F) (View.write (Elt F) (sV).view fs (ReadAs.same.apply ((iRowK L).view.read (Elt F) fi)) Finset.univ) x).toNat < S8192x128.size gathers_S8192x128_S128x128.axis) :
    ∀ x ∈ (oWin o1V L r).view.set,
      ((oWin o1V L r).view.writes (Elt F) fo [⟨Rect.whole _, ReadAs.same.apply ((slot b).view.read (Elt F) ((slot b).view.writes (Elt F) fr
        (⟨Rect.whole S128x128, SparseCore.gatherPayload gathers_S8192x128_S128x128 ((tblAll sinV).view.read (Elt F) ft)
          (SparseCore.rows ((idxWin r).view.read (Elt F) (View.write (Elt F) (sV).view fs (ReadAs.same.apply ((iRowK L).view.read (Elt F) fi)) Finset.univ)) hn hin)⟩ :: rest)))⟩]) x
      = (Cert.Spec.takeFlat ft fi : Buf (Elt F) ((o1V).view.loc (V d (cV L) (jV L)))) x := by
  intro x hx
  have hx' : x ∈ (Rect.unit (s := S32768x128) (k0_off2 L (BitVec.ofNat 32 r.val)) S128x128.size (k0_off2_inb L r)).set :=
    (View.set_slice_whole main_v0_1_scv _) ▸ hx
  have hb := Rect.mem_set_unit.mp hx'
  have h0 := hb 0
  have h1 := hb 1
  have e : x = (Rect.unit (s := S32768x128) (k0_off2 L (BitVec.ofNat 32 r.val)) S128x128.size (k0_off2_inb L r)).emb
      (ix2 (⟨(x 0).val - k0_off2 L (BitVec.ofNat 32 r.val) 0, by
          have : (x 0).val < k0_off2 L (BitVec.ofNat 32 r.val) 0 + 128 := h0.2
          omega⟩ : Fin 128)
        (⟨(x 1).val - k0_off2 L (BitVec.ofNat 32 r.val) 1, by
          have : (x 1).val < k0_off2 L (BitVec.ofNat 32 r.val) 1 + 128 := h1.2
          omega⟩ : Fin 128)) := by
    funext a; apply Fin.ext
    match a with
    | ⟨0, _⟩ =>
      show (x 0).val = k0_off2 L (BitVec.ofNat 32 r.val) 0 + 1 * ((x 0).val - k0_off2 L (BitVec.ofNat 32 r.val) 0)
      have : k0_off2 L (BitVec.ofNat 32 r.val) 0 ≤ (x 0).val := h0.1
      omega
    | ⟨1, _⟩ =>
      show (x 1).val = k0_off2 L (BitVec.ofNat 32 r.val) 1 + 1 * ((x 1).val - k0_off2 L (BitVec.ofNat 32 r.val) 1)
      have : k0_off2 L (BitVec.ofNat 32 r.val) 1 ≤ (x 1).val := h1.1
      omega
  rw [e]
  exact win_value_emb_b d L r b fi ft fo fs fr rest hn hin _ _

end Cert.Proof.KernelIdeal

end
-- ==== Proof.KernelIdeal.Tile.lean ====
/-
  One vector subcore's task, run once at a symbolic grid point.
-/
import proofs.«202526_g11321533792333_week1_w4_118_29_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«202526_g11321533792333_week1_w4_118_29_alg».proof.Proof.Gen.KernelIdeal
import proofs.«202526_g11321533792333_week1_w4_118_29_alg».proof.Proof.Gen.KernelIdeal.Skeleton
import proofs.«202526_g11321533792333_week1_w4_118_29_alg».proof.Proof.KernelIdeal.Setup
import proofs.«202526_g11321533792333_week1_w4_118_29_alg».proof.Proof.KernelIdeal.Geometry
import proofs.«202526_g11321533792333_week1_w4_118_29_alg».proof.Proof.KernelIdeal.WinValue

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]
variable (d : Dev nD) (L : grid0.Coords)

/-! ## The tile's pieces, spelt as the program names them -/

/-- A window of the index scratch at the full share is its two halves. -/
theorem idx_halves (j : Fin 8) (f : Buf (Elt F) ((sV).view.loc (V d (cV L) (jV L)))) :
    ((idxWin j).view.loc (V d (cV L) (jV L)) ↦[(idxWin j).view.set]{fullShare} f : sProp 𝕄)
      ⊣⊢ iprop(((idxWin j).view.loc (V d (cV L) (jV L)) ↦[(idxWin j).view.set]{fullShare.left} f)
          ∗ ((idxWin j).view.loc (V d (cV L) (jV L)) ↦[(idxWin j).view.set]{fullShare.right} f)) :=
  pointsTo_share (PosShare.mem_left_op_right fullShare)

theorem idx_pieces' (f : Buf (Elt F) ((sV).view.loc (V d (cV L) (jV L)))) :
    ((sV).view.loc (V d (cV L) (jV L)) ↦{fullShare} f : sProp 𝕄) ⊣⊢ iprop(((idxWin (0 : Fin 8)).view.loc (V d (cV L) (jV L)) ↦[(idxWin (0 : Fin 8)).view.set]{fullShare.left} f)
      ∗ ((idxWin (0 : Fin 8)).view.loc (V d (cV L) (jV L)) ↦[(idxWin (0 : Fin 8)).view.set]{fullShare.right} f)
      ∗ ((idxWin (1 : Fin 8)).view.loc (V d (cV L) (jV L)) ↦[(idxWin (1 : Fin 8)).view.set]{fullShare.left} f)
      ∗ ((idxWin (1 : Fin 8)).view.loc (V d (cV L) (jV L)) ↦[(idxWin (1 : Fin 8)).view.set]{fullShare.right} f)
      ∗ ((idxWin (2 : Fin 8)).view.loc (V d (cV L) (jV L)) ↦[(idxWin (2 : Fin 8)).view.set]{fullShare.left} f)
      ∗ ((idxWin (2 : Fin 8)).view.loc (V d (cV L) (jV L)) ↦[(idxWin (2 : Fin 8)).view.set]{fullShare.right} f)
      ∗ ((idxWin (3 : Fin 8)).view.loc (V d (cV L) (jV L)) ↦[(idxWin (3 : Fin 8)).view.set]{fullShare.left} f)
      ∗ ((idxWin (3 : Fin 8)).view.loc (V d (cV L) (jV L)) ↦[(idxWin (3 : Fin 8)).view.set]{fullShare.right} f)
      ∗ ((idxWin (4 : Fin 8)).view.loc (V d (cV L) (jV L)) ↦[(idxWin (4 : Fin 8)).view.set]{fullShare.left} f)
      ∗ ((idxWin (4 : Fin 8)).view.loc (V d (cV L) (jV L)) ↦[(idxWin (4 : Fin 8)).view.set]{fullShare.right} f)
      ∗ ((idxWin (5 : Fin 8)).view.loc (V d (cV L) (jV L)) ↦[(idxWin (5 : Fin 8)).view.set]{fullShare.left} f)
      ∗ ((idxWin (5 : Fin 8)).view.loc (V d (cV L) (jV L)) ↦[(idxWin (5 : Fin 8)).view.set]{fullShare.right} f)
      ∗ ((idxWin (6 : Fin 8)).view.loc (V d (cV L) (jV L)) ↦[(idxWin (6 : Fin 8)).view.set]{fullShare.left} f)
      ∗ ((idxWin (6 : Fin 8)).view.loc (V d (cV L) (jV L)) ↦[(idxWin (6 : Fin 8)).view.set]{fullShare.right} f)
      ∗ ((idxWin (7 : Fin 8)).view.loc (V d (cV L) (jV L)) ↦[(idxWin (7 : Fin 8)).view.set]{fullShare.left} f)
      ∗ ((idxWin (7 : Fin 8)).view.loc (V d (cV L) (jV L)) ↦[(idxWin (7 : Fin 8)).view.set]{fullShare.right} f)) := by
  rw [idx_windows d (cV L) (jV L) fullShare f, bigSep_fin8]
  constructor
  · iintro ⟨H0, H1, H2, H3, H4, H5, H6, H7⟩
    ihave K0 := (idx_halves d L 0 f).1 $$ H0
    icases K0 with ⟨A0, B0⟩
    ihave K1 := (idx_halves d L 1 f).1 $$ H1
    icases K1 with ⟨A1, B1⟩
    ihave K2 := (idx_halves d L 2 f).1 $$ H2
    icases K2 with ⟨A2, B2⟩
    ihave K3 := (idx_halves d L 3 f).1 $$ H3
    icases K3 with ⟨A3, B3⟩
    ihave K4 := (idx_halves d L 4 f).1 $$ H4
    icases K4 with ⟨A4, B4⟩
    ihave K5 := (idx_halves d L 5 f).1 $$ H5
    icases K5 with ⟨A5, B5⟩
    ihave K6 := (idx_halves d L 6 f).1 $$ H6
    icases K6 with ⟨A6, B6⟩
    ihave K7 := (idx_halves d L 7 f).1 $$ H7
    icases K7 with ⟨A7, B7⟩
    isplitl [A0]; · iexact A0
    isplitl [B0]; · iexact B0
    isplitl [A1]; · iexact A1
    isplitl [B1]; · iexact B1
    isplitl [A2]; · iexact A2
    isplitl [B2]; · iexact B2
    isplitl [A3]; · iexact A3
    isplitl [B3]; · iexact B3
    isplitl [A4]; · iexact A4
    isplitl [B4]; · iexact B4
    isplitl [A5]; · iexact A5
    isplitl [B5]; · iexact B5
    isplitl [A6]; · iexact A6
    isplitl [B6]; · iexact B6
    isplitl [A7]; · iexact A7
    iexact B7
  · iintro ⟨A0, B0, A1, B1, A2, B2, A3, B3, A4, B4, A5, B5, A6, B6, A7, B7⟩
    ihave H0 := (idx_halves d L 0 f).2 $$ [A0 B0]
    · isplitl [A0] <;> iassumption
    ihave H1 := (idx_halves d L 1 f).2 $$ [A1 B1]
    · isplitl [A1] <;> iassumption
    ihave H2 := (idx_halves d L 2 f).2 $$ [A2 B2]
    · isplitl [A2] <;> iassumption
    ihave H3 := (idx_halves d L 3 f).2 $$ [A3 B3]
    · isplitl [A3] <;> iassumption
    ihave H4 := (idx_halves d L 4 f).2 $$ [A4 B4]
    · isplitl [A4] <;> iassumption
    ihave H5 := (idx_halves d L 5 f).2 $$ [A5 B5]
    · isplitl [A5] <;> iassumption
    ihave H6 := (idx_halves d L 6 f).2 $$ [A6 B6]
    · isplitl [A6] <;> iassumption
    ihave H7 := (idx_halves d L 7 f).2 $$ [A7 B7]
    · isplitl [A7] <;> iassumption
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The index scratch held whole is its eight windows, each held as two halves of the share (two gathers, one per table,
    read each window at the same time). -/
theorem idx_pieces (f : Buf (Elt F) ((sV).view.loc (V d (cV L) (jV L)))) :
    ((sV).view.loc (V d (cV L) (jV L)) ↦{fullShare} f : sProp 𝕄) ⊣⊢ iprop(((sV.slice (Rect.unit (s := S1024) ![0] S128.size inb_S1024_S128_0) (fun _ => rfl)).view.loc (V d (cV L) (jV L)) ↦[(sV.slice (Rect.unit (s := S1024) ![0] S128.size inb_S1024_S128_0) (fun _ => rfl)).view.set]{fullShare.left} f)
      ∗ ((sV.slice (Rect.unit (s := S1024) ![0] S128.size inb_S1024_S128_0) (fun _ => rfl)).view.loc (V d (cV L) (jV L)) ↦[(sV.slice (Rect.unit (s := S1024) ![0] S128.size inb_S1024_S128_0) (fun _ => rfl)).view.set]{fullShare.right} f)
      ∗ ((sV.slice (Rect.unit (s := S1024) ![128] S128.size inb_S1024_S128_128) (fun _ => rfl)).view.loc (V d (cV L) (jV L)) ↦[(sV.slice (Rect.unit (s := S1024) ![128] S128.size inb_S1024_S128_128) (fun _ => rfl)).view.set]{fullShare.left} f)
      ∗ ((sV.slice (Rect.unit (s := S1024) ![128] S128.size inb_S1024_S128_128) (fun _ => rfl)).view.loc (V d (cV L) (jV L)) ↦[(sV.slice (Rect.unit (s := S1024) ![128] S128.size inb_S1024_S128_128) (fun _ => rfl)).view.set]{fullShare.right} f)
      ∗ ((sV.slice (Rect.unit (s := S1024) ![256] S128.size inb_S1024_S128_256) (fun _ => rfl)).view.loc (V d (cV L) (jV L)) ↦[(sV.slice (Rect.unit (s := S1024) ![256] S128.size inb_S1024_S128_256) (fun _ => rfl)).view.set]{fullShare.left} f)
      ∗ ((sV.slice (Rect.unit (s := S1024) ![256] S128.size inb_S1024_S128_256) (fun _ => rfl)).view.loc (V d (cV L) (jV L)) ↦[(sV.slice (Rect.unit (s := S1024) ![256] S128.size inb_S1024_S128_256) (fun _ => rfl)).view.set]{fullShare.right} f)
      ∗ ((sV.slice (Rect.unit (s := S1024) ![384] S128.size inb_S1024_S128_384) (fun _ => rfl)).view.loc (V d (cV L) (jV L)) ↦[(sV.slice (Rect.unit (s := S1024) ![384] S128.size inb_S1024_S128_384) (fun _ => rfl)).view.set]{fullShare.left} f)
      ∗ ((sV.slice (Rect.unit (s := S1024) ![384] S128.size inb_S1024_S128_384) (fun _ => rfl)).view.loc (V d (cV L) (jV L)) ↦[(sV.slice (Rect.unit (s := S1024) ![384] S128.size inb_S1024_S128_384) (fun _ => rfl)).view.set]{fullShare.right} f)
      ∗ ((sV.slice (Rect.unit (s := S1024) ![512] S128.size inb_S1024_S128_512) (fun _ => rfl)).view.loc (V d (cV L) (jV L)) ↦[(sV.slice (Rect.unit (s := S1024) ![512] S128.size inb_S1024_S128_512) (fun _ => rfl)).view.set]{fullShare.left} f)
      ∗ ((sV.slice (Rect.unit (s := S1024) ![512] S128.size inb_S1024_S128_512) (fun _ => rfl)).view.loc (V d (cV L) (jV L)) ↦[(sV.slice (Rect.unit (s := S1024) ![512] S128.size inb_S1024_S128_512) (fun _ => rfl)).view.set]{fullShare.right} f)
      ∗ ((sV.slice (Rect.unit (s := S1024) ![640] S128.size inb_S1024_S128_640) (fun _ => rfl)).view.loc (V d (cV L) (jV L)) ↦[(sV.slice (Rect.unit (s := S1024) ![640] S128.size inb_S1024_S128_640) (fun _ => rfl)).view.set]{fullShare.left} f)
      ∗ ((sV.slice (Rect.unit (s := S1024) ![640] S128.size inb_S1024_S128_640) (fun _ => rfl)).view.loc (V d (cV L) (jV L)) ↦[(sV.slice (Rect.unit (s := S1024) ![640] S128.size inb_S1024_S128_640) (fun _ => rfl)).view.set]{fullShare.right} f)
      ∗ ((sV.slice (Rect.unit (s := S1024) ![768] S128.size inb_S1024_S128_768) (fun _ => rfl)).view.loc (V d (cV L) (jV L)) ↦[(sV.slice (Rect.unit (s := S1024) ![768] S128.size inb_S1024_S128_768) (fun _ => rfl)).view.set]{fullShare.left} f)
      ∗ ((sV.slice (Rect.unit (s := S1024) ![768] S128.size inb_S1024_S128_768) (fun _ => rfl)).view.loc (V d (cV L) (jV L)) ↦[(sV.slice (Rect.unit (s := S1024) ![768] S128.size inb_S1024_S128_768) (fun _ => rfl)).view.set]{fullShare.right} f)
      ∗ ((sV.slice (Rect.unit (s := S1024) ![896] S128.size inb_S1024_S128_896) (fun _ => rfl)).view.loc (V d (cV L) (jV L)) ↦[(sV.slice (Rect.unit (s := S1024) ![896] S128.size inb_S1024_S128_896) (fun _ => rfl)).view.set]{fullShare.left} f)
      ∗ ((sV.slice (Rect.unit (s := S1024) ![896] S128.size inb_S1024_S128_896) (fun _ => rfl)).view.loc (V d (cV L) (jV L)) ↦[(sV.slice (Rect.unit (s := S1024) ![896] S128.size inb_S1024_S128_896) (fun _ => rfl)).view.set]{fullShare.right} f)) :=
  idx_pieces' d L f

/-- The rows scratch held whole is its seven row buffers. -/
theorem rows_pieces (f : Buf (Elt F) ((rV).view.loc (V d (cV L) (jV L)))) :
    ((rV).view.loc (V d (cV L) (jV L)) ↦{fullShare} f : sProp 𝕄) ⊢ iprop((((rV.slice (Rect.unit (s := S7x128x128) ![0, 0, 0] S1x128x128.size inb_S7x128x128_S1x128x128_0_0_0) (fun _ => rfl)).squeeze S128x128 squeezes_S1x128x128_S128x128).view.loc (V d (cV L) (jV L)) ↦[((rV.slice (Rect.unit (s := S7x128x128) ![0, 0, 0] S1x128x128.size inb_S7x128x128_S1x128x128_0_0_0) (fun _ => rfl)).squeeze S128x128 squeezes_S1x128x128_S128x128).view.set]{fullShare} f)
      ∗ (((rV.slice (Rect.unit (s := S7x128x128) ![1, 0, 0] S1x128x128.size inb_S7x128x128_S1x128x128_1_0_0) (fun _ => rfl)).squeeze S128x128 squeezes_S1x128x128_S128x128).view.loc (V d (cV L) (jV L)) ↦[((rV.slice (Rect.unit (s := S7x128x128) ![1, 0, 0] S1x128x128.size inb_S7x128x128_S1x128x128_1_0_0) (fun _ => rfl)).squeeze S128x128 squeezes_S1x128x128_S128x128).view.set]{fullShare} f)
      ∗ (((rV.slice (Rect.unit (s := S7x128x128) ![2, 0, 0] S1x128x128.size inb_S7x128x128_S1x128x128_2_0_0) (fun _ => rfl)).squeeze S128x128 squeezes_S1x128x128_S128x128).view.loc (V d (cV L) (jV L)) ↦[((rV.slice (Rect.unit (s := S7x128x128) ![2, 0, 0] S1x128x128.size inb_S7x128x128_S1x128x128_2_0_0) (fun _ => rfl)).squeeze S128x128 squeezes_S1x128x128_S128x128).view.set]{fullShare} f)
      ∗ (((rV.slice (Rect.unit (s := S7x128x128) ![3, 0, 0] S1x128x128.size inb_S7x128x128_S1x128x128_3_0_0) (fun _ => rfl)).squeeze S128x128 squeezes_S1x128x128_S128x128).view.loc (V d (cV L) (jV L)) ↦[((rV.slice (Rect.unit (s := S7x128x128) ![3, 0, 0] S1x128x128.size inb_S7x128x128_S1x128x128_3_0_0) (fun _ => rfl)).squeeze S128x128 squeezes_S1x128x128_S128x128).view.set]{fullShare} f)
      ∗ (((rV.slice (Rect.unit (s := S7x128x128) ![4, 0, 0] S1x128x128.size inb_S7x128x128_S1x128x128_4_0_0) (fun _ => rfl)).squeeze S128x128 squeezes_S1x128x128_S128x128).view.loc (V d (cV L) (jV L)) ↦[((rV.slice (Rect.unit (s := S7x128x128) ![4, 0, 0] S1x128x128.size inb_S7x128x128_S1x128x128_4_0_0) (fun _ => rfl)).squeeze S128x128 squeezes_S1x128x128_S128x128).view.set]{fullShare} f)
      ∗ (((rV.slice (Rect.unit (s := S7x128x128) ![5, 0, 0] S1x128x128.size inb_S7x128x128_S1x128x128_5_0_0) (fun _ => rfl)).squeeze S128x128 squeezes_S1x128x128_S128x128).view.loc (V d (cV L) (jV L)) ↦[((rV.slice (Rect.unit (s := S7x128x128) ![5, 0, 0] S1x128x128.size inb_S7x128x128_S1x128x128_5_0_0) (fun _ => rfl)).squeeze S128x128 squeezes_S1x128x128_S128x128).view.set]{fullShare} f)
      ∗ (((rV.slice (Rect.unit (s := S7x128x128) ![6, 0, 0] S1x128x128.size inb_S7x128x128_S1x128x128_6_0_0) (fun _ => rfl)).squeeze S128x128 squeezes_S1x128x128_S128x128).view.loc (V d (cV L) (jV L)) ↦[((rV.slice (Rect.unit (s := S7x128x128) ![6, 0, 0] S1x128x128.size inb_S7x128x128_S1x128x128_6_0_0) (fun _ => rfl)).squeeze S128x128 squeezes_S1x128x128_S128x128).view.set]{fullShare} f)) := by
  rw [slots_split d (cV L) (jV L) fullShare f, bigSep_fin7]; exact BI.Entails.refl _

/-- The seven row buffers, whatever each holds, are the rows scratch held whole at some contents. -/
theorem rows_join7 (g0 g1 g2 g3 g4 g5 g6 : Buf (Elt F) ((rV).view.loc (V d (cV L) (jV L)))) :
    iprop((((rV.slice (Rect.unit (s := S7x128x128) ![0, 0, 0] S1x128x128.size inb_S7x128x128_S1x128x128_0_0_0) (fun _ => rfl)).squeeze S128x128 squeezes_S1x128x128_S128x128).view.loc (V d (cV L) (jV L)) ↦[((rV.slice (Rect.unit (s := S7x128x128) ![0, 0, 0] S1x128x128.size inb_S7x128x128_S1x128x128_0_0_0) (fun _ => rfl)).squeeze S128x128 squeezes_S1x128x128_S128x128).view.set]{fullShare} g0)
      ∗ (((rV.slice (Rect.unit (s := S7x128x128) ![1, 0, 0] S1x128x128.size inb_S7x128x128_S1x128x128_1_0_0) (fun _ => rfl)).squeeze S128x128 squeezes_S1x128x128_S128x128).view.loc (V d (cV L) (jV L)) ↦[((rV.slice (Rect.unit (s := S7x128x128) ![1, 0, 0] S1x128x128.size inb_S7x128x128_S1x128x128_1_0_0) (fun _ => rfl)).squeeze S128x128 squeezes_S1x128x128_S128x128).view.set]{fullShare} g1)
      ∗ (((rV.slice (Rect.unit (s := S7x128x128) ![2, 0, 0] S1x128x128.size inb_S7x128x128_S1x128x128_2_0_0) (fun _ => rfl)).squeeze S128x128 squeezes_S1x128x128_S128x128).view.loc (V d (cV L) (jV L)) ↦[((rV.slice (Rect.unit (s := S7x128x128) ![2, 0, 0] S1x128x128.size inb_S7x128x128_S1x128x128_2_0_0) (fun _ => rfl)).squeeze S128x128 squeezes_S1x128x128_S128x128).view.set]{fullShare} g2)
      ∗ (((rV.slice (Rect.unit (s := S7x128x128) ![3, 0, 0] S1x128x128.size inb_S7x128x128_S1x128x128_3_0_0) (fun _ => rfl)).squeeze S128x128 squeezes_S1x128x128_S128x128).view.loc (V d (cV L) (jV L)) ↦[((rV.slice (Rect.unit (s := S7x128x128) ![3, 0, 0] S1x128x128.size inb_S7x128x128_S1x128x128_3_0_0) (fun _ => rfl)).squeeze S128x128 squeezes_S1x128x128_S128x128).view.set]{fullShare} g3)
      ∗ (((rV.slice (Rect.unit (s := S7x128x128) ![4, 0, 0] S1x128x128.size inb_S7x128x128_S1x128x128_4_0_0) (fun _ => rfl)).squeeze S128x128 squeezes_S1x128x128_S128x128).view.loc (V d (cV L) (jV L)) ↦[((rV.slice (Rect.unit (s := S7x128x128) ![4, 0, 0] S1x128x128.size inb_S7x128x128_S1x128x128_4_0_0) (fun _ => rfl)).squeeze S128x128 squeezes_S1x128x128_S128x128).view.set]{fullShare} g4)
      ∗ (((rV.slice (Rect.unit (s := S7x128x128) ![5, 0, 0] S1x128x128.size inb_S7x128x128_S1x128x128_5_0_0) (fun _ => rfl)).squeeze S128x128 squeezes_S1x128x128_S128x128).view.loc (V d (cV L) (jV L)) ↦[((rV.slice (Rect.unit (s := S7x128x128) ![5, 0, 0] S1x128x128.size inb_S7x128x128_S1x128x128_5_0_0) (fun _ => rfl)).squeeze S128x128 squeezes_S1x128x128_S128x128).view.set]{fullShare} g5)
      ∗ (((rV.slice (Rect.unit (s := S7x128x128) ![6, 0, 0] S1x128x128.size inb_S7x128x128_S1x128x128_6_0_0) (fun _ => rfl)).squeeze S128x128 squeezes_S1x128x128_S128x128).view.loc (V d (cV L) (jV L)) ↦[((rV.slice (Rect.unit (s := S7x128x128) ![6, 0, 0] S1x128x128.size inb_S7x128x128_S1x128x128_6_0_0) (fun _ => rfl)).squeeze S128x128 squeezes_S1x128x128_S128x128).view.set]{fullShare} g6)) ⊢ (iprop(∃ g, (rV).view.loc (V d (cV L) (jV L)) ↦{fullShare} g) : sProp 𝕄) := by
  refine BI.Entails.trans ?_ (slots_join d (cV L) (jV L) (fun b : Fin 7 => match b with | 0 => g0 | 1 => g1 | 2 => g2 | 3 => g3 | 4 => g4 | 5 => g5 | 6 => g6))
  rw [bigSep_fin7]; exact BI.Entails.refl _

/-- Every word the index scratch holds after the tile's copy is a row of the tables: the copy's payload is a row of the
    position array, whose words are below 8192. -/
theorem hin_gen (fi : Buf (Elt F) ((iV).view.loc (V d (cV L) (jV L)))) (hpos : ∀ j, (fi j).toNat < 8192)
    (fs : Buf (Elt F) ((sV).view.loc (V d (cV L) (jV L))))
    (off : Fin 1 → Nat) (h : ∀ a, off a + S128.size a ≤ S1024.size a) (h' : ∀ a, (Rect.unit (s := S1024) off S128.size h).stride a = 1)
    (x : (Rect.unit (s := S1024) off S128.size h).shape.Idx) :
    ((sV.slice (Rect.unit (s := S1024) off S128.size h) h').view.read (Elt F)
      (View.write (Elt F) sV.view fs (ReadAs.same.apply ((iRowK L).view.read (Elt F) fi)) Finset.univ) x).toNat < 8192 := by
  rw [View.write_whole_univ]
  have key : ∀ (g : S1024.Idx → Elt F .i32), (∀ y, (g y).toNat < 8192) →
      ((sV.slice (Rect.unit (s := S1024) off S128.size h) h').view.read (Elt F) g x).toNat < 8192 := fun g hg => by
    rw [show (sV.slice (Rect.unit (s := S1024) off S128.size h) h').view.read (Elt F) g x
        = g ((sV.slice (Rect.unit (s := S1024) off S128.size h) h').view.emb x) from (View.read_apply _ _).trans (cast_eq _ _)]
    exact hg _
  refine key _ fun y => ?_
  show ((iRowK L).view.read (Elt F) fi y).toNat < 8192
  rw [show (iRowK L).view.read (Elt F) fi y = fi ((iRowK L).view.emb y) from (View.read_apply _ _).trans (cast_eq _ _)]
  exact hpos _

/-! ## The tile's task -/

/-- What the task starts from: a share of the position array and of each table (the tables' as one read token per gather
    semaphore), its eight blocks of each result array, its two scratch buffers, its semaphores at zero. -/
def tilePre (O : CellTallies nD τ sig (HIx 1)) (W : Waits sig (HIx 1))
    (qi qc qs : PosShare TreeShare)
    (fi : Buf (Elt F) ((iV).view.loc (V d (cV L) (jV L)))) (fc : Buf (Elt F) ((cosV).view.loc (V d (cV L) (jV L))))
    (fsn : Buf (Elt F) ((sinV).view.loc (V d (cV L) (jV L))))
    (fo0 : Buf (Elt F) ((o0V).view.loc (V d (cV L) (jV L)))) (fo1 : Buf (Elt F) ((o1V).view.loc (V d (cV L) (jV L)))) (fs : Buf (Elt F) ((sV).view.loc (V d (cV L) (jV L)))) (fr : Buf (Elt F) ((rV).view.loc (V d (cV L) (jV L)))) : sProp 𝕄 :=
    iprop(levAts (K (F := F)).L (K (F := F)).lev
        ∗ ((iV).view.loc (V d (cV L) (jV L)) ↦{qi} fi)
        ∗ ((cosV).view.loc (V d (cV L) (jV L)) ↦{Transfers.shareTok qc 7 ⟨0, by decide⟩} fc)
        ∗ ((cosV).view.loc (V d (cV L) (jV L)) ↦{Transfers.shareTok qc 7 ⟨1, by decide⟩} fc)
        ∗ ((cosV).view.loc (V d (cV L) (jV L)) ↦{Transfers.shareTok qc 7 ⟨2, by decide⟩} fc)
        ∗ ((cosV).view.loc (V d (cV L) (jV L)) ↦{Transfers.shareTok qc 7 ⟨3, by decide⟩} fc)
        ∗ ((cosV).view.loc (V d (cV L) (jV L)) ↦{Transfers.shareTok qc 7 ⟨4, by decide⟩} fc)
        ∗ ((cosV).view.loc (V d (cV L) (jV L)) ↦{Transfers.shareTok qc 7 ⟨5, by decide⟩} fc)
        ∗ ((cosV).view.loc (V d (cV L) (jV L)) ↦{Transfers.shareTok qc 7 ⟨6, by decide⟩} fc)
        ∗ ((sinV).view.loc (V d (cV L) (jV L)) ↦{Transfers.shareTok qs 7 ⟨0, by decide⟩} fsn)
        ∗ ((sinV).view.loc (V d (cV L) (jV L)) ↦{Transfers.shareTok qs 7 ⟨1, by decide⟩} fsn)
        ∗ ((sinV).view.loc (V d (cV L) (jV L)) ↦{Transfers.shareTok qs 7 ⟨2, by decide⟩} fsn)
        ∗ ((sinV).view.loc (V d (cV L) (jV L)) ↦{Transfers.shareTok qs 7 ⟨3, by decide⟩} fsn)
        ∗ ((sinV).view.loc (V d (cV L) (jV L)) ↦{Transfers.shareTok qs 7 ⟨4, by decide⟩} fsn)
        ∗ ((sinV).view.loc (V d (cV L) (jV L)) ↦{Transfers.shareTok qs 7 ⟨5, by decide⟩} fsn)
        ∗ ((sinV).view.loc (V d (cV L) (jV L)) ↦{Transfers.shareTok qs 7 ⟨6, by decide⟩} fsn)
        ∗ ((o0V.slice (Rect.unit (s := S32768x128) (k0_off2 L 0#32) S128x128.size (k0_off2_inb L 0)) (fun _ => rfl)).view.loc (V d (cV L) (jV L)) ↦[(o0V.slice (Rect.unit (s := S32768x128) (k0_off2 L 0#32) S128x128.size (k0_off2_inb L 0)) (fun _ => rfl)).view.set]{fullShare} fo0)
        ∗ ((o0V.slice (Rect.unit (s := S32768x128) (k0_off2 L 1#32) S128x128.size (k0_off2_inb L 1)) (fun _ => rfl)).view.loc (V d (cV L) (jV L)) ↦[(o0V.slice (Rect.unit (s := S32768x128) (k0_off2 L 1#32) S128x128.size (k0_off2_inb L 1)) (fun _ => rfl)).view.set]{fullShare} fo0)
        ∗ ((o0V.slice (Rect.unit (s := S32768x128) (k0_off2 L 2#32) S128x128.size (k0_off2_inb L 2)) (fun _ => rfl)).view.loc (V d (cV L) (jV L)) ↦[(o0V.slice (Rect.unit (s := S32768x128) (k0_off2 L 2#32) S128x128.size (k0_off2_inb L 2)) (fun _ => rfl)).view.set]{fullShare} fo0)
        ∗ ((o0V.slice (Rect.unit (s := S32768x128) (k0_off2 L 3#32) S128x128.size (k0_off2_inb L 3)) (fun _ => rfl)).view.loc (V d (cV L) (jV L)) ↦[(o0V.slice (Rect.unit (s := S32768x128) (k0_off2 L 3#32) S128x128.size (k0_off2_inb L 3)) (fun _ => rfl)).view.set]{fullShare} fo0)
        ∗ ((o0V.slice (Rect.unit (s := S32768x128) (k0_off2 L 4#32) S128x128.size (k0_off2_inb L 4)) (fun _ => rfl)).view.loc (V d (cV L) (jV L)) ↦[(o0V.slice (Rect.unit (s := S32768x128) (k0_off2 L 4#32) S128x128.size (k0_off2_inb L 4)) (fun _ => rfl)).view.set]{fullShare} fo0)
        ∗ ((o0V.slice (Rect.unit (s := S32768x128) (k0_off2 L 5#32) S128x128.size (k0_off2_inb L 5)) (fun _ => rfl)).view.loc (V d (cV L) (jV L)) ↦[(o0V.slice (Rect.unit (s := S32768x128) (k0_off2 L 5#32) S128x128.size (k0_off2_inb L 5)) (fun _ => rfl)).view.set]{fullShare} fo0)
        ∗ ((o0V.slice (Rect.unit (s := S32768x128) (k0_off2 L 6#32) S128x128.size (k0_off2_inb L 6)) (fun _ => rfl)).view.loc (V d (cV L) (jV L)) ↦[(o0V.slice (Rect.unit (s := S32768x128) (k0_off2 L 6#32) S128x128.size (k0_off2_inb L 6)) (fun _ => rfl)).view.set]{fullShare} fo0)
        ∗ ((o0V.slice (Rect.unit (s := S32768x128) (k0_off2 L 7#32) S128x128.size (k0_off2_inb L 7)) (fun _ => rfl)).view.loc (V d (cV L) (jV L)) ↦[(o0V.slice (Rect.unit (s := S32768x128) (k0_off2 L 7#32) S128x128.size (k0_off2_inb L 7)) (fun _ => rfl)).view.set]{fullShare} fo0)
        ∗ ((o1V.slice (Rect.unit (s := S32768x128) (k0_off2 L 0#32) S128x128.size (k0_off2_inb L 0)) (fun _ => rfl)).view.loc (V d (cV L) (jV L)) ↦[(o1V.slice (Rect.unit (s := S32768x128) (k0_off2 L 0#32) S128x128.size (k0_off2_inb L 0)) (fun _ => rfl)).view.set]{fullShare} fo1)
        ∗ ((o1V.slice (Rect.unit (s := S32768x128) (k0_off2 L 1#32) S128x128.size (k0_off2_inb L 1)) (fun _ => rfl)).view.loc (V d (cV L) (jV L)) ↦[(o1V.slice (Rect.unit (s := S32768x128) (k0_off2 L 1#32) S128x128.size (k0_off2_inb L 1)) (fun _ => rfl)).view.set]{fullShare} fo1)
        ∗ ((o1V.slice (Rect.unit (s := S32768x128) (k0_off2 L 2#32) S128x128.size (k0_off2_inb L 2)) (fun _ => rfl)).view.loc (V d (cV L) (jV L)) ↦[(o1V.slice (Rect.unit (s := S32768x128) (k0_off2 L 2#32) S128x128.size (k0_off2_inb L 2)) (fun _ => rfl)).view.set]{fullShare} fo1)
        ∗ ((o1V.slice (Rect.unit (s := S32768x128) (k0_off2 L 3#32) S128x128.size (k0_off2_inb L 3)) (fun _ => rfl)).view.loc (V d (cV L) (jV L)) ↦[(o1V.slice (Rect.unit (s := S32768x128) (k0_off2 L 3#32) S128x128.size (k0_off2_inb L 3)) (fun _ => rfl)).view.set]{fullShare} fo1)
        ∗ ((o1V.slice (Rect.unit (s := S32768x128) (k0_off2 L 4#32) S128x128.size (k0_off2_inb L 4)) (fun _ => rfl)).view.loc (V d (cV L) (jV L)) ↦[(o1V.slice (Rect.unit (s := S32768x128) (k0_off2 L 4#32) S128x128.size (k0_off2_inb L 4)) (fun _ => rfl)).view.set]{fullShare} fo1)
        ∗ ((o1V.slice (Rect.unit (s := S32768x128) (k0_off2 L 5#32) S128x128.size (k0_off2_inb L 5)) (fun _ => rfl)).view.loc (V d (cV L) (jV L)) ↦[(o1V.slice (Rect.unit (s := S32768x128) (k0_off2 L 5#32) S128x128.size (k0_off2_inb L 5)) (fun _ => rfl)).view.set]{fullShare} fo1)
        ∗ ((o1V.slice (Rect.unit (s := S32768x128) (k0_off2 L 6#32) S128x128.size (k0_off2_inb L 6)) (fun _ => rfl)).view.loc (V d (cV L) (jV L)) ↦[(o1V.slice (Rect.unit (s := S32768x128) (k0_off2 L 6#32) S128x128.size (k0_off2_inb L 6)) (fun _ => rfl)).view.set]{fullShare} fo1)
        ∗ ((o1V.slice (Rect.unit (s := S32768x128) (k0_off2 L 7#32) S128x128.size (k0_off2_inb L 7)) (fun _ => rfl)).view.loc (V d (cV L) (jV L)) ↦[(o1V.slice (Rect.unit (s := S32768x128) (k0_off2 L 7#32) S128x128.size (k0_off2_inb L 7)) (fun _ => rfl)).view.set]{fullShare} fo1)
        ∗ ((sV).view.loc (V d (cV L) (jV L)) ↦{fullShare} fs)
        ∗ ((rV).view.loc (V d (cV L) (jV L)) ↦{fullShare} fr)
        ∗ semVal ((V d (cV L) (jV L)), SemLoc.dma (⟨0, by decide⟩ : DmaSem sig)) 0
        ∗ semVal ((V d (cV L) (jV L)), SemLoc.dma (⟨1, by decide⟩ : DmaSem sig)) 0
        ∗ semVal ((V d (cV L) (jV L)), SemLoc.dma (⟨2, by decide⟩ : DmaSem sig)) 0
        ∗ semVal ((V d (cV L) (jV L)), SemLoc.dma (⟨3, by decide⟩ : DmaSem sig)) 0
        ∗ semVal ((V d (cV L) (jV L)), SemLoc.dma (⟨4, by decide⟩ : DmaSem sig)) 0
        ∗ semVal ((V d (cV L) (jV L)), SemLoc.dma (⟨5, by decide⟩ : DmaSem sig)) 0
        ∗ semVal ((V d (cV L) (jV L)), SemLoc.dma (⟨6, by decide⟩ : DmaSem sig)) 0
        ∗ semVal ((V d (cV L) (jV L)), SemLoc.dma (⟨7, by decide⟩ : DmaSem sig)) 0
        ∗ semVal ((V d (cV L) (jV L)), SemLoc.dma (⟨8, by decide⟩ : DmaSem sig)) 0
        ∗ semVal ((V d (cV L) (jV L)), SemLoc.dma (⟨9, by decide⟩ : DmaSem sig)) 0
        ∗ semVal ((V d (cV L) (jV L)), SemLoc.dma (⟨10, by decide⟩ : DmaSem sig)) 0
        ∗ semVal ((V d (cV L) (jV L)), SemLoc.dma (⟨11, by decide⟩ : DmaSem sig)) 0
        ∗ semVal ((V d (cV L) (jV L)), SemLoc.dma (⟨12, by decide⟩ : DmaSem sig)) 0
        ∗ semVal ((V d (cV L) (jV L)), SemLoc.dma (⟨13, by decide⟩ : DmaSem sig)) 0
        ∗ semVal ((V d (cV L) (jV L)), SemLoc.dma (⟨14, by decide⟩ : DmaSem sig)) 0
        ∗ owes (V d (cV L) (jV L)) O W)

/-- What it leaves: the same shares, each block of the results at the looked-up rows, the scratch at some contents. -/
def tilePost (O : CellTallies nD τ sig (HIx 1)) (W : Waits sig (HIx 1))
    (qi qc qs : PosShare TreeShare)
    (fi : Buf (Elt F) ((iV).view.loc (V d (cV L) (jV L)))) (fc : Buf (Elt F) ((cosV).view.loc (V d (cV L) (jV L))))
    (fsn : Buf (Elt F) ((sinV).view.loc (V d (cV L) (jV L))))
    (fo0 : Buf (Elt F) ((o0V).view.loc (V d (cV L) (jV L)))) (fo1 : Buf (Elt F) ((o1V).view.loc (V d (cV L) (jV L)))) : sProp 𝕄 :=
    iprop(((iV).view.loc (V d (cV L) (jV L)) ↦{qi} fi)
        ∗ ((cosV).view.loc (V d (cV L) (jV L)) ↦{Transfers.shareTok qc 7 ⟨0, by decide⟩} fc)
        ∗ ((cosV).view.loc (V d (cV L) (jV L)) ↦{Transfers.shareTok qc 7 ⟨1, by decide⟩} fc)
        ∗ ((cosV).view.loc (V d (cV L) (jV L)) ↦{Transfers.shareTok qc 7 ⟨2, by decide⟩} fc)
        ∗ ((cosV).view.loc (V d (cV L) (jV L)) ↦{Transfers.shareTok qc 7 ⟨3, by decide⟩} fc)
        ∗ ((cosV).view.loc (V d (cV L) (jV L)) ↦{Transfers.shareTok qc 7 ⟨4, by decide⟩} fc)
        ∗ ((cosV).view.loc (V d (cV L) (jV L)) ↦{Transfers.shareTok qc 7 ⟨5, by decide⟩} fc)
        ∗ ((cosV).view.loc (V d (cV L) (jV L)) ↦{Transfers.shareTok qc 7 ⟨6, by decide⟩} fc)
        ∗ ((sinV).view.loc (V d (cV L) (jV L)) ↦{Transfers.shareTok qs 7 ⟨0, by decide⟩} fsn)
        ∗ ((sinV).view.loc (V d (cV L) (jV L)) ↦{Transfers.shareTok qs 7 ⟨1, by decide⟩} fsn)
        ∗ ((sinV).view.loc (V d (cV L) (jV L)) ↦{Transfers.shareTok qs 7 ⟨2, by decide⟩} fsn)
        ∗ ((sinV).view.loc (V d (cV L) (jV L)) ↦{Transfers.shareTok qs 7 ⟨3, by decide⟩} fsn)
        ∗ ((sinV).view.loc (V d (cV L) (jV L)) ↦{Transfers.shareTok qs 7 ⟨4, by decide⟩} fsn)
        ∗ ((sinV).view.loc (V d (cV L) (jV L)) ↦{Transfers.shareTok qs 7 ⟨5, by decide⟩} fsn)
        ∗ ((sinV).view.loc (V d (cV L) (jV L)) ↦{Transfers.shareTok qs 7 ⟨6, by decide⟩} fsn)
        ∗ ((o0V.slice (Rect.unit (s := S32768x128) (k0_off2 L 0#32) S128x128.size (k0_off2_inb L 0)) (fun _ => rfl)).view.loc (V d (cV L) (jV L)) ↦[(o0V.slice (Rect.unit (s := S32768x128) (k0_off2 L 0#32) S128x128.size (k0_off2_inb L 0)) (fun _ => rfl)).view.set]{fullShare} (Cert.Spec.takeFlat fc fi : Buf (Elt F) ((o0V).view.loc (V d (cV L) (jV L)))))
        ∗ ((o0V.slice (Rect.unit (s := S32768x128) (k0_off2 L 1#32) S128x128.size (k0_off2_inb L 1)) (fun _ => rfl)).view.loc (V d (cV L) (jV L)) ↦[(o0V.slice (Rect.unit (s := S32768x128) (k0_off2 L 1#32) S128x128.size (k0_off2_inb L 1)) (fun _ => rfl)).view.set]{fullShare} (Cert.Spec.takeFlat fc fi : Buf (Elt F) ((o0V).view.loc (V d (cV L) (jV L)))))
        ∗ ((o0V.slice (Rect.unit (s := S32768x128) (k0_off2 L 2#32) S128x128.size (k0_off2_inb L 2)) (fun _ => rfl)).view.loc (V d (cV L) (jV L)) ↦[(o0V.slice (Rect.unit (s := S32768x128) (k0_off2 L 2#32) S128x128.size (k0_off2_inb L 2)) (fun _ => rfl)).view.set]{fullShare} (Cert.Spec.takeFlat fc fi : Buf (Elt F) ((o0V).view.loc (V d (cV L) (jV L)))))
        ∗ ((o0V.slice (Rect.unit (s := S32768x128) (k0_off2 L 3#32) S128x128.size (k0_off2_inb L 3)) (fun _ => rfl)).view.loc (V d (cV L) (jV L)) ↦[(o0V.slice (Rect.unit (s := S32768x128) (k0_off2 L 3#32) S128x128.size (k0_off2_inb L 3)) (fun _ => rfl)).view.set]{fullShare} (Cert.Spec.takeFlat fc fi : Buf (Elt F) ((o0V).view.loc (V d (cV L) (jV L)))))
        ∗ ((o0V.slice (Rect.unit (s := S32768x128) (k0_off2 L 4#32) S128x128.size (k0_off2_inb L 4)) (fun _ => rfl)).view.loc (V d (cV L) (jV L)) ↦[(o0V.slice (Rect.unit (s := S32768x128) (k0_off2 L 4#32) S128x128.size (k0_off2_inb L 4)) (fun _ => rfl)).view.set]{fullShare} (Cert.Spec.takeFlat fc fi : Buf (Elt F) ((o0V).view.loc (V d (cV L) (jV L)))))
        ∗ ((o0V.slice (Rect.unit (s := S32768x128) (k0_off2 L 5#32) S128x128.size (k0_off2_inb L 5)) (fun _ => rfl)).view.loc (V d (cV L) (jV L)) ↦[(o0V.slice (Rect.unit (s := S32768x128) (k0_off2 L 5#32) S128x128.size (k0_off2_inb L 5)) (fun _ => rfl)).view.set]{fullShare} (Cert.Spec.takeFlat fc fi : Buf (Elt F) ((o0V).view.loc (V d (cV L) (jV L)))))
        ∗ ((o0V.slice (Rect.unit (s := S32768x128) (k0_off2 L 6#32) S128x128.size (k0_off2_inb L 6)) (fun _ => rfl)).view.loc (V d (cV L) (jV L)) ↦[(o0V.slice (Rect.unit (s := S32768x128) (k0_off2 L 6#32) S128x128.size (k0_off2_inb L 6)) (fun _ => rfl)).view.set]{fullShare} (Cert.Spec.takeFlat fc fi : Buf (Elt F) ((o0V).view.loc (V d (cV L) (jV L)))))
        ∗ ((o0V.slice (Rect.unit (s := S32768x128) (k0_off2 L 7#32) S128x128.size (k0_off2_inb L 7)) (fun _ => rfl)).view.loc (V d (cV L) (jV L)) ↦[(o0V.slice (Rect.unit (s := S32768x128) (k0_off2 L 7#32) S128x128.size (k0_off2_inb L 7)) (fun _ => rfl)).view.set]{fullShare} (Cert.Spec.takeFlat fc fi : Buf (Elt F) ((o0V).view.loc (V d (cV L) (jV L)))))
        ∗ ((o1V.slice (Rect.unit (s := S32768x128) (k0_off2 L 0#32) S128x128.size (k0_off2_inb L 0)) (fun _ => rfl)).view.loc (V d (cV L) (jV L)) ↦[(o1V.slice (Rect.unit (s := S32768x128) (k0_off2 L 0#32) S128x128.size (k0_off2_inb L 0)) (fun _ => rfl)).view.set]{fullShare} (Cert.Spec.takeFlat fsn fi : Buf (Elt F) ((o1V).view.loc (V d (cV L) (jV L)))))
        ∗ ((o1V.slice (Rect.unit (s := S32768x128) (k0_off2 L 1#32) S128x128.size (k0_off2_inb L 1)) (fun _ => rfl)).view.loc (V d (cV L) (jV L)) ↦[(o1V.slice (Rect.unit (s := S32768x128) (k0_off2 L 1#32) S128x128.size (k0_off2_inb L 1)) (fun _ => rfl)).view.set]{fullShare} (Cert.Spec.takeFlat fsn fi : Buf (Elt F) ((o1V).view.loc (V d (cV L) (jV L)))))
        ∗ ((o1V.slice (Rect.unit (s := S32768x128) (k0_off2 L 2#32) S128x128.size (k0_off2_inb L 2)) (fun _ => rfl)).view.loc (V d (cV L) (jV L)) ↦[(o1V.slice (Rect.unit (s := S32768x128) (k0_off2 L 2#32) S128x128.size (k0_off2_inb L 2)) (fun _ => rfl)).view.set]{fullShare} (Cert.Spec.takeFlat fsn fi : Buf (Elt F) ((o1V).view.loc (V d (cV L) (jV L)))))
        ∗ ((o1V.slice (Rect.unit (s := S32768x128) (k0_off2 L 3#32) S128x128.size (k0_off2_inb L 3)) (fun _ => rfl)).view.loc (V d (cV L) (jV L)) ↦[(o1V.slice (Rect.unit (s := S32768x128) (k0_off2 L 3#32) S128x128.size (k0_off2_inb L 3)) (fun _ => rfl)).view.set]{fullShare} (Cert.Spec.takeFlat fsn fi : Buf (Elt F) ((o1V).view.loc (V d (cV L) (jV L)))))
        ∗ ((o1V.slice (Rect.unit (s := S32768x128) (k0_off2 L 4#32) S128x128.size (k0_off2_inb L 4)) (fun _ => rfl)).view.loc (V d (cV L) (jV L)) ↦[(o1V.slice (Rect.unit (s := S32768x128) (k0_off2 L 4#32) S128x128.size (k0_off2_inb L 4)) (fun _ => rfl)).view.set]{fullShare} (Cert.Spec.takeFlat fsn fi : Buf (Elt F) ((o1V).view.loc (V d (cV L) (jV L)))))
        ∗ ((o1V.slice (Rect.unit (s := S32768x128) (k0_off2 L 5#32) S128x128.size (k0_off2_inb L 5)) (fun _ => rfl)).view.loc (V d (cV L) (jV L)) ↦[(o1V.slice (Rect.unit (s := S32768x128) (k0_off2 L 5#32) S128x128.size (k0_off2_inb L 5)) (fun _ => rfl)).view.set]{fullShare} (Cert.Spec.takeFlat fsn fi : Buf (Elt F) ((o1V).view.loc (V d (cV L) (jV L)))))
        ∗ ((o1V.slice (Rect.unit (s := S32768x128) (k0_off2 L 6#32) S128x128.size (k0_off2_inb L 6)) (fun _ => rfl)).view.loc (V d (cV L) (jV L)) ↦[(o1V.slice (Rect.unit (s := S32768x128) (k0_off2 L 6#32) S128x128.size (k0_off2_inb L 6)) (fun _ => rfl)).view.set]{fullShare} (Cert.Spec.takeFlat fsn fi : Buf (Elt F) ((o1V).view.loc (V d (cV L) (jV L)))))
        ∗ ((o1V.slice (Rect.unit (s := S32768x128) (k0_off2 L 7#32) S128x128.size (k0_off2_inb L 7)) (fun _ => rfl)).view.loc (V d (cV L) (jV L)) ↦[(o1V.slice (Rect.unit (s := S32768x128) (k0_off2 L 7#32) S128x128.size (k0_off2_inb L 7)) (fun _ => rfl)).view.set]{fullShare} (Cert.Spec.takeFlat fsn fi : Buf (Elt F) ((o1V).view.loc (V d (cV L) (jV L)))))
        ∗ (∃ f, (sV).view.loc (V d (cV L) (jV L)) ↦{fullShare} f)
        ∗ (∃ f, (rV).view.loc (V d (cV L) (jV L)) ↦{fullShare} f)
        ∗ semVal ((V d (cV L) (jV L)), SemLoc.dma (⟨0, by decide⟩ : DmaSem sig)) 0
        ∗ semVal ((V d (cV L) (jV L)), SemLoc.dma (⟨1, by decide⟩ : DmaSem sig)) 0
        ∗ semVal ((V d (cV L) (jV L)), SemLoc.dma (⟨2, by decide⟩ : DmaSem sig)) 0
        ∗ semVal ((V d (cV L) (jV L)), SemLoc.dma (⟨3, by decide⟩ : DmaSem sig)) 0
        ∗ semVal ((V d (cV L) (jV L)), SemLoc.dma (⟨4, by decide⟩ : DmaSem sig)) 0
        ∗ semVal ((V d (cV L) (jV L)), SemLoc.dma (⟨5, by decide⟩ : DmaSem sig)) 0
        ∗ semVal ((V d (cV L) (jV L)), SemLoc.dma (⟨6, by decide⟩ : DmaSem sig)) 0
        ∗ semVal ((V d (cV L) (jV L)), SemLoc.dma (⟨7, by decide⟩ : DmaSem sig)) 0
        ∗ semVal ((V d (cV L) (jV L)), SemLoc.dma (⟨8, by decide⟩ : DmaSem sig)) 0
        ∗ semVal ((V d (cV L) (jV L)), SemLoc.dma (⟨9, by decide⟩ : DmaSem sig)) 0
        ∗ semVal ((V d (cV L) (jV L)), SemLoc.dma (⟨10, by decide⟩ : DmaSem sig)) 0
        ∗ semVal ((V d (cV L) (jV L)), SemLoc.dma (⟨11, by decide⟩ : DmaSem sig)) 0
        ∗ semVal ((V d (cV L) (jV L)), SemLoc.dma (⟨12, by decide⟩ : DmaSem sig)) 0
        ∗ semVal ((V d (cV L) (jV L)), SemLoc.dma (⟨13, by decide⟩ : DmaSem sig)) 0
        ∗ semVal ((V d (cV L) (jV L)), SemLoc.dma (⟨14, by decide⟩ : DmaSem sig)) 0
        ∗ (∃ W', ⌜∀ p ∈ W', p ∈ W ∨ p.2 = none⌝ ∗ owes (V d (cV L) (jV L)) O W'))

set_option maxHeartbeats 16000000 in
set_option maxRecDepth 65536 in
/-- The task on vector subcore `L`: the copy of its 1024 positions into the index scratch, then sixteen streams
    (eight windows of positions × two tables), each an indirect gather of 128 table rows into a row buffer and a copy of
    that buffer out to its block of the result; at most seven gathers are outstanding, and a row buffer is gathered into
    again only after its copy out has been waited for. -/
theorem tile_run (hF : (K (F := F)).Facts) (O : CellTallies nD τ sig (HIx 1)) (W : Waits sig (HIx 1))
    (qi qc qs : PosShare TreeShare)
    (fi : Buf (Elt F) ((iV).view.loc (V d (cV L) (jV L)))) (fc : Buf (Elt F) ((cosV).view.loc (V d (cV L) (jV L))))
    (fsn : Buf (Elt F) ((sinV).view.loc (V d (cV L) (jV L))))
    (fo0 : Buf (Elt F) ((o0V).view.loc (V d (cV L) (jV L)))) (fo1 : Buf (Elt F) ((o1V).view.loc (V d (cV L) (jV L)))) (fs : Buf (Elt F) ((sV).view.loc (V d (cV L) (jV L)))) (fr : Buf (Elt F) ((rV).view.loc (V d (cV L) (jV L))))
    (hO : ∀ g, O g none = 0) (hpos : ∀ j, (fi j).toNat < 8192) :
    tilePre d L O W qi qc qs fi fc fsn fo0 fo1 fs fr
      ⊢ wp frame (wpE (defs₀ (F := F)) 𝒱₀ (V d (cV L) (jV L)) none) Set.univ
          (cc0_gather_kernel L cosV (Memref.isWhole_whole _) sinV (Memref.isWhole_whole _) iV (Memref.isWhole_whole _)
            o0V (Memref.isWhole_whole _) o1V (Memref.isWhole_whole _) sV (Memref.isWhole_whole _) rV (Memref.isWhole_whole _)
            cc0_scratch2 cc0_scratch3 cc0_scoped0)
          fun _ => tilePost d L O W qi qc qs fi fc fsn fo0 fo1 := by
  simp only [cc0_gather_kernel_eq_skeleton]; unfold cc0_gather_kernel_skel
  delta tilePre tilePost
  iintro ⟨#Hlv, Hi, Hc0, Hc1, Hc2, Hc3, Hc4, Hc5, Hc6, Hn0, Hn1, Hn2, Hn3, Hn4, Hn5, Hn6, Hoa0, Hoa1, Hoa2, Hoa3, Hoa4, Hoa5, Hoa6, Hoa7, Hob0, Hob1, Hob2, Hob3, Hob4, Hob5, Hob6, Hob7, Hs, Hr, Hd0, Hd1, Hd2, Hd3, Hd4, Hd5, Hd6, Hd7, Hd8, Hd9, Hd10, Hd11, Hd12, Hd13, Hd14, HO⟩
  ihave Hmw := (show levAts (K (F := F)).L (K (F := F)).lev ⊢ Transfers.MayWaits (V d (cV L) (jV L)) (default : HIx 1) O from
    (K (F := F)).mayWaits_none (thr := (V d (cV L) (jV L))) hO) $$ Hlv
  -- the copy of the positions and its wait
  sl_exec
  -- the scratch buffers as the streams use them: windows of the list in halves, the row buffers one by one
  ihave Hss := (idx_pieces d L (View.write (Elt F) sV.view fs (tile_run.sl.dma0 d L fi) Finset.univ)).1 $$ Hs
  icases Hss with ⟨Hsa0, Hsb0, Hsa1, Hsb1, Hsa2, Hsb2, Hsa3, Hsb3, Hsa4, Hsb4, Hsa5, Hsb5, Hsa6, Hsb6, Hsa7, Hsb7⟩
  ihave Hrr := (rows_pieces d L fr) $$ Hr
  icases Hrr with ⟨Hr0, Hr1, Hr2, Hr3, Hr4, Hr5, Hr6⟩
  have hin := hin_gen d L fi hpos fs
  -- the sixteen streams
  sl_exec
  -- each block of the results holds the looked-up rows
  ihave Hoa0' := (Entails.of_eq (pointsTo_congr (q := fullShare) (win_value_a d L ⟨0, by decide⟩ ⟨0, by decide⟩ fi fc fo0 fs fr _ _ _))) $$ Hoa0
  ihave Hob0' := (Entails.of_eq (pointsTo_congr (q := fullShare) (win_value_b d L ⟨0, by decide⟩ ⟨1, by decide⟩ fi fsn fo1 fs fr _ _ _))) $$ Hob0
  ihave Hoa1' := (Entails.of_eq (pointsTo_congr (q := fullShare) (win_value_a d L ⟨1, by decide⟩ ⟨2, by decide⟩ fi fc fo0 fs fr _ _ _))) $$ Hoa1
  ihave Hob1' := (Entails.of_eq (pointsTo_congr (q := fullShare) (win_value_b d L ⟨1, by decide⟩ ⟨3, by decide⟩ fi fsn fo1 fs fr _ _ _))) $$ Hob1
  ihave Hoa2' := (Entails.of_eq (pointsTo_congr (q := fullShare) (win_value_a d L ⟨2, by decide⟩ ⟨4, by decide⟩ fi fc fo0 fs fr _ _ _))) $$ Hoa2
  ihave Hob2' := (Entails.of_eq (pointsTo_congr (q := fullShare) (win_value_b d L ⟨2, by decide⟩ ⟨5, by decide⟩ fi fsn fo1 fs fr _ _ _))) $$ Hob2
  ihave Hoa3' := (Entails.of_eq (pointsTo_congr (q := fullShare) (win_value_a d L ⟨3, by decide⟩ ⟨6, by decide⟩ fi fc fo0 fs fr _ _ _))) $$ Hoa3
  ihave Hob3' := (Entails.of_eq (pointsTo_congr (q := fullShare) (win_value_b d L ⟨3, by decide⟩ ⟨0, by decide⟩ fi fsn fo1 fs fr _ _ _))) $$ Hob3
  ihave Hoa4' := (Entails.of_eq (pointsTo_congr (q := fullShare) (win_value_a d L ⟨4, by decide⟩ ⟨1, by decide⟩ fi fc fo0 fs fr _ _ _))) $$ Hoa4
  ihave Hob4' := (Entails.of_eq (pointsTo_congr (q := fullShare) (win_value_b d L ⟨4, by decide⟩ ⟨2, by decide⟩ fi fsn fo1 fs fr _ _ _))) $$ Hob4
  ihave Hoa5' := (Entails.of_eq (pointsTo_congr (q := fullShare) (win_value_a d L ⟨5, by decide⟩ ⟨3, by decide⟩ fi fc fo0 fs fr _ _ _))) $$ Hoa5
  ihave Hob5' := (Entails.of_eq (pointsTo_congr (q := fullShare) (win_value_b d L ⟨5, by decide⟩ ⟨4, by decide⟩ fi fsn fo1 fs fr _ _ _))) $$ Hob5
  ihave Hoa6' := (Entails.of_eq (pointsTo_congr (q := fullShare) (win_value_a d L ⟨6, by decide⟩ ⟨5, by decide⟩ fi fc fo0 fs fr _ _ _))) $$ Hoa6
  ihave Hob6' := (Entails.of_eq (pointsTo_congr (q := fullShare) (win_value_b d L ⟨6, by decide⟩ ⟨6, by decide⟩ fi fsn fo1 fs fr _ _ _))) $$ Hob6
  ihave Hoa7' := (Entails.of_eq (pointsTo_congr (q := fullShare) (win_value_a d L ⟨7, by decide⟩ ⟨0, by decide⟩ fi fc fo0 fs fr _ _ _))) $$ Hoa7
  ihave Hob7' := (Entails.of_eq (pointsTo_congr (q := fullShare) (win_value_b d L ⟨7, by decide⟩ ⟨1, by decide⟩ fi fsn fo1 fs fr _ _ _))) $$ Hob7
  -- the scratch buffers whole again
  ihave Hs' := (idx_pieces d L (View.write (Elt F) sV.view fs (tile_run.sl.dma0 d L fi) Finset.univ)).2 $$ [Hsa0 Hsb0 Hsa1 Hsb1 Hsa2 Hsb2 Hsa3 Hsb3 Hsa4 Hsb4 Hsa5 Hsb5 Hsa6 Hsb6 Hsa7 Hsb7]
  · isplitl [Hsa0]; · iexact Hsa0
    isplitl [Hsb0]; · iexact Hsb0
    isplitl [Hsa1]; · iexact Hsa1
    isplitl [Hsb1]; · iexact Hsb1
    isplitl [Hsa2]; · iexact Hsa2
    isplitl [Hsb2]; · iexact Hsb2
    isplitl [Hsa3]; · iexact Hsa3
    isplitl [Hsb3]; · iexact Hsb3
    isplitl [Hsa4]; · iexact Hsa4
    isplitl [Hsb4]; · iexact Hsb4
    isplitl [Hsa5]; · iexact Hsa5
    isplitl [Hsb5]; · iexact Hsb5
    isplitl [Hsa6]; · iexact Hsa6
    isplitl [Hsb6]; · iexact Hsb6
    isplitl [Hsa7]; · iexact Hsa7
    iexact Hsb7
  ihave Hr' := (rows_join7 d L _ _ _ _ _ _ _) $$ [Hr0 Hr1 Hr2 Hr3 Hr4 Hr5 Hr6]
  · isplitl [Hr0]; · iexact Hr0
    isplitl [Hr1]; · iexact Hr1
    isplitl [Hr2]; · iexact Hr2
    isplitl [Hr3]; · iexact Hr3
    isplitl [Hr4]; · iexact Hr4
    isplitl [Hr5]; · iexact Hr5
    iexact Hr6
  sl_step
  isplitl [Hi]; · iexact Hi
  isplitl [Hc0]; · iexact Hc0
  isplitl [Hc1]; · iexact Hc1
  isplitl [Hc2]; · iexact Hc2
  isplitl [Hc3]; · iexact Hc3
  isplitl [Hc4]; · iexact Hc4
  isplitl [Hc5]; · iexact Hc5
  isplitl [Hc6]; · iexact Hc6
  isplitl [Hn0]; · iexact Hn0
  isplitl [Hn1]; · iexact Hn1
  isplitl [Hn2]; · iexact Hn2
  isplitl [Hn3]; · iexact Hn3
  isplitl [Hn4]; · iexact Hn4
  isplitl [Hn5]; · iexact Hn5
  isplitl [Hn6]; · iexact Hn6
  isplitl [Hoa0']; · iexact Hoa0'
  isplitl [Hoa1']; · iexact Hoa1'
  isplitl [Hoa2']; · iexact Hoa2'
  isplitl [Hoa3']; · iexact Hoa3'
  isplitl [Hoa4']; · iexact Hoa4'
  isplitl [Hoa5']; · iexact Hoa5'
  isplitl [Hoa6']; · iexact Hoa6'
  isplitl [Hoa7']; · iexact Hoa7'
  isplitl [Hob0']; · iexact Hob0'
  isplitl [Hob1']; · iexact Hob1'
  isplitl [Hob2']; · iexact Hob2'
  isplitl [Hob3']; · iexact Hob3'
  isplitl [Hob4']; · iexact Hob4'
  isplitl [Hob5']; · iexact Hob5'
  isplitl [Hob6']; · iexact Hob6'
  isplitl [Hob7']; · iexact Hob7'
  isplitl [Hs']; · iexists _; iexact Hs'
  isplitl [Hr']; · iexact Hr'
  isplitl [Hd0]; · iexact Hd0
  isplitl [Hd1]; · iexact Hd1
  isplitl [Hd2]; · iexact Hd2
  isplitl [Hd3]; · iexact Hd3
  isplitl [Hd4]; · iexact Hd4
  isplitl [Hd5]; · iexact Hd5
  isplitl [Hd6]; · iexact Hd6
  isplitl [Hd7]; · iexact Hd7
  isplitl [Hd8]; · iexact Hd8
  isplitl [Hd9]; · iexact Hd9
  isplitl [Hd10]; · iexact Hd10
  isplitl [Hd11]; · iexact Hd11
  isplitl [Hd12]; · iexact Hd12
  isplitl [Hd13]; · iexact Hd13
  isplitl [Hd14]; · iexact Hd14
  iexists _; isplitr
  swap; · iexact HO
  ipureintro; intro p hp
  repeat (rcases Finset.mem_insert.mp hp with hp | hp; · exact .inr (hp ▸ rfl))
  exact .inl hp

end Cert.Proof.KernelIdeal

end
-- ==== Proof.KernelIdeal.Pay.lean ====
/-
  What the one SparseCore call carries between the TensorCore, the two sequencers and the thirty-two vector subcores.
  Every tile reads the position array and both tables, so each is handed a read share of them (one of 32 tokens of the
  full share; the TensorCore keeps the remainder); the two flat result arrays are handed out by blocks of 128 rows,
  eight blocks per tile, and come back holding the looked-up rows.
-/
import proofs.«202526_g11321533792333_week1_w4_118_29_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«202526_g11321533792333_week1_w4_118_29_alg».proof.Proof.Gen.KernelIdeal
import proofs.«202526_g11321533792333_week1_w4_118_29_alg».proof.Proof.Gen.KernelIdeal.Skeleton
import proofs.«202526_g11321533792333_week1_w4_118_29_alg».proof.Proof.KernelIdeal.Setup

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

/-- Tile `(c, s)`'s number among the 32. -/
def tix (c : Fin 2) (s : Fin 16) : Fin 32 := ⟨16 * c.val + s.val, by have := c.isLt; have := s.isLt; omega⟩

/-- Tile `(c, s)`'s read share of the arrays every tile reads. -/
abbrev tq (c : Fin 2) (s : Fin 16) : PosShare TreeShare := Transfers.shareTok fullShare 32 (tix c s)

/-- What tile `(c, s)` of device `d` works on: its read share of the positions and of each table, and its eight blocks of
    each flat result, the arrays at the given contents. -/
def tileRes (d : Dev nD) (c : Fin 2) (s : Fin 16)
    (fi : Buf (Elt F) (iLoc d)) (fc : Buf (Elt F) (cLoc d)) (fn : Buf (Elt F) (nLoc d))
    (fa : Buf (Elt F) (aLoc d)) (fb : Buf (Elt F) (bLoc d)) : sProp 𝕄 :=
  iprop((iLoc d ↦{tq c s} fi) ∗ (cLoc d ↦{tq c s} fc) ∗ (nLoc d ↦{tq c s} fn)
    ∗ (bigSep Finset.univ fun r : Fin 8 =>
        (oWin o0V (coordsV c s) r).view.loc (V d (cV (coordsV c s)) (jV (coordsV c s))) ↦[(oWin o0V (coordsV c s) r).view.set]{fullShare} fa)
    ∗ (bigSep Finset.univ fun r : Fin 8 =>
        (oWin o1V (coordsV c s) r).view.loc (V d (cV (coordsV c s)) (jV (coordsV c s))) ↦[(oWin o1V (coordsV c s) r).view.set]{fullShare} fb))

/-- Every tile's part, of both SparseCores. -/
def allTiles (d : Dev nD) (fi : Buf (Elt F) (iLoc d)) (fc : Buf (Elt F) (cLoc d)) (fn : Buf (Elt F) (nLoc d))
    (fa : Buf (Elt F) (aLoc d)) (fb : Buf (Elt F) (bLoc d)) : sProp 𝕄 :=
  bigSep Finset.univ fun c : Fin 2 => bigSep Finset.univ fun s : Fin 16 => tileRes d c s fi fc fn fa fb

/-- What the TensorCore keeps of the arrays every tile reads while the call runs. -/
def keep (d : Dev nD) (fi : Buf (Elt F) (iLoc d)) (fc : Buf (Elt F) (cLoc d)) (fn : Buf (Elt F) (nLoc d)) : sProp 𝕄 :=
  iprop((iLoc d ↦{Transfers.shareDrop fullShare 32} fi) ∗ (cLoc d ↦{Transfers.shareDrop fullShare 32} fc)
    ∗ (nLoc d ↦{Transfers.shareDrop fullShare 32} fn))

/-- The flat results the call leaves: each table looked up at the flattened positions. -/
abbrev GA (d : Dev nD) : Buf (Elt F) (aLoc d) := Cert.Spec.takeFlat (m (cLoc d)) (m (iLoc d))
abbrev GB (d : Dev nD) : Buf (Elt F) (bLoc d) := Cert.Spec.takeFlat (m (nLoc d)) (m (iLoc d))

/-- The one call: a SparseCore is handed its sixteen tiles' parts and hands them back with the results written; a tile
    is handed its part and hands it back so. -/
def P : (K (F := F)).Pay (nD := nD) (Val := Elt F) (Name := ℕ) (U := UU) where
  st := fun q d c => match q with
    | 0 => bigSep Finset.univ fun s : Fin 16 => tileRes d (Fin.cast nCore_zero c) s (m (iLoc d)) (m (cLoc d)) (m (nLoc d)) (m (aLoc d)) (m (bLoc d))
  dn := fun q d c => match q with
    | 0 => bigSep Finset.univ fun s : Fin 16 => tileRes d (Fin.cast nCore_zero c) s (m (iLoc d)) (m (cLoc d)) (m (nLoc d)) (GA m d) (GB m d)
  go := fun q d c i => match q with
    | 0 => tileRes d (Fin.cast nCore_zero c) (Fin.cast nSub_zero i) (m (iLoc d)) (m (cLoc d)) (m (nLoc d)) (m (aLoc d)) (m (bLoc d))
  td := fun q d c i => match q with
    | 0 => tileRes d (Fin.cast nCore_zero c) (Fin.cast nSub_zero i) (m (iLoc d)) (m (cLoc d)) (m (nLoc d)) (GA m d) (GB m d)
  x := fun _ _ => iprop(emp)

instance tileRes_storable (d : Dev nD) (c : Fin 2) (s : Fin 16) (fi fc fn fa fb) :
    BI.Storable (upEmb : UEmb _ 𝕄) (tileRes (F := F) d c s fi fc fn fa fb) := by
  unfold tileRes; infer_instance

instance P_storable : (P (F := F) m).IsStorable where
  st q d c := match q with | 0 => by unfold P; infer_instance
  dn q d c := match q with | 0 => by unfold P; infer_instance
  go q d c i := match q with | 0 => by unfold P; infer_instance
  td q d c i := match q with | 0 => by unfold P; infer_instance

end Cert.Proof.KernelIdeal

end
-- ==== Proof.KernelIdeal.TileBody.lean ====
/-
  The vector subcore's task as the launch theorem asks for it.
-/
import proofs.«202526_g11321533792333_week1_w4_118_29_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«202526_g11321533792333_week1_w4_118_29_alg».proof.Proof.Gen.KernelIdeal
import proofs.«202526_g11321533792333_week1_w4_118_29_alg».proof.Proof.Gen.KernelIdeal.Skeleton
import proofs.«202526_g11321533792333_week1_w4_118_29_alg».proof.Proof.KernelIdeal.Setup
import proofs.«202526_g11321533792333_week1_w4_118_29_alg».proof.Proof.KernelIdeal.Tile
import proofs.«202526_g11321533792333_week1_w4_118_29_alg».proof.Proof.KernelIdeal.Pay

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]
variable (m : (ℓ : Loc nD τ sig) → Buf (Elt F) ℓ)

/-- What the proof asks of the launch memory: every position word names a row of the tables. -/
def PreOK : Prop := ∀ (d : Dev nD) (j : S4x8192.Idx), (m (iLoc d) j).toNat < 8192

omit [FloatOps F] in
theorem bigSep_fin15 (Φ : Fin 15 → sProp 𝕄) :
    bigSep Finset.univ Φ = iprop(Φ ⟨0, by decide⟩ ∗ Φ ⟨1, by decide⟩ ∗ Φ ⟨2, by decide⟩ ∗ Φ ⟨3, by decide⟩ ∗ Φ ⟨4, by decide⟩ ∗ Φ ⟨5, by decide⟩ ∗ Φ ⟨6, by decide⟩ ∗ Φ ⟨7, by decide⟩ ∗ Φ ⟨8, by decide⟩ ∗ Φ ⟨9, by decide⟩ ∗ Φ ⟨10, by decide⟩ ∗ Φ ⟨11, by decide⟩ ∗ Φ ⟨12, by decide⟩ ∗ Φ ⟨13, by decide⟩ ∗ Φ ⟨14, by decide⟩) := by
  rw [show (Finset.univ : Finset (Fin 15)) = ({⟨0, by decide⟩, ⟨1, by decide⟩, ⟨2, by decide⟩, ⟨3, by decide⟩, ⟨4, by decide⟩, ⟨5, by decide⟩, ⟨6, by decide⟩, ⟨7, by decide⟩, ⟨8, by decide⟩, ⟨9, by decide⟩, ⟨10, by decide⟩, ⟨11, by decide⟩, ⟨12, by decide⟩, ⟨13, by decide⟩, ⟨14, by decide⟩} : Finset (Fin 15)) by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

omit [FloatOps F] in
/-- A vector subcore's own semaphores at zero: its fifteen transfer semaphores, and the rest. -/
theorem ownSems0_V (d : Dev nD) (c : Fin τ.nSC) (i : Fin τ.nSub) :
    (ownSems0 (V d c i) : sProp 𝕄)
      = iprop((semVal ((V d c i), SemLoc.dma (⟨0, by decide⟩ : DmaSem sig)) 0
          ∗ semVal ((V d c i), SemLoc.dma (⟨1, by decide⟩ : DmaSem sig)) 0
          ∗ semVal ((V d c i), SemLoc.dma (⟨2, by decide⟩ : DmaSem sig)) 0
          ∗ semVal ((V d c i), SemLoc.dma (⟨3, by decide⟩ : DmaSem sig)) 0
          ∗ semVal ((V d c i), SemLoc.dma (⟨4, by decide⟩ : DmaSem sig)) 0
          ∗ semVal ((V d c i), SemLoc.dma (⟨5, by decide⟩ : DmaSem sig)) 0
          ∗ semVal ((V d c i), SemLoc.dma (⟨6, by decide⟩ : DmaSem sig)) 0
          ∗ semVal ((V d c i), SemLoc.dma (⟨7, by decide⟩ : DmaSem sig)) 0
          ∗ semVal ((V d c i), SemLoc.dma (⟨8, by decide⟩ : DmaSem sig)) 0
          ∗ semVal ((V d c i), SemLoc.dma (⟨9, by decide⟩ : DmaSem sig)) 0
          ∗ semVal ((V d c i), SemLoc.dma (⟨10, by decide⟩ : DmaSem sig)) 0
          ∗ semVal ((V d c i), SemLoc.dma (⟨11, by decide⟩ : DmaSem sig)) 0
          ∗ semVal ((V d c i), SemLoc.dma (⟨12, by decide⟩ : DmaSem sig)) 0
          ∗ semVal ((V d c i), SemLoc.dma (⟨13, by decide⟩ : DmaSem sig)) 0
          ∗ semVal ((V d c i), SemLoc.dma (⟨14, by decide⟩ : DmaSem sig)) 0)
          ∗ bigSep (ownCells (V d c i) \ Finset.univ.image fun n : Fin 15 => ((V d c i, SemLoc.dma (n : DmaSem sig)) : GSem nD τ sig)) fun g => semVal g 0) := by
  unfold SparseCore.Cfg.ownSems0
  rw [SparseCore.bigSep_sdiff_split' (t := Finset.univ.image fun n : Fin 15 => ((V d c i, SemLoc.dma (n : DmaSem sig)) : GSem nD τ sig)) (by
      intro g hg
      obtain ⟨n, -, rfl⟩ := Finset.mem_image.mp hg
      exact mem_ownCells.mpr ⟨rfl, (show ∀ n : Fin 15, (SemLoc.dma (n : DmaSem sig) : SemLoc sig).isScoped .scVector = true by decide) n⟩),
    SparseCore.bigSep_image_of_injOn (fun a _ b _ h => by
      have := congrArg Prod.snd h
      exact SemLoc.dma.inj this), bigSep_fin15]

omit [FloatOps F] in
/-- A vector subcore's own buffers: its index scratch and its rows scratch, at some contents, and the rest. -/
theorem ownBufs_V (d : Dev nD) (c : Fin τ.nSC) (i : Fin τ.nSub) :
    (ownBufs (V d c i) : sProp 𝕄)
      = iprop((∃ f, (V d c i).loc cc0_scratch0 ↦{fullShare} f) ∗ (∃ f, (V d c i).loc cc0_scratch1 ↦{fullShare} f)
          ∗ bigSep (((ownRefs (τ := τ) (.scVector c i)).erase ((Proc.scVector c i).devRef cc0_scratch0)).erase
              ((Proc.scVector c i).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector c i)
    (b := (Proc.scVector c i).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector c i) (b := (Proc.scVector c i).devRef cc0_scratch1) rfl⟩)]

/-- A read share of a table is seven read tokens, one per gather semaphore, and a remainder. -/
theorem cos_toks (d : Dev nD) (c : Fin 2) (s : Fin 16) (q : PosShare TreeShare) (f : Buf (Elt F) (cLoc d)) :
    (cLoc d ↦{q} f : sProp 𝕄)
      ⊣⊢ iprop((cLoc d ↦{Transfers.shareDrop q 7} f)
        ∗ ((cosV).view.loc (V d (cV (coordsV c s)) (jV (coordsV c s))) ↦{Transfers.shareTok q 7 ⟨0, by decide⟩} f)
        ∗ ((cosV).view.loc (V d (cV (coordsV c s)) (jV (coordsV c s))) ↦{Transfers.shareTok q 7 ⟨1, by decide⟩} f)
        ∗ ((cosV).view.loc (V d (cV (coordsV c s)) (jV (coordsV c s))) ↦{Transfers.shareTok q 7 ⟨2, by decide⟩} f)
        ∗ ((cosV).view.loc (V d (cV (coordsV c s)) (jV (coordsV c s))) ↦{Transfers.shareTok q 7 ⟨3, by decide⟩} f)
        ∗ ((cosV).view.loc (V d (cV (coordsV c s)) (jV (coordsV c s))) ↦{Transfers.shareTok q 7 ⟨4, by decide⟩} f)
        ∗ ((cosV).view.loc (V d (cV (coordsV c s)) (jV (coordsV c s))) ↦{Transfers.shareTok q 7 ⟨5, by decide⟩} f)
        ∗ ((cosV).view.loc (V d (cV (coordsV c s)) (jV (coordsV c s))) ↦{Transfers.shareTok q 7 ⟨6, by decide⟩} f)) := by
  have h := Transfers.pointsTo_toks (ℓ := cLoc d) (S := Finset.univ) (f := f) (Val := Elt F) (Name := ℕ) (U := UU) (Lvl := ℕ) (Ix := HIx 1) q 7
  rw [bigSep_fin7] at h
  exact h

/-- A read share of a table is seven read tokens, one per gather semaphore, and a remainder. -/
theorem sin_toks (d : Dev nD) (c : Fin 2) (s : Fin 16) (q : PosShare TreeShare) (f : Buf (Elt F) (nLoc d)) :
    (nLoc d ↦{q} f : sProp 𝕄)
      ⊣⊢ iprop((nLoc d ↦{Transfers.shareDrop q 7} f)
        ∗ ((sinV).view.loc (V d (cV (coordsV c s)) (jV (coordsV c s))) ↦{Transfers.shareTok q 7 ⟨0, by decide⟩} f)
        ∗ ((sinV).view.loc (V d (cV (coordsV c s)) (jV (coordsV c s))) ↦{Transfers.shareTok q 7 ⟨1, by decide⟩} f)
        ∗ ((sinV).view.loc (V d (cV (coordsV c s)) (jV (coordsV c s))) ↦{Transfers.shareTok q 7 ⟨2, by decide⟩} f)
        ∗ ((sinV).view.loc (V d (cV (coordsV c s)) (jV (coordsV c s))) ↦{Transfers.shareTok q 7 ⟨3, by decide⟩} f)
        ∗ ((sinV).view.loc (V d (cV (coordsV c s)) (jV (coordsV c s))) ↦{Transfers.shareTok q 7 ⟨4, by decide⟩} f)
        ∗ ((sinV).view.loc (V d (cV (coordsV c s)) (jV (coordsV c s))) ↦{Transfers.shareTok q 7 ⟨5, by decide⟩} f)
        ∗ ((sinV).view.loc (V d (cV (coordsV c s)) (jV (coordsV c s))) ↦{Transfers.shareTok q 7 ⟨6, by decide⟩} f)) := by
  have h := Transfers.pointsTo_toks (ℓ := nLoc d) (S := Finset.univ) (f := f) (Val := Elt F) (Name := ℕ) (U := UU) (Lvl := ℕ) (Ix := HIx 1) q 7
  rw [bigSep_fin7] at h
  exact h

set_option maxHeartbeats 8000000 in
/-- The task of tile `(c, s)` in the launch theorem's terms: from the tile's part of the arrays, its scoped buffers and
    its semaphores at zero, to the same with both results' blocks holding the looked-up rows. -/
theorem tile_body (hF : (K (F := F)).Facts) (hpre : PreOK m) (d : Dev nD) (c : Fin 2) (s : Fin 16)
    (O : CellTallies nD τ sig (HIx 1)) (W : Waits sig (HIx 1)) (hO : ∀ g, O g none = 0) :
    iprop(levAts (K (F := F)).L (K (F := F)).lev ∗ emp
        ∗ tileRes d c s (m (iLoc d)) (m (cLoc d)) (m (nLoc d)) (m (aLoc d)) (m (bLoc d))
        ∗ scopedBufs (V d (cV (coordsV c s)) (jV (coordsV c s))) ∗ scopedSems0 (V d (cV (coordsV c s)) (jV (coordsV c s))) ∗ owes (V d (cV (coordsV c s)) (jV (coordsV c s))) O W)
      ⊢ wp frame (wpE (defs₀ (F := F)) 𝒱₀ (V d (cV (coordsV c s)) (jV (coordsV c s))) none) Set.univ
          (cc0_gather_kernel (coordsV c s) cosV (Memref.isWhole_whole _) sinV (Memref.isWhole_whole _) iV (Memref.isWhole_whole _)
            o0V (Memref.isWhole_whole _) o1V (Memref.isWhole_whole _) sV (Memref.isWhole_whole _) rV (Memref.isWhole_whole _)
            cc0_scratch2 cc0_scratch3 cc0_scoped0)
          fun _ => iprop(tileRes d c s (m (iLoc d)) (m (cLoc d)) (m (nLoc d)) (GA m d) (GB m d)
            ∗ scopedBufs (V d (cV (coordsV c s)) (jV (coordsV c s))) ∗ scopedSems0 (V d (cV (coordsV c s)) (jV (coordsV c s)))
            ∗ ∃ W', ⌜∀ p ∈ W', p ∈ W ∨ p.2 = none⌝ ∗ owes (V d (cV (coordsV c s)) (jV (coordsV c s))) O W') := by
  rw [(K (F := F)).scopedBufs_V hF d _ _, SparseCore.Cfg.scopedSems0_V (Val := Elt F) d _ _, ownSems0_V, ownBufs_V]
  unfold tileRes
  iintro ⟨#Hlv, -, ⟨Hi, Hc, Hn, Ha, Hb⟩, ⟨⟨%fs, Hs⟩, ⟨%fr, Hr⟩, Hbufs⟩, ⟨⟨Hd0, Hd1, Hd2, Hd3, Hd4, Hd5, Hd6, Hd7, Hd8, Hd9, Hd10, Hd11, Hd12, Hd13, Hd14⟩, Hsems⟩, HO⟩
  ihave Hc' := (cos_toks d c s (tq c s) (m (cLoc d))).1 $$ Hc
  icases Hc' with ⟨Hcd, Hc0, Hc1, Hc2, Hc3, Hc4, Hc5, Hc6⟩
  ihave Hn' := (sin_toks d c s (tq c s) (m (nLoc d))).1 $$ Hn
  icases Hn' with ⟨Hnd, Hn0, Hn1, Hn2, Hn3, Hn4, Hn5, Hn6⟩
  ihave Ha' := (Entails.of_eq (bigSep_fin8 _)) $$ Ha
  icases Ha' with ⟨Hoa0, Hoa1, Hoa2, Hoa3, Hoa4, Hoa5, Hoa6, Hoa7⟩
  ihave Hb' := (Entails.of_eq (bigSep_fin8 _)) $$ Hb
  icases Hb' with ⟨Hob0, Hob1, Hob2, Hob3, Hob4, Hob5, Hob6, Hob7⟩
  ihave Hwp := (tile_run d (coordsV c s) hF O W (tq c s) (tq c s) (tq c s) (m (iLoc d)) (m (cLoc d)) (m (nLoc d)) (m (aLoc d)) (m (bLoc d)) fs fr hO (hpre d))
    $$ [Hi Hc0 Hc1 Hc2 Hc3 Hc4 Hc5 Hc6 Hn0 Hn1 Hn2 Hn3 Hn4 Hn5 Hn6 Hoa0 Hoa1 Hoa2 Hoa3 Hoa4 Hoa5 Hoa6 Hoa7 Hob0 Hob1 Hob2 Hob3 Hob4 Hob5 Hob6 Hob7 Hs Hr Hd0 Hd1 Hd2 Hd3 Hd4 Hd5 Hd6 Hd7 Hd8 Hd9 Hd10 Hd11 Hd12 Hd13 Hd14 HO]
  · delta tilePre
    isplitr; · iexact Hlv
    isplitl [Hi]; · iexact Hi
    isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    isplitl [Hc6]; · iexact Hc6
    isplitl [Hn0]; · iexact Hn0
    isplitl [Hn1]; · iexact Hn1
    isplitl [Hn2]; · iexact Hn2
    isplitl [Hn3]; · iexact Hn3
    isplitl [Hn4]; · iexact Hn4
    isplitl [Hn5]; · iexact Hn5
    isplitl [Hn6]; · iexact Hn6
    isplitl [Hoa0]; · iexact Hoa0
    isplitl [Hoa1]; · iexact Hoa1
    isplitl [Hoa2]; · iexact Hoa2
    isplitl [Hoa3]; · iexact Hoa3
    isplitl [Hoa4]; · iexact Hoa4
    isplitl [Hoa5]; · iexact Hoa5
    isplitl [Hoa6]; · iexact Hoa6
    isplitl [Hoa7]; · iexact Hoa7
    isplitl [Hob0]; · iexact Hob0
    isplitl [Hob1]; · iexact Hob1
    isplitl [Hob2]; · iexact Hob2
    isplitl [Hob3]; · iexact Hob3
    isplitl [Hob4]; · iexact Hob4
    isplitl [Hob5]; · iexact Hob5
    isplitl [Hob6]; · iexact Hob6
    isplitl [Hob7]; · iexact Hob7
    isplitl [Hs]; · iexact Hs
    isplitl [Hr]; · iexact Hr
    isplitl [Hd0]; · iexact Hd0
    isplitl [Hd1]; · iexact Hd1
    isplitl [Hd2]; · iexact Hd2
    isplitl [Hd3]; · iexact Hd3
    isplitl [Hd4]; · iexact Hd4
    isplitl [Hd5]; · iexact Hd5
    isplitl [Hd6]; · iexact Hd6
    isplitl [Hd7]; · iexact Hd7
    isplitl [Hd8]; · iexact Hd8
    isplitl [Hd9]; · iexact Hd9
    isplitl [Hd10]; · iexact Hd10
    isplitl [Hd11]; · iexact Hd11
    isplitl [Hd12]; · iexact Hd12
    isplitl [Hd13]; · iexact Hd13
    isplitl [Hd14]; · iexact Hd14
    iexact HO
  iapply (wp_wand_r frame _ _) $$ [Hwp Hcd Hnd Hbufs Hsems]
  isplitl [Hwp]; · iexact Hwp
  iintro %a Hpost
  delta tilePost
  icases Hpost with ⟨Hi, Hc0, Hc1, Hc2, Hc3, Hc4, Hc5, Hc6, Hn0, Hn1, Hn2, Hn3, Hn4, Hn5, Hn6, Hoa0, Hoa1, Hoa2, Hoa3, Hoa4, Hoa5, Hoa6, Hoa7, Hob0, Hob1, Hob2, Hob3, Hob4, Hob5, Hob6, Hob7, ⟨%fs', Hs⟩, ⟨%fr', Hr⟩, Hd0, Hd1, Hd2, Hd3, Hd4, Hd5, Hd6, Hd7, Hd8, Hd9, Hd10, Hd11, Hd12, Hd13, Hd14, ⟨%W', %hW', HO⟩⟩
  isplitl [Hi Hcd Hc0 Hc1 Hc2 Hc3 Hc4 Hc5 Hc6 Hnd Hn0 Hn1 Hn2 Hn3 Hn4 Hn5 Hn6 Hoa0 Hoa1 Hoa2 Hoa3 Hoa4 Hoa5 Hoa6 Hoa7 Hob0 Hob1 Hob2 Hob3 Hob4 Hob5 Hob6 Hob7]
  · isplitl [Hi]; · iexact Hi
    isplitl [Hcd Hc0 Hc1 Hc2 Hc3 Hc4 Hc5 Hc6]
    · iapply (cos_toks d c s (tq c s) (m (cLoc d))).2
      isplitl [Hcd]; · iexact Hcd
      isplitl [Hc0]; · iexact Hc0
      isplitl [Hc1]; · iexact Hc1
      isplitl [Hc2]; · iexact Hc2
      isplitl [Hc3]; · iexact Hc3
      isplitl [Hc4]; · iexact Hc4
      isplitl [Hc5]; · iexact Hc5
      iexact Hc6
    isplitl [Hnd Hn0 Hn1 Hn2 Hn3 Hn4 Hn5 Hn6]
    · iapply (sin_toks d c s (tq c s) (m (nLoc d))).2
      isplitl [Hnd]; · iexact Hnd
      isplitl [Hn0]; · iexact Hn0
      isplitl [Hn1]; · iexact Hn1
      isplitl [Hn2]; · iexact Hn2
      isplitl [Hn3]; · iexact Hn3
      isplitl [Hn4]; · iexact Hn4
      isplitl [Hn5]; · iexact Hn5
      iexact Hn6
    isplitl [Hoa0 Hoa1 Hoa2 Hoa3 Hoa4 Hoa5 Hoa6 Hoa7]
    · iapply (Entails.of_eq (bigSep_fin8 _).symm)
      isplitl [Hoa0]; · iexact Hoa0
      isplitl [Hoa1]; · iexact Hoa1
      isplitl [Hoa2]; · iexact Hoa2
      isplitl [Hoa3]; · iexact Hoa3
      isplitl [Hoa4]; · iexact Hoa4
      isplitl [Hoa5]; · iexact Hoa5
      isplitl [Hoa6]; · iexact Hoa6
      iexact Hoa7
    iapply (Entails.of_eq (bigSep_fin8 _).symm)
    isplitl [Hob0]; · iexact Hob0
    isplitl [Hob1]; · iexact Hob1
    isplitl [Hob2]; · iexact Hob2
    isplitl [Hob3]; · iexact Hob3
    isplitl [Hob4]; · iexact Hob4
    isplitl [Hob5]; · iexact Hob5
    isplitl [Hob6]; · iexact Hob6
    iexact Hob7
  isplitl [Hs Hr Hbufs]
  · isplitl [Hs]; · iexists _; iexact Hs
    isplitl [Hr]; · iexists _; iexact Hr
    iexact Hbufs
  isplitl [Hd0 Hd1 Hd2 Hd3 Hd4 Hd5 Hd6 Hd7 Hd8 Hd9 Hd10 Hd11 Hd12 Hd13 Hd14 Hsems]
  · isplitl [Hd0 Hd1 Hd2 Hd3 Hd4 Hd5 Hd6 Hd7 Hd8 Hd9 Hd10 Hd11 Hd12 Hd13 Hd14]
    · isplitl [Hd0]; · iexact Hd0
      isplitl [Hd1]; · iexact Hd1
      isplitl [Hd2]; · iexact Hd2
      isplitl [Hd3]; · iexact Hd3
      isplitl [Hd4]; · iexact Hd4
      isplitl [Hd5]; · iexact Hd5
      isplitl [Hd6]; · iexact Hd6
      isplitl [Hd7]; · iexact Hd7
      isplitl [Hd8]; · iexact Hd8
      isplitl [Hd9]; · iexact Hd9
      isplitl [Hd10]; · iexact Hd10
      isplitl [Hd11]; · iexact Hd11
      isplitl [Hd12]; · iexact Hd12
      isplitl [Hd13]; · iexact Hd13
      iexact Hd14
    iexact Hsems
  iexists W'; isplitr
  · ipureintro; exact hW'
  · iexact HO

/-! ## The obligation -/

omit [FloatOps F] in
theorem defs₀_vector [FloatOps F] (c : Fin τ.nSC) (s : Fin τ.nSub) :
    defs₀ (F := F) (.scVector c s) 0 ()
      = SparseCore.onTile hcore0 hsub0 (fun c s => cc0_gather_kernel (coordsV c s)
          cosV (Memref.isWhole_whole _) sinV (Memref.isWhole_whole _) iV (Memref.isWhole_whole _)
          o0V (Memref.isWhole_whole _) o1V (Memref.isWhole_whole _) sV (Memref.isWhole_whole _) rV (Memref.isWhole_whole _)
          cc0_scratch2 cc0_scratch3 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m hF hpre d ⟨_, hci.1⟩ ⟨_, hci.2⟩ O W hO).trans (wp_mono frame _ _ fun _ => obl_post)

end Cert.Proof.KernelIdeal

end
-- ==== Proof.KernelIdeal.Split.lean ====
/-
  The TensorCore's side of the one call: how the five arrays it holds whole are dealt to the thirty-two tiles, and how
  the tiles' parts make the arrays again.

  Each of the three arrays every tile reads (the positions and the two tables) is held at the full share; the full share
  is 32 read tokens and a remainder, so the array held whole is the remainder (kept) beside one token per tile, tile
  (c, s) taking token 16 c + s: as c runs over 2 and s over 16 this number runs once over the 32 tokens.  Each flat result
  is its 256 blocks of 128 rows, eight per tile.  Regrouping the separating conjunction tile by tile gives every
  tile's part; a SparseCore's part is its sixteen tiles'.
-/
import proofs.«202526_g11321533792333_week1_w4_118_29_alg».proof.Proof.KernelIdeal.Geometry
import proofs.«202526_g11321533792333_week1_w4_118_29_alg».proof.Proof.KernelIdeal.Pay

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## Tiles and tokens: (c, s) ↦ 16 c + s is a bijection from 2 × 16 onto 32 -/

/-- Tile (c, s) has number 16 c + s; the number k is tile (k / 16, k mod 16). -/
def tixEquiv : Fin 2 × Fin 16 ≃ Fin 32 where
  toFun t := tix t.1 t.2
  invFun k := (⟨k.val / 16, by have := k.isLt; omega⟩, ⟨k.val % 16, by omega⟩)
  left_inv t := by
    obtain ⟨c, s⟩ := t
    have := c.isLt; have := s.isLt
    refine Prod.ext (Fin.ext ?_) (Fin.ext ?_)
    · show (16 * c.val + s.val) / 16 = c.val; omega
    · show (16 * c.val + s.val) % 16 = s.val; omega
  right_inv k := by
    refine Fin.ext ?_
    show 16 * (k.val / 16) + k.val % 16 = k.val; omega

/-- One read token per tile is one read token per number below 32. -/
theorem toks_tiles {ℓ : Loc nD τ sig} (f : Buf (Elt F) ℓ) :
    (bigSep Finset.univ fun k : Fin 32 => (ℓ ↦{Transfers.shareTok fullShare 32 k} f : sProp 𝕄))
      = bigSep Finset.univ fun t : Fin 2 × Fin 16 => ℓ ↦{tq t.1 t.2} f :=
  bigSep_univ_equiv tixEquiv _

/-! ## The flat results, tile by tile -/

/-- The first flat result held whole is, tile by tile, the tile's eight blocks of it. -/
theorem out0_tiles (d : Dev nD) (fa : Buf (Elt F) (aLoc d)) :
    (aLoc d ↦{fullShare} fa : sProp 𝕄)
      = bigSep Finset.univ fun t : Fin 2 × Fin 16 => bigSep Finset.univ fun r : Fin 8 =>
          (oWin o0V (coordsV t.1 t.2) r).view.loc (V d (cV (coordsV t.1 t.2)) (jV (coordsV t.1 t.2)))
            ↦[(oWin o0V (coordsV t.1 t.2) r).view.set]{fullShare} fa :=
  (out0_windows d (cV (coordsV (0 : Fin 2) (0 : Fin 16))) (jV (coordsV (0 : Fin 2) (0 : Fin 16))) fa).trans
    (bigSep_univ_prod (fun t : Fin 2 × Fin 16 => bigSep Finset.univ fun r : Fin 8 =>
      ((oWin o0V (coordsV t.1 t.2) r).view.loc (V d (cV (coordsV t.1 t.2)) (jV (coordsV t.1 t.2)))
        ↦[(oWin o0V (coordsV t.1 t.2) r).view.set]{fullShare} fa : sProp 𝕄))).symm

/-- The second flat result likewise. -/
theorem out1_tiles (d : Dev nD) (fb : Buf (Elt F) (bLoc d)) :
    (bLoc d ↦{fullShare} fb : sProp 𝕄)
      = bigSep Finset.univ fun t : Fin 2 × Fin 16 => bigSep Finset.univ fun r : Fin 8 =>
          (oWin o1V (coordsV t.1 t.2) r).view.loc (V d (cV (coordsV t.1 t.2)) (jV (coordsV t.1 t.2)))
            ↦[(oWin o1V (coordsV t.1 t.2) r).view.set]{fullShare} fb :=
  (out1_windows d (cV (coordsV (0 : Fin 2) (0 : Fin 16))) (jV (coordsV (0 : Fin 2) (0 : Fin 16))) fb).trans
    (bigSep_univ_prod (fun t : Fin 2 × Fin 16 => bigSep Finset.univ fun r : Fin 8 =>
      ((oWin o1V (coordsV t.1 t.2) r).view.loc (V d (cV (coordsV t.1 t.2)) (jV (coordsV t.1 t.2)))
        ↦[(oWin o1V (coordsV t.1 t.2) r).view.set]{fullShare} fb : sProp 𝕄))).symm

/-! ## Every tile's part -/

/-- All the tiles' parts together: the 32 read tokens of each array read by all, and the two flat results whole. -/
theorem allTiles_eq (d : Dev nD) (fi : Buf (Elt F) (iLoc d)) (fc : Buf (Elt F) (cLoc d)) (fn : Buf (Elt F) (nLoc d))
    (fa : Buf (Elt F) (aLoc d)) (fb : Buf (Elt F) (bLoc d)) :
    (allTiles d fi fc fn fa fb : sProp 𝕄) = iprop(
      (bigSep Finset.univ fun k : Fin 32 => iLoc d ↦{Transfers.shareTok fullShare 32 k} fi)
      ∗ (bigSep Finset.univ fun k : Fin 32 => cLoc d ↦{Transfers.shareTok fullShare 32 k} fc)
      ∗ (bigSep Finset.univ fun k : Fin 32 => nLoc d ↦{Transfers.shareTok fullShare 32 k} fn)
      ∗ (aLoc d ↦{fullShare} fa) ∗ (bLoc d ↦{fullShare} fb)) := by
  unfold allTiles
  refine (bigSep_univ_prod (fun t : Fin 2 × Fin 16 => (tileRes d t.1 t.2 fi fc fn fa fb : sProp 𝕄))).symm.trans ?_
  unfold tileRes
  rw [bigSep_sep', bigSep_sep', bigSep_sep', bigSep_sep', toks_tiles, toks_tiles, toks_tiles, out0_tiles, out1_tiles]

/-- The five arrays held whole are what the TensorCore keeps and every tile's part. -/
theorem tc_split_join (d : Dev nD) (fi : Buf (Elt F) (iLoc d)) (fc : Buf (Elt F) (cLoc d)) (fn : Buf (Elt F) (nLoc d))
    (fa : Buf (Elt F) (aLoc d)) (fb : Buf (Elt F) (bLoc d)) :
    (iprop((iLoc d ↦{fullShare} fi) ∗ (cLoc d ↦{fullShare} fc) ∗ (nLoc d ↦{fullShare} fn) ∗ (aLoc d ↦{fullShare} fa) ∗ (bLoc d ↦{fullShare} fb)) : sProp 𝕄)
      ⊣⊢ iprop(keep d fi fc fn ∗ allTiles d fi fc fn fa fb) := by
  rw [allTiles_eq]
  unfold keep
  constructor
  · iintro ⟨Hi, Hc, Hn, Ha, Hb⟩
    ihave Hi' := (Transfers.pointsTo_toks_split fullShare 32) $$ Hi
    ihave Hc' := (Transfers.pointsTo_toks_split fullShare 32) $$ Hc
    ihave Hn' := (Transfers.pointsTo_toks_split fullShare 32) $$ Hn
    icases Hi' with ⟨Hid, Hit⟩
    icases Hc' with ⟨Hcd, Hct⟩
    icases Hn' with ⟨Hnd, Hnt⟩
    isplitl [Hid Hcd Hnd]
    · isplitl [Hid]; · iexact Hid
      isplitl [Hcd]; · iexact Hcd
      iexact Hnd
    isplitl [Hit]; · iexact Hit
    isplitl [Hct]; · iexact Hct
    isplitl [Hnt]; · iexact Hnt
    isplitl [Ha]; · iexact Ha
    iexact Hb
  · iintro ⟨⟨Hid, Hcd, Hnd⟩, Hit, Hct, Hnt, Ha, Hb⟩
    isplitl [Hid Hit]
    · iapply (Transfers.pointsTo_toks_join fullShare 32)
      isplitl [Hid]; · iexact Hid
      iexact Hit
    isplitl [Hcd Hct]
    · iapply (Transfers.pointsTo_toks_join fullShare 32)
      isplitl [Hcd]; · iexact Hcd
      iexact Hct
    isplitl [Hnd Hnt]
    · iapply (Transfers.pointsTo_toks_join fullShare 32)
      isplitl [Hnd]; · iexact Hnd
      iexact Hnt
    isplitl [Ha]; · iexact Ha
    iexact Hb

/-! ## The call's payloads, as the launch theorem spells them -/

variable (m : (ℓ : Loc nD τ sig) → Buf (Elt F) ℓ)

omit m in
/-- A separating conjunction over the call's SparseCores is one over the two of them. -/
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

omit m in
/-- A separating conjunction over a SparseCore's tasks is one over its sixteen subcores. -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- What the call takes, over both SparseCores: every tile's part, the results at the launch contents. -/
theorem st0_eq (d : Dev nD) :
    (bigSep Finset.univ fun c : Fin ((K (F := F)).nCore 0) => (P m).st 0 d c)
      = allTiles d (m (iLoc d)) (m (cLoc d)) (m (nLoc d)) (m (aLoc d)) (m (bLoc d)) := by
  unfold allTiles
  exact bigSep_cores (F := F) (fun c => bigSep Finset.univ fun s : Fin 16 =>
    tileRes d c s (m (iLoc d)) (m (cLoc d)) (m (nLoc d)) (m (aLoc d)) (m (bLoc d)))

/-- What the call hands back, over both SparseCores: every tile's part, the results at the looked-up rows. -/
theorem dn0_eq (d : Dev nD) :
    (bigSep Finset.univ fun c : Fin ((K (F := F)).nCore 0) => (P m).dn 0 d c)
      = allTiles d (m (iLoc d)) (m (cLoc d)) (m (nLoc d)) (GA m d) (GB m d) := by
  unfold allTiles
  exact bigSep_cores (F := F) (fun c => bigSep Finset.univ fun s : Fin 16 =>
    tileRes d c s (m (iLoc d)) (m (cLoc d)) (m (nLoc d)) (GA m d) (GB m d))

omit m in
/-- Sixteen parts held together are the sixteen parts dealt to the tasks, and whatever the tasks bring back is the
    sixteen brought back together: nothing changes hands but the indexing of the tasks. -/
theorem deal_tasks (A B : Fin 16 → sProp 𝕄) :
    bigSep Finset.univ A ⊢ |={Set.univ}=> iprop(
      (bigSep Finset.univ fun i : Fin ((K (F := F)).nSub 0) => A (Fin.cast nSub_zero i))
      ∗ ((bigSep Finset.univ fun i : Fin ((K (F := F)).nSub 0) => B (Fin.cast nSub_zero i)) -∗ bigSep Finset.univ B)) := by
  rw [bigSep_tasks (F := F) A, bigSep_tasks (F := F) B]
  iintro H; imodintro
  isplitl [H]; · iexact H
  iintro H; iexact H

/-- The call's payloads at its one kernel, read off the record: a SparseCore is handed its sixteen tiles' parts -/
theorem P_st0 (d : Dev nD) (c : Fin ((K (F := F)).nCore 0)) : (P m).st 0 d c = bigSep Finset.univ fun s : Fin 16 =>
    tileRes d (Fin.cast nCore_zero c) s (m (iLoc d)) (m (cLoc d)) (m (nLoc d)) (m (aLoc d)) (m (bLoc d)) := rfl
/-- and hands them back with the results at the looked-up rows; -/
theorem P_dn0 (d : Dev nD) (c : Fin ((K (F := F)).nCore 0)) : (P m).dn 0 d c = bigSep Finset.univ fun s : Fin 16 =>
    tileRes d (Fin.cast nCore_zero c) s (m (iLoc d)) (m (cLoc d)) (m (nLoc d)) (GA m d) (GB m d) := rfl
/-- a task is handed its tile's part -/
theorem P_go0 (d : Dev nD) (c : Fin ((K (F := F)).nCore 0)) (i : Fin ((K (F := F)).nSub 0)) : (P m).go 0 d c i =
    tileRes d (Fin.cast nCore_zero c) (Fin.cast nSub_zero i) (m (iLoc d)) (m (cLoc d)) (m (nLoc d)) (m (aLoc d)) (m (bLoc d)) := rfl
/-- and hands it back so. -/
theorem P_td0 (d : Dev nD) (c : Fin ((K (F := F)).nCore 0)) (i : Fin ((K (F := F)).nSub 0)) : (P m).td 0 d c i =
    tileRes d (Fin.cast nCore_zero c) (Fin.cast nSub_zero i) (m (iLoc d)) (m (cLoc d)) (m (nLoc d)) (GA m d) (GB m d) := rfl

/-- A SparseCore's part is its sixteen tasks' parts, going out and coming back. -/
theorem vecSplit : (K (F := F)).VecSplit' (P m) 0 := by
  intro d c
  rw [P_st0, P_dn0]
  simp only [P_go0, P_td0]
  exact deal_tasks (F := F)
    (fun s => tileRes d (Fin.cast nCore_zero c) s (m (iLoc d)) (m (cLoc d)) (m (nLoc d)) (m (aLoc d)) (m (bLoc d)))
    (fun s => tileRes d (Fin.cast nCore_zero c) s (m (iLoc d)) (m (cLoc d)) (m (nLoc d)) (GA m d) (GB m d))

end Cert.Proof.KernelIdeal

end
-- ==== Proof.KernelIdeal.Launch.lean ====
/-
  The whole program's run, from the tile's task.

  On the TensorCore the program is the one call and two reshapes.  The call takes the five arrays it touches — the
  positions, the two tables, the two flat results — dealt to the thirty-two tiles, and hands them back with each flat
  result holding the flat lookup of its table at the positions; each reshape then lays a flat result out as
  `[4, 8192, 128]`, and the flat lookup reshaped is the lookup.  So every weakly fair execution of all the device's
  threads terminates with the two results the lookups of the cosine and of the sine table, and the three arguments as
  they were.
-/
import proofs.«202526_g11321533792333_week1_w4_118_29_alg».proof.Proof.KernelIdeal.TileBody
import proofs.«202526_g11321533792333_week1_w4_118_29_alg».proof.Proof.KernelIdeal.Split
import proofs.«202526_g11321533792333_week1_w4_118_29_alg».proof.Proof.SpecReshape

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo Idealize.ShloMosaic.TcCoe

variable {F : FTy → Type} [FloatOps F]

local notation "𝕄" => MT nD τ sig (HIx 1) (Elt F) ℕ UU ℕ

variable (m : (ℓ : Loc nD τ sig) → Buf (Elt F) ℓ) (ρ : Dev nD → PrngReg)

/-! ## The launch element -/

/-- The launch element of the ghost state: the handshakes' rounds at their start, the transfers' counters empty. -/
def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

/-- The launch element yields the handshakes' part; the kernel asks nothing more of it. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

abbrev i' : DevRef τ sig := Proc.devRef .tc (main_arg0 : Ref sig .tc)
abbrev c' : DevRef τ sig := Proc.devRef .tc (main_arg1 : Ref sig .tc)
abbrev n' : DevRef τ sig := Proc.devRef .tc (main_arg2 : Ref sig .tc)
abbrev a' : DevRef τ sig := Proc.devRef .tc (main_v0_0 : Ref sig .tc)
abbrev b' : DevRef τ sig := Proc.devRef .tc (main_v0_1 : Ref sig .tc)
abbrev r1' : DevRef τ sig := Proc.devRef .tc (main_v1 : Ref sig .tc)
abbrev r2' : DevRef τ sig := Proc.devRef .tc (main_v2 : Ref sig .tc)
abbrev r1Loc (d : Dev nD) : Loc nD τ sig := (SparseCore.T d).loc main_v1
abbrev r2Loc (d : Dev nD) : Loc nD τ sig := (SparseCore.T d).loc main_v2

/-- The two reshapes: each flat result `[32768, 128]` laid out as `[4, 8192, 128]`. -/
abbrev op1 : HloOp τ sig (Elt F) := StableHlo.reshape main_v0_0 main_v1 rfl shapeCasts_S32768x128_S4x8192x128
abbrev op2 : HloOp τ sig (Elt F) := StableHlo.reshape main_v0_1 main_v2 rfl shapeCasts_S32768x128_S4x8192x128

abbrev S1 : Finset (DevRef τ sig) := {a', r1'}
abbrev S2 : Finset (DevRef τ sig) := {b', r2'}

omit [FloatOps F] in
/-- A reshape's two buffers held whole: the flat result and its reshaped copy. -/
theorem held_S1 (d : Dev nD) (W : Valuation τ sig (Elt F)) :
    (held (T d) S1 W : sProp 𝕄) = iprop((aLoc d ↦{fullShare} W a') ∗ r1Loc d ↦{fullShare} W r1') := by
  unfold held S1
  rw [SparseCore.bigSep_insert' (by decide), bigSep_singleton]

omit [FloatOps F] in
theorem held_S2 (d : Dev nD) (W : Valuation τ sig (Elt F)) :
    (held (T d) S2 W : sProp 𝕄) = iprop((bLoc d ↦{fullShare} W b') ∗ r2Loc d ↦{fullShare} W r2') := by
  unfold held S2
  rw [SparseCore.bigSep_insert' (by decide), bigSep_singleton]

omit [FloatOps F] in
/-- The TensorCore's seven arrays, each whole: the three arguments, the two flat results, the two reshaped results. -/
theorem unscopedBufs_eq (d : Dev nD) (W : (b : Ref sig .tc) → Buf (Elt F) ((d.tc : Thread nD τ).loc b)) :
    (unscopedBufs d W : sProp 𝕄) = iprop((iLoc d ↦{fullShare} W main_arg0) ∗ (cLoc d ↦{fullShare} W main_arg1) ∗ (nLoc d ↦{fullShare} W main_arg2)
      ∗ (aLoc d ↦{fullShare} W main_v0_0) ∗ (bLoc d ↦{fullShare} W main_v0_1) ∗ (r1Loc d ↦{fullShare} W main_v1) ∗ r2Loc d ↦{fullShare} W main_v2) := by
  unfold unscopedBufs
  rw [show (Finset.univ.filter fun b : Ref sig .tc => ¬ b.isScoped) = {main_arg0, main_arg1, main_arg2, main_v0_0, main_v0_1, main_v1, main_v2} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The contents at the launch, and after the call: the flat results at the flat lookups. -/
def V0 (d : Dev nD) : Valuation τ sig (Elt F) := fun b => m (d, b)
def V1 (d : Dev nD) : Valuation τ sig (Elt F) := Function.update (Function.update (V0 m d) a' (GA m d)) b' (GB m d)

theorem V1_a (d : Dev nD) : V1 m d a' = GA m d :=
  (Function.update_of_ne (show a' ≠ b' by decide) _ _).trans (Function.update_self _ _ _)
theorem V1_b (d : Dev nD) : V1 m d b' = GB m d := Function.update_self _ _ _
theorem V1_r1 (d : Dev nD) : V1 m d r1' = m (r1Loc d) :=
  (Function.update_of_ne (show r1' ≠ b' by decide) _ _).trans (Function.update_of_ne (show r1' ≠ a' by decide) _ _)
theorem V1_r2 (d : Dev nD) : V1 m d r2' = m (r2Loc d) :=
  (Function.update_of_ne (show r2' ≠ b' by decide) _ _).trans (Function.update_of_ne (show r2' ≠ a' by decide) _ _)

theorem h1 : (op1 (F := F)).bufs ⊆ S1 := show ({a', r1'} : Finset (DevRef τ sig)) ⊆ S1 by decide
theorem h2 : (op2 (F := F)).bufs ⊆ S2 := show ({b', r2'} : Finset (DevRef τ sig)) ⊆ S2 by decide

/-- After the first reshape its result holds the lookup of the cosine table: the flat lookup reshaped is the lookup. -/
theorem res1 (d : Dev nD) :
    (op1 (F := F)).result (V1 m d) r1' = (Cert.Spec.take (m (cLoc d)) (m (iLoc d)) : Buf (Elt F) (r1Loc d)) := by
  refine (reshape_result (τ := τ) (Val := Elt F) main_v0_0 main_v1 rfl shapeCasts_S32768x128_S4x8192x128 _ _ (V1 m d)).trans ?_
  rw [show V1 m d ((main_v0_0 : Ref sig .tc) : DevRef τ sig) = GA m d from V1_a m d]
  exact Cert.Spec.shapeCast_takeFlat (m (cLoc d)) (m (iLoc d)) shapeCasts_S32768x128_S4x8192x128

/-- After the second reshape its result holds the lookup of the sine table. -/
theorem res2 (d : Dev nD) :
    (op2 (F := F)).result (V1 m d) r2' = (Cert.Spec.take (m (nLoc d)) (m (iLoc d)) : Buf (Elt F) (r2Loc d)) := by
  refine (reshape_result (τ := τ) (Val := Elt F) main_v0_1 main_v2 rfl shapeCasts_S32768x128_S4x8192x128 _ _ (V1 m d)).trans ?_
  rw [show V1 m d ((main_v0_1 : Ref sig .tc) : DevRef τ sig) = GB m d from V1_b m d]
  exact Cert.Spec.shapeCast_takeFlat (m (nLoc d)) (m (iLoc d)) shapeCasts_S32768x128_S4x8192x128

theorem held_S1_after (d : Dev nD) :
    (held (T d) S1 ((op1 (F := F)).result (V1 m d)) : sProp 𝕄)
      = iprop((aLoc d ↦{fullShare} (op1 (F := F)).result (V1 m d) a')
          ∗ r1Loc d ↦{fullShare} (Cert.Spec.take (m (cLoc d)) (m (iLoc d)) : Buf (Elt F) (r1Loc d))) := by
  rw [held_S1, res1]

theorem held_S2_after (d : Dev nD) :
    (held (T d) S2 ((op2 (F := F)).result (V1 m d)) : sProp 𝕄)
      = iprop((bLoc d ↦{fullShare} (op2 (F := F)).result (V1 m d) b')
          ∗ r2Loc d ↦{fullShare} (Cert.Spec.take (m (nLoc d)) (m (iLoc d)) : Buf (Elt F) (r2Loc d))) := by
  rw [held_S2, res2]

/-- What the program leaves: the three arguments at their launch contents, the two results at the lookups. -/
abbrev FIN (d : Dev nD) : sProp 𝕄 :=
  iprop((iLoc d ↦{fullShare} m (iLoc d)) ∗ (cLoc d ↦{fullShare} m (cLoc d)) ∗ (nLoc d ↦{fullShare} m (nLoc d))
    ∗ (r1Loc d ↦{fullShare} (Cert.Spec.take (m (cLoc d)) (m (iLoc d)) : Buf (Elt F) (r1Loc d)))
    ∗ (r2Loc d ↦{fullShare} (Cert.Spec.take (m (nLoc d)) (m (iLoc d)) : Buf (Elt F) (r2Loc d))))

/-- The program on one device's TensorCore: the five arrays are dealt to the tiles for the call and come back with the
    flat results written; the two reshapes then write the results. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hi, Hc, Hn, Ha, Hbb, Hr1, Hr2⟩, -, -⟩, -⟩
  ihave Hsp := (tc_split_join (F := F) d (m (iLoc d)) (m (cLoc d)) (m (nLoc d)) (m (aLoc d)) (m (bLoc d))).1 $$ [Hi Hc Hn Ha Hbb]
  · isplitl [Hi]; · iexact Hi
    isplitl [Hc]; · iexact Hc
    isplitl [Hn]; · iexact Hn
    isplitl [Ha]; · iexact Ha
    iexact Hbb
  icases Hsp with ⟨Hkeep, Htiles⟩
  iapply ((K (F := F)).wp_run (D (F := F)) 𝒱 (EH := EH) (P := P m) κ d 0) $$ [Hst Htiles Hkeep Hb Hr1 Hr2]
  isplitr; · iexact Hctx
  isplitl [Hst]; · iexact Hst
  isplitl [Htiles]
  · rw [st0_eq]; iexact Htiles
  iintro ⟨Hst, Hdn⟩
  ihave Hdn' := (Entails.of_eq (dn0_eq m d)) $$ Hdn
  ihave Hj := (tc_split_join (F := F) d (m (iLoc d)) (m (cLoc d)) (m (nLoc d)) (GA m d) (GB m d)).2 $$ [Hkeep Hdn']
  · isplitl [Hkeep]; · iexact Hkeep
    iexact Hdn'
  icases Hj with ⟨Hi, Hc, Hn, Ha, Hbb⟩
  iapply (wp_hlo_within 𝒱 (SparseCore.T d) none Set.univ (op := op1) (S := S1) h1 (V := V1 m d)) $$ [Hb Ha Hr1]
  · isplitl [Hb]; · iexact Hb
    rw [held_S1, V1_a, V1_r1]
    isplitl [Ha]; · iexact Ha
    iexact Hr1
  iintro ⟨Hb, Hheld⟩
  ihave Hh := (Entails.of_eq (held_S1_after (F := F) m d)) $$ Hheld
  icases Hh with ⟨-, Hr1⟩
  rw [wp_ret]; imodintro
  iapply (wp_hlo_within 𝒱 (SparseCore.T d) none Set.univ (op := op2) (S := S2) h2 (V := V1 m d)) $$ [Hb Hbb Hr2]
  · isplitl [Hb]; · iexact Hb
    rw [held_S2, V1_b, V1_r2]
    isplitl [Hbb]; · iexact Hbb
    iexact Hr2
  iintro ⟨Hb, Hheld⟩
  ihave Hh := (Entails.of_eq (held_S2_after (F := F) m d)) $$ Hheld
  icases Hh with ⟨-, Hr2⟩
  rw [wp_ret]; imodintro; imodintro
  isplitl [Hst]; · iexact Hst
  isplitl [Hi]; · iexact Hi
  isplitl [Hc]; · iexact Hc
  isplitl [Hn]; · iexact Hn
  isplitl [Hr1]; · iexact Hr1
  iexact Hr2

/-! ## What the final memory reads -/

/-- What the final memory holds on device `d`: the two results and the three arguments. -/
def fq (d : Dev nD) (s' : Phys nD τ sig (Elt F)) : Prop :=
  s'.mem.mem (r1Loc d) = (Cert.Spec.take (m (cLoc d)) (m (iLoc d)) : Buf (Elt F) (r1Loc d))
  ∧ s'.mem.mem (r2Loc d) = (Cert.Spec.take (m (nLoc d)) (m (iLoc d)) : Buf (Elt F) (r2Loc d))
  ∧ s'.mem.mem (iLoc d) = m (iLoc d) ∧ s'.mem.mem (cLoc d) = m (cLoc d) ∧ s'.mem.mem (nLoc d) = m (nLoc d)

set_option maxRecDepth 16384 in
/-- The final memory agrees with every array the program still holds whole. -/
theorem hfin (d : Dev nD) (s' : Phys nD τ sig (Elt F)) : iprop(FIN m d ∗ SI s') ⊢ (⌜fq m d s'⌝ : sProp 𝕄) := by
  iintro ⟨⟨Hi, Hc, Hn, Hr1, Hr2⟩, HSI⟩
  ihave H := (persistent_entails_right (SI_pointsTo_agree (st := s') (ℓ := iLoc d) (I := Finset.univ) (q := fullShare) (f := m (iLoc d)))) $$ [HSI Hi]
  · isplitl [HSI] <;> iassumption
  icases H with ⟨%hi, HSI, -⟩
  ihave H := (persistent_entails_right (SI_pointsTo_agree (st := s') (ℓ := cLoc d) (I := Finset.univ) (q := fullShare) (f := m (cLoc d)))) $$ [HSI Hc]
  · isplitl [HSI] <;> iassumption
  icases H with ⟨%hc, HSI, -⟩
  ihave H := (persistent_entails_right (SI_pointsTo_agree (st := s') (ℓ := nLoc d) (I := Finset.univ) (q := fullShare) (f := m (nLoc d)))) $$ [HSI Hn]
  · isplitl [HSI] <;> iassumption
  icases H with ⟨%hn, HSI, -⟩
  ihave H := (persistent_entails_right (SI_pointsTo_agree (st := s') (ℓ := r1Loc d) (I := Finset.univ) (q := fullShare)
      (f := (Cert.Spec.take (m (cLoc d)) (m (iLoc d)) : Buf (Elt F) (r1Loc d))))) $$ [HSI Hr1]
  · isplitl [HSI] <;> iassumption
  icases H with ⟨%hr1, HSI, -⟩
  ihave H := (SI_pointsTo_agree (st := s') (ℓ := r2Loc d) (I := Finset.univ) (q := fullShare)
      (f := (Cert.Spec.take (m (nLoc d)) (m (iLoc d)) : Buf (Elt F) (r2Loc d)))) $$ [HSI Hr2]
  · isplitl [HSI] <;> iassumption
  icases H with %hr2
  ipureintro
  exact ⟨funext fun i => hr1 i (Finset.mem_univ i), funext fun i => hr2 i (Finset.mem_univ i),
    funext fun i => hi i (Finset.mem_univ i), funext fun i => hc i (Finset.mem_univ i), funext fun i => hn i (Finset.mem_univ i)⟩

/-! ## The program's run -/

/-- The run's post: on every device the two results are the lookups and the arguments are unchanged. -/
def QC : PUnit × MemSt nD τ sig (Elt F) → Prop := fun r => ∀ c : Dev nD,
  r.2.mem (r1Loc c) = (Cert.Spec.take (m (cLoc c)) (m (iLoc c)) : Buf (Elt F) (r1Loc c))
  ∧ r.2.mem (r2Loc c) = (Cert.Spec.take (m (nLoc c)) (m (iLoc c)) : Buf (Elt F) (r2Loc c))
  ∧ r.2.mem (iLoc c) = m (iLoc c) ∧ r.2.mem (cLoc c) = m (cLoc c) ∧ r.2.mem (nLoc c) = m (nLoc c)

/-- With every position word below 8192: every weakly fair execution of the device's threads — the TensorCore, the two
    sequencers and the thirty-two tiles — terminates in a memory with the two results the lookups and the arguments unchanged. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.KernelIdeal

end
-- ==== Proof.lean ====
/-
  The kernel gathers, for every position of a [4, 8192] array of position words, the row of the cosine table and the row
  of the sine table that the word names; the reference is `jnp.take` of each table at the positions.  Under the
  precondition every position word lies in [0, 8191], so it names its own row in both programs, and both results are
  `Cert.Spec.take table positions`: entry (b, s, c) is the table's entry (pos[b, s], c).

  The kernel side: 2 × 16 vector subcores, worker w = 2 s + c copying positions [1024 w, 1024 w + 1024) of the flattened
  array into its scratch and streaming, window by window and table by table, 128 gathered rows into a row buffer and out
  to rows [1024 w + 128 r, + 128) of the flat result; the host then reshapes [32768, 128] to [4, 8192, 128].  The run of
  all 35 threads (Launch) ends with both results at `take` and the arguments unchanged, at every float instance; the
  kernel's frame is that run at the word-level instance with the values dropped, the idealized kernel's that run at the
  ideal instance.  The reference side: its host run (RefRun) ends with the same two arrays.  No float arithmetic is
  done on either side, so no law of the extended reals is used: the two sides are one function of the arguments.
-/
import proofs.«202526_g11321533792333_week1_w4_118_29_alg».proof.Defs
import proofs.«202526_g11321533792333_week1_w4_118_29_alg».proof.Proof.Gen.Kernel
import proofs.«202526_g11321533792333_week1_w4_118_29_alg».proof.Proof.Gen.Kernel.Skeleton
import proofs.«202526_g11321533792333_week1_w4_118_29_alg».proof.Proof.Gen.KernelIdeal
import proofs.«202526_g11321533792333_week1_w4_118_29_alg».proof.Proof.Gen.KernelIdeal.Skeleton
import proofs.«202526_g11321533792333_week1_w4_118_29_alg».proof.Proof.Gen.ReferenceIdeal
import proofs.«202526_g11321533792333_week1_w4_118_29_alg».proof.Proof.Gen.Pre_input_domain
import proofs.«202526_g11321533792333_week1_w4_118_29_alg».proof.Proof.PreRange
import proofs.«202526_g11321533792333_week1_w4_118_29_alg».proof.Proof.RefRun
import proofs.«202526_g11321533792333_week1_w4_118_29_alg».proof.Proof.Kernel.Launch
import proofs.«202526_g11321533792333_week1_w4_118_29_alg».proof.Proof.KernelIdeal.Launch
import Idealize.ShloMosaic.Adequacy
import Idealize.ShloMosaic.Init

noncomputable section

namespace Cert.Proof

open Idealize.ShloMosaic Idealize.SL.Sem

section Claims

variable [hPre : Cert.Pre_input_domain.Facts]

/-- Under the precondition every position word of the word-level kernel's launch memory names a table row. -/
theorem ok_kernel [Cert.Kernel.Facts] (m : (ℓ : Loc Cert.Kernel.nD Cert.Kernel.τ Cert.Kernel.sig) → Buf (Elt Bits) ℓ)
    (h : Cert.Pre_Kernel m) : Cert.Proof.Kernel.PreOK m :=
  fun d j => Cert.PreRange.pos_lt_of_pre (F := Bits) _ _ _ (h d) j

/-- The same for the idealized kernel's launch memory. -/
theorem ok_kernelIdeal [Cert.KernelIdeal.Facts] (m : (ℓ : Loc Cert.KernelIdeal.nD Cert.KernelIdeal.τ Cert.KernelIdeal.sig) → Buf (Elt Ideal) ℓ)
    (h : Cert.Pre_KernelIdeal m) : Cert.Proof.KernelIdeal.PreOK m :=
  fun d j => Cert.PreRange.pos_lt_of_pre (F := Ideal) _ _ _ (h d) j

theorem frame_k [Cert.Kernel.Facts] : Cert.frame_Kernel := fun m ρ hpre =>
  (θ_run Cert.Kernel.defs _ _).mono (fun _ h c => ⟨(h c).2.2.1, (h c).2.2.2.1, (h c).2.2.2.2⟩)
    (Cert.Proof.Kernel.run_main (F := Bits) m ρ (ok_kernel m hpre))

theorem frame_ki [Cert.KernelIdeal.Facts] : Cert.frame_KernelIdeal := fun m ρ hpre =>
  (θ_run Cert.KernelIdeal.defs _ _).mono (fun _ h c => ⟨(h c).2.2.1, (h c).2.2.2.1, (h c).2.2.2.2⟩)
    (Cert.Proof.KernelIdeal.run_main (F := Ideal) m ρ (ok_kernelIdeal m hpre))

theorem frame_ri [Cert.ReferenceIdeal.Facts] : Cert.frame_ReferenceIdeal := fun m ρ hpre =>
  (θ_run Cert.ReferenceIdeal.defs _ _).mono (fun _ h c => ⟨(h c).2.2.1, (h c).2.2.2.1, (h c).2.2.2.2⟩)
    (Cert.ReferenceIdeal.RefValue.run m ρ fun c x => Cert.PreRange.pos_lt_of_pre (F := Ideal) _ _ _ (hpre c) x)

/-- Both idealized programs end with each result the lookup of its table at the positions, from memories that agree
    on the positions and the tables. -/
theorem algebraic [Cert.KernelIdeal.Facts] [Cert.ReferenceIdeal.Facts] : Cert.algebraic_KernelIdeal_ReferenceIdeal := by
  intro m ρ m' ρ' hpre hagree
  refine ⟨fun c => Cert.Spec.take (m ((c.tc : Thread Cert.KernelIdeal.nD Cert.KernelIdeal.τ).loc Cert.KernelIdeal.main_arg1))
      (m ((c.tc : Thread Cert.KernelIdeal.nD Cert.KernelIdeal.τ).loc Cert.KernelIdeal.main_arg0)),
    fun c => Cert.Spec.take (m ((c.tc : Thread Cert.KernelIdeal.nD Cert.KernelIdeal.τ).loc Cert.KernelIdeal.main_arg2))
      (m ((c.tc : Thread Cert.KernelIdeal.nD Cert.KernelIdeal.τ).loc Cert.KernelIdeal.main_arg0)),
    (θ_run Cert.KernelIdeal.defs _ _).mono (fun _ h c => h c) (Cert.Proof.KernelIdeal.run_main (F := Ideal) m ρ (ok_kernelIdeal m hpre)), ?_⟩
  have hpos : ∀ (c : Dev Cert.ReferenceIdeal.nD) x,
      (m' ((c.tc : Thread Cert.ReferenceIdeal.nD Cert.ReferenceIdeal.τ).loc Cert.ReferenceIdeal.main_arg0) x).toNat < 8192 := by
    intro c x
    rw [(hagree c).1]
    exact ok_kernelIdeal m hpre c x
  refine (θ_run Cert.ReferenceIdeal.defs _ _).mono (fun _ h c => ⟨?_, ?_, (h c).2.2.1, (h c).2.2.2.1, (h c).2.2.2.2⟩)
    (Cert.ReferenceIdeal.RefValue.run m' ρ' hpos)
  · rw [(h c).1, (hagree c).1, (hagree c).2.1]
  · rw [(h c).2.1, (hagree c).1, (hagree c).2.2]

end Claims

theorem claim : Cert.Claim :=
  ⟨Cert.Kernel.Gen.facts, Cert.KernelIdeal.Gen.facts, Cert.ReferenceIdeal.Gen.facts, Cert.Pre_input_domain.Gen.facts,
    frame_k, frame_ki, frame_ri, trivial, algebraic⟩

end Cert.Proof

end
